-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v111)) (v1 : (c : Dev Cert.KernelIdeal.nD) → Buf (Elt Ideal) ((c.tc : Thread Cert.KernelIdeal.nD Cert.KernelIdeal.τ).loc Cert.KernelIdeal.main_v114)) (v2 : (c : Dev Cert.KernelIdeal.nD) → Buf (Elt Ideal) ((c.tc : Thread Cert.KernelIdeal.nD Cert.KernelIdeal.τ).loc Cert.KernelIdeal.main_v117)) (v3 : (c : Dev Cert.KernelIdeal.nD) → Buf (Elt Ideal) ((c.tc : Thread Cert.KernelIdeal.nD Cert.KernelIdeal.τ).loc Cert.KernelIdeal.main_v121)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_v114) = v1 c
          ∧ r.2.mem ((c.tc : Thread Cert.KernelIdeal.nD Cert.KernelIdeal.τ).loc Cert.KernelIdeal.main_v117) = v2 c
          ∧ r.2.mem ((c.tc : Thread Cert.KernelIdeal.nD Cert.KernelIdeal.τ).loc Cert.KernelIdeal.main_v121) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_v119) = v2 c
          ∧ r.2.mem ((c.tc : Thread Cert.ReferenceIdeal.nD Cert.ReferenceIdeal.τ).loc Cert.ReferenceIdeal.main_v123) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32 : Shape := ⟨2, ![2048, 32]⟩
abbrev S4096x16 : Shape := ⟨2, ![4096, 16]⟩
abbrev S128x2048 : Shape := ⟨2, ![128, 2048]⟩
abbrev S2048x4096 : Shape := ⟨2, ![2048, 4096]⟩
abbrev S80x1 : Shape := ⟨2, ![80, 1]⟩
abbrev S1 : Shape := ⟨1, ![1]⟩
abbrev S32x32 : Shape := ⟨2, ![32, 32]⟩
abbrev S4096 : Shape := ⟨1, ![4096]⟩
abbrev S_ : Shape := ⟨0, ![]⟩

class Facts : Prop where
  bcast_S_S2048x32 : S_.BroadcastsInDim S2048x32 (![] : Fin 0 → Fin S2048x32.rank)
  reducesTo_S2048x32_S_d0_1 : S2048x32.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S128x2048 : S_.BroadcastsInDim S128x2048 (![] : Fin 0 → Fin S128x2048.rank)
  reducesTo_S128x2048_S_d0_1 : S128x2048.ReducesTo [0, 1] S_
  bcast_S_S2048x4096 : S_.BroadcastsInDim S2048x4096 (![] : Fin 0 → Fin S2048x4096.rank)
  reducesTo_S2048x4096_S_d0_1 : S2048x4096.ReducesTo [0, 1] S_
  bcast_S_S80x1 : S_.BroadcastsInDim S80x1 (![] : Fin 0 → Fin S80x1.rank)
  reducesTo_S80x1_S_d0_1 : S80x1.ReducesTo [0, 1] S_
  bcast_S_S1 : S_.BroadcastsInDim S1 (![] : Fin 0 → Fin S1.rank)
  reducesTo_S1_S_d0 : S1.ReducesTo [0] S_
  bcast_S_S32x32 : S_.BroadcastsInDim S32x32 (![] : Fin 0 → Fin S32x32.rank)
  reducesTo_S32x32_S_d0_1 : S32x32.ReducesTo [0, 1] S_

variable [Facts]

def fn_part2 {F : FTy → Type} [FloatOps F] (main_arg7 : FVec F S32x32 .f32) (main_arg8 : FVec F S32x32 .f32) (main_arg9 : FVec F S32x32 .f32) (main_v33 : IVec S_ 1) : IVec S_ 1 :=
  let main_v34 : FVec F S32x32 .f32 := Host.absf main_arg7
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32x32 .f32 := Host.absf main_arg9
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  main_v48

def fn_part1 {F : FTy → Type} [FloatOps F] (main_arg4 : FVec F S80x1 .f32) (main_arg5 : FVec F S1 .f32) (main_arg6 : FVec F S32x32 .f32) (main_arg7 : FVec F S32x32 .f32) (main_arg8 : FVec F S32x32 .f32) (main_arg9 : FVec F S32x32 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S80x1 .f32 := Host.absf main_arg4
  let main_cst_6 : FVec F S_ .f32 := constant S_ .f32 0x7F800000#32
  let main_v20 : FVec F S80x1 .f32 := broadcastInDim S80x1 ![] bcast_S_S80x1 main_cst_6
  let main_v21 : IVec S80x1 1 := cmpf .olt main_v19 main_v20
  let main_c_7 : IVec S_ 1 := constantI S_ 1 1#1
  let main_v22 : IVec S_ 1 := (fun x v => Host.reduce IntOp.andi x v reducesTo_S80x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_v33

def fn {F : FTy → Type} [FloatOps F] (main_arg0 : FVec F S2048x32 .f32) (main_arg1 : FVec F S4096x16 .f32) (main_arg2 : FVec F S128x2048 .f32) (main_arg3 : FVec F S2048x4096 .f32) (main_arg4 : FVec F S80x1 .f32) (main_arg5 : FVec F S1 .f32) (main_arg6 : FVec F S32x32 .f32) (main_arg7 : FVec F S32x32 .f32) (main_arg8 : FVec F S32x32 .f32) (main_arg9 : FVec F S32x32 .f32) (main_arg10 : IVec S4096 32) (main_arg11 : IVec S4096 32) : IVec S_ 1 :=
  let main_v0 : FVec F S2048x32 .f32 := Host.absf main_arg0
  let main_cst : FVec F S_ .f32 := constant S_ .f32 0x7F800000#32
  let main_v1 : FVec F S2048x32 .f32 := broadcastInDim S2048x32 ![] bcast_S_S2048x32 main_cst
  let main_v2 : IVec S2048x32 1 := cmpf .olt main_v0 main_v1
  let main_c : IVec S_ 1 := constantI S_ 1 1#1
  let main_v3 : IVec S_ 1 := (fun x v => Host.reduce IntOp.andi x v reducesTo_S2048x32_S_d0_1 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_v13 main_v16
-- ==== Kernel.lean ====
abbrev S2048x32 : Shape := ⟨2, ![2048, 32]⟩
abbrev S4096x16 : Shape := ⟨2, ![4096, 16]⟩
abbrev S128x2048 : Shape := ⟨2, ![128, 2048]⟩
abbrev S2048x4096 : Shape := ⟨2, ![2048, 4096]⟩
abbrev S80x1 : Shape := ⟨2, ![80, 1]⟩
abbrev S1 : Shape := ⟨1, ![1]⟩
abbrev S32x32 : Shape := ⟨2, ![32, 32]⟩
abbrev S4096 : Shape := ⟨1, ![4096]⟩
abbrev S_ : Shape := ⟨0, ![]⟩
abbrev S4096x1 : Shape := ⟨2, ![4096, 1]⟩
abbrev S4096x32 : Shape := ⟨2, ![4096, 32]⟩
abbrev S4096x80 : Shape := ⟨2, ![4096, 80]⟩
abbrev S1x1 : Shape := ⟨2, ![1, 1]⟩
abbrev S1x4096 : Shape := ⟨2, ![1, 4096]⟩
abbrev S2048x2048 : Shape := ⟨2, ![2048, 2048]⟩
abbrev S1024x1024 : Shape := ⟨2, ![1024, 1024]⟩
abbrev S1x1024 : Shape := ⟨2, ![1, 1024]⟩
abbrev S128 : Shape := ⟨1, ![128]⟩
abbrev S128x1 : Shape := ⟨2, ![128, 1]⟩
abbrev S2048x128 : Shape := ⟨2, ![2048, 128]⟩
abbrev S128x32 : Shape := ⟨2, ![128, 32]⟩
abbrev S2048 : Shape := ⟨1, ![2048]⟩
abbrev S2048x1 : Shape := ⟨2, ![2048, 1]⟩

abbrev nBuf : Space → Nat
  | .hbm => 176
  | .vmem => 9
  | .smem => 0
  | _ => 0

abbrev hbmTy0_0 (i : Nat) : BufTy := match i % 128 with
  | 0 => ⟨S2048x32, .f32⟩
  | 1 => ⟨S4096x16, .f32⟩
  | 2 => ⟨S128x2048, .f32⟩
  | 3 => ⟨S2048x4096, .f32⟩
  | 4 => ⟨S80x1, .f32⟩
  | 5 => ⟨S1, .f32⟩
  | 6 => ⟨S32x32, .f32⟩
  | 7 => ⟨S32x32, .f32⟩
  | 8 => ⟨S32x32, .f32⟩
  | 9 => ⟨S32x32, .f32⟩
  | 10 => ⟨S4096, .i32⟩
  | 11 => ⟨S4096, .i32⟩
  | 12 => ⟨S_, .i32⟩
  | 13 => ⟨S4096, .i32⟩
  | 14 => ⟨S4096, .i1⟩
  | 15 => ⟨S_, .i32⟩
  | 16 => ⟨S4096, .i32⟩
  | 17 => ⟨S4096, .i32⟩
  | 18 => ⟨S4096, .i32⟩
  | 19 => ⟨S4096x1, .i32⟩
  | 20 => ⟨S4096x32, .f32⟩
  | 21 => ⟨S_, .i32⟩
  | 22 => ⟨S4096, .i32⟩
  | 23 => ⟨S4096, .i1⟩
  | 24 => ⟨S_, .i32⟩
  | 25 => ⟨S4096, .i32⟩
  | 26 => ⟨S4096, .i32⟩
  | 27 => ⟨S4096, .i32⟩
  | 28 => ⟨S4096x1, .i32⟩
  | 29 => ⟨S4096x32, .f32⟩
  | 30 => ⟨S4096x80, .f32⟩
  | 31 => ⟨S4096x1, .f32⟩
  | 32 => ⟨S1x1, .f32⟩
  | 33 => ⟨S4096x1, .f32⟩
  | 34 => ⟨S4096x1, .f32⟩
  | 35 => ⟨S4096x1, .f32⟩
  | 36 => ⟨S4096x1, .f32⟩
  | 37 => ⟨S_, .f32⟩
  | 38 => ⟨S4096x1, .f32⟩
  | 39 => ⟨S4096x1, .f32⟩
  | 40 => ⟨S_, .f32⟩
  | 41 => ⟨S4096x1, .f32⟩
  | 42 => ⟨S4096x1, .f32⟩
  | 43 => ⟨S4096, .f32⟩
  | 44 => ⟨S1x4096, .f32⟩
  | 45 => ⟨S2048x2048, .f32⟩
  | 46 => ⟨S2048x32, .f32⟩
  | 47 => ⟨S2048x32, .f32⟩
  | 48 => ⟨S2048x32, .f32⟩
  | 49 => ⟨S2048x32, .f32⟩
  | 50 => ⟨S_, .f32⟩
  | 51 => ⟨S128, .f32⟩
  | 52 => ⟨S128x1, .f32⟩
  | 53 => ⟨S2048x128, .f32⟩
  | 54 => ⟨S128x32, .f32⟩
  | 55 => ⟨S128x32, .f32⟩
  | 56 => ⟨S128x32, .f32⟩
  | 57 => ⟨S2048x32, .f32⟩
  | 58 => ⟨S2048x32, .f32⟩
  | 59 => ⟨S_, .f32⟩
  | 60 => ⟨S2048, .f32⟩
  | 61 => ⟨S2048x1, .f32⟩
  | 62 => ⟨S2048x32, .f32⟩
  | 63 => ⟨S2048x32, .f32⟩
  | 64 => ⟨S2048x32, .f32⟩
  | 65 => ⟨S2048x32, .f32⟩
  | 66 => ⟨S2048x32, .f32⟩
  | 67 => ⟨S2048x32, .f32⟩
  | 68 => ⟨S2048x32, .f32⟩
  | 69 => ⟨S_, .f32⟩
  | 70 => ⟨S2048x32, .f32⟩
  | 71 => ⟨S2048x32, .f32⟩
  | 72 => ⟨S2048x32, .f32⟩
  | 73 => ⟨S_, .f32⟩
  | 74 => ⟨S2048x32, .f32⟩
  | 75 => ⟨S2048x32, .f32⟩
  | 76 => ⟨S2048x32, .f32⟩
  | 77 => ⟨S2048x32, .f32⟩
  | 78 => ⟨S2048x32, .f32⟩
  | 79 => ⟨S_, .f32⟩
  | 80 => ⟨S_, .f32⟩
  | 81 => ⟨S_, .f32⟩
  | 82 => ⟨S_, .f32⟩
  | 83 => ⟨S_, .f32⟩
  | 84 => ⟨S2048x32, .f32⟩
  | 85 => ⟨S128x32, .f32⟩
  | 86 => ⟨S128x32, .f32⟩
  | 87 => ⟨S_, .f32⟩
  | 88 => ⟨S_, .f32⟩
  | 89 => ⟨S_, .f32⟩
  | 90 => ⟨S_, .f32⟩
  | 91 => ⟨S_, .f32⟩
  | 92 => ⟨S2048x32, .f32⟩
  | 93 => ⟨S2048x32, .f32⟩
  | 94 => ⟨S2048x32, .f32⟩
  | 95 => ⟨S2048x32, .f32⟩
  | 96 => ⟨S2048x32, .f32⟩
  | 97 => ⟨S2048x32, .f32⟩
  | 98 => ⟨S2048x32, .f32⟩
  | 99 => ⟨S_, .f32⟩
  | 100 => ⟨S2048x32, .f32⟩
  | 101 => ⟨S2048x32, .f32⟩
  | 102 => ⟨S2048x32, .f32⟩
  | 103 => ⟨S_, .f32⟩
  | 104 => ⟨S2048x32, .f32⟩
  | 105 => ⟨S2048x32, .f32⟩
  | 106 => ⟨S2048x32, .f32⟩
  | 107 => ⟨S2048x32, .f32⟩
  | 108 => ⟨S2048x32, .f32⟩
  | 109 => ⟨S_, .f32⟩
  | 110 => ⟨S_, .f32⟩
  | 111 => ⟨S_, .f32⟩
  | 112 => ⟨S_, .f32⟩
  | 113 => ⟨S2048x32, .f32⟩
  | 114 => ⟨S128x32, .f32⟩
  | 115 => ⟨S128x32, .f32⟩
  | 116 => ⟨S_, .f32⟩
  | 117 => ⟨S_, .f32⟩
  | 118 => ⟨S_, .f32⟩
  | 119 => ⟨S_, .f32⟩
  | 120 => ⟨S2048x32, .f32⟩
  | 121 => ⟨S2048x32, .f32⟩
  | 122 => ⟨S2048x32, .f32⟩
  | 123 => ⟨S2048x32, .f32⟩
  | 124 => ⟨S2048x32, .f32⟩
  | 125 => ⟨S2048x32, .f32⟩
  | 126 => ⟨S2048x32, .f32⟩
  | 127 => ⟨S_, .f32⟩
  | _ => ⟨S2048x32, .f32⟩

abbrev hbmTy0_1 (i : Nat) : BufTy := match i % 128 with
  | 0 => ⟨S2048x32, .f32⟩
  | 1 => ⟨S2048x32, .f32⟩
  | 2 => ⟨S2048x32, .f32⟩
  | 3 => ⟨S_, .f32⟩
  | 4 => ⟨S2048x32, .f32⟩
  | 5 => ⟨S2048x32, .f32⟩
  | 6 => ⟨S2048x32, .f32⟩
  | 7 => ⟨S2048x32, .f32⟩
  | 8 => ⟨S2048x32, .f32⟩
  | 9 => ⟨S_, .f32⟩
  | 10 => ⟨S_, .f32⟩
  | 11 => ⟨S_, .f32⟩
  | 12 => ⟨S_, .f32⟩
  | 13 => ⟨S2048x32, .f32⟩
  | 14 => ⟨S128x32, .f32⟩
  | 15 => ⟨S128x32, .f32⟩
  | 16 => ⟨S_, .f32⟩
  | 17 => ⟨S_, .f32⟩
  | 18 => ⟨S_, .f32⟩
  | 19 => ⟨S_, .f32⟩
  | 20 => ⟨S2048x32, .f32⟩
  | 21 => ⟨S2048x32, .f32⟩
  | 22 => ⟨S2048x32, .f32⟩
  | 23 => ⟨S2048x32, .f32⟩
  | 24 => ⟨S2048x32, .f32⟩
  | 25 => ⟨S2048x32, .f32⟩
  | 26 => ⟨S2048x32, .f32⟩
  | 27 => ⟨S_, .f32⟩
  | 28 => ⟨S2048x32, .f32⟩
  | 29 => ⟨S2048x32, .f32⟩
  | 30 => ⟨S2048x32, .f32⟩
  | 31 => ⟨S_, .f32⟩
  | 32 => ⟨S2048x32, .f32⟩
  | 33 => ⟨S2048x32, .f32⟩
  | 34 => ⟨S2048x32, .f32⟩
  | 35 => ⟨S2048x32, .f32⟩
  | 36 => ⟨S2048x32, .f32⟩
  | 37 => ⟨S_, .f32⟩
  | 38 => ⟨S_, .f32⟩
  | 39 => ⟨S_, .f32⟩
  | 40 => ⟨S_, .f32⟩
  | 41 => ⟨S2048x32, .f32⟩
  | 42 => ⟨S128x32, .f32⟩
  | 43 => ⟨S128x32, .f32⟩
  | 44 => ⟨S_, .f32⟩
  | 45 => ⟨S_, .f32⟩
  | 46 => ⟨S_, .f32⟩
  | 47 => ⟨S_, .f32⟩
  | _ => ⟨S2048x32, .f32⟩

abbrev hbmTy (i : Nat) : BufTy := match i / 128 with
  | 0 => hbmTy0_0 i
  | 1 => hbmTy0_1 i
  | _ => ⟨S2048x32, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_7 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_call0_v0 : Ref sig .tc := ⟨.hbm, 78, rfl⟩
abbrev main_call0_cst : Ref sig .tc := ⟨.hbm, 79, rfl⟩
abbrev main_call0_v1 : Ref sig .tc := ⟨.hbm, 80, rfl⟩
abbrev main_v56 : Ref sig .tc := ⟨.hbm, 81, rfl⟩
abbrev main_cst_8 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_call1_v0 : Ref sig .tc := ⟨.hbm, 86, rfl⟩
abbrev main_call1_cst : Ref sig .tc := ⟨.hbm, 87, rfl⟩
abbrev main_call1_v1 : Ref sig .tc := ⟨.hbm, 88, rfl⟩
abbrev main_v60 : Ref sig .tc := ⟨.hbm, 89, rfl⟩
abbrev main_cst_9 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_10 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_11 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_call2_v0 : Ref sig .tc := ⟨.hbm, 108, rfl⟩
abbrev main_call2_cst : Ref sig .tc := ⟨.hbm, 109, rfl⟩
abbrev main_call2_v1 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_call3_v0 : Ref sig .tc := ⟨.hbm, 115, rfl⟩
abbrev main_call3_cst : Ref sig .tc := ⟨.hbm, 116, rfl⟩
abbrev main_call3_v1 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_12 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_13 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_call4_v0 : Ref sig .tc := ⟨.hbm, 136, rfl⟩
abbrev main_call4_cst : Ref sig .tc := ⟨.hbm, 137, rfl⟩
abbrev main_call4_v1 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_call5_v0 : Ref sig .tc := ⟨.hbm, 143, rfl⟩
abbrev main_call5_cst : Ref sig .tc := ⟨.hbm, 144, rfl⟩
abbrev main_call5_v1 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_14 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_15 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_call6_v0 : Ref sig .tc := ⟨.hbm, 164, rfl⟩
abbrev main_call6_cst : Ref sig .tc := ⟨.hbm, 165, rfl⟩
abbrev main_call6_v1 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_call7_v0 : Ref sig .tc := ⟨.hbm, 171, rfl⟩
abbrev main_call7_cst : Ref sig .tc := ⟨.hbm, 172, rfl⟩
abbrev main_call7_v1 : Ref sig .tc := ⟨.hbm, 173, rfl⟩
abbrev main_v120 : Ref sig .tc := ⟨.hbm, 174, rfl⟩
abbrev main_v121 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x32_S4096x16_S4096x32_S4096x80_d1 : Shape.Concatenates [S4096x32, S4096x16, S4096x32] S4096x80 1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S4096x1 : S_.BroadcastsInDim S4096x1 (![] : Fin 0 → Fin S4096x1.rank)
  shapeCasts_S4096x1_S4096 : S4096x1.ShapeCasts S4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reducesTo_S128x2048_S128_d1 : S128x2048.ReducesTo [1] S128
  h_S_ : 0 < S_.numel
  bcast_S128_S128x1_0 : S128.BroadcastsInDim S128x1 (![0] : Fin 1 → Fin S128x1.rank)
  transposes_S128x2048_S2048x128_1_0 : S128x2048.Transposes [1, 0] S2048x128
  bcast_S128x1_S128x32_0_1 : S128x1.BroadcastsInDim S128x32 (![0, 1] : Fin 2 → Fin S128x32.rank)
  reducesTo_S2048x2048_S2048_d1 : S2048x2048.ReducesTo [1] S2048
  bcast_S2048_S2048x1_0 : S2048.BroadcastsInDim S2048x1 (![0] : Fin 1 → Fin S2048x1.rank)
  bcast_S2048x1_S2048x32_0_1 : S2048x1.BroadcastsInDim S2048x32 (![0, 1] : Fin 2 → Fin S2048x32.rank)
  bcast_S_S2048x32 : S_.BroadcastsInDim S2048x32 (![] : Fin 0 → Fin S2048x32.rank)
  reducesTo_S2048x32_S_d0_1 : S2048x32.ReducesTo [0, 1] S_
  reducesTo_S128x32_S_d0_1 : S128x32.ReducesTo [0, 1] S_
  gather_S2048x32_S4096x1_S4096x32_1_0_n_n_0_1_132_wf : GatherDims.WF S2048x32 S4096x1 S4096x32 [1] [0] [] [0] [] 1 ![1, 32]
  dot_S4096x80_S80x1_S4096x1_1_0_0_1_n_n_wf : DotDims.WF S4096x80 S80x1 S4096x1 [1] [0] [0] [1] [] []
  dot_S1024x1024_S1024x1024_S1024x1024_1_1_0_0_n_n_wf : DotDims.WF S1024x1024 S1024x1024 S1024x1024 [1] [1] [0] [0] [] []
  dot_S2048x32_S32x32_S2048x32_1_0_0_1_n_n_wf : DotDims.WF S2048x32 S32x32 S2048x32 [1] [0] [0] [1] [] []
  dot_S128x2048_S2048x32_S128x32_1_0_0_1_n_n_wf : DotDims.WF S128x2048 S2048x32 S128x32 [1] [0] [0] [1] [] []
  dot_S2048x128_S128x32_S2048x32_1_0_0_1_n_n_wf : DotDims.WF S2048x128 S128x32 S2048x32 [1] [0] [0] [1] [] []
  dot_S2048x2048_S2048x32_S2048x32_1_0_0_1_n_n_wf : DotDims.WF S2048x2048 S2048x32 S2048x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S2048x4096.size a
  hwx0_0 : ∀ i : grid0.Coords, EltTy.bits .f32 = 32 ∨ (Rect.block (s := S2048x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S2048x4096.size a
  hwx0_1 : ∀ i : grid0.Coords, EltTy.bits .f32 = 32 ∨ (Rect.block (s := S2048x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S2048x2048.size a
  hwx0_3 : ∀ i : grid0.Coords, EltTy.bits .f32 = 32 ∨ (Rect.block (s := S2048x2048) S1024x1024.size (cc0_transform_3 i) (hinb0_3 i)).WholeWords (EltTy.packing .f32)

variable [Facts₀]

def gather_S2048x32_S4096x1_S4096x32_1_0_n_n_0_1_132 : GatherDims S2048x32 S4096x1 S4096x32 where
  offsetDims := [1]
  collapsedSliceDims := [0]
  operandBatchingDims := []
  startIndicesBatchingDims := []
  startIndexMap := [0]
  indexVectorDim := 1
  sliceSizes := ![1, 32]
  wf := gather_S2048x32_S4096x1_S4096x32_1_0_n_n_0_1_132_wf
def dot_S4096x80_S80x1_S4096x1_1_0_0_1_n_n : DotDims S4096x80 S80x1 S4096x1 where
  lhsContracting := [1]
  rhsContracting := [0]
  lhsNonContracting := [0]
  rhsNonContracting := [1]
  lhsBatch := []
  rhsBatch := []
  wf := dot_S4096x80_S80x1_S4096x1_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S128x2048_S2048x32_S128x32_1_0_0_1_n_n : DotDims S128x2048 S2048x32 S128x32 where
  lhsContracting := [1]
  rhsContracting := [0]
  lhsNonContracting := [0]
  rhsNonContracting := [1]
  lhsBatch := []
  rhsBatch := []
  wf := dot_S128x2048_S2048x32_S128x32_1_0_0_1_n_n_wf
def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def dot_S2048x2048_S2048x32_S2048x32_1_0_0_1_n_n : DotDims S2048x2048 S2048x32 S2048x32 where
  lhsContracting := [1]
  rhsContracting := [0]
  lhsNonContracting := [0]
  rhsNonContracting := [1]
  lhsBatch := []
  rhsBatch := []
  wf := dot_S2048x2048_S2048x32_S2048x32_1_0_0_1_n_n_wf

abbrev win0_0 : Pipeline.Window sig grid0 :=
  Pipeline.Window.ofSpec (Memref.whole main_arg3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x32 : Shape := ⟨2, ![2048, 32]⟩
abbrev S4096x16 : Shape := ⟨2, ![4096, 16]⟩
abbrev S128x2048 : Shape := ⟨2, ![128, 2048]⟩
abbrev S2048x4096 : Shape := ⟨2, ![2048, 4096]⟩
abbrev S80x1 : Shape := ⟨2, ![80, 1]⟩
abbrev S1 : Shape := ⟨1, ![1]⟩
abbrev S32x32 : Shape := ⟨2, ![32, 32]⟩
abbrev S4096 : Shape := ⟨1, ![4096]⟩
abbrev S_ : Shape := ⟨0, ![]⟩
abbrev S4096x1 : Shape := ⟨2, ![4096, 1]⟩
abbrev S4096x32 : Shape := ⟨2, ![4096, 32]⟩
abbrev S4096x80 : Shape := ⟨2, ![4096, 80]⟩
abbrev S1x1 : Shape := ⟨2, ![1, 1]⟩
abbrev S4096x4096 : Shape := ⟨2, ![4096, 4096]⟩
abbrev S4096x2048 : Shape := ⟨2, ![4096, 2048]⟩
abbrev S2048x2048 : Shape := ⟨2, ![2048, 2048]⟩
abbrev S128 : Shape := ⟨1, ![128]⟩
abbrev S128x1 : Shape := ⟨2, ![128, 1]⟩
abbrev S2048x128 : Shape := ⟨2, ![2048, 128]⟩
abbrev S128x32 : Shape := ⟨2, ![128, 32]⟩
abbrev S2048 : Shape := ⟨1, ![2048]⟩
abbrev S2048x1 : Shape := ⟨2, ![2048, 1]⟩

abbrev nBuf : Space → Nat
  | .hbm => 190
  | .vmem => 0
  | .smem => 0
  | _ => 0

abbrev hbmTy0_0 (i : Nat) : BufTy := match i % 128 with
  | 0 => ⟨S2048x32, .f32⟩
  | 1 => ⟨S4096x16, .f32⟩
  | 2 => ⟨S128x2048, .f32⟩
  | 3 => ⟨S2048x4096, .f32⟩
  | 4 => ⟨S80x1, .f32⟩
  | 5 => ⟨S1, .f32⟩
  | 6 => ⟨S32x32, .f32⟩
  | 7 => ⟨S32x32, .f32⟩
  | 8 => ⟨S32x32, .f32⟩
  | 9 => ⟨S32x32, .f32⟩
  | 10 => ⟨S4096, .i32⟩
  | 11 => ⟨S4096, .i32⟩
  | 12 => ⟨S_, .i32⟩
  | 13 => ⟨S4096, .i32⟩
  | 14 => ⟨S4096, .i1⟩
  | 15 => ⟨S_, .i32⟩
  | 16 => ⟨S4096, .i32⟩
  | 17 => ⟨S4096, .i32⟩
  | 18 => ⟨S4096, .i32⟩
  | 19 => ⟨S4096x1, .i32⟩
  | 20 => ⟨S4096x32, .f32⟩
  | 21 => ⟨S_, .i32⟩
  | 22 => ⟨S4096, .i32⟩
  | 23 => ⟨S4096, .i1⟩
  | 24 => ⟨S_, .i32⟩
  | 25 => ⟨S4096, .i32⟩
  | 26 => ⟨S4096, .i32⟩
  | 27 => ⟨S4096, .i32⟩
  | 28 => ⟨S4096x1, .i32⟩
  | 29 => ⟨S4096x32, .f32⟩
  | 30 => ⟨S4096x80, .f32⟩
  | 31 => ⟨S4096x1, .f32⟩
  | 32 => ⟨S1x1, .f32⟩
  | 33 => ⟨S4096x1, .f32⟩
  | 34 => ⟨S4096x1, .f32⟩
  | 35 => ⟨S4096x1, .f32⟩
  | 36 => ⟨S4096x1, .f32⟩
  | 37 => ⟨S_, .f32⟩
  | 38 => ⟨S4096x1, .f32⟩
  | 39 => ⟨S4096x1, .f32⟩
  | 40 => ⟨S_, .f32⟩
  | 41 => ⟨S4096x1, .f32⟩
  | 42 => ⟨S4096x1, .f32⟩
  | 43 => ⟨S4096, .f32⟩
  | 44 => ⟨S_, .f32⟩
  | 45 => ⟨S4096, .f32⟩
  | 46 => ⟨S4096x4096, .i32⟩
  | 47 => ⟨S4096x4096, .i32⟩
  | 48 => ⟨S_, .i32⟩
  | 49 => ⟨S4096x4096, .i32⟩
  | 50 => ⟨S4096x4096, .i32⟩
  | 51 => ⟨S4096x4096, .i1⟩
  | 52 => ⟨S4096x1, .f32⟩
  | 53 => ⟨S_, .f32⟩
  | 54 => ⟨S4096x4096, .f32⟩
  | 55 => ⟨S4096x4096, .f32⟩
  | 56 => ⟨S4096x4096, .f32⟩
  | 57 => ⟨S2048x4096, .f32⟩
  | 58 => ⟨S4096x2048, .f32⟩
  | 59 => ⟨S2048x2048, .f32⟩
  | 60 => ⟨S2048x32, .f32⟩
  | 61 => ⟨S2048x32, .f32⟩
  | 62 => ⟨S2048x32, .f32⟩
  | 63 => ⟨S2048x32, .f32⟩
  | 64 => ⟨S_, .f32⟩
  | 65 => ⟨S128, .f32⟩
  | 66 => ⟨S128x1, .f32⟩
  | 67 => ⟨S2048x128, .f32⟩
  | 68 => ⟨S128x32, .f32⟩
  | 69 => ⟨S128x32, .f32⟩
  | 70 => ⟨S128x32, .f32⟩
  | 71 => ⟨S2048x32, .f32⟩
  | 72 => ⟨S2048x32, .f32⟩
  | 73 => ⟨S_, .f32⟩
  | 74 => ⟨S2048, .f32⟩
  | 75 => ⟨S2048x1, .f32⟩
  | 76 => ⟨S2048x32, .f32⟩
  | 77 => ⟨S2048x32, .f32⟩
  | 78 => ⟨S2048x32, .f32⟩
  | 79 => ⟨S2048x32, .f32⟩
  | 80 => ⟨S2048x32, .f32⟩
  | 81 => ⟨S2048x32, .f32⟩
  | 82 => ⟨S2048x32, .f32⟩
  | 83 => ⟨S_, .f32⟩
  | 84 => ⟨S2048x32, .f32⟩
  | 85 => ⟨S2048x32, .f32⟩
  | 86 => ⟨S2048x32, .f32⟩
  | 87 => ⟨S_, .f32⟩
  | 88 => ⟨S2048x32, .f32⟩
  | 89 => ⟨S2048x32, .f32⟩
  | 90 => ⟨S2048x32, .f32⟩
  | 91 => ⟨S2048x32, .f32⟩
  | 92 => ⟨S2048x32, .f32⟩
  | 93 => ⟨S_, .f32⟩
  | 94 => ⟨S_, .f32⟩
  | 95 => ⟨S_, .f32⟩
  | 96 => ⟨S_, .f32⟩
  | 97 => ⟨S_, .f32⟩
  | 98 => ⟨S2048x32, .f32⟩
  | 99 => ⟨S128x32, .f32⟩
  | 100 => ⟨S128x32, .f32⟩
  | 101 => ⟨S_, .f32⟩
  | 102 => ⟨S_, .f32⟩
  | 103 => ⟨S_, .f32⟩
  | 104 => ⟨S_, .f32⟩
  | 105 => ⟨S_, .f32⟩
  | 106 => ⟨S2048x32, .f32⟩
  | 107 => ⟨S2048x32, .f32⟩
  | 108 => ⟨S2048x32, .f32⟩
  | 109 => ⟨S2048x32, .f32⟩
  | 110 => ⟨S2048x32, .f32⟩
  | 111 => ⟨S2048x32, .f32⟩
  | 112 => ⟨S2048x32, .f32⟩
  | 113 => ⟨S_, .f32⟩
  | 114 => ⟨S2048x32, .f32⟩
  | 115 => ⟨S2048x32, .f32⟩
  | 116 => ⟨S2048x32, .f32⟩
  | 117 => ⟨S_, .f32⟩
  | 118 => ⟨S2048x32, .f32⟩
  | 119 => ⟨S2048x32, .f32⟩
  | 120 => ⟨S2048x32, .f32⟩
  | 121 => ⟨S2048x32, .f32⟩
  | 122 => ⟨S2048x32, .f32⟩
  | 123 => ⟨S_, .f32⟩
  | 124 => ⟨S_, .f32⟩
  | 125 => ⟨S_, .f32⟩
  | 126 => ⟨S_, .f32⟩
  | 127 => ⟨S2048x32, .f32⟩
  | _ => ⟨S2048x32, .f32⟩

abbrev hbmTy0_1 (i : Nat) : BufTy := match i % 128 with
  | 0 => ⟨S128x32, .f32⟩
  | 1 => ⟨S128x32, .f32⟩
  | 2 => ⟨S_, .f32⟩
  | 3 => ⟨S_, .f32⟩
  | 4 => ⟨S_, .f32⟩
  | 5 => ⟨S_, .f32⟩
  | 6 => ⟨S2048x32, .f32⟩
  | 7 => ⟨S2048x32, .f32⟩
  | 8 => ⟨S2048x32, .f32⟩
  | 9 => ⟨S2048x32, .f32⟩
  | 10 => ⟨S2048x32, .f32⟩
  | 11 => ⟨S2048x32, .f32⟩
  | 12 => ⟨S2048x32, .f32⟩
  | 13 => ⟨S_, .f32⟩
  | 14 => ⟨S2048x32, .f32⟩
  | 15 => ⟨S2048x32, .f32⟩
  | 16 => ⟨S2048x32, .f32⟩
  | 17 => ⟨S_, .f32⟩
  | 18 => ⟨S2048x32, .f32⟩
  | 19 => ⟨S2048x32, .f32⟩
  | 20 => ⟨S2048x32, .f32⟩
  | 21 => ⟨S2048x32, .f32⟩
  | 22 => ⟨S2048x32, .f32⟩
  | 23 => ⟨S_, .f32⟩
  | 24 => ⟨S_, .f32⟩
  | 25 => ⟨S_, .f32⟩
  | 26 => ⟨S_, .f32⟩
  | 27 => ⟨S2048x32, .f32⟩
  | 28 => ⟨S128x32, .f32⟩
  | 29 => ⟨S128x32, .f32⟩
  | 30 => ⟨S_, .f32⟩
  | 31 => ⟨S_, .f32⟩
  | 32 => ⟨S_, .f32⟩
  | 33 => ⟨S_, .f32⟩
  | 34 => ⟨S2048x32, .f32⟩
  | 35 => ⟨S2048x32, .f32⟩
  | 36 => ⟨S2048x32, .f32⟩
  | 37 => ⟨S2048x32, .f32⟩
  | 38 => ⟨S2048x32, .f32⟩
  | 39 => ⟨S2048x32, .f32⟩
  | 40 => ⟨S2048x32, .f32⟩
  | 41 => ⟨S_, .f32⟩
  | 42 => ⟨S2048x32, .f32⟩
  | 43 => ⟨S2048x32, .f32⟩
  | 44 => ⟨S2048x32, .f32⟩
  | 45 => ⟨S_, .f32⟩
  | 46 => ⟨S2048x32, .f32⟩
  | 47 => ⟨S2048x32, .f32⟩
  | 48 => ⟨S2048x32, .f32⟩
  | 49 => ⟨S2048x32, .f32⟩
  | 50 => ⟨S2048x32, .f32⟩
  | 51 => ⟨S_, .f32⟩
  | 52 => ⟨S_, .f32⟩
  | 53 => ⟨S_, .f32⟩
  | 54 => ⟨S_, .f32⟩
  | 55 => ⟨S2048x32, .f32⟩
  | 56 => ⟨S128x32, .f32⟩
  | 57 => ⟨S128x32, .f32⟩
  | 58 => ⟨S_, .f32⟩
  | 59 => ⟨S_, .f32⟩
  | 60 => ⟨S_, .f32⟩
  | 61 => ⟨S_, .f32⟩
  | _ => ⟨S2048x32, .f32⟩

abbrev hbmTy (i : Nat) : BufTy := match i / 128 with
  | 0 => hbmTy0_0 i
  | 1 => hbmTy0_1 i
  | _ => ⟨S2048x32, .f32⟩

abbrev bufTy : (tb : Table) → Fin (tcTables nBuf tb) → BufTy
  | .hbm, ⟨i, _⟩ => hbmTy i
  | _, _ => ⟨S2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_call0_cst : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_c : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_cst_0 : Ref sig .tc := ⟨.hbm, 53, rfl⟩
abbrev main_call0_call0_v0 : Ref sig .tc := ⟨.hbm, 54, rfl⟩
abbrev main_call0_call0_v1 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_4 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_5 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_6 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_7 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_call1_v0 : Ref sig .tc := ⟨.hbm, 92, rfl⟩
abbrev main_call1_cst : Ref sig .tc := ⟨.hbm, 93, rfl⟩
abbrev main_call1_v1 : Ref sig .tc := ⟨.hbm, 94, rfl⟩
abbrev main_v58 : Ref sig .tc := ⟨.hbm, 95, rfl⟩
abbrev main_cst_8 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_call2_v0 : Ref sig .tc := ⟨.hbm, 100, rfl⟩
abbrev main_call2_cst : Ref sig .tc := ⟨.hbm, 101, rfl⟩
abbrev main_call2_v1 : Ref sig .tc := ⟨.hbm, 102, rfl⟩
abbrev main_v62 : Ref sig .tc := ⟨.hbm, 103, rfl⟩
abbrev main_cst_9 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_10 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_11 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_call3_v0 : Ref sig .tc := ⟨.hbm, 122, rfl⟩
abbrev main_call3_cst : Ref sig .tc := ⟨.hbm, 123, rfl⟩
abbrev main_call3_v1 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_call4_v0 : Ref sig .tc := ⟨.hbm, 129, rfl⟩
abbrev main_call4_cst : Ref sig .tc := ⟨.hbm, 130, rfl⟩
abbrev main_call4_v1 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_12 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_13 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_call5_v0 : Ref sig .tc := ⟨.hbm, 150, rfl⟩
abbrev main_call5_cst : Ref sig .tc := ⟨.hbm, 151, rfl⟩
abbrev main_call5_v1 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_call6_v0 : Ref sig .tc := ⟨.hbm, 157, rfl⟩
abbrev main_call6_cst : Ref sig .tc := ⟨.hbm, 158, rfl⟩
abbrev main_call6_v1 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_cst_14 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_cst_15 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_call7_v0 : Ref sig .tc := ⟨.hbm, 178, rfl⟩
abbrev main_call7_cst : Ref sig .tc := ⟨.hbm, 179, rfl⟩
abbrev main_call7_v1 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_call8_v0 : Ref sig .tc := ⟨.hbm, 185, rfl⟩
abbrev main_call8_cst : Ref sig .tc := ⟨.hbm, 186, rfl⟩
abbrev main_call8_v1 : Ref sig .tc := ⟨.hbm, 187, rfl⟩
abbrev main_v122 : Ref sig .tc := ⟨.hbm, 188, rfl⟩
abbrev main_v123 : Ref sig .tc := ⟨.hbm, 189, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x32_S4096x16_S4096x32_S4096x80_d1 : Shape.Concatenates [S4096x32, S4096x16, S4096x32] S4096x80 1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S4096x1 : S_.BroadcastsInDim S4096x1 (![] : Fin 0 → Fin S4096x1.rank)
  shapeCasts_S4096x1_S4096 : S4096x1.ShapeCasts S4096
  pads_S4096_S4096_000 : S4096.Pads (![0] : Fin 1 → Nat) ![0] ![0] S4096
  h_S_ : 0 < S_.numel
  bcast_S_S4096x4096 : S_.BroadcastsInDim S4096x4096 (![] : Fin 0 → Fin S4096x4096.rank)
  bcast_S4096x1_S4096x4096_0_1 : S4096x1.BroadcastsInDim S4096x4096 (![0, 1] : Fin 2 → Fin S4096x4096.rank)
  transposes_S2048x4096_S4096x2048_1_0 : S2048x4096.Transposes [1, 0] S4096x2048
  reducesTo_S128x2048_S128_d1 : S128x2048.ReducesTo [1] S128
  bcast_S128_S128x1_0 : S128.BroadcastsInDim S128x1 (![0] : Fin 1 → Fin S128x1.rank)
  transposes_S128x2048_S2048x128_1_0 : S128x2048.Transposes [1, 0] S2048x128
  bcast_S128x1_S128x32_0_1 : S128x1.BroadcastsInDim S128x32 (![0, 1] : Fin 2 → Fin S128x32.rank)
  reducesTo_S2048x2048_S2048_d1 : S2048x2048.ReducesTo [1] S2048
  bcast_S2048_S2048x1_0 : S2048.BroadcastsInDim S2048x1 (![0] : Fin 1 → Fin S2048x1.rank)
  bcast_S2048x1_S2048x32_0_1 : S2048x1.BroadcastsInDim S2048x32 (![0, 1] : Fin 2 → Fin S2048x32.rank)
  bcast_S_S2048x32 : S_.BroadcastsInDim S2048x32 (![] : Fin 0 → Fin S2048x32.rank)
  reducesTo_S2048x32_S_d0_1 : S2048x32.ReducesTo [0, 1] S_
  reducesTo_S128x32_S_d0_1 : S128x32.ReducesTo [0, 1] S_
  gather_S2048x32_S4096x1_S4096x32_1_0_n_n_0_1_132_wf : GatherDims.WF S2048x32 S4096x1 S4096x32 [1] [0] [] [0] [] 1 ![1, 32]
  dot_S4096x80_S80x1_S4096x1_1_0_0_1_n_n_wf : DotDims.WF S4096x80 S80x1 S4096x1 [1] [0] [0] [1] [] []
  dot_S2048x4096_S4096x4096_S2048x4096_1_0_0_1_n_n_wf : DotDims.WF S2048x4096 S4096x4096 S2048x4096 [1] [0] [0] [1] [] []
  dot_S2048x4096_S4096x2048_S2048x2048_1_0_0_1_n_n_wf : DotDims.WF S2048x4096 S4096x2048 S2048x2048 [1] [0] [0] [1] [] []
  dot_S2048x32_S32x32_S2048x32_1_0_0_1_n_n_wf : DotDims.WF S2048x32 S32x32 S2048x32 [1] [0] [0] [1] [] []
  dot_S128x2048_S2048x32_S128x32_1_0_0_1_n_n_wf : DotDims.WF S128x2048 S2048x32 S128x32 [1] [0] [0] [1] [] []
  dot_S2048x128_S128x32_S2048x32_1_0_0_1_n_n_wf : DotDims.WF S2048x128 S128x32 S2048x32 [1] [0] [0] [1] [] []
  dot_S2048x2048_S2048x32_S2048x32_1_0_0_1_n_n_wf : DotDims.WF S2048x2048 S2048x32 S2048x32 [1] [0] [0] [1] [] []

variable [Facts₀]

def gather_S2048x32_S4096x1_S4096x32_1_0_n_n_0_1_132 : GatherDims S2048x32 S4096x1 S4096x32 where
  offsetDims := [1]
  collapsedSliceDims := [0]
  operandBatchingDims := []
  startIndicesBatchingDims := []
  startIndexMap := [0]
  indexVectorDim := 1
  sliceSizes := ![1, 32]
  wf := gather_S2048x32_S4096x1_S4096x32_1_0_n_n_0_1_132_wf
def dot_S4096x80_S80x1_S4096x1_1_0_0_1_n_n : DotDims S4096x80 S80x1 S4096x1 where
  lhsContracting := [1]
  rhsContracting := [0]
  lhsNonContracting := [0]
  rhsNonContracting := [1]
  lhsBatch := []
  rhsBatch := []
  wf := dot_S4096x80_S80x1_S4096x1_1_0_0_1_n_n_wf
def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf
def dot_S2048x4096_S4096x2048_S2048x2048_1_0_0_1_n_n : DotDims S2048x4096 S4096x2048 S2048x2048 where
  lhsContracting := [1]
  rhsContracting := [0]
  lhsNonContracting := [0]
  rhsNonContracting := [1]
  lhsBatch := []
  rhsBatch := []
  wf := dot_S2048x4096_S4096x2048_S2048x2048_1_0_0_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S128x2048_S2048x32_S128x32_1_0_0_1_n_n : DotDims S128x2048 S2048x32 S128x32 where
  lhsContracting := [1]
  rhsContracting := [0]
  lhsNonContracting := [0]
  rhsNonContracting := [1]
  lhsBatch := []
  rhsBatch := []
  wf := dot_S128x2048_S2048x32_S128x32_1_0_0_1_n_n_wf
def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def dot_S2048x2048_S2048x32_S2048x32_1_0_0_1_n_n : DotDims S2048x2048 S2048x32 S2048x32 where
  lhsContracting := [1]
  rhsContracting := [0]
  lhsNonContracting := [0]
  rhsNonContracting := [1]
  lhsBatch := []
  rhsBatch := []
  wf := dot_S2048x2048_S2048x32_S2048x32_1_0_0_1_n_n_wf

class Facts : Prop extends Facts₀ where

variable [Facts]
-- ==== Proof.AdjRuns.lean ====
/-
  The weighted-adjacency kernel's region, at the contents `V` the TensorCore's buffers hold when the region is
  entered: the blocks its windows read, and where on the 2 x 2 x 4 grid its two conditionals hold.  The grid is
  walked with the contraction axis k innermost, so the point t has k = t mod 4: the accumulator is reset at the
  points t ≡ 0 and copied to the output block at the points t ≡ 3 (mod 4); at every other point the output window
  is idle and is not written back.
-/
import proofs.«112395_j72773925864042_1_alg».proof.Proof.Gen.KernelIdeal.Launch
import proofs.«112395_j72773925864042_1_alg».proof.Proof.Gen.KernelIdeal.Skeleton
import proofs.«112395_j72773925864042_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Adj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before0_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The two conditionals over the grid -/

/-- The accumulator is reset: k = 0. -/
abbrev isFirst (i : grid0.Coords) : Prop := (Scalar.cmpi .ne (Scalar.extui (Scalar.cmpi .eq (BitVec.ofNat 32 (i 2).val) 0#32)) 0#32) = 1#1
theorem isFirst_iff : ∀ t : Fin cfg0.N, isFirst (grid0.coords t) ↔ t.val % 4 = 0 :=
  (by decide +kernel : ∀ t : Fin grid0.N, isFirst (grid0.coords t) ↔ t.val % 4 = 0)
/-- The accumulator is copied out: k = 3. -/
abbrev isLast (i : grid0.Coords) : Prop := k0_cond2 i = 1#1
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3 : ∀ t : Fin cfg0.N, ¬isLast (grid0.coords t) → cfg0.idle 3 (grid0.coords t) = true := by decide +kernel
theorem noFlush3 : ∀ t : Fin cfg0.N, ¬isLast (grid0.coords t) → (cfg0.win 3).flush t = false := by decide +kernel
theorem live3 : ∀ t : Fin cfg0.N, isLast (grid0.coords t) → cfg0.idle 3 (grid0.coords t) = false := by decide +kernel

/-! ## The staging memrefs and the accumulator -/

abbrev VO : View sig .tc .vmem S1024x1024 .f32 := (Memref.whole cc0_stg3_0 : Memref sig .tc .vmem S1024x1024 .f32).view
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
/-- The accumulator: a whole scoped buffer of the kernel's own. -/
abbrev accM : Memref sig .tc .vmem S1024x1024 .f32 := Memref.whole cc0_scratch0
abbrev VA : View sig .tc .vmem S1024x1024 .f32 := accM.view

/-- The scoped rest and the generator register, with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Adj

end
-- ==== Proof.AdjRunFirst.lean ====
/-
  The body at a point with k = 0 (and k ≠ 3): the accumulator is zeroed, then the product of the scaled row block
  with the column block is added to it; the output block is left as found.
-/
import proofs.«112395_j72773925864042_1_alg».proof.Proof.AdjRuns

set_option maxRecDepth 16384

noncomputable section

namespace Cert.KernelIdeal.Adj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the accumulator at a first point, with the body's triple on whole memrefs:
    the three inputs at their contents and the idle output at `xi` are handed back untouched, the accumulator, found at
    anything, ends with the pieces written. -/
noncomputable def runFirst (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : isFirst i) (hc1 : ¬isLast i)
    (x0 : Vec F S1024x1024 .f32) (x1 : Vec F S1024x1024 .f32) (x2 : Vec F S1x1024 .f32) :
    Σ' (L3 : List (View.Piece (Elt F) S1024x1024 .f32)), { LS : List (View.Piece (Elt F) S1024x1024 .f32) //
      ∀ (xi : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__adj_kernel i arg3 harg3 arg4 harg4 arg5 harg5 arg6 harg6 arg7 harg7) K } := by
  refine ⟨[], ?_, fun xi E K => ?run⟩
  case run =>
    simp only [cc0__adj_kernel_eq_skeleton]; unfold cc0__adj_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Adj

end
-- ==== Proof.AdjRunMid.lean ====
/-
  The body at a point with 0 < k < 3: the product of the scaled row block with the column block is added to the
  accumulator, which holds what the point before left; the output block is left as found.
-/
import proofs.«112395_j72773925864042_1_alg».proof.Proof.AdjRunFirst

set_option maxRecDepth 16384

noncomputable section

namespace Cert.KernelIdeal.Adj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the accumulator at a middle point, with the body's triple. -/
noncomputable def runMid (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : ¬isLast i)
    (x0 : Vec F S1024x1024 .f32) (x1 : Vec F S1024x1024 .f32) (x2 : Vec F S1x1024 .f32) (xa : Vec F S1024x1024 .f32) :
    Σ' (L3 : List (View.Piece (Elt F) S1024x1024 .f32)), { LS : List (View.Piece (Elt F) S1024x1024 .f32) //
      ∀ (xi : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare xa
            ∗ (iprop(owns (c : Thread nD τ) arg3 fullShare x0 ∗ owns (c : Thread nD τ) arg4 fullShare x1 ∗ owns (c : Thread nD τ) arg5 fullShare x2 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__adj_kernel i arg3 harg3 arg4 harg4 arg5 harg5 arg6 harg6 arg7 harg7) K } := by
  refine ⟨[], ?_, fun xi E K => ?run⟩
  case run =>
    simp only [cc0__adj_kernel_eq_skeleton]; unfold cc0__adj_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Adj

end
-- ==== Proof.AdjRunLast.lean ====
/-
  The body at a point with k = 3: the last product is added to the accumulator and the accumulator is stored into
  the output block.
-/
import proofs.«112395_j72773925864042_1_alg».proof.Proof.AdjRunMid

set_option maxRecDepth 16384

noncomputable section

namespace Cert.KernelIdeal.Adj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the output block and in the accumulator at a last point, with the body's
    triple. -/
noncomputable def runLast (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : isLast i)
    (x0 : Vec F S1024x1024 .f32) (x1 : Vec F S1024x1024 .f32) (x2 : Vec F S1x1024 .f32) (xa : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xa
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc0__adj_kernel i arg3 harg3 arg4 harg4 arg5 harg5 arg6 harg6 arg7 harg7) K } := by
  refine ⟨?_, ?_, fun E K => ?run⟩
  case run =>
    simp only [cc0__adj_kernel_eq_skeleton]; unfold cc0__adj_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Adj

end
-- ==== Proof.AdjBody.lean ====
/-
  What the accumulator and the output block hold after each grid point, the proof data of the pipeline, and the body
  obligation.  After the point t the accumulator holds, for the block pair (i, j) of t, the sum over the contraction
  blocks 0 … k of the products (row block scaled by the weights) · (column block)ᵀ, started from zero at k = 0; at
  k = 3 the output block is that accumulator.  The one array both row and column windows read is held by each at
  half a share.
-/
import proofs.«112395_j72773925864042_1_alg».proof.Proof.AdjRunLast

set_option maxRecDepth 16384

noncomputable section

namespace Cert.KernelIdeal.Adj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem coverFirst (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : isFirst i) (hc1 : ¬isLast i)
    (x0 : Vec F S1024x1024 .f32) (x1 : Vec F S1024x1024 .f32) (x2 : Vec F S1x1024 .f32) (y : S1024x1024.Idx) :
    ∃ pc ∈ (runFirst c i arg3 harg3 arg4 harg4 arg5 harg5 arg6 harg6 arg7 harg7 hc0 hc1 x0 x1 x2).2.1, y ∈ pc.1.set :=
  View.cover_of_tiledL (runFirst c i arg3 harg3 arg4 harg4 arg5 harg5 arg6 harg6 arg7 harg7 hc0 hc1 x0 x1 x2).2.1 S1024x1024.size (by sl_kernel_rfl) y
/-- The accumulator after a first point: its pieces read back. -/
def accFirst (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : isFirst i) (hc1 : ¬isLast i)
    (x0 : Vec F S1024x1024 .f32) (x1 : Vec F S1024x1024 .f32) (x2 : Vec F S1x1024 .f32) : Vec F S1024x1024 .f32 :=
  VA.read (Elt F) (VA.writes (Elt F) VA.junk (runFirst c i arg3 harg3 arg4 harg4 arg5 harg5 arg6 harg6 arg7 harg7 hc0 hc1 x0 x1 x2).2.1)

theorem coverMid (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : ¬isLast i)
    (x0 : Vec F S1024x1024 .f32) (x1 : Vec F S1024x1024 .f32) (x2 : Vec F S1x1024 .f32) (xa : Vec F S1024x1024 .f32) (y : S1024x1024.Idx) :
    ∃ pc ∈ (runMid c i arg3 harg3 arg4 harg4 arg5 harg5 arg6 harg6 arg7 harg7 hc0 hc1 x0 x1 x2 xa).2.1, y ∈ pc.1.set :=
  View.cover_of_tiledL (runMid c i arg3 harg3 arg4 harg4 arg5 harg5 arg6 harg6 arg7 harg7 hc0 hc1 x0 x1 x2 xa).2.1 S1024x1024.size (by sl_kernel_rfl) y
/-- The accumulator after a middle point. -/
def accMid (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : ¬isLast i)
    (x0 : Vec F S1024x1024 .f32) (x1 : Vec F S1024x1024 .f32) (x2 : Vec F S1x1024 .f32) (xa : Vec F S1024x1024 .f32) : Vec F S1024x1024 .f32 :=
  VA.read (Elt F) (VA.writes (Elt F) VA.junk (runMid c i arg3 harg3 arg4 harg4 arg5 harg5 arg6 harg6 arg7 harg7 hc0 hc1 x0 x1 x2 xa).2.1)

theorem coverLast (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : isLast i)
    (x0 : Vec F S1024x1024 .f32) (x1 : Vec F S1024x1024 .f32) (x2 : Vec F S1x1024 .f32) (xa : Vec F S1024x1024 .f32) (y : S1024x1024.Idx) :
    ∃ pc ∈ (runLast c i arg3 harg3 arg4 harg4 arg5 harg5 arg6 harg6 arg7 harg7 hc0 hc1 x0 x1 x2 xa).2.1, y ∈ pc.1.set :=
  View.cover_of_tiledL (runLast c i arg3 harg3 arg4 harg4 arg5 harg5 arg6 harg6 arg7 harg7 hc0 hc1 x0 x1 x2 xa).2.1 S1024x1024.size (by sl_kernel_rfl) y
/-- The accumulator after a last point. -/
def accLast (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : isLast i)
    (x0 : Vec F S1024x1024 .f32) (x1 : Vec F S1024x1024 .f32) (x2 : Vec F S1x1024 .f32) (xa : Vec F S1024x1024 .f32) : Vec F S1024x1024 .f32 :=
  VA.read (Elt F) (VA.writes (Elt F) VA.junk (runLast c i arg3 harg3 arg4 harg4 arg5 harg5 arg6 harg6 arg7 harg7 hc0 hc1 x0 x1 x2 xa).2.1)
theorem coverOut (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : isLast i)
    (x0 : Vec F S1024x1024 .f32) (x1 : Vec F S1024x1024 .f32) (x2 : Vec F S1x1024 .f32) (xa : Vec F S1024x1024 .f32) (y : S1024x1024.Idx) :
    ∃ pc ∈ (runLast c i arg3 harg3 arg4 harg4 arg5 harg5 arg6 harg6 arg7 harg7 hc0 hc1 x0 x1 x2 xa).1, y ∈ pc.1.set :=
  View.cover_of_tiledL (runLast c i arg3 harg3 arg4 harg4 arg5 harg5 arg6 harg6 arg7 harg7 hc0 hc1 x0 x1 x2 xa).1 S1024x1024.size (by sl_kernel_rfl) y
/-- The output block after a last point. -/
def outLast (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : isLast i)
    (x0 : Vec F S1024x1024 .f32) (x1 : Vec F S1024x1024 .f32) (x2 : Vec F S1x1024 .f32) (xa : Vec F S1024x1024 .f32) : Vec F S1024x1024 .f32 :=
  VO.read (Elt F) (VO.writes (Elt F) VO.junk (runLast c i arg3 harg3 arg4 harg4 arg5 harg5 arg6 harg6 arg7 harg7 hc0 hc1 x0 x1 x2 xa).1)

/-! ## The accumulation -/

/-- What the accumulator holds after the body at position `n`: the case of `n mod 4`, run at the point's memrefs and
    input blocks, over what the point before left. -/
def accAt (c : Dev nD) : (n : ℕ) → n < cfg0.N → Vec F S1024x1024 .f32
  | 0, hn => accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((isFirst_iff ⟨0, hn⟩).mpr (Nat.zero_mod _)) (fun h => (fun h => by (try dsimp only at h); omega) ((isLast_iff ⟨0, hn⟩).mp h)) (blk V c 0 ⟨0, hn⟩) (blk V c 1 ⟨0, hn⟩) (blk V c 2 ⟨0, hn⟩)
  | n + 1, hn =>
    if h0 : (n + 1) % 4 = 0 then
      if h1 : (n + 1) % 4 = 3 then
        False.elim (by omega)
      else
        accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩)
    else
      if h1 : (n + 1) % 4 = 3 then
        accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (accAt c n (Nat.lt_of_succ_lt hn))
      else
        accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (accAt c n (Nat.lt_of_succ_lt hn))

theorem accAt_first (c : Dev nD) (t : Fin cfg0.N) (h0 : t.val % 4 = 0) (h1 : ¬t.val % 4 = 3) :
    accAt V c t.val t.isLt = accFirst c (grid0.coords t) (ms0 t) (hs0 t) (ms1 t) (hs1 t) (ms2 t) (hs2 t) (ms3 t) (hs3 t) accM (Memref.isWhole_whole _) ((isFirst_iff t).mpr h0) (fun h => h1 ((isLast_iff t).mp h)) (blk V c 0 t) (blk V c 1 t) (blk V c 2 t) := by
  obtain ⟨n, hn⟩ := t
  cases n with
  | zero => exact rfl
  | succ n => exact (dif_pos h0).trans ((dif_neg h1).trans rfl)

theorem accAt_mid (c : Dev nD) (t : Fin cfg0.N) (h0 : ¬t.val % 4 = 0) (h1 : ¬t.val % 4 = 3) :
    accAt V c t.val t.isLt = accMid c (grid0.coords t) (ms0 t) (hs0 t) (ms1 t) (hs1 t) (ms2 t) (hs2 t) (ms3 t) (hs3 t) accM (Memref.isWhole_whole _) (fun h => h0 ((isFirst_iff t).mp h)) (fun h => h1 ((isLast_iff t).mp h)) (blk V c 0 t) (blk V c 1 t) (blk V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg0.N) (h0 : ¬t.val % 4 = 0) (h1 : t.val % 4 = 3) :
    accAt V c t.val t.isLt = accLast c (grid0.coords t) (ms0 t) (hs0 t) (ms1 t) (hs1 t) (ms2 t) (hs2 t) (ms3 t) (hs3 t) accM (Memref.isWhole_whole _) (fun h => h0 ((isFirst_iff t).mp h)) ((isLast_iff t).mpr h1) (blk V c 0 t) (blk V c 1 t) (blk V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block holds after the body at a point: at a last point the case's store over what the point before
    left in the accumulator; elsewhere the window is idle and this is not consulted. -/
def outAt (c : Dev nD) (t : Fin cfg0.N) : Vec F S1024x1024 .f32 :=
  if h1 : t.val % 4 = 3 then
    outLast c (grid0.coords t) (ms0 t) (hs0 t) (ms1 t) (hs1 t) (ms2 t) (hs2 t) (ms3 t) (hs3 t) accM (Memref.isWhole_whole _) (fun h => (by omega : ¬ t.val % 4 = 0) ((isFirst_iff t).mp h)) ((isLast_iff t).mpr h1) (blk V c 0 t) (blk V c 1 t) (blk V c 2 t) (accAt V c (t.val - 1) (Nat.lt_of_le_of_lt (Nat.sub_le _ _) t.isLt))
  else VO.read (Elt F) VO.junk

theorem outAt_last (c : Dev nD) (t : Fin cfg0.N) (h0 : ¬t.val % 4 = 0) (h1 : t.val % 4 = 3) :
    outAt V c t = outLast c (grid0.coords t) (ms0 t) (hs0 t) (ms1 t) (hs1 t) (ms2 t) (hs2 t) (ms3 t) (hs3 t) accM (Memref.isWhole_whole _) (fun h => h0 ((isFirst_iff t).mp h)) ((isLast_iff t).mpr h1) (blk V c 0 t) (blk V c 1 t) (blk V c 2 t) (accAt V c (t.val - 1) (Nat.lt_of_le_of_lt (Nat.sub_le _ _) t.isLt)) := by
  unfold outAt; exact dif_pos h1

/-- The region invariant before position `n`: before the first point the scoped rest at anything; afterwards the
    accumulator at what the point before left, and the generator register at some state. -/
def PhiS (c : Dev nD) : (n : ℕ) → n ≤ cfg0.N → sProp 𝕄
  | 0, _ => Pipeline.ΦA spec0 c
  | n + 1, hn => iprop(iprop(owns (c : Thread nD τ) accM fullShare (accAt V c n hn)) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare (accAt V c n hn)) ∗ (∃ r, prngReg c r)) := rfl
theorem PhiS_pos (c : Dev nD) (n : ℕ) (h : n ≤ cfg0.N) (hz : n ≠ 0) :
    PhiS V c n h = iprop(iprop(owns (c : Thread nD τ) accM fullShare (accAt V c (n - 1) (by omega))) ∗ (∃ r, prngReg c r)) := by
  cases n with
  | zero => exact absurd rfl hz
  | succ n => rfl

/-! ## The pipeline's proof data -/

/-- The proof data on core `c`: the arrays as the region finds them; after the body each input's buffer at its block
    and the output's at `outAt`; the invariant `PhiS`; nothing owed; the array that the row and the column windows
    both read held by each at half a share, the weights' array and the output's at the full share. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => outAt V c t
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = outAt V c t := by dsimp only [dat]
theorem before0 (c : Dev nD) (t : Fin cfg0.N) (d) : (dat V c).before 0 t d = blk V c 0 t :=
  before0_of V (dat V c) (A_eq V c 0) (after0 V c) t d
theorem before1 (c : Dev nD) (t : Fin cfg0.N) (d) : (dat V c).before 1 t d = blk V c 1 t :=
  before1_of V (dat V c) (A_eq V c 1) (after1 V c) t d
theorem before2 (c : Dev nD) (t : Fin cfg0.N) (d) : (dat V c).before 2 t d = blk V c 2 t :=
  before2_of V (dat V c) (A_eq V c 2) (after2 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves0 (c : Dev nD) (t : Fin cfg0.N) : (dat V c).leavesExact 0 t = owns (c : Thread nD τ) (ms0 t) fullShare (blk V c 0 t) := by
  rw [show (dat V c).leavesExact 0 t = owns (c : Thread nD τ) (ms0 t) fullShare ((dat V c).after 0 t) from by
    unfold Dat.leavesExact; rw [live0 t], after0]
theorem leaves1 (c : Dev nD) (t : Fin cfg0.N) : (dat V c).leavesExact 1 t = owns (c : Thread nD τ) (ms1 t) fullShare (blk V c 1 t) := by
  rw [show (dat V c).leavesExact 1 t = owns (c : Thread nD τ) (ms1 t) fullShare ((dat V c).after 1 t) from by
    unfold Dat.leavesExact; rw [live1 t], after1]
theorem leaves2 (c : Dev nD) (t : Fin cfg0.N) : (dat V c).leavesExact 2 t = owns (c : Thread nD τ) (ms2 t) fullShare (blk V c 2 t) := by
  rw [show (dat V c).leavesExact 2 t = owns (c : Thread nD τ) (ms2 t) fullShare ((dat V c).after 2 t) from by
    unfold Dat.leavesExact; rw [live2 t], after2]

set_option maxHeartbeats 4800000 in
/-- The body at any point: the inputs' memrefs hold their blocks; `t mod 4` says which case the point is in; the
    invariant hands the body the accumulator at what the point before left (at anything at the first point) and takes it
    back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).owesAt () t.succ = (dat V c).owesAt () t.castSucc from rfl]
  rw [show (dat V c).Φ t.succ = PhiS V c (t.val + 1) t.isLt from rfl, PhiS_succ]
  rw [leaves0, leaves1, leaves2]
  have hN : t.val < 16 := lt_of_lt_of_eq t.isLt (show cfg0.N = 16 from N_0)
  by_cases h0 : t.val % 4 = 0
  · have h1 : ¬ t.val % 4 = 3 := by omega
    rw [Dat.leavesExact_idle (dat V c) 3 t (idle3 t (fun h => h1 ((isLast_iff t).mp h))) (noFlush3 t (fun h => h1 ((isLast_iff t).mp h)))]
    rw [accAt_first V c t h0 h1]
    unfold accFirst; (try dsimp only)
    by_cases hz : t.val = 0
    · rw [PhiS_castSucc V c t, PhiS_zero V c _ _ hz, PhiA_eq]
      iintro ⟨⟨HS, Hg⟩, Ho, ⟨%d0, H0⟩, ⟨%d1, H1⟩, ⟨%d2, H2⟩, ⟨%d3, H3⟩⟩
      iapply ((runFirst c (grid0.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HS, Hg⟩, Ho, ⟨%d0, H0⟩, ⟨%d1, H1⟩, ⟨%d2, H2⟩, ⟨%d3, H3⟩⟩
      iapply ((runFirst c (grid0.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat V c).leavesExact 3 t = owns (c : Thread nD τ) (ms3 t) fullShare ((dat V c).after 3 t) from by
        unfold Dat.leavesExact; rw [live3 t ((isLast_iff t).mpr h1)], after3]
      rw [accAt_last V c t h0 h1, outAt_last V c t h0 h1]
      unfold outLast accLast; (try dsimp only)
      rw [PhiS_castSucc V c t, PhiS_pos V c _ _ hz]
      iintro ⟨⟨HS, Hg⟩, Ho, ⟨%d0, H0⟩, ⟨%d1, H1⟩, ⟨%d2, H2⟩, ⟨%d3, H3⟩⟩
      iapply ((runLast c (grid0.coords t) _ _ _ _ _ _ _ _ _ _ (fun h => h0 ((isFirst_iff t).mp h)) ((isLast_iff t).mpr h1) (blk V c 0 t) (blk V c 1 t) (blk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverLast c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverOut c _ _ _ _ _ _ _ _ _ _ _ _ _ _ _ _ _)
    · rw [Dat.leavesExact_idle (dat V c) 3 t (idle3 t (fun h => h1 ((isLast_iff t).mp h))) (noFlush3 t (fun h => h1 ((isLast_iff t).mp h)))]
      rw [accAt_mid V c t h0 h1]
      unfold accMid; (try dsimp only)
      rw [PhiS_castSucc V c t, PhiS_pos V c _ _ hz]
      iintro ⟨⟨HS, Hg⟩, Ho, ⟨%d0, H0⟩, ⟨%d1, H1⟩, ⟨%d2, H2⟩, ⟨%d3, H3⟩⟩
      iapply ((runMid c (grid0.coords t) _ _ _ _ _ _ _ _ _ _ (fun h => h0 ((isFirst_iff t).mp h)) (fun h => h1 ((isLast_iff t).mp h)) (blk V c 0 t) (blk V c 1 t) (blk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverMid c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the scoped rest back: the accumulator's contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨HS, Hg⟩
  isplitl [HS]
  · iexists _; iexact HS
  iexact Hg

theorem hout (c : Dev nD) : (dat V c).Φ (Fin.last cfg0.N) ⊢ Pipeline.ΦA spec0 c :=
  Phi_out V c _ (by rw [Fin.val_last]; have : cfg0.N = 16 := N_0; omega)

end Cert.KernelIdeal.Adj

end
-- ==== Proof.AdjShare.lean ====
/-
  The region's arrays out of the core's unscoped buffers and back.  The row window and the column window read one
  array: its buffer, held whole, is split into two half shares at the region's entry, one per window, and the halves
  are joined again at the exit (an input array ends as it began); the weights' array and the output's are held whole.
-/
import proofs.«112395_j72773925864042_1_alg».proof.Proof.AdjBody

set_option maxRecDepth 16384

noncomputable section

namespace Cert.KernelIdeal.Adj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

open Idealize.ShloMosaic.Pipeline (unscopedRest arrBufs)

variable (V : (c : Dev nD) → (b : Ref sig .tc) → Buf (Elt F) ((c : Thread nD τ).loc b))

theorem arrRefs_eq : Finset.univ.image (Pipeline.arrRef spec0) = ({main_arg3, main_v26, main_v27} : Finset (Ref sig .tc)) := by decide

/-- The shares: half each for the two windows on the shared array, whole for the other two. -/
theorem share0 (c : Dev nD) : (dat V c).share 0 = fullShare.left := rfl
theorem share1 (c : Dev nD) : (dat V c).share 1 = fullShare.right := rfl
theorem share2 (c : Dev nD) : (dat V c).share 2 = fullShare := rfl
theorem share3 (c : Dev nD) : (dat V c).share 3 = fullShare := rfl

/-- The pipeline's arrays at contents `G`, window by window, over the three buffers behind them. -/
theorem arrays_eq (c : Dev nD) (G : (w : Fin cfg0.W) → Buf (Elt F) ((cfg0.win w).arr.view.loc (c.tc : Thread nD τ))) :
    ((dat V c).arrays G : sProp 𝕄)
      = iprop((((c.tc : Thread nD τ).loc main_arg3) ↦{fullShare.left} G 0) ∗ (((c.tc : Thread nD τ).loc main_arg3) ↦{fullShare.right} G 1)
          ∗ (((c.tc : Thread nD τ).loc main_v26) ↦{fullShare} G 2) ∗ (((c.tc : Thread nD τ).loc main_v27) ↦{fullShare} G 3)) := by
  unfold Dat.arrays
  rw [bigSep_W0, share0, share1, share2, share3, (arr_whole0 0).set_eq_univ, (arr_whole0 2).set_eq_univ, (arr_whole0 3).set_eq_univ]

/-- The three buffers behind the four windows' arrays, one by one. -/
theorem arrBufs_eq (c : Dev nD) (Vc : (b : Ref sig .tc) → Buf (Elt F) ((c.tc : Thread nD τ).loc b)) :
    (Pipeline.arrBufs spec0 c Vc : sProp 𝕄)
      = iprop((((c.tc : Thread nD τ).loc main_arg3) ↦{fullShare} Vc main_arg3)
          ∗ (((c.tc : Thread nD τ).loc main_v26) ↦{fullShare} Vc main_v26) ∗ (((c.tc : Thread nD τ).loc main_v27) ↦{fullShare} Vc main_v27)) := by
  unfold Pipeline.arrBufs
  rw [arrRefs_eq, bigSep_insert (by decide), bigSep_insert (by decide), BI.bigSep_singleton]
  rfl

/-- ENTRY: the core's unscoped buffers at `Vc` are the pipeline's arrays at their entry contents and the unscoped rest. -/
theorem entry_split (c : Dev nD) (Vc : (b : Ref sig .tc) → Buf (Elt F) ((c.tc : Thread nD τ).loc b))
    (hA : ∀ w, (dat V c).A w = Vc (Pipeline.arrRef spec0 w)) :
    (unscopedBufs c Vc : sProp 𝕄) ⊢ iprop((dat V c).arrays ((dat V c).arrAt · 0) ∗ unscopedRest spec0 c Vc) := by
  rw [Pipeline.unscopedBufs_split₀ cfgs 0 (by decide) c Vc]
  refine sep_mono ?_ .rfl
  rw [arrays_eq]
  rw [arrBufs_eq]
  rw [show (dat V c).arrAt 0 0 = Vc main_arg3 from hA 0, show (dat V c).arrAt 1 0 = Vc main_arg3 from hA 1,
    show (dat V c).arrAt 2 0 = Vc main_v26 from hA 2, show (dat V c).arrAt 3 0 = Vc main_v27 from hA 3]
  iintro ⟨Ha, Hw, Ho⟩
  ihave Ha' := (pointsTo_share (PosShare.mem_left_op_right fullShare)).1 $$ Ha
  icases Ha' with ⟨Hl, Hr⟩
  isplitl [Hl]; · iexact Hl
  isplitl [Hr]; · iexact Hr
  isplitl [Hw]; · iexact Hw
  iexact Ho

/-- EXIT: the arrays after the last point — the inputs as entered, the output at what the write-backs left — and the
    unscoped rest are the core's unscoped buffers at any valuation that has the output's array at that and agrees with
    the entry contents elsewhere. -/
theorem exit_join (c : Dev nD) (Vc Vc' : (b : Ref sig .tc) → Buf (Elt F) ((c.tc : Thread nD τ).loc b))
    (hA : ∀ w, (dat V c).A w = Vc (Pipeline.arrRef spec0 w))
    (hout : (dat V c).arrAt 3 cfg0.N = Vc' main_v27) (hrest : ∀ b, b ≠ main_v27 → Vc' b = Vc b) :
    iprop((dat V c).arrays ((dat V c).arrAt · cfg0.N) ∗ unscopedRest spec0 c Vc) ⊢ (unscopedBufs c Vc' : sProp 𝕄) := by
  rw [Pipeline.unscopedBufs_split₀ cfgs 0 (by decide) c Vc']
  refine sep_mono ?_ (Entails.of_eq ?_)
  · rw [arrays_eq]
    rw [arrBufs_eq]
    rw [show (dat V c).arrAt 0 cfg0.N = Vc' main_arg3 from ((dat V c).arrAt_in 0 rfl _).trans ((hA 0).trans (hrest main_arg3 (by decide)).symm),
      show (dat V c).arrAt 1 cfg0.N = Vc' main_arg3 from ((dat V c).arrAt_in 1 rfl _).trans ((hA 1).trans (hrest main_arg3 (by decide)).symm),
      show (dat V c).arrAt 2 cfg0.N = Vc' main_v26 from ((dat V c).arrAt_in 2 rfl _).trans ((hA 2).trans (hrest main_v26 (by decide)).symm),
      hout]
    iintro ⟨Hl, Hr, Hw, Ho⟩
    isplitl [Hl Hr]
    · iapply (pointsTo_share (PosShare.mem_left_op_right fullShare)).2
      isplitl [Hl]; · iexact Hl
      iexact Hr
    isplitl [Hw]; · iexact Hw
    iexact Ho
  · unfold Pipeline.unscopedRest
    exact bigSep_congr fun b hb => by
      rw [hrest b (fun e => (Finset.mem_sdiff.mp hb).2 (by rw [arrRefs_eq, e]; decide))]

end Cert.KernelIdeal.Adj

end
-- ==== Proof.HostSide.lean ====
/- The host side of the program's run. @main is: a stretch of 33 host operations that computes the edge weights,
   one kernel region, which may change the single buffer `main_v27`, and seventeen further stretches of host
   operations that compute the four results. Between two items core `c` holds every unscoped TensorCore buffer whole
   at a valuation: the launch contents, then `StableHlo.after` each stretch in turn, the region's buffer replaced by
   an unknown `out c`. Given the region's segment record entered from the state before it and left at the state after
   it, every weakly fair execution of @main terminates and every unscoped buffer ends at the last valuation. The
   arguments are written by no item, so they end as launched; and the last valuation is `StableHlo.after` the
   concatenation of the seventeen stretches from the valuation the region leaves. -/
import proofs.«112395_j72773925864042_1_alg».proof.Proof.Gen.KernelIdeal.Launch
import Idealize.ShloMosaic.Lib.Pipeline.Frame
import Idealize.ShloMosaic.Lib.Pipeline.Regions

-- deciding membership among the program's 185 references recurses past the default depth
set_option maxRecDepth 1252

noncomputable section

namespace Cert.KernelIdeal.HostSide

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The buffers' contents between items -/

/-- What the region leaves in `main_v27`, per core: the unknown the valuations below are written over. -/
abbrev Out : Type := (c : Dev nD) → Buf (Elt F) ((c : Thread nD τ).loc main_v27)

variable (m : (ℓ : Loc nD τ sig) → Buf (Elt F) ℓ) (out : Out (F := F))

/-- Core `c`'s unscoped buffers at launch. -/
abbrev V0 (c : Dev nD) : Valuation τ sig (Elt F) := fun b => m (c, b)
/-- Core `c`'s unscoped buffers after item 0, the host stretch `hostOps0`. -/
abbrev V1 (c : Dev nD) : Valuation τ sig (Elt F) := StableHlo.after hostOps0 (V0 m c)
/-- Core `c`'s unscoped buffers after item 1, the region, which may change `main_v27`. -/
abbrev V2 (c : Dev nD) : Valuation τ sig (Elt F) := Function.update (V1 m c) main_v27 (out c)
/-- Core `c`'s unscoped buffers after item 2, the host stretch `hostOps1`. -/
abbrev V3 (c : Dev nD) : Valuation τ sig (Elt F) := StableHlo.after hostOps1 (V2 m out c)
/-- Core `c`'s unscoped buffers after item 3, the host stretch `hostOps1_1`. -/
abbrev V4 (c : Dev nD) : Valuation τ sig (Elt F) := StableHlo.after hostOps1_1 (V3 m out c)
/-- Core `c`'s unscoped buffers after item 4, the host stretch `hostOps1_2`. -/
abbrev V5 (c : Dev nD) : Valuation τ sig (Elt F) := StableHlo.after hostOps1_2 (V4 m out c)
/-- Core `c`'s unscoped buffers after item 5, the host stretch `hostOps1_3`. -/
abbrev V6 (c : Dev nD) : Valuation τ sig (Elt F) := StableHlo.after hostOps1_3 (V5 m out c)
/-- Core `c`'s unscoped buffers after item 6, the host stretch `hostOps1_4`. -/
abbrev V7 (c : Dev nD) : Valuation τ sig (Elt F) := StableHlo.after hostOps1_4 (V6 m out c)
/-- Core `c`'s unscoped buffers after item 7, the host stretch `hostOps1_5`. -/
abbrev V8 (c : Dev nD) : Valuation τ sig (Elt F) := StableHlo.after hostOps1_5 (V7 m out c)
/-- Core `c`'s unscoped buffers after item 8, the host stretch `hostOps1_6`. -/
abbrev V9 (c : Dev nD) : Valuation τ sig (Elt F) := StableHlo.after hostOps1_6 (V8 m out c)
/-- Core `c`'s unscoped buffers after item 9, the host stretch `hostOps1_7`. -/
abbrev V10 (c : Dev nD) : Valuation τ sig (Elt F) := StableHlo.after hostOps1_7 (V9 m out c)
/-- Core `c`'s unscoped buffers after item 10, the host stretch `hostOps1_8`. -/
abbrev V11 (c : Dev nD) : Valuation τ sig (Elt F) := StableHlo.after hostOps1_8 (V10 m out c)
/-- Core `c`'s unscoped buffers after item 11, the host stretch `hostOps1_9`. -/
abbrev V12 (c : Dev nD) : Valuation τ sig (Elt F) := StableHlo.after hostOps1_9 (V11 m out c)
/-- Core `c`'s unscoped buffers after item 12, the host stretch `hostOps1_10`. -/
abbrev V13 (c : Dev nD) : Valuation τ sig (Elt F) := StableHlo.after hostOps1_10 (V12 m out c)
/-- Core `c`'s unscoped buffers after item 13, the host stretch `hostOps1_11`. -/
abbrev V14 (c : Dev nD) : Valuation τ sig (Elt F) := StableHlo.after hostOps1_11 (V13 m out c)
/-- Core `c`'s unscoped buffers after item 14, the host stretch `hostOps1_12`. -/
abbrev V15 (c : Dev nD) : Valuation τ sig (Elt F) := StableHlo.after hostOps1_12 (V14 m out c)
/-- Core `c`'s unscoped buffers after item 15, the host stretch `hostOps1_13`. -/
abbrev V16 (c : Dev nD) : Valuation τ sig (Elt F) := StableHlo.after hostOps1_13 (V15 m out c)
/-- Core `c`'s unscoped buffers after item 16, the host stretch `hostOps1_14`. -/
abbrev V17 (c : Dev nD) : Valuation τ sig (Elt F) := StableHlo.after hostOps1_14 (V16 m out c)
/-- Core `c`'s unscoped buffers after item 17, the host stretch `hostOps1_15`. -/
abbrev V18 (c : Dev nD) : Valuation τ sig (Elt F) := StableHlo.after hostOps1_15 (V17 m out c)
/-- Core `c`'s unscoped buffers after item 18, the host stretch `hostOps1_16`. -/
abbrev V19 (c : Dev nD) : Valuation τ sig (Elt F) := StableHlo.after hostOps1_16 (V18 m out c)
/-- Core `c`'s unscoped buffers when @main returns. -/
abbrev Vlast (c : Dev nD) : Valuation τ sig (Elt F) := V19 m out c

/-! ## What the host stretches write -/

theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_c, main_v0, main_v1, main_c_0, main_v2, main_v3, main_v4, main_v5, main_v6, main_c_1, main_v7, main_v8, main_c_2, main_v9, main_v10, main_v11, main_v12, main_v13, main_v14, main_v15, main_v16, main_v17, main_v18, main_v19, main_v20, main_cst, main_v21, main_v22, main_cst_3, main_v23, main_v24, main_v25, main_v26]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_v28, main_v29, main_v30, main_v31, main_cst_4, main_v32, main_v33, main_v34, main_v35, main_v36, main_v37, main_v38, main_v39, main_cst_5, main_v40, main_v41, main_v42, main_v43, main_v44, main_v45, main_v46, main_v47, main_v48, main_cst_6, main_v49, main_v50, main_v51, main_cst_7, main_v52, main_v53, main_v54, main_v55]
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_1_fresh : (hostOps1_1 : List (HloOp τ sig (Elt F))).Forall fun op => op.fresh = ∅ := by
  simp only [List.Forall]; repeat' constructor
/-- The references `hostOps1_1`'s operations write. -/
abbrev hostOps1_1_W : List (Ref sig .tc) := [main_call0_v0, main_call0_cst, main_call0_v1, main_v56]
theorem hostOps1_1_writes : (hostOps1_1 : List (HloOp τ sig (Elt F))).Forall fun op => op.writes ⊆ (hostOps1_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_2_fresh : (hostOps1_2 : List (HloOp τ sig (Elt F))).Forall fun op => op.fresh = ∅ := by
  simp only [List.Forall]; repeat' constructor
/-- The references `hostOps1_2`'s operations write. -/
abbrev hostOps1_2_W : List (Ref sig .tc) := [main_cst_8, main_v57, main_v58, main_v59]
theorem hostOps1_2_writes : (hostOps1_2 : List (HloOp τ sig (Elt F))).Forall fun op => op.writes ⊆ (hostOps1_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_3_fresh : (hostOps1_3 : List (HloOp τ sig (Elt F))).Forall fun op => op.fresh = ∅ := by
  simp only [List.Forall]; repeat' constructor
/-- The references `hostOps1_3`'s operations write. -/
abbrev hostOps1_3_W : List (Ref sig .tc) := [main_call1_v0, main_call1_cst, main_call1_v1, main_v60]
theorem hostOps1_3_writes : (hostOps1_3 : List (HloOp τ sig (Elt F))).Forall fun op => op.writes ⊆ (hostOps1_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_4_fresh : (hostOps1_4 : List (HloOp τ sig (Elt F))).Forall fun op => op.fresh = ∅ := by
  simp only [List.Forall]; repeat' constructor
/-- The references `hostOps1_4`'s operations write. -/
abbrev hostOps1_4_W : List (Ref sig .tc) := [main_cst_9, main_v61, main_v62, main_v63, main_v64, main_v65, main_v66, main_v67, main_v68, main_cst_10, main_v69, main_v70, main_v71, main_cst_11, main_v72, main_v73, main_v74, main_v75]
theorem hostOps1_4_writes : (hostOps1_4 : List (HloOp τ sig (Elt F))).Forall fun op => op.writes ⊆ (hostOps1_4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_5_fresh : (hostOps1_5 : List (HloOp τ sig (Elt F))).Forall fun op => op.fresh = ∅ := by
  simp only [List.Forall]; repeat' constructor
/-- The references `hostOps1_5`'s operations write. -/
abbrev hostOps1_5_W : List (Ref sig .tc) := [main_call2_v0, main_call2_cst, main_call2_v1, main_v76]
theorem hostOps1_5_writes : (hostOps1_5 : List (HloOp τ sig (Elt F))).Forall fun op => op.writes ⊆ (hostOps1_5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_6_fresh : (hostOps1_6 : List (HloOp τ sig (Elt F))).Forall fun op => op.fresh = ∅ := by
  simp only [List.Forall]; repeat' constructor
/-- The references `hostOps1_6`'s operations write. -/
abbrev hostOps1_6_W : List (Ref sig .tc) := [main_v77, main_v78, main_v79]
theorem hostOps1_6_writes : (hostOps1_6 : List (HloOp τ sig (Elt F))).Forall fun op => op.writes ⊆ (hostOps1_6_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_7_fresh : (hostOps1_7 : List (HloOp τ sig (Elt F))).Forall fun op => op.fresh = ∅ := by
  simp only [List.Forall]; repeat' constructor
/-- The references `hostOps1_7`'s operations write. -/
abbrev hostOps1_7_W : List (Ref sig .tc) := [main_call3_v0, main_call3_cst, main_call3_v1, main_v80]
theorem hostOps1_7_writes : (hostOps1_7 : List (HloOp τ sig (Elt F))).Forall fun op => op.writes ⊆ (hostOps1_7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_8_fresh : (hostOps1_8 : List (HloOp τ sig (Elt F))).Forall fun op => op.fresh = ∅ := by
  simp only [List.Forall]; repeat' constructor
/-- The references `hostOps1_8`'s operations write. -/
abbrev hostOps1_8_W : List (Ref sig .tc) := [main_v81, main_v82, main_v83, main_v84, main_v85, main_v86, main_v87, main_v88, main_cst_12, main_v89, main_v90, main_v91, main_cst_13, main_v92, main_v93, main_v94, main_v95]
theorem hostOps1_8_writes : (hostOps1_8 : List (HloOp τ sig (Elt F))).Forall fun op => op.writes ⊆ (hostOps1_8_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_9_fresh : (hostOps1_9 : List (HloOp τ sig (Elt F))).Forall fun op => op.fresh = ∅ := by
  simp only [List.Forall]; repeat' constructor
/-- The references `hostOps1_9`'s operations write. -/
abbrev hostOps1_9_W : List (Ref sig .tc) := [main_call4_v0, main_call4_cst, main_call4_v1, main_v96]
theorem hostOps1_9_writes : (hostOps1_9 : List (HloOp τ sig (Elt F))).Forall fun op => op.writes ⊆ (hostOps1_9_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_10_fresh : (hostOps1_10 : List (HloOp τ sig (Elt F))).Forall fun op => op.fresh = ∅ := by
  simp only [List.Forall]; repeat' constructor
/-- The references `hostOps1_10`'s operations write. -/
abbrev hostOps1_10_W : List (Ref sig .tc) := [main_v97, main_v98, main_v99]
theorem hostOps1_10_writes : (hostOps1_10 : List (HloOp τ sig (Elt F))).Forall fun op => op.writes ⊆ (hostOps1_10_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_11_fresh : (hostOps1_11 : List (HloOp τ sig (Elt F))).Forall fun op => op.fresh = ∅ := by
  simp only [List.Forall]; repeat' constructor
/-- The references `hostOps1_11`'s operations write. -/
abbrev hostOps1_11_W : List (Ref sig .tc) := [main_call5_v0, main_call5_cst, main_call5_v1, main_v100]
theorem hostOps1_11_writes : (hostOps1_11 : List (HloOp τ sig (Elt F))).Forall fun op => op.writes ⊆ (hostOps1_11_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_12_fresh : (hostOps1_12 : List (HloOp τ sig (Elt F))).Forall fun op => op.fresh = ∅ := by
  simp only [List.Forall]; repeat' constructor
/-- The references `hostOps1_12`'s operations write. -/
abbrev hostOps1_12_W : List (Ref sig .tc) := [main_v101, main_v102, main_v103, main_v104, main_v105, main_v106, main_v107, main_v108, main_cst_14, main_v109, main_v110, main_v111, main_cst_15, main_v112, main_v113, main_v114, main_v115]
theorem hostOps1_12_writes : (hostOps1_12 : List (HloOp τ sig (Elt F))).Forall fun op => op.writes ⊆ (hostOps1_12_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_13_fresh : (hostOps1_13 : List (HloOp τ sig (Elt F))).Forall fun op => op.fresh = ∅ := by
  simp only [List.Forall]; repeat' constructor
/-- The references `hostOps1_13`'s operations write. -/
abbrev hostOps1_13_W : List (Ref sig .tc) := [main_call6_v0, main_call6_cst, main_call6_v1, main_v116]
theorem hostOps1_13_writes : (hostOps1_13 : List (HloOp τ sig (Elt F))).Forall fun op => op.writes ⊆ (hostOps1_13_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_14_fresh : (hostOps1_14 : List (HloOp τ sig (Elt F))).Forall fun op => op.fresh = ∅ := by
  simp only [List.Forall]; repeat' constructor
/-- The references `hostOps1_14`'s operations write. -/
abbrev hostOps1_14_W : List (Ref sig .tc) := [main_v117, main_v118, main_v119]
theorem hostOps1_14_writes : (hostOps1_14 : List (HloOp τ sig (Elt F))).Forall fun op => op.writes ⊆ (hostOps1_14_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_15_fresh : (hostOps1_15 : List (HloOp τ sig (Elt F))).Forall fun op => op.fresh = ∅ := by
  simp only [List.Forall]; repeat' constructor
/-- The references `hostOps1_15`'s operations write. -/
abbrev hostOps1_15_W : List (Ref sig .tc) := [main_call7_v0, main_call7_cst, main_call7_v1, main_v120]
theorem hostOps1_15_writes : (hostOps1_15 : List (HloOp τ sig (Elt F))).Forall fun op => op.writes ⊆ (hostOps1_15_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_16_fresh : (hostOps1_16 : List (HloOp τ sig (Elt F))).Forall fun op => op.fresh = ∅ := by
  simp only [List.Forall]; repeat' constructor
/-- The references `hostOps1_16`'s operations write. -/
abbrev hostOps1_16_W : List (Ref sig .tc) := [main_v121]
theorem hostOps1_16_writes : (hostOps1_16 : List (HloOp τ sig (Elt F))).Forall fun op => op.writes ⊆ (hostOps1_16_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## What each item leaves unchanged -/

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v27] : List (Ref sig .tc))) : V2 m out c r = V1 m c r := by
  simp only [V2, Function.update_of_ne (StableHlo.devRef_ne_of_ne (List.ne_of_not_mem_cons h) : (Proc.devRef .tc r : DevRef τ sig) ≠ Proc.devRef .tc main_v27)]
theorem V3_of (c : Dev nD) (r : Ref sig .tc) (h : r ∉ hostOps1_W) : V3 m out c r = V2 m out c r :=
  StableHlo.after_of_writes_sub hostOps1 _ hostOps1_writes h
theorem V4_of (c : Dev nD) (r : Ref sig .tc) (h : r ∉ hostOps1_1_W) : V4 m out c r = V3 m out c r :=
  StableHlo.after_of_writes_sub hostOps1_1 _ hostOps1_1_writes h
theorem V5_of (c : Dev nD) (r : Ref sig .tc) (h : r ∉ hostOps1_2_W) : V5 m out c r = V4 m out c r :=
  StableHlo.after_of_writes_sub hostOps1_2 _ hostOps1_2_writes h
theorem V6_of (c : Dev nD) (r : Ref sig .tc) (h : r ∉ hostOps1_3_W) : V6 m out c r = V5 m out c r :=
  StableHlo.after_of_writes_sub hostOps1_3 _ hostOps1_3_writes h
theorem V7_of (c : Dev nD) (r : Ref sig .tc) (h : r ∉ hostOps1_4_W) : V7 m out c r = V6 m out c r :=
  StableHlo.after_of_writes_sub hostOps1_4 _ hostOps1_4_writes h
theorem V8_of (c : Dev nD) (r : Ref sig .tc) (h : r ∉ hostOps1_5_W) : V8 m out c r = V7 m out c r :=
  StableHlo.after_of_writes_sub hostOps1_5 _ hostOps1_5_writes h
theorem V9_of (c : Dev nD) (r : Ref sig .tc) (h : r ∉ hostOps1_6_W) : V9 m out c r = V8 m out c r :=
  StableHlo.after_of_writes_sub hostOps1_6 _ hostOps1_6_writes h
theorem V10_of (c : Dev nD) (r : Ref sig .tc) (h : r ∉ hostOps1_7_W) : V10 m out c r = V9 m out c r :=
  StableHlo.after_of_writes_sub hostOps1_7 _ hostOps1_7_writes h
theorem V11_of (c : Dev nD) (r : Ref sig .tc) (h : r ∉ hostOps1_8_W) : V11 m out c r = V10 m out c r :=
  StableHlo.after_of_writes_sub hostOps1_8 _ hostOps1_8_writes h
theorem V12_of (c : Dev nD) (r : Ref sig .tc) (h : r ∉ hostOps1_9_W) : V12 m out c r = V11 m out c r :=
  StableHlo.after_of_writes_sub hostOps1_9 _ hostOps1_9_writes h
theorem V13_of (c : Dev nD) (r : Ref sig .tc) (h : r ∉ hostOps1_10_W) : V13 m out c r = V12 m out c r :=
  StableHlo.after_of_writes_sub hostOps1_10 _ hostOps1_10_writes h
theorem V14_of (c : Dev nD) (r : Ref sig .tc) (h : r ∉ hostOps1_11_W) : V14 m out c r = V13 m out c r :=
  StableHlo.after_of_writes_sub hostOps1_11 _ hostOps1_11_writes h
theorem V15_of (c : Dev nD) (r : Ref sig .tc) (h : r ∉ hostOps1_12_W) : V15 m out c r = V14 m out c r :=
  StableHlo.after_of_writes_sub hostOps1_12 _ hostOps1_12_writes h
theorem V16_of (c : Dev nD) (r : Ref sig .tc) (h : r ∉ hostOps1_13_W) : V16 m out c r = V15 m out c r :=
  StableHlo.after_of_writes_sub hostOps1_13 _ hostOps1_13_writes h
theorem V17_of (c : Dev nD) (r : Ref sig .tc) (h : r ∉ hostOps1_14_W) : V17 m out c r = V16 m out c r :=
  StableHlo.after_of_writes_sub hostOps1_14 _ hostOps1_14_writes h
theorem V18_of (c : Dev nD) (r : Ref sig .tc) (h : r ∉ hostOps1_15_W) : V18 m out c r = V17 m out c r :=
  StableHlo.after_of_writes_sub hostOps1_15 _ hostOps1_15_writes h
theorem V19_of (c : Dev nD) (r : Ref sig .tc) (h : r ∉ hostOps1_16_W) : V19 m out c r = V18 m out c r :=
  StableHlo.after_of_writes_sub hostOps1_16 _ hostOps1_16_writes h

/-! ## No item writes an argument -/

/-- A reference that no stretch writes and that is not the region's buffer reaches the end as launched. -/
theorem Vlast_of (c : Dev nD) (r : Ref sig .tc)
    (h0 : r ∉ hostOps0_W) (h1 : r ∉ ([main_v27] : List (Ref sig .tc))) (h2 : r ∉ hostOps1_W) (h3 : r ∉ hostOps1_1_W) (h4 : r ∉ hostOps1_2_W) (h5 : r ∉ hostOps1_3_W) (h6 : r ∉ hostOps1_4_W) (h7 : r ∉ hostOps1_5_W) (h8 : r ∉ hostOps1_6_W) (h9 : r ∉ hostOps1_7_W) (h10 : r ∉ hostOps1_8_W) (h11 : r ∉ hostOps1_9_W) (h12 : r ∉ hostOps1_10_W) (h13 : r ∉ hostOps1_11_W) (h14 : r ∉ hostOps1_12_W) (h15 : r ∉ hostOps1_13_W) (h16 : r ∉ hostOps1_14_W) (h17 : r ∉ hostOps1_15_W) (h18 : r ∉ hostOps1_16_W) :
    Vlast m out c r = m ((c : Thread nD τ).loc r) :=
  (V19_of m out c r h18).trans <| (V18_of m out c r h17).trans <| (V17_of m out c r h16).trans <| (V16_of m out c r h15).trans <| (V15_of m out c r h14).trans <| (V14_of m out c r h13).trans <| (V13_of m out c r h12).trans <| (V12_of m out c r h11).trans <| (V11_of m out c r h10).trans <| (V10_of m out c r h9).trans <| (V9_of m out c r h8).trans <| (V8_of m out c r h7).trans <| (V7_of m out c r h6).trans <| (V6_of m out c r h5).trans <| (V5_of m out c r h4).trans <| (V4_of m out c r h3).trans <| (V3_of m out c r h2).trans <| (V2_of m out c r h1).trans <| (V1_of m c r h0).trans rfl

/-- The program's twelve arguments. -/
abbrev mainArgs : List (Ref sig .tc) := [main_arg0, main_arg1, main_arg2, main_arg3, main_arg4, main_arg5, main_arg6, main_arg7, main_arg8, main_arg9, main_arg10, main_arg11]

/-- Every argument reaches the end as launched: no host stretch writes it and the region changes only `main_v27`. -/
theorem Vlast_arg (c : Dev nD) : ∀ r ∈ mainArgs, Vlast m out c r = m ((c : Thread nD τ).loc r) := by
  intro r hr
  simp only [mainArgs, List.mem_cons, List.not_mem_nil, or_false] at hr
  rcases hr with rfl | rfl | rfl | rfl | rfl | rfl | rfl | rfl | rfl | rfl | rfl | rfl
  · exact Vlast_of m out c _ (by decide) (by decide) (by decide) (by decide) (by decide) (by decide) (by decide) (by decide) (by decide) (by decide) (by decide) (by decide) (by decide) (by decide) (by decide) (by decide) (by decide) (by decide) (by decide)
  · exact Vlast_of m out c _ (by decide) (by decide) (by decide) (by decide) (by decide) (by decide) (by decide) (by decide) (by decide) (by decide) (by decide) (by decide) (by decide) (by decide) (by decide) (by decide) (by decide) (by decide) (by decide)
  · exact Vlast_of m out c _ (by decide) (by decide) (by decide) (by decide) (by decide) (by decide) (by decide) (by decide) (by decide) (by decide) (by decide) (by decide) (by decide) (by decide) (by decide) (by decide) (by decide) (by decide) (by decide)
  · exact Vlast_of m out c _ (by decide) (by decide) (by decide) (by decide) (by decide) (by decide) (by decide) (by decide) (by decide) (by decide) (by decide) (by decide) (by decide) (by decide) (by decide) (by decide) (by decide) (by decide) (by decide)
  · exact Vlast_of m out c _ (by decide) (by decide) (by decide) (by decide) (by decide) (by decide) (by decide) (by decide) (by decide) (by decide) (by decide) (by decide) (by decide) (by decide) (by decide) (by decide) (by decide) (by decide) (by decide)
  · exact Vlast_of m out c _ (by decide) (by decide) (by decide) (by decide) (by decide) (by decide) (by decide) (by decide) (by decide) (by decide) (by decide) (by decide) (by decide) (by decide) (by decide) (by decide) (by decide) (by decide) (by decide)
  · exact Vlast_of m out c _ (by decide) (by decide) (by decide) (by decide) (by decide) (by decide) (by decide) (by decide) (by decide) (by decide) (by decide) (by decide) (by decide) (by decide) (by decide) (by decide) (by decide) (by decide) (by decide)
  · exact Vlast_of m out c _ (by decide) (by decide) (by decide) (by decide) (by decide) (by decide) (by decide) (by decide) (by decide) (by decide) (by decide) (by decide) (by decide) (by decide) (by decide) (by decide) (by decide) (by decide) (by decide)
  · exact Vlast_of m out c _ (by decide) (by decide) (by decide) (by decide) (by decide) (by decide) (by decide) (by decide) (by decide) (by decide) (by decide) (by decide) (by decide) (by decide) (by decide) (by decide) (by decide) (by decide) (by decide)
  · exact Vlast_of m out c _ (by decide) (by decide) (by decide) (by decide) (by decide) (by decide) (by decide) (by decide) (by decide) (by decide) (by decide) (by decide) (by decide) (by decide) (by decide) (by decide) (by decide) (by decide) (by decide)
  · exact Vlast_of m out c _ (by decide) (by decide) (by decide) (by decide) (by decide) (by decide) (by decide) (by decide) (by decide) (by decide) (by decide) (by decide) (by decide) (by decide) (by decide) (by decide) (by decide) (by decide) (by decide)
  · exact Vlast_of m out c _ (by decide) (by decide) (by decide) (by decide) (by decide) (by decide) (by decide) (by decide) (by decide) (by decide) (by decide) (by decide) (by decide) (by decide) (by decide) (by decide) (by decide) (by decide) (by decide)

theorem Vlast_main_arg0 (c : Dev nD) : Vlast m out c main_arg0 = m ((c : Thread nD τ).loc main_arg0) :=
  Vlast_arg m out c main_arg0 (by decide)
theorem Vlast_main_arg1 (c : Dev nD) : Vlast m out c main_arg1 = m ((c : Thread nD τ).loc main_arg1) :=
  Vlast_arg m out c main_arg1 (by decide)
theorem Vlast_main_arg2 (c : Dev nD) : Vlast m out c main_arg2 = m ((c : Thread nD τ).loc main_arg2) :=
  Vlast_arg m out c main_arg2 (by decide)
theorem Vlast_main_arg3 (c : Dev nD) : Vlast m out c main_arg3 = m ((c : Thread nD τ).loc main_arg3) :=
  Vlast_arg m out c main_arg3 (by decide)
theorem Vlast_main_arg4 (c : Dev nD) : Vlast m out c main_arg4 = m ((c : Thread nD τ).loc main_arg4) :=
  Vlast_arg m out c main_arg4 (by decide)
theorem Vlast_main_arg5 (c : Dev nD) : Vlast m out c main_arg5 = m ((c : Thread nD τ).loc main_arg5) :=
  Vlast_arg m out c main_arg5 (by decide)
theorem Vlast_main_arg6 (c : Dev nD) : Vlast m out c main_arg6 = m ((c : Thread nD τ).loc main_arg6) :=
  Vlast_arg m out c main_arg6 (by decide)
theorem Vlast_main_arg7 (c : Dev nD) : Vlast m out c main_arg7 = m ((c : Thread nD τ).loc main_arg7) :=
  Vlast_arg m out c main_arg7 (by decide)
theorem Vlast_main_arg8 (c : Dev nD) : Vlast m out c main_arg8 = m ((c : Thread nD τ).loc main_arg8) :=
  Vlast_arg m out c main_arg8 (by decide)
theorem Vlast_main_arg9 (c : Dev nD) : Vlast m out c main_arg9 = m ((c : Thread nD τ).loc main_arg9) :=
  Vlast_arg m out c main_arg9 (by decide)
theorem Vlast_main_arg10 (c : Dev nD) : Vlast m out c main_arg10 = m ((c : Thread nD τ).loc main_arg10) :=
  Vlast_arg m out c main_arg10 (by decide)
theorem Vlast_main_arg11 (c : Dev nD) : Vlast m out c main_arg11 = m ((c : Thread nD τ).loc main_arg11) :=
  Vlast_arg m out c main_arg11 (by decide)

/-- The last valuation is the seventeen tail stretches, run as one line, from the valuation the region leaves. -/
theorem Vlast_eq (c : Dev nD) :
    Vlast m out c = StableHlo.after (hostOps1 ++ hostOps1_1 ++ hostOps1_2 ++ hostOps1_3 ++ hostOps1_4 ++ hostOps1_5 ++ hostOps1_6 ++ hostOps1_7 ++ hostOps1_8 ++ hostOps1_9 ++ hostOps1_10 ++ hostOps1_11 ++ hostOps1_12 ++ hostOps1_13 ++ hostOps1_14 ++ hostOps1_15 ++ hostOps1_16) (V2 m out c) := by
  rw [StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append]

/-! ## The items as segments -/

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 2 → Dev nD → sProp (MT nD τ sig Ix (Elt F) ℕ U Lvl))

/-- Item 0: the host stretch `hostOps0` over the unscoped buffers from `V0`, the rest `E 0` riding along. -/
def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)
/-- Item 2: the host stretch `hostOps1` over the unscoped buffers from `V2`, the rest `E 1` riding along. -/
def seg2 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m out) (E 1)
/-- Item 3: the host stretch `hostOps1_1` over the unscoped buffers from `V3`, the rest `E 1` riding along. -/
def seg3 : HostSeg (Ix := Ix) (Name := ℕ) (U := U) (Lvl := Lvl) (pcfgs (F := F)) defs₀ 𝒱₀ L lv :=
  HostSeg.ofOps _ _ _ _ _ (Pipeline.ucRefs τ sig) hostOps1_1
    (fun op h => Pipeline.sub_ucRefs op ((List.forall_iff_forall_mem.mp hostOps1_1_sub) op h))
    (fun op h => (List.forall_iff_forall_mem.mp hostOps1_1_fresh) op h) (V3 m out) (E 1)
/-- Item 4: the host stretch `hostOps1_2` over the unscoped buffers from `V4`, the rest `E 1` riding along. -/
def seg4 : HostSeg (Ix := Ix) (Name := ℕ) (U := U) (Lvl := Lvl) (pcfgs (F := F)) defs₀ 𝒱₀ L lv :=
  HostSeg.ofOps _ _ _ _ _ (Pipeline.ucRefs τ sig) hostOps1_2
    (fun op h => Pipeline.sub_ucRefs op ((List.forall_iff_forall_mem.mp hostOps1_2_sub) op h))
    (fun op h => (List.forall_iff_forall_mem.mp hostOps1_2_fresh) op h) (V4 m out) (E 1)
/-- Item 5: the host stretch `hostOps1_3` over the unscoped buffers from `V5`, the rest `E 1` riding along. -/
def seg5 : HostSeg (Ix := Ix) (Name := ℕ) (U := U) (Lvl := Lvl) (pcfgs (F := F)) defs₀ 𝒱₀ L lv :=
  HostSeg.ofOps _ _ _ _ _ (Pipeline.ucRefs τ sig) hostOps1_3
    (fun op h => Pipeline.sub_ucRefs op ((List.forall_iff_forall_mem.mp hostOps1_3_sub) op h))
    (fun op h => (List.forall_iff_forall_mem.mp hostOps1_3_fresh) op h) (V5 m out) (E 1)
/-- Item 6: the host stretch `hostOps1_4` over the unscoped buffers from `V6`, the rest `E 1` riding along. -/
def seg6 : HostSeg (Ix := Ix) (Name := ℕ) (U := U) (Lvl := Lvl) (pcfgs (F := F)) defs₀ 𝒱₀ L lv :=
  HostSeg.ofOps _ _ _ _ _ (Pipeline.ucRefs τ sig) hostOps1_4
    (fun op h => Pipeline.sub_ucRefs op ((List.forall_iff_forall_mem.mp hostOps1_4_sub) op h))
    (fun op h => (List.forall_iff_forall_mem.mp hostOps1_4_fresh) op h) (V6 m out) (E 1)
/-- Item 7: the host stretch `hostOps1_5` over the unscoped buffers from `V7`, the rest `E 1` riding along. -/
def seg7 : HostSeg (Ix := Ix) (Name := ℕ) (U := U) (Lvl := Lvl) (pcfgs (F := F)) defs₀ 𝒱₀ L lv :=
  HostSeg.ofOps _ _ _ _ _ (Pipeline.ucRefs τ sig) hostOps1_5
    (fun op h => Pipeline.sub_ucRefs op ((List.forall_iff_forall_mem.mp hostOps1_5_sub) op h))
    (fun op h => (List.forall_iff_forall_mem.mp hostOps1_5_fresh) op h) (V7 m out) (E 1)
/-- Item 8: the host stretch `hostOps1_6` over the unscoped buffers from `V8`, the rest `E 1` riding along. -/
def seg8 : HostSeg (Ix := Ix) (Name := ℕ) (U := U) (Lvl := Lvl) (pcfgs (F := F)) defs₀ 𝒱₀ L lv :=
  HostSeg.ofOps _ _ _ _ _ (Pipeline.ucRefs τ sig) hostOps1_6
    (fun op h => Pipeline.sub_ucRefs op ((List.forall_iff_forall_mem.mp hostOps1_6_sub) op h))
    (fun op h => (List.forall_iff_forall_mem.mp hostOps1_6_fresh) op h) (V8 m out) (E 1)
/-- Item 9: the host stretch `hostOps1_7` over the unscoped buffers from `V9`, the rest `E 1` riding along. -/
def seg9 : HostSeg (Ix := Ix) (Name := ℕ) (U := U) (Lvl := Lvl) (pcfgs (F := F)) defs₀ 𝒱₀ L lv :=
  HostSeg.ofOps _ _ _ _ _ (Pipeline.ucRefs τ sig) hostOps1_7
    (fun op h => Pipeline.sub_ucRefs op ((List.forall_iff_forall_mem.mp hostOps1_7_sub) op h))
    (fun op h => (List.forall_iff_forall_mem.mp hostOps1_7_fresh) op h) (V9 m out) (E 1)
/-- Item 10: the host stretch `hostOps1_8` over the unscoped buffers from `V10`, the rest `E 1` riding along. -/
def seg10 : HostSeg (Ix := Ix) (Name := ℕ) (U := U) (Lvl := Lvl) (pcfgs (F := F)) defs₀ 𝒱₀ L lv :=
  HostSeg.ofOps _ _ _ _ _ (Pipeline.ucRefs τ sig) hostOps1_8
    (fun op h => Pipeline.sub_ucRefs op ((List.forall_iff_forall_mem.mp hostOps1_8_sub) op h))
    (fun op h => (List.forall_iff_forall_mem.mp hostOps1_8_fresh) op h) (V10 m out) (E 1)
/-- Item 11: the host stretch `hostOps1_9` over the unscoped buffers from `V11`, the rest `E 1` riding along. -/
def seg11 : HostSeg (Ix := Ix) (Name := ℕ) (U := U) (Lvl := Lvl) (pcfgs (F := F)) defs₀ 𝒱₀ L lv :=
  HostSeg.ofOps _ _ _ _ _ (Pipeline.ucRefs τ sig) hostOps1_9
    (fun op h => Pipeline.sub_ucRefs op ((List.forall_iff_forall_mem.mp hostOps1_9_sub) op h))
    (fun op h => (List.forall_iff_forall_mem.mp hostOps1_9_fresh) op h) (V11 m out) (E 1)
/-- Item 12: the host stretch `hostOps1_10` over the unscoped buffers from `V12`, the rest `E 1` riding along. -/
def seg12 : HostSeg (Ix := Ix) (Name := ℕ) (U := U) (Lvl := Lvl) (pcfgs (F := F)) defs₀ 𝒱₀ L lv :=
  HostSeg.ofOps _ _ _ _ _ (Pipeline.ucRefs τ sig) hostOps1_10
    (fun op h => Pipeline.sub_ucRefs op ((List.forall_iff_forall_mem.mp hostOps1_10_sub) op h))
    (fun op h => (List.forall_iff_forall_mem.mp hostOps1_10_fresh) op h) (V12 m out) (E 1)
/-- Item 13: the host stretch `hostOps1_11` over the unscoped buffers from `V13`, the rest `E 1` riding along. -/
def seg13 : HostSeg (Ix := Ix) (Name := ℕ) (U := U) (Lvl := Lvl) (pcfgs (F := F)) defs₀ 𝒱₀ L lv :=
  HostSeg.ofOps _ _ _ _ _ (Pipeline.ucRefs τ sig) hostOps1_11
    (fun op h => Pipeline.sub_ucRefs op ((List.forall_iff_forall_mem.mp hostOps1_11_sub) op h))
    (fun op h => (List.forall_iff_forall_mem.mp hostOps1_11_fresh) op h) (V13 m out) (E 1)
/-- Item 14: the host stretch `hostOps1_12` over the unscoped buffers from `V14`, the rest `E 1` riding along. -/
def seg14 : HostSeg (Ix := Ix) (Name := ℕ) (U := U) (Lvl := Lvl) (pcfgs (F := F)) defs₀ 𝒱₀ L lv :=
  HostSeg.ofOps _ _ _ _ _ (Pipeline.ucRefs τ sig) hostOps1_12
    (fun op h => Pipeline.sub_ucRefs op ((List.forall_iff_forall_mem.mp hostOps1_12_sub) op h))
    (fun op h => (List.forall_iff_forall_mem.mp hostOps1_12_fresh) op h) (V14 m out) (E 1)
/-- Item 15: the host stretch `hostOps1_13` over the unscoped buffers from `V15`, the rest `E 1` riding along. -/
def seg15 : HostSeg (Ix := Ix) (Name := ℕ) (U := U) (Lvl := Lvl) (pcfgs (F := F)) defs₀ 𝒱₀ L lv :=
  HostSeg.ofOps _ _ _ _ _ (Pipeline.ucRefs τ sig) hostOps1_13
    (fun op h => Pipeline.sub_ucRefs op ((List.forall_iff_forall_mem.mp hostOps1_13_sub) op h))
    (fun op h => (List.forall_iff_forall_mem.mp hostOps1_13_fresh) op h) (V15 m out) (E 1)
/-- Item 16: the host stretch `hostOps1_14` over the unscoped buffers from `V16`, the rest `E 1` riding along. -/
def seg16 : HostSeg (Ix := Ix) (Name := ℕ) (U := U) (Lvl := Lvl) (pcfgs (F := F)) defs₀ 𝒱₀ L lv :=
  HostSeg.ofOps _ _ _ _ _ (Pipeline.ucRefs τ sig) hostOps1_14
    (fun op h => Pipeline.sub_ucRefs op ((List.forall_iff_forall_mem.mp hostOps1_14_sub) op h))
    (fun op h => (List.forall_iff_forall_mem.mp hostOps1_14_fresh) op h) (V16 m out) (E 1)
/-- Item 17: the host stretch `hostOps1_15` over the unscoped buffers from `V17`, the rest `E 1` riding along. -/
def seg17 : HostSeg (Ix := Ix) (Name := ℕ) (U := U) (Lvl := Lvl) (pcfgs (F := F)) defs₀ 𝒱₀ L lv :=
  HostSeg.ofOps _ _ _ _ _ (Pipeline.ucRefs τ sig) hostOps1_15
    (fun op h => Pipeline.sub_ucRefs op ((List.forall_iff_forall_mem.mp hostOps1_15_sub) op h))
    (fun op h => (List.forall_iff_forall_mem.mp hostOps1_15_fresh) op h) (V17 m out) (E 1)
/-- Item 18: the host stretch `hostOps1_16` over the unscoped buffers from `V18`, the rest `E 1` riding along. -/
def seg18 : HostSeg (Ix := Ix) (Name := ℕ) (U := U) (Lvl := Lvl) (pcfgs (F := F)) defs₀ 𝒱₀ L lv :=
  HostSeg.ofOps _ _ _ _ _ (Pipeline.ucRefs τ sig) hostOps1_16
    (fun op h => Pipeline.sub_ucRefs op ((List.forall_iff_forall_mem.mp hostOps1_16_sub) op h))
    (fun op h => (List.forall_iff_forall_mem.mp hostOps1_16_fresh) op h) (V18 m out) (E 1)

end Segs

section

variable {Ix : Type} [DecidableEq Ix] {U : Type} [URA U] {Lvl : Type} [Preorder Lvl]

/-- The prefetched tables' admissible contents: the pallas_call has no table. -/
abbrev adm : (p : Fin 1) → (pcfgs (F := F) p).Adm := fun p => (cfgs p).toPCfg_adm

/-- @main's items as segments on core `c` (the same list on every core: no stretch reads the device): the host
    stretches' `segJ`, the region's the given record. -/
abbrev segs (𝒱₀ : Variants) (L : GSem nD τ sig → Finset Ix) (lv : GSem nD τ sig → Ix → Lvl) (E : Fin 2 → Dev nD → sProp (MT nD τ sig Ix (Elt F) ℕ U Lvl)) (ι : Ix)
    (pdats : (p : Fin 1) → (c : Dev nD) → Dat τ (Elt F) Ix ℕ U Lvl (cfgs p) c) (R0 : RegionSeg (pcfgs (F := F)) adm pdats ι defs₀ 𝒱₀ L lv 0) (c : Dev nD) :
    List (Seg (pcfgs (F := F)) adm pdats ι defs₀ 𝒱₀ L lv) :=
  [.host (seg0 m 𝒱₀ L lv E),
   .region R0,
   .host (seg2 m out 𝒱₀ L lv E),
   .host (seg3 m out 𝒱₀ L lv E),
   .host (seg4 m out 𝒱₀ L lv E),
   .host (seg5 m out 𝒱₀ L lv E),
   .host (seg6 m out 𝒱₀ L lv E),
   .host (seg7 m out 𝒱₀ L lv E),
   .host (seg8 m out 𝒱₀ L lv E),
   .host (seg9 m out 𝒱₀ L lv E),
   .host (seg10 m out 𝒱₀ L lv E),
   .host (seg11 m out 𝒱₀ L lv E),
   .host (seg12 m out 𝒱₀ L lv E),
   .host (seg13 m out 𝒱₀ L lv E),
   .host (seg14 m out 𝒱₀ L lv E),
   .host (seg15 m out 𝒱₀ L lv E),
   .host (seg16 m out 𝒱₀ L lv E),
   .host (seg17 m out 𝒱₀ L lv E),
   .host (seg18 m out 𝒱₀ L lv E)]

end

/-! ## The run, given the region's record -/

-- the launch theorem's implicit arguments are found by unifying its conclusion with this one, which takes unfolding
-- plain definitions in a metavariable's type
set_option backward.isDefEq.respectTransparency.types false in
/-- THE CONDITIONAL RUN. For any user algebra, level assignment, launch dues and ghost resources, any rest states
    `E` the launch makes on every core at once (`hE0`) and that end owing nothing (`hE1`), any contents the region
    leaves in `main_v27` (`out`) and any proof data: GIVEN the region's segment record entered from the thread state
    before it and left at the one after it (`R0`, `hpre0`, `hpost0`), every weakly fair execution of @main from memory
    `m` with zero counters terminates, and in every final memory every unscoped TensorCore buffer of every core holds
    what the last valuation says. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (out : Out (F := F))
    (pdats : (p : Fin 1) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 2 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE1 : ∀ c : Dev nD, E 1 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m out c) ∗ E 1 c)) :
    θ_run defs (onTc (τ := τ) (main (F := F))) ⟨m, fun _ => 0, ρ⟩ (fun r => ∀ c : Dev nD, ∀ b ∈ Pipeline.ucRefs τ sig,
      r.2.mem ((c : Thread nD τ).1, b) = Vlast m out c b) := by
  refine Pipeline.θ_run_regions_kit_dev (pcfgs (F := F)) adm pdats ι cellOf_inj EP defs₀ 𝒱₀ L lv m ρ main
    (segs m out 𝒱₀ L lv E ι pdats R0)
    (fun c Q => by
      rewrite [main_chain c, Seg.run_eq_chain,
        show (segs m out 𝒱₀ L lv E ι pdats R0 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          StableHlo.seq hostOps1_13,
          StableHlo.seq hostOps1_14,
          StableHlo.seq hostOps1_15,
          StableHlo.seq hostOps1_16 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (Vlast m out c))
    (hch := fun c => ⟨.rfl, hpre0 c, hpost0 c, .rfl, .rfl, .rfl, .rfl, .rfl, .rfl, .rfl, .rfl, .rfl, .rfl, .rfl, .rfl, .rfl, .rfl, .rfl, .rfl, sep_mono .rfl (hE1 c)⟩)
    (hinit := ?_) (QY := fun c s => ∀ b ∈ Pipeline.ucRefs τ sig, s.mem ((c : Thread nD τ).1, b) = Vlast m out c b)
    (hfin := fun c s' => ?_) (hQ := fun _ h => h)
  · -- the launch: the unscoped buffers are held at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (Vlast m out c) s') $$ [Hh HSI]
    · isplitl [Hh] <;> iassumption
    icases Hr with ⟨%h, HSI⟩
    imodintro
    isplitr
    · ipureintro
      exact h
    · iexact HSI

end Cert.KernelIdeal.HostSide

end
-- ==== Proof.AdjSeg.lean ====
/-
  The kernel region as a segment of @main, and the run of the whole program: from any memory, every weakly fair
  execution ends with every unscoped buffer of every core at the last valuation — the launch contents, then the host
  lines that compute the edge weights, then the output's array at what the region's write-backs leave, then the host
  lines that compute the four results.
-/
import proofs.«112395_j72773925864042_1_alg».proof.Proof.AdjShare
import proofs.«112395_j72773925864042_1_alg».proof.Proof.HostSide
import Idealize.ShloMosaic.Lib.Pipeline.RegionsLoop

set_option maxRecDepth 16384

noncomputable section

namespace Cert.KernelIdeal.Adj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The TensorCore's buffers when the region is entered, read at its references. -/
abbrev Vin : (c : Dev nD) → (b : Ref sig .tc) → Buf (Elt F) ((c : Thread nD τ).loc b) := fun c b => HostSide.V1 m c b

/-- What the region's write-backs leave in the output's array. -/
abbrev outOf : HostSide.Out (F := F) := fun c => (dat (Vin m) c).arrAt 3 cfg0.N

/-- The one pipeline's proof data, at the region's entry contents. -/
def pdats : (p : Fin 1) → (c : Dev nD) → Dat τ (Elt F) Unit ℕ (UR sig nD τ) ℕ (cfgs p) c
  | ⟨0, _⟩ => fun c => dat (Vin m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

theorem out_eq (c : Dev nD) : (dat (Vin m) c).arrAt 3 cfg0.N = HostSide.V2 m (outOf m) c main_v27 := by
  show _ = Function.update (HostSide.V1 m c) _ _ _
  rw [Function.update_self]

set_option backward.isDefEq.respectTransparency.types false in
/-- The region over the thread state: entered from every unscoped buffer at the contents the first host lines leave,
    left with the output's array replaced by what the write-backs leave. -/
def reg : Pipeline.RegionSeg (pcfgs (F := F)) HostSide.adm (pdats m) () defs₀ 𝒱₀ L lv 0 where
  win := winFacts₀0
  block_pos := block_pos0
  stage_whole := stage_whole0
  K := PEmpty
  osem k := k.elim
  ho := Pipeline.OwnSemFacts.none _
  hbody c := (body_obligation (Vin m) c).loose
  hwaits := Pipeline.hwaits_of_owed_zero _ _ _ _ L lv 0 fun _ _ => rfl
  pre c := iprop(StableHlo.held (c : Thread nD τ) (Pipeline.ucRefs τ sig) (HostSide.V1 m c) ∗ R c)
  post c := iprop(StableHlo.held (c : Thread nD τ) (Pipeline.ucRefs τ sig) (HostSide.V2 m (outOf m) c) ∗ R c)
  X c := iprop(∃ r, prngReg c r)
  Y c := iprop(∃ r, prngReg c r)
  Z c := Pipeline.unscopedRest (Ix := Unit) (Name := ℕ) (U := UR sig nD τ) (Lvl := ℕ) spec0 c (Vin m c)
  hentry c := by
    rw [Pipeline.ownSems0_none]
    have hsplit := entry_split (Vin m) c (Vin m c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout (Vin m) c).trans ?_
    unfold Pipeline.ΦA
    iintro ⟨Hr, Hp⟩
    isplitl [Hp]; · iexact Hp
    isplitr; · iempintro
    iexact Hr
  hexit c := by
    have hjoin : (iprop((pdats m 0 c).arrays ((pdats m 0 c).arrAt · cfg0.N) ∗ Pipeline.unscopedRest spec0 c (Vin m c)) : sProp 𝕄)
        ⊢ unscopedBufs c (fun b => HostSide.V2 m (outOf m) c b) :=
      exit_join (Vin m) c (Vin m c) (fun b => HostSide.V2 m (outOf m) c b) (fun _ => rfl) (out_eq m c)
        (fun b hb => HostSide.V2_of m (outOf m) c b (by simpa using hb))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE RUN of the kernel program. -/
theorem run : θ_run defs (onTc (τ := τ) (main (F := F))) ⟨m, fun _ => 0, ρ⟩ (fun r => ∀ c : Dev nD, ∀ b ∈ Pipeline.ucRefs τ sig,
      r.2.mem ((c : Thread nD τ).1, b) = HostSide.Vlast m (outOf m) c b) :=
  HostSide.run_cond m emb₁ () 𝒱₀ L lv (fun _ _ => rfl) ρ (outOf m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => R)
    (Pipeline.initEach L lv fun c => by
      iintro ⟨⟨-, HO, -, Hp, -⟩, -⟩
      imodintro
      isplitl [Hp]; · iexists _; iexact Hp
      iexists ∅; iexact HO)
    (fun c => by iintro ⟨-, H⟩; iexact H)
    (reg m) (fun c => .rfl) (fun c => .rfl)

end Cert.KernelIdeal.Adj

end
-- ==== Proof.AdjRunsBits.lean ====
/-
  The weighted-adjacency kernel's region, at the contents `V` the TensorCore's buffers hold when the region is
  entered: the blocks its windows read, and where on the 2 x 2 x 4 grid its two conditionals hold.  The grid is
  walked with the contraction axis k innermost, so the point t has k = t mod 4: the accumulator is reset at the
  points t ≡ 0 and copied to the output block at the points t ≡ 3 (mod 4); at every other point the output window
  is idle and is not written back.
-/
import proofs.«112395_j72773925864042_1_alg».proof.Proof.Gen.Kernel.Launch
import proofs.«112395_j72773925864042_1_alg».proof.Proof.Gen.Kernel.Skeleton
import proofs.«112395_j72773925864042_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Adj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before0_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The two conditionals over the grid -/

/-- The accumulator is reset: k = 0. -/
abbrev isFirst (i : grid0.Coords) : Prop := (Scalar.cmpi .ne (Scalar.extui (Scalar.cmpi .eq (BitVec.ofNat 32 (i 2).val) 0#32)) 0#32) = 1#1
theorem isFirst_iff : ∀ t : Fin cfg0.N, isFirst (grid0.coords t) ↔ t.val % 4 = 0 :=
  (by decide +kernel : ∀ t : Fin grid0.N, isFirst (grid0.coords t) ↔ t.val % 4 = 0)
/-- The accumulator is copied out: k = 3. -/
abbrev isLast (i : grid0.Coords) : Prop := k0_cond2 i = 1#1
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3 : ∀ t : Fin cfg0.N, ¬isLast (grid0.coords t) → cfg0.idle 3 (grid0.coords t) = true := by decide +kernel
theorem noFlush3 : ∀ t : Fin cfg0.N, ¬isLast (grid0.coords t) → (cfg0.win 3).flush t = false := by decide +kernel
theorem live3 : ∀ t : Fin cfg0.N, isLast (grid0.coords t) → cfg0.idle 3 (grid0.coords t) = false := by decide +kernel

/-! ## The staging memrefs and the accumulator -/

abbrev VO : View sig .tc .vmem S1024x1024 .f32 := (Memref.whole cc0_stg3_0 : Memref sig .tc .vmem S1024x1024 .f32).view
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
/-- The accumulator: a whole scoped buffer of the kernel's own. -/
abbrev accM : Memref sig .tc .vmem S1024x1024 .f32 := Memref.whole cc0_scratch0
abbrev VA : View sig .tc .vmem S1024x1024 .f32 := accM.view

/-- The scoped rest and the generator register, with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Adj

end
-- ==== Proof.AdjRunFirstBits.lean ====
/-
  The body at a point with k = 0 (and k ≠ 3): the accumulator is zeroed, then the product of the scaled row block
  with the column block is added to it; the output block is left as found.
-/
import proofs.«112395_j72773925864042_1_alg».proof.Proof.AdjRunsBits

set_option maxRecDepth 16384

noncomputable section

namespace Cert.Kernel.Adj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The pieces the body's stores leave in the accumulator at a first point, with the body's triple on whole memrefs:
    the three inputs at their contents and the idle output at `xi` are handed back untouched, the accumulator, found at
    anything, ends with the pieces written. -/
noncomputable def runFirst (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : isFirst i) (hc1 : ¬isLast i)
    (x0 : Vec F S1024x1024 .f32) (x1 : Vec F S1024x1024 .f32) (x2 : Vec F S1x1024 .f32) :
    Σ' (L3 : List (View.Piece (Elt F) S1024x1024 .f32)), { LS : List (View.Piece (Elt F) S1024x1024 .f32) //
      ∀ (xi : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__adj_kernel i arg3 harg3 arg4 harg4 arg5 harg5 arg6 harg6 arg7 harg7) K } := by
  refine ⟨[], ?_, fun xi E K => ?run⟩
  case run =>
    simp only [cc0__adj_kernel_eq_skeleton]; unfold cc0__adj_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Adj

end
-- ==== Proof.AdjRunMidBits.lean ====
/-
  The body at a point with 0 < k < 3: the product of the scaled row block with the column block is added to the
  accumulator, which holds what the point before left; the output block is left as found.
-/
import proofs.«112395_j72773925864042_1_alg».proof.Proof.AdjRunFirstBits

set_option maxRecDepth 16384

noncomputable section

namespace Cert.Kernel.Adj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The pieces the body's stores leave in the accumulator at a middle point, with the body's triple. -/
noncomputable def runMid (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : ¬isLast i)
    (x0 : Vec F S1024x1024 .f32) (x1 : Vec F S1024x1024 .f32) (x2 : Vec F S1x1024 .f32) (xa : Vec F S1024x1024 .f32) :
    Σ' (L3 : List (View.Piece (Elt F) S1024x1024 .f32)), { LS : List (View.Piece (Elt F) S1024x1024 .f32) //
      ∀ (xi : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare xa
            ∗ (iprop(owns (c : Thread nD τ) arg3 fullShare x0 ∗ owns (c : Thread nD τ) arg4 fullShare x1 ∗ owns (c : Thread nD τ) arg5 fullShare x2 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__adj_kernel i arg3 harg3 arg4 harg4 arg5 harg5 arg6 harg6 arg7 harg7) K } := by
  refine ⟨[], ?_, fun xi E K => ?run⟩
  case run =>
    simp only [cc0__adj_kernel_eq_skeleton]; unfold cc0__adj_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Adj

end
-- ==== Proof.AdjRunLastBits.lean ====
/-
  The body at a point with k = 3: the last product is added to the accumulator and the accumulator is stored into
  the output block.
-/
import proofs.«112395_j72773925864042_1_alg».proof.Proof.AdjRunMidBits

set_option maxRecDepth 16384

noncomputable section

namespace Cert.Kernel.Adj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The pieces the body's stores leave in the output block and in the accumulator at a last point, with the body's
    triple. -/
noncomputable def runLast (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : isLast i)
    (x0 : Vec F S1024x1024 .f32) (x1 : Vec F S1024x1024 .f32) (x2 : Vec F S1x1024 .f32) (xa : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xa
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc0__adj_kernel i arg3 harg3 arg4 harg4 arg5 harg5 arg6 harg6 arg7 harg7) K } := by
  refine ⟨?_, ?_, fun E K => ?run⟩
  case run =>
    simp only [cc0__adj_kernel_eq_skeleton]; unfold cc0__adj_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Adj

end
-- ==== Proof.AdjBodyBits.lean ====
/-
  What the accumulator and the output block hold after each grid point, the proof data of the pipeline, and the body
  obligation.  After the point t the accumulator holds, for the block pair (i, j) of t, the sum over the contraction
  blocks 0 … k of the products (row block scaled by the weights) · (column block)ᵀ, started from zero at k = 0; at
  k = 3 the output block is that accumulator.  The one array both row and column windows read is held by each at
  half a share.
-/
import proofs.«112395_j72773925864042_1_alg».proof.Proof.AdjRunLastBits

set_option maxRecDepth 16384

noncomputable section

namespace Cert.Kernel.Adj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem coverFirst (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : isFirst i) (hc1 : ¬isLast i)
    (x0 : Vec F S1024x1024 .f32) (x1 : Vec F S1024x1024 .f32) (x2 : Vec F S1x1024 .f32) (y : S1024x1024.Idx) :
    ∃ pc ∈ (runFirst c i arg3 harg3 arg4 harg4 arg5 harg5 arg6 harg6 arg7 harg7 hc0 hc1 x0 x1 x2).2.1, y ∈ pc.1.set :=
  View.cover_of_tiledL (runFirst c i arg3 harg3 arg4 harg4 arg5 harg5 arg6 harg6 arg7 harg7 hc0 hc1 x0 x1 x2).2.1 S1024x1024.size (by sl_kernel_rfl) y
/-- The accumulator after a first point: its pieces read back. -/
def accFirst (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : isFirst i) (hc1 : ¬isLast i)
    (x0 : Vec F S1024x1024 .f32) (x1 : Vec F S1024x1024 .f32) (x2 : Vec F S1x1024 .f32) : Vec F S1024x1024 .f32 :=
  VA.read (Elt F) (VA.writes (Elt F) VA.junk (runFirst c i arg3 harg3 arg4 harg4 arg5 harg5 arg6 harg6 arg7 harg7 hc0 hc1 x0 x1 x2).2.1)

theorem coverMid (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : ¬isLast i)
    (x0 : Vec F S1024x1024 .f32) (x1 : Vec F S1024x1024 .f32) (x2 : Vec F S1x1024 .f32) (xa : Vec F S1024x1024 .f32) (y : S1024x1024.Idx) :
    ∃ pc ∈ (runMid c i arg3 harg3 arg4 harg4 arg5 harg5 arg6 harg6 arg7 harg7 hc0 hc1 x0 x1 x2 xa).2.1, y ∈ pc.1.set :=
  View.cover_of_tiledL (runMid c i arg3 harg3 arg4 harg4 arg5 harg5 arg6 harg6 arg7 harg7 hc0 hc1 x0 x1 x2 xa).2.1 S1024x1024.size (by sl_kernel_rfl) y
/-- The accumulator after a middle point. -/
def accMid (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : ¬isLast i)
    (x0 : Vec F S1024x1024 .f32) (x1 : Vec F S1024x1024 .f32) (x2 : Vec F S1x1024 .f32) (xa : Vec F S1024x1024 .f32) : Vec F S1024x1024 .f32 :=
  VA.read (Elt F) (VA.writes (Elt F) VA.junk (runMid c i arg3 harg3 arg4 harg4 arg5 harg5 arg6 harg6 arg7 harg7 hc0 hc1 x0 x1 x2 xa).2.1)

theorem coverLast (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : isLast i)
    (x0 : Vec F S1024x1024 .f32) (x1 : Vec F S1024x1024 .f32) (x2 : Vec F S1x1024 .f32) (xa : Vec F S1024x1024 .f32) (y : S1024x1024.Idx) :
    ∃ pc ∈ (runLast c i arg3 harg3 arg4 harg4 arg5 harg5 arg6 harg6 arg7 harg7 hc0 hc1 x0 x1 x2 xa).2.1, y ∈ pc.1.set :=
  View.cover_of_tiledL (runLast c i arg3 harg3 arg4 harg4 arg5 harg5 arg6 harg6 arg7 harg7 hc0 hc1 x0 x1 x2 xa).2.1 S1024x1024.size (by sl_kernel_rfl) y
/-- The accumulator after a last point. -/
def accLast (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : isLast i)
    (x0 : Vec F S1024x1024 .f32) (x1 : Vec F S1024x1024 .f32) (x2 : Vec F S1x1024 .f32) (xa : Vec F S1024x1024 .f32) : Vec F S1024x1024 .f32 :=
  VA.read (Elt F) (VA.writes (Elt F) VA.junk (runLast c i arg3 harg3 arg4 harg4 arg5 harg5 arg6 harg6 arg7 harg7 hc0 hc1 x0 x1 x2 xa).2.1)
theorem coverOut (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : isLast i)
    (x0 : Vec F S1024x1024 .f32) (x1 : Vec F S1024x1024 .f32) (x2 : Vec F S1x1024 .f32) (xa : Vec F S1024x1024 .f32) (y : S1024x1024.Idx) :
    ∃ pc ∈ (runLast c i arg3 harg3 arg4 harg4 arg5 harg5 arg6 harg6 arg7 harg7 hc0 hc1 x0 x1 x2 xa).1, y ∈ pc.1.set :=
  View.cover_of_tiledL (runLast c i arg3 harg3 arg4 harg4 arg5 harg5 arg6 harg6 arg7 harg7 hc0 hc1 x0 x1 x2 xa).1 S1024x1024.size (by sl_kernel_rfl) y
/-- The output block after a last point. -/
def outLast (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : isLast i)
    (x0 : Vec F S1024x1024 .f32) (x1 : Vec F S1024x1024 .f32) (x2 : Vec F S1x1024 .f32) (xa : Vec F S1024x1024 .f32) : Vec F S1024x1024 .f32 :=
  VO.read (Elt F) (VO.writes (Elt F) VO.junk (runLast c i arg3 harg3 arg4 harg4 arg5 harg5 arg6 harg6 arg7 harg7 hc0 hc1 x0 x1 x2 xa).1)

/-! ## The accumulation -/

/-- What the accumulator holds after the body at position `n`: the case of `n mod 4`, run at the point's memrefs and
    input blocks, over what the point before left. -/
def accAt (c : Dev nD) : (n : ℕ) → n < cfg0.N → Vec F S1024x1024 .f32
  | 0, hn => accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((isFirst_iff ⟨0, hn⟩).mpr (Nat.zero_mod _)) (fun h => (fun h => by (try dsimp only at h); omega) ((isLast_iff ⟨0, hn⟩).mp h)) (blk V c 0 ⟨0, hn⟩) (blk V c 1 ⟨0, hn⟩) (blk V c 2 ⟨0, hn⟩)
  | n + 1, hn =>
    if h0 : (n + 1) % 4 = 0 then
      if h1 : (n + 1) % 4 = 3 then
        False.elim (by omega)
      else
        accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩)
    else
      if h1 : (n + 1) % 4 = 3 then
        accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (accAt c n (Nat.lt_of_succ_lt hn))
      else
        accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (accAt c n (Nat.lt_of_succ_lt hn))

theorem accAt_first (c : Dev nD) (t : Fin cfg0.N) (h0 : t.val % 4 = 0) (h1 : ¬t.val % 4 = 3) :
    accAt V c t.val t.isLt = accFirst c (grid0.coords t) (ms0 t) (hs0 t) (ms1 t) (hs1 t) (ms2 t) (hs2 t) (ms3 t) (hs3 t) accM (Memref.isWhole_whole _) ((isFirst_iff t).mpr h0) (fun h => h1 ((isLast_iff t).mp h)) (blk V c 0 t) (blk V c 1 t) (blk V c 2 t) := by
  obtain ⟨n, hn⟩ := t
  cases n with
  | zero => exact rfl
  | succ n => exact (dif_pos h0).trans ((dif_neg h1).trans rfl)

theorem accAt_mid (c : Dev nD) (t : Fin cfg0.N) (h0 : ¬t.val % 4 = 0) (h1 : ¬t.val % 4 = 3) :
    accAt V c t.val t.isLt = accMid c (grid0.coords t) (ms0 t) (hs0 t) (ms1 t) (hs1 t) (ms2 t) (hs2 t) (ms3 t) (hs3 t) accM (Memref.isWhole_whole _) (fun h => h0 ((isFirst_iff t).mp h)) (fun h => h1 ((isLast_iff t).mp h)) (blk V c 0 t) (blk V c 1 t) (blk V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg0.N) (h0 : ¬t.val % 4 = 0) (h1 : t.val % 4 = 3) :
    accAt V c t.val t.isLt = accLast c (grid0.coords t) (ms0 t) (hs0 t) (ms1 t) (hs1 t) (ms2 t) (hs2 t) (ms3 t) (hs3 t) accM (Memref.isWhole_whole _) (fun h => h0 ((isFirst_iff t).mp h)) ((isLast_iff t).mpr h1) (blk V c 0 t) (blk V c 1 t) (blk V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block holds after the body at a point: at a last point the case's store over what the point before
    left in the accumulator; elsewhere the window is idle and this is not consulted. -/
def outAt (c : Dev nD) (t : Fin cfg0.N) : Vec F S1024x1024 .f32 :=
  if h1 : t.val % 4 = 3 then
    outLast c (grid0.coords t) (ms0 t) (hs0 t) (ms1 t) (hs1 t) (ms2 t) (hs2 t) (ms3 t) (hs3 t) accM (Memref.isWhole_whole _) (fun h => (by omega : ¬ t.val % 4 = 0) ((isFirst_iff t).mp h)) ((isLast_iff t).mpr h1) (blk V c 0 t) (blk V c 1 t) (blk V c 2 t) (accAt V c (t.val - 1) (Nat.lt_of_le_of_lt (Nat.sub_le _ _) t.isLt))
  else VO.read (Elt F) VO.junk

theorem outAt_last (c : Dev nD) (t : Fin cfg0.N) (h0 : ¬t.val % 4 = 0) (h1 : t.val % 4 = 3) :
    outAt V c t = outLast c (grid0.coords t) (ms0 t) (hs0 t) (ms1 t) (hs1 t) (ms2 t) (hs2 t) (ms3 t) (hs3 t) accM (Memref.isWhole_whole _) (fun h => h0 ((isFirst_iff t).mp h)) ((isLast_iff t).mpr h1) (blk V c 0 t) (blk V c 1 t) (blk V c 2 t) (accAt V c (t.val - 1) (Nat.lt_of_le_of_lt (Nat.sub_le _ _) t.isLt)) := by
  unfold outAt; exact dif_pos h1

/-- The region invariant before position `n`: before the first point the scoped rest at anything; afterwards the
    accumulator at what the point before left, and the generator register at some state. -/
def PhiS (c : Dev nD) : (n : ℕ) → n ≤ cfg0.N → sProp 𝕄
  | 0, _ => Pipeline.ΦA spec0 c
  | n + 1, hn => iprop(iprop(owns (c : Thread nD τ) accM fullShare (accAt V c n hn)) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare (accAt V c n hn)) ∗ (∃ r, prngReg c r)) := rfl
theorem PhiS_pos (c : Dev nD) (n : ℕ) (h : n ≤ cfg0.N) (hz : n ≠ 0) :
    PhiS V c n h = iprop(iprop(owns (c : Thread nD τ) accM fullShare (accAt V c (n - 1) (by omega))) ∗ (∃ r, prngReg c r)) := by
  cases n with
  | zero => exact absurd rfl hz
  | succ n => rfl

/-! ## The pipeline's proof data -/

/-- The proof data on core `c`: the arrays as the region finds them; after the body each input's buffer at its block
    and the output's at `outAt`; the invariant `PhiS`; nothing owed; the array that the row and the column windows
    both read held by each at half a share, the weights' array and the output's at the full share. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => outAt V c t
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = outAt V c t := by dsimp only [dat]
theorem before0 (c : Dev nD) (t : Fin cfg0.N) (d) : (dat V c).before 0 t d = blk V c 0 t :=
  before0_of V (dat V c) (A_eq V c 0) (after0 V c) t d
theorem before1 (c : Dev nD) (t : Fin cfg0.N) (d) : (dat V c).before 1 t d = blk V c 1 t :=
  before1_of V (dat V c) (A_eq V c 1) (after1 V c) t d
theorem before2 (c : Dev nD) (t : Fin cfg0.N) (d) : (dat V c).before 2 t d = blk V c 2 t :=
  before2_of V (dat V c) (A_eq V c 2) (after2 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves0 (c : Dev nD) (t : Fin cfg0.N) : (dat V c).leavesExact 0 t = owns (c : Thread nD τ) (ms0 t) fullShare (blk V c 0 t) := by
  rw [show (dat V c).leavesExact 0 t = owns (c : Thread nD τ) (ms0 t) fullShare ((dat V c).after 0 t) from by
    unfold Dat.leavesExact; rw [live0 t], after0]
theorem leaves1 (c : Dev nD) (t : Fin cfg0.N) : (dat V c).leavesExact 1 t = owns (c : Thread nD τ) (ms1 t) fullShare (blk V c 1 t) := by
  rw [show (dat V c).leavesExact 1 t = owns (c : Thread nD τ) (ms1 t) fullShare ((dat V c).after 1 t) from by
    unfold Dat.leavesExact; rw [live1 t], after1]
theorem leaves2 (c : Dev nD) (t : Fin cfg0.N) : (dat V c).leavesExact 2 t = owns (c : Thread nD τ) (ms2 t) fullShare (blk V c 2 t) := by
  rw [show (dat V c).leavesExact 2 t = owns (c : Thread nD τ) (ms2 t) fullShare ((dat V c).after 2 t) from by
    unfold Dat.leavesExact; rw [live2 t], after2]

set_option maxHeartbeats 4800000 in
/-- The body at any point: the inputs' memrefs hold their blocks; `t mod 4` says which case the point is in; the
    invariant hands the body the accumulator at what the point before left (at anything at the first point) and takes it
    back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).owesAt () t.succ = (dat V c).owesAt () t.castSucc from rfl]
  rw [show (dat V c).Φ t.succ = PhiS V c (t.val + 1) t.isLt from rfl, PhiS_succ]
  rw [leaves0, leaves1, leaves2]
  have hN : t.val < 16 := lt_of_lt_of_eq t.isLt (show cfg0.N = 16 from N_0)
  by_cases h0 : t.val % 4 = 0
  · have h1 : ¬ t.val % 4 = 3 := by omega
    rw [Dat.leavesExact_idle (dat V c) 3 t (idle3 t (fun h => h1 ((isLast_iff t).mp h))) (noFlush3 t (fun h => h1 ((isLast_iff t).mp h)))]
    rw [accAt_first V c t h0 h1]
    unfold accFirst; (try dsimp only)
    by_cases hz : t.val = 0
    · rw [PhiS_castSucc V c t, PhiS_zero V c _ _ hz, PhiA_eq]
      iintro ⟨⟨HS, Hg⟩, Ho, ⟨%d0, H0⟩, ⟨%d1, H1⟩, ⟨%d2, H2⟩, ⟨%d3, H3⟩⟩
      iapply ((runFirst c (grid0.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HS, Hg⟩, Ho, ⟨%d0, H0⟩, ⟨%d1, H1⟩, ⟨%d2, H2⟩, ⟨%d3, H3⟩⟩
      iapply ((runFirst c (grid0.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat V c).leavesExact 3 t = owns (c : Thread nD τ) (ms3 t) fullShare ((dat V c).after 3 t) from by
        unfold Dat.leavesExact; rw [live3 t ((isLast_iff t).mpr h1)], after3]
      rw [accAt_last V c t h0 h1, outAt_last V c t h0 h1]
      unfold outLast accLast; (try dsimp only)
      rw [PhiS_castSucc V c t, PhiS_pos V c _ _ hz]
      iintro ⟨⟨HS, Hg⟩, Ho, ⟨%d0, H0⟩, ⟨%d1, H1⟩, ⟨%d2, H2⟩, ⟨%d3, H3⟩⟩
      iapply ((runLast c (grid0.coords t) _ _ _ _ _ _ _ _ _ _ (fun h => h0 ((isFirst_iff t).mp h)) ((isLast_iff t).mpr h1) (blk V c 0 t) (blk V c 1 t) (blk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverLast c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverOut c _ _ _ _ _ _ _ _ _ _ _ _ _ _ _ _ _)
    · rw [Dat.leavesExact_idle (dat V c) 3 t (idle3 t (fun h => h1 ((isLast_iff t).mp h))) (noFlush3 t (fun h => h1 ((isLast_iff t).mp h)))]
      rw [accAt_mid V c t h0 h1]
      unfold accMid; (try dsimp only)
      rw [PhiS_castSucc V c t, PhiS_pos V c _ _ hz]
      iintro ⟨⟨HS, Hg⟩, Ho, ⟨%d0, H0⟩, ⟨%d1, H1⟩, ⟨%d2, H2⟩, ⟨%d3, H3⟩⟩
      iapply ((runMid c (grid0.coords t) _ _ _ _ _ _ _ _ _ _ (fun h => h0 ((isFirst_iff t).mp h)) (fun h => h1 ((isLast_iff t).mp h)) (blk V c 0 t) (blk V c 1 t) (blk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverMid c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the scoped rest back: the accumulator's contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨HS, Hg⟩
  isplitl [HS]
  · iexists _; iexact HS
  iexact Hg

theorem hout (c : Dev nD) : (dat V c).Φ (Fin.last cfg0.N) ⊢ Pipeline.ΦA spec0 c :=
  Phi_out V c _ (by rw [Fin.val_last]; have : cfg0.N = 16 := N_0; omega)

end Cert.Kernel.Adj

end
-- ==== Proof.AdjShareBits.lean ====
/-
  The region's arrays out of the core's unscoped buffers and back.  The row window and the column window read one
  array: its buffer, held whole, is split into two half shares at the region's entry, one per window, and the halves
  are joined again at the exit (an input array ends as it began); the weights' array and the output's are held whole.
-/
import proofs.«112395_j72773925864042_1_alg».proof.Proof.AdjBodyBits

set_option maxRecDepth 16384

noncomputable section

namespace Cert.Kernel.Adj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

open Idealize.ShloMosaic.Pipeline (unscopedRest arrBufs)

variable (V : (c : Dev nD) → (b : Ref sig .tc) → Buf (Elt F) ((c : Thread nD τ).loc b))

theorem arrRefs_eq : Finset.univ.image (Pipeline.arrRef spec0) = ({main_arg3, main_v26, main_v27} : Finset (Ref sig .tc)) := by decide

/-- The shares: half each for the two windows on the shared array, whole for the other two. -/
theorem share0 (c : Dev nD) : (dat V c).share 0 = fullShare.left := rfl
theorem share1 (c : Dev nD) : (dat V c).share 1 = fullShare.right := rfl
theorem share2 (c : Dev nD) : (dat V c).share 2 = fullShare := rfl
theorem share3 (c : Dev nD) : (dat V c).share 3 = fullShare := rfl

/-- The pipeline's arrays at contents `G`, window by window, over the three buffers behind them. -/
theorem arrays_eq (c : Dev nD) (G : (w : Fin cfg0.W) → Buf (Elt F) ((cfg0.win w).arr.view.loc (c.tc : Thread nD τ))) :
    ((dat V c).arrays G : sProp 𝕄)
      = iprop((((c.tc : Thread nD τ).loc main_arg3) ↦{fullShare.left} G 0) ∗ (((c.tc : Thread nD τ).loc main_arg3) ↦{fullShare.right} G 1)
          ∗ (((c.tc : Thread nD τ).loc main_v26) ↦{fullShare} G 2) ∗ (((c.tc : Thread nD τ).loc main_v27) ↦{fullShare} G 3)) := by
  unfold Dat.arrays
  rw [bigSep_W0, share0, share1, share2, share3, (arr_whole0 0).set_eq_univ, (arr_whole0 2).set_eq_univ, (arr_whole0 3).set_eq_univ]

/-- The three buffers behind the four windows' arrays, one by one. -/
theorem arrBufs_eq (c : Dev nD) (Vc : (b : Ref sig .tc) → Buf (Elt F) ((c.tc : Thread nD τ).loc b)) :
    (Pipeline.arrBufs spec0 c Vc : sProp 𝕄)
      = iprop((((c.tc : Thread nD τ).loc main_arg3) ↦{fullShare} Vc main_arg3)
          ∗ (((c.tc : Thread nD τ).loc main_v26) ↦{fullShare} Vc main_v26) ∗ (((c.tc : Thread nD τ).loc main_v27) ↦{fullShare} Vc main_v27)) := by
  unfold Pipeline.arrBufs
  rw [arrRefs_eq, bigSep_insert (by decide), bigSep_insert (by decide), BI.bigSep_singleton]
  rfl

/-- ENTRY: the core's unscoped buffers at `Vc` are the pipeline's arrays at their entry contents and the unscoped rest. -/
theorem entry_split (c : Dev nD) (Vc : (b : Ref sig .tc) → Buf (Elt F) ((c.tc : Thread nD τ).loc b))
    (hA : ∀ w, (dat V c).A w = Vc (Pipeline.arrRef spec0 w)) :
    (unscopedBufs c Vc : sProp 𝕄) ⊢ iprop((dat V c).arrays ((dat V c).arrAt · 0) ∗ unscopedRest spec0 c Vc) := by
  rw [Pipeline.unscopedBufs_split₀ cfgs 0 (by decide) c Vc]
  refine sep_mono ?_ .rfl
  rw [arrays_eq]
  rw [arrBufs_eq]
  rw [show (dat V c).arrAt 0 0 = Vc main_arg3 from hA 0, show (dat V c).arrAt 1 0 = Vc main_arg3 from hA 1,
    show (dat V c).arrAt 2 0 = Vc main_v26 from hA 2, show (dat V c).arrAt 3 0 = Vc main_v27 from hA 3]
  iintro ⟨Ha, Hw, Ho⟩
  ihave Ha' := (pointsTo_share (PosShare.mem_left_op_right fullShare)).1 $$ Ha
  icases Ha' with ⟨Hl, Hr⟩
  isplitl [Hl]; · iexact Hl
  isplitl [Hr]; · iexact Hr
  isplitl [Hw]; · iexact Hw
  iexact Ho

/-- EXIT: the arrays after the last point — the inputs as entered, the output at what the write-backs left — and the
    unscoped rest are the core's unscoped buffers at any valuation that has the output's array at that and agrees with
    the entry contents elsewhere. -/
theorem exit_join (c : Dev nD) (Vc Vc' : (b : Ref sig .tc) → Buf (Elt F) ((c.tc : Thread nD τ).loc b))
    (hA : ∀ w, (dat V c).A w = Vc (Pipeline.arrRef spec0 w))
    (hout : (dat V c).arrAt 3 cfg0.N = Vc' main_v27) (hrest : ∀ b, b ≠ main_v27 → Vc' b = Vc b) :
    iprop((dat V c).arrays ((dat V c).arrAt · cfg0.N) ∗ unscopedRest spec0 c Vc) ⊢ (unscopedBufs c Vc' : sProp 𝕄) := by
  rw [Pipeline.unscopedBufs_split₀ cfgs 0 (by decide) c Vc']
  refine sep_mono ?_ (Entails.of_eq ?_)
  · rw [arrays_eq]
    rw [arrBufs_eq]
    rw [show (dat V c).arrAt 0 cfg0.N = Vc' main_arg3 from ((dat V c).arrAt_in 0 rfl _).trans ((hA 0).trans (hrest main_arg3 (by decide)).symm),
      show (dat V c).arrAt 1 cfg0.N = Vc' main_arg3 from ((dat V c).arrAt_in 1 rfl _).trans ((hA 1).trans (hrest main_arg3 (by decide)).symm),
      show (dat V c).arrAt 2 cfg0.N = Vc' main_v26 from ((dat V c).arrAt_in 2 rfl _).trans ((hA 2).trans (hrest main_v26 (by decide)).symm),
      hout]
    iintro ⟨Hl, Hr, Hw, Ho⟩
    isplitl [Hl Hr]
    · iapply (pointsTo_share (PosShare.mem_left_op_right fullShare)).2
      isplitl [Hl]; · iexact Hl
      iexact Hr
    isplitl [Hw]; · iexact Hw
    iexact Ho
  · unfold Pipeline.unscopedRest
    exact bigSep_congr fun b hb => by
      rw [hrest b (fun e => (Finset.mem_sdiff.mp hb).2 (by rw [arrRefs_eq, e]; decide))]

end Cert.Kernel.Adj

end
-- ==== Proof.HostSideBits.lean ====
/- The host side of the program's run. @main is: a stretch of 33 host operations that computes the edge weights,
   one kernel region, which may change the single buffer `main_v27`, and seventeen further stretches of host
   operations that compute the four results. Between two items core `c` holds every unscoped TensorCore buffer whole
   at a valuation: the launch contents, then `StableHlo.after` each stretch in turn, the region's buffer replaced by
   an unknown `out c`. Given the region's segment record entered from the state before it and left at the state after
   it, every weakly fair execution of @main terminates and every unscoped buffer ends at the last valuation. The
   arguments are written by no item, so they end as launched; and the last valuation is `StableHlo.after` the
   concatenation of the seventeen stretches from the valuation the region leaves. -/
import proofs.«112395_j72773925864042_1_alg».proof.Proof.Gen.Kernel.Launch
import Idealize.ShloMosaic.Lib.Pipeline.Frame
import Idealize.ShloMosaic.Lib.Pipeline.Regions

-- deciding membership among the program's 185 references recurses past the default depth
set_option maxRecDepth 1252

noncomputable section

namespace Cert.Kernel.HostSide

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The buffers' contents between items -/

/-- What the region leaves in `main_v27`, per core: the unknown the valuations below are written over. -/
abbrev Out : Type := (c : Dev nD) → Buf (Elt F) ((c : Thread nD τ).loc main_v27)

variable (m : (ℓ : Loc nD τ sig) → Buf (Elt F) ℓ) (out : Out (F := F))

/-- Core `c`'s unscoped buffers at launch. -/
abbrev V0 (c : Dev nD) : Valuation τ sig (Elt F) := fun b => m (c, b)
/-- Core `c`'s unscoped buffers after item 0, the host stretch `hostOps0`. -/
abbrev V1 (c : Dev nD) : Valuation τ sig (Elt F) := StableHlo.after hostOps0 (V0 m c)
/-- Core `c`'s unscoped buffers after item 1, the region, which may change `main_v27`. -/
abbrev V2 (c : Dev nD) : Valuation τ sig (Elt F) := Function.update (V1 m c) main_v27 (out c)
/-- Core `c`'s unscoped buffers after item 2, the host stretch `hostOps1`. -/
abbrev V3 (c : Dev nD) : Valuation τ sig (Elt F) := StableHlo.after hostOps1 (V2 m out c)
/-- Core `c`'s unscoped buffers after item 3, the host stretch `hostOps1_1`. -/
abbrev V4 (c : Dev nD) : Valuation τ sig (Elt F) := StableHlo.after hostOps1_1 (V3 m out c)
/-- Core `c`'s unscoped buffers after item 4, the host stretch `hostOps1_2`. -/
abbrev V5 (c : Dev nD) : Valuation τ sig (Elt F) := StableHlo.after hostOps1_2 (V4 m out c)
/-- Core `c`'s unscoped buffers after item 5, the host stretch `hostOps1_3`. -/
abbrev V6 (c : Dev nD) : Valuation τ sig (Elt F) := StableHlo.after hostOps1_3 (V5 m out c)
/-- Core `c`'s unscoped buffers after item 6, the host stretch `hostOps1_4`. -/
abbrev V7 (c : Dev nD) : Valuation τ sig (Elt F) := StableHlo.after hostOps1_4 (V6 m out c)
/-- Core `c`'s unscoped buffers after item 7, the host stretch `hostOps1_5`. -/
abbrev V8 (c : Dev nD) : Valuation τ sig (Elt F) := StableHlo.after hostOps1_5 (V7 m out c)
/-- Core `c`'s unscoped buffers after item 8, the host stretch `hostOps1_6`. -/
abbrev V9 (c : Dev nD) : Valuation τ sig (Elt F) := StableHlo.after hostOps1_6 (V8 m out c)
/-- Core `c`'s unscoped buffers after item 9, the host stretch `hostOps1_7`. -/
abbrev V10 (c : Dev nD) : Valuation τ sig (Elt F) := StableHlo.after hostOps1_7 (V9 m out c)
/-- Core `c`'s unscoped buffers after item 10, the host stretch `hostOps1_8`. -/
abbrev V11 (c : Dev nD) : Valuation τ sig (Elt F) := StableHlo.after hostOps1_8 (V10 m out c)
/-- Core `c`'s unscoped buffers after item 11, the host stretch `hostOps1_9`. -/
abbrev V12 (c : Dev nD) : Valuation τ sig (Elt F) := StableHlo.after hostOps1_9 (V11 m out c)
/-- Core `c`'s unscoped buffers after item 12, the host stretch `hostOps1_10`. -/
abbrev V13 (c : Dev nD) : Valuation τ sig (Elt F) := StableHlo.after hostOps1_10 (V12 m out c)
/-- Core `c`'s unscoped buffers after item 13, the host stretch `hostOps1_11`. -/
abbrev V14 (c : Dev nD) : Valuation τ sig (Elt F) := StableHlo.after hostOps1_11 (V13 m out c)
/-- Core `c`'s unscoped buffers after item 14, the host stretch `hostOps1_12`. -/
abbrev V15 (c : Dev nD) : Valuation τ sig (Elt F) := StableHlo.after hostOps1_12 (V14 m out c)
/-- Core `c`'s unscoped buffers after item 15, the host stretch `hostOps1_13`. -/
abbrev V16 (c : Dev nD) : Valuation τ sig (Elt F) := StableHlo.after hostOps1_13 (V15 m out c)
/-- Core `c`'s unscoped buffers after item 16, the host stretch `hostOps1_14`. -/
abbrev V17 (c : Dev nD) : Valuation τ sig (Elt F) := StableHlo.after hostOps1_14 (V16 m out c)
/-- Core `c`'s unscoped buffers after item 17, the host stretch `hostOps1_15`. -/
abbrev V18 (c : Dev nD) : Valuation τ sig (Elt F) := StableHlo.after hostOps1_15 (V17 m out c)
/-- Core `c`'s unscoped buffers after item 18, the host stretch `hostOps1_16`. -/
abbrev V19 (c : Dev nD) : Valuation τ sig (Elt F) := StableHlo.after hostOps1_16 (V18 m out c)
/-- Core `c`'s unscoped buffers when @main returns. -/
abbrev Vlast (c : Dev nD) : Valuation τ sig (Elt F) := V19 m out c

/-! ## What the host stretches write -/

theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_c, main_v0, main_v1, main_c_0, main_v2, main_v3, main_v4, main_v5, main_v6, main_c_1, main_v7, main_v8, main_c_2, main_v9, main_v10, main_v11, main_v12, main_v13, main_v14, main_v15, main_v16, main_v17, main_v18, main_v19, main_v20, main_cst, main_v21, main_v22, main_cst_3, main_v23, main_v24, main_v25, main_v26]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_v28, main_v29, main_v30, main_v31, main_cst_4, main_v32, main_v33, main_v34, main_v35, main_v36, main_v37, main_v38, main_v39, main_cst_5, main_v40, main_v41, main_v42, main_v43, main_v44, main_v45, main_v46, main_v47, main_v48, main_cst_6, main_v49, main_v50, main_v51, main_cst_7, main_v52, main_v53, main_v54, main_v55]
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_1_fresh : (hostOps1_1 : List (HloOp τ sig (Elt F))).Forall fun op => op.fresh = ∅ := by
  simp only [List.Forall]; repeat' constructor
/-- The references `hostOps1_1`'s operations write. -/
abbrev hostOps1_1_W : List (Ref sig .tc) := [main_call0_v0, main_call0_cst, main_call0_v1, main_v56]
theorem hostOps1_1_writes : (hostOps1_1 : List (HloOp τ sig (Elt F))).Forall fun op => op.writes ⊆ (hostOps1_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_2_fresh : (hostOps1_2 : List (HloOp τ sig (Elt F))).Forall fun op => op.fresh = ∅ := by
  simp only [List.Forall]; repeat' constructor
/-- The references `hostOps1_2`'s operations write. -/
abbrev hostOps1_2_W : List (Ref sig .tc) := [main_cst_8, main_v57, main_v58, main_v59]
theorem hostOps1_2_writes : (hostOps1_2 : List (HloOp τ sig (Elt F))).Forall fun op => op.writes ⊆ (hostOps1_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_3_fresh : (hostOps1_3 : List (HloOp τ sig (Elt F))).Forall fun op => op.fresh = ∅ := by
  simp only [List.Forall]; repeat' constructor
/-- The references `hostOps1_3`'s operations write. -/
abbrev hostOps1_3_W : List (Ref sig .tc) := [main_call1_v0, main_call1_cst, main_call1_v1, main_v60]
theorem hostOps1_3_writes : (hostOps1_3 : List (HloOp τ sig (Elt F))).Forall fun op => op.writes ⊆ (hostOps1_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_4_fresh : (hostOps1_4 : List (HloOp τ sig (Elt F))).Forall fun op => op.fresh = ∅ := by
  simp only [List.Forall]; repeat' constructor
/-- The references `hostOps1_4`'s operations write. -/
abbrev hostOps1_4_W : List (Ref sig .tc) := [main_cst_9, main_v61, main_v62, main_v63, main_v64, main_v65, main_v66, main_v67, main_v68, main_cst_10, main_v69, main_v70, main_v71, main_cst_11, main_v72, main_v73, main_v74, main_v75]
theorem hostOps1_4_writes : (hostOps1_4 : List (HloOp τ sig (Elt F))).Forall fun op => op.writes ⊆ (hostOps1_4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_5_fresh : (hostOps1_5 : List (HloOp τ sig (Elt F))).Forall fun op => op.fresh = ∅ := by
  simp only [List.Forall]; repeat' constructor
/-- The references `hostOps1_5`'s operations write. -/
abbrev hostOps1_5_W : List (Ref sig .tc) := [main_call2_v0, main_call2_cst, main_call2_v1, main_v76]
theorem hostOps1_5_writes : (hostOps1_5 : List (HloOp τ sig (Elt F))).Forall fun op => op.writes ⊆ (hostOps1_5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_6_fresh : (hostOps1_6 : List (HloOp τ sig (Elt F))).Forall fun op => op.fresh = ∅ := by
  simp only [List.Forall]; repeat' constructor
/-- The references `hostOps1_6`'s operations write. -/
abbrev hostOps1_6_W : List (Ref sig .tc) := [main_v77, main_v78, main_v79]
theorem hostOps1_6_writes : (hostOps1_6 : List (HloOp τ sig (Elt F))).Forall fun op => op.writes ⊆ (hostOps1_6_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_7_fresh : (hostOps1_7 : List (HloOp τ sig (Elt F))).Forall fun op => op.fresh = ∅ := by
  simp only [List.Forall]; repeat' constructor
/-- The references `hostOps1_7`'s operations write. -/
abbrev hostOps1_7_W : List (Ref sig .tc) := [main_call3_v0, main_call3_cst, main_call3_v1, main_v80]
theorem hostOps1_7_writes : (hostOps1_7 : List (HloOp τ sig (Elt F))).Forall fun op => op.writes ⊆ (hostOps1_7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_8_fresh : (hostOps1_8 : List (HloOp τ sig (Elt F))).Forall fun op => op.fresh = ∅ := by
  simp only [List.Forall]; repeat' constructor
/-- The references `hostOps1_8`'s operations write. -/
abbrev hostOps1_8_W : List (Ref sig .tc) := [main_v81, main_v82, main_v83, main_v84, main_v85, main_v86, main_v87, main_v88, main_cst_12, main_v89, main_v90, main_v91, main_cst_13, main_v92, main_v93, main_v94, main_v95]
theorem hostOps1_8_writes : (hostOps1_8 : List (HloOp τ sig (Elt F))).Forall fun op => op.writes ⊆ (hostOps1_8_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_9_fresh : (hostOps1_9 : List (HloOp τ sig (Elt F))).Forall fun op => op.fresh = ∅ := by
  simp only [List.Forall]; repeat' constructor
/-- The references `hostOps1_9`'s operations write. -/
abbrev hostOps1_9_W : List (Ref sig .tc) := [main_call4_v0, main_call4_cst, main_call4_v1, main_v96]
theorem hostOps1_9_writes : (hostOps1_9 : List (HloOp τ sig (Elt F))).Forall fun op => op.writes ⊆ (hostOps1_9_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_10_fresh : (hostOps1_10 : List (HloOp τ sig (Elt F))).Forall fun op => op.fresh = ∅ := by
  simp only [List.Forall]; repeat' constructor
/-- The references `hostOps1_10`'s operations write. -/
abbrev hostOps1_10_W : List (Ref sig .tc) := [main_v97, main_v98, main_v99]
theorem hostOps1_10_writes : (hostOps1_10 : List (HloOp τ sig (Elt F))).Forall fun op => op.writes ⊆ (hostOps1_10_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_11_fresh : (hostOps1_11 : List (HloOp τ sig (Elt F))).Forall fun op => op.fresh = ∅ := by
  simp only [List.Forall]; repeat' constructor
/-- The references `hostOps1_11`'s operations write. -/
abbrev hostOps1_11_W : List (Ref sig .tc) := [main_call5_v0, main_call5_cst, main_call5_v1, main_v100]
theorem hostOps1_11_writes : (hostOps1_11 : List (HloOp τ sig (Elt F))).Forall fun op => op.writes ⊆ (hostOps1_11_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_12_fresh : (hostOps1_12 : List (HloOp τ sig (Elt F))).Forall fun op => op.fresh = ∅ := by
  simp only [List.Forall]; repeat' constructor
/-- The references `hostOps1_12`'s operations write. -/
abbrev hostOps1_12_W : List (Ref sig .tc) := [main_v101, main_v102, main_v103, main_v104, main_v105, main_v106, main_v107, main_v108, main_cst_14, main_v109, main_v110, main_v111, main_cst_15, main_v112, main_v113, main_v114, main_v115]
theorem hostOps1_12_writes : (hostOps1_12 : List (HloOp τ sig (Elt F))).Forall fun op => op.writes ⊆ (hostOps1_12_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_13_fresh : (hostOps1_13 : List (HloOp τ sig (Elt F))).Forall fun op => op.fresh = ∅ := by
  simp only [List.Forall]; repeat' constructor
/-- The references `hostOps1_13`'s operations write. -/
abbrev hostOps1_13_W : List (Ref sig .tc) := [main_call6_v0, main_call6_cst, main_call6_v1, main_v116]
theorem hostOps1_13_writes : (hostOps1_13 : List (HloOp τ sig (Elt F))).Forall fun op => op.writes ⊆ (hostOps1_13_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_14_fresh : (hostOps1_14 : List (HloOp τ sig (Elt F))).Forall fun op => op.fresh = ∅ := by
  simp only [List.Forall]; repeat' constructor
/-- The references `hostOps1_14`'s operations write. -/
abbrev hostOps1_14_W : List (Ref sig .tc) := [main_v117, main_v118, main_v119]
theorem hostOps1_14_writes : (hostOps1_14 : List (HloOp τ sig (Elt F))).Forall fun op => op.writes ⊆ (hostOps1_14_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_15_fresh : (hostOps1_15 : List (HloOp τ sig (Elt F))).Forall fun op => op.fresh = ∅ := by
  simp only [List.Forall]; repeat' constructor
/-- The references `hostOps1_15`'s operations write. -/
abbrev hostOps1_15_W : List (Ref sig .tc) := [main_call7_v0, main_call7_cst, main_call7_v1, main_v120]
theorem hostOps1_15_writes : (hostOps1_15 : List (HloOp τ sig (Elt F))).Forall fun op => op.writes ⊆ (hostOps1_15_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_16_fresh : (hostOps1_16 : List (HloOp τ sig (Elt F))).Forall fun op => op.fresh = ∅ := by
  simp only [List.Forall]; repeat' constructor
/-- The references `hostOps1_16`'s operations write. -/
abbrev hostOps1_16_W : List (Ref sig .tc) := [main_v121]
theorem hostOps1_16_writes : (hostOps1_16 : List (HloOp τ sig (Elt F))).Forall fun op => op.writes ⊆ (hostOps1_16_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## What each item leaves unchanged -/

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v27] : List (Ref sig .tc))) : V2 m out c r = V1 m c r := by
  simp only [V2, Function.update_of_ne (StableHlo.devRef_ne_of_ne (List.ne_of_not_mem_cons h) : (Proc.devRef .tc r : DevRef τ sig) ≠ Proc.devRef .tc main_v27)]
theorem V3_of (c : Dev nD) (r : Ref sig .tc) (h : r ∉ hostOps1_W) : V3 m out c r = V2 m out c r :=
  StableHlo.after_of_writes_sub hostOps1 _ hostOps1_writes h
theorem V4_of (c : Dev nD) (r : Ref sig .tc) (h : r ∉ hostOps1_1_W) : V4 m out c r = V3 m out c r :=
  StableHlo.after_of_writes_sub hostOps1_1 _ hostOps1_1_writes h
theorem V5_of (c : Dev nD) (r : Ref sig .tc) (h : r ∉ hostOps1_2_W) : V5 m out c r = V4 m out c r :=
  StableHlo.after_of_writes_sub hostOps1_2 _ hostOps1_2_writes h
theorem V6_of (c : Dev nD) (r : Ref sig .tc) (h : r ∉ hostOps1_3_W) : V6 m out c r = V5 m out c r :=
  StableHlo.after_of_writes_sub hostOps1_3 _ hostOps1_3_writes h
theorem V7_of (c : Dev nD) (r : Ref sig .tc) (h : r ∉ hostOps1_4_W) : V7 m out c r = V6 m out c r :=
  StableHlo.after_of_writes_sub hostOps1_4 _ hostOps1_4_writes h
theorem V8_of (c : Dev nD) (r : Ref sig .tc) (h : r ∉ hostOps1_5_W) : V8 m out c r = V7 m out c r :=
  StableHlo.after_of_writes_sub hostOps1_5 _ hostOps1_5_writes h
theorem V9_of (c : Dev nD) (r : Ref sig .tc) (h : r ∉ hostOps1_6_W) : V9 m out c r = V8 m out c r :=
  StableHlo.after_of_writes_sub hostOps1_6 _ hostOps1_6_writes h
theorem V10_of (c : Dev nD) (r : Ref sig .tc) (h : r ∉ hostOps1_7_W) : V10 m out c r = V9 m out c r :=
  StableHlo.after_of_writes_sub hostOps1_7 _ hostOps1_7_writes h
theorem V11_of (c : Dev nD) (r : Ref sig .tc) (h : r ∉ hostOps1_8_W) : V11 m out c r = V10 m out c r :=
  StableHlo.after_of_writes_sub hostOps1_8 _ hostOps1_8_writes h
theorem V12_of (c : Dev nD) (r : Ref sig .tc) (h : r ∉ hostOps1_9_W) : V12 m out c r = V11 m out c r :=
  StableHlo.after_of_writes_sub hostOps1_9 _ hostOps1_9_writes h
theorem V13_of (c : Dev nD) (r : Ref sig .tc) (h : r ∉ hostOps1_10_W) : V13 m out c r = V12 m out c r :=
  StableHlo.after_of_writes_sub hostOps1_10 _ hostOps1_10_writes h
theorem V14_of (c : Dev nD) (r : Ref sig .tc) (h : r ∉ hostOps1_11_W) : V14 m out c r = V13 m out c r :=
  StableHlo.after_of_writes_sub hostOps1_11 _ hostOps1_11_writes h
theorem V15_of (c : Dev nD) (r : Ref sig .tc) (h : r ∉ hostOps1_12_W) : V15 m out c r = V14 m out c r :=
  StableHlo.after_of_writes_sub hostOps1_12 _ hostOps1_12_writes h
theorem V16_of (c : Dev nD) (r : Ref sig .tc) (h : r ∉ hostOps1_13_W) : V16 m out c r = V15 m out c r :=
  StableHlo.after_of_writes_sub hostOps1_13 _ hostOps1_13_writes h
theorem V17_of (c : Dev nD) (r : Ref sig .tc) (h : r ∉ hostOps1_14_W) : V17 m out c r = V16 m out c r :=
  StableHlo.after_of_writes_sub hostOps1_14 _ hostOps1_14_writes h
theorem V18_of (c : Dev nD) (r : Ref sig .tc) (h : r ∉ hostOps1_15_W) : V18 m out c r = V17 m out c r :=
  StableHlo.after_of_writes_sub hostOps1_15 _ hostOps1_15_writes h
theorem V19_of (c : Dev nD) (r : Ref sig .tc) (h : r ∉ hostOps1_16_W) : V19 m out c r = V18 m out c r :=
  StableHlo.after_of_writes_sub hostOps1_16 _ hostOps1_16_writes h

/-! ## No item writes an argument -/

/-- A reference that no stretch writes and that is not the region's buffer reaches the end as launched. -/
theorem Vlast_of (c : Dev nD) (r : Ref sig .tc)
    (h0 : r ∉ hostOps0_W) (h1 : r ∉ ([main_v27] : List (Ref sig .tc))) (h2 : r ∉ hostOps1_W) (h3 : r ∉ hostOps1_1_W) (h4 : r ∉ hostOps1_2_W) (h5 : r ∉ hostOps1_3_W) (h6 : r ∉ hostOps1_4_W) (h7 : r ∉ hostOps1_5_W) (h8 : r ∉ hostOps1_6_W) (h9 : r ∉ hostOps1_7_W) (h10 : r ∉ hostOps1_8_W) (h11 : r ∉ hostOps1_9_W) (h12 : r ∉ hostOps1_10_W) (h13 : r ∉ hostOps1_11_W) (h14 : r ∉ hostOps1_12_W) (h15 : r ∉ hostOps1_13_W) (h16 : r ∉ hostOps1_14_W) (h17 : r ∉ hostOps1_15_W) (h18 : r ∉ hostOps1_16_W) :
    Vlast m out c r = m ((c : Thread nD τ).loc r) :=
  (V19_of m out c r h18).trans <| (V18_of m out c r h17).trans <| (V17_of m out c r h16).trans <| (V16_of m out c r h15).trans <| (V15_of m out c r h14).trans <| (V14_of m out c r h13).trans <| (V13_of m out c r h12).trans <| (V12_of m out c r h11).trans <| (V11_of m out c r h10).trans <| (V10_of m out c r h9).trans <| (V9_of m out c r h8).trans <| (V8_of m out c r h7).trans <| (V7_of m out c r h6).trans <| (V6_of m out c r h5).trans <| (V5_of m out c r h4).trans <| (V4_of m out c r h3).trans <| (V3_of m out c r h2).trans <| (V2_of m out c r h1).trans <| (V1_of m c r h0).trans rfl

/-- The program's twelve arguments. -/
abbrev mainArgs : List (Ref sig .tc) := [main_arg0, main_arg1, main_arg2, main_arg3, main_arg4, main_arg5, main_arg6, main_arg7, main_arg8, main_arg9, main_arg10, main_arg11]

/-- Every argument reaches the end as launched: no host stretch writes it and the region changes only `main_v27`. -/
theorem Vlast_arg (c : Dev nD) : ∀ r ∈ mainArgs, Vlast m out c r = m ((c : Thread nD τ).loc r) := by
  intro r hr
  simp only [mainArgs, List.mem_cons, List.not_mem_nil, or_false] at hr
  rcases hr with rfl | rfl | rfl | rfl | rfl | rfl | rfl | rfl | rfl | rfl | rfl | rfl
  · exact Vlast_of m out c _ (by decide) (by decide) (by decide) (by decide) (by decide) (by decide) (by decide) (by decide) (by decide) (by decide) (by decide) (by decide) (by decide) (by decide) (by decide) (by decide) (by decide) (by decide) (by decide)
  · exact Vlast_of m out c _ (by decide) (by decide) (by decide) (by decide) (by decide) (by decide) (by decide) (by decide) (by decide) (by decide) (by decide) (by decide) (by decide) (by decide) (by decide) (by decide) (by decide) (by decide) (by decide)
  · exact Vlast_of m out c _ (by decide) (by decide) (by decide) (by decide) (by decide) (by decide) (by decide) (by decide) (by decide) (by decide) (by decide) (by decide) (by decide) (by decide) (by decide) (by decide) (by decide) (by decide) (by decide)
  · exact Vlast_of m out c _ (by decide) (by decide) (by decide) (by decide) (by decide) (by decide) (by decide) (by decide) (by decide) (by decide) (by decide) (by decide) (by decide) (by decide) (by decide) (by decide) (by decide) (by decide) (by decide)
  · exact Vlast_of m out c _ (by decide) (by decide) (by decide) (by decide) (by decide) (by decide) (by decide) (by decide) (by decide) (by decide) (by decide) (by decide) (by decide) (by decide) (by decide) (by decide) (by decide) (by decide) (by decide)
  · exact Vlast_of m out c _ (by decide) (by decide) (by decide) (by decide) (by decide) (by decide) (by decide) (by decide) (by decide) (by decide) (by decide) (by decide) (by decide) (by decide) (by decide) (by decide) (by decide) (by decide) (by decide)
  · exact Vlast_of m out c _ (by decide) (by decide) (by decide) (by decide) (by decide) (by decide) (by decide) (by decide) (by decide) (by decide) (by decide) (by decide) (by decide) (by decide) (by decide) (by decide) (by decide) (by decide) (by decide)
  · exact Vlast_of m out c _ (by decide) (by decide) (by decide) (by decide) (by decide) (by decide) (by decide) (by decide) (by decide) (by decide) (by decide) (by decide) (by decide) (by decide) (by decide) (by decide) (by decide) (by decide) (by decide)
  · exact Vlast_of m out c _ (by decide) (by decide) (by decide) (by decide) (by decide) (by decide) (by decide) (by decide) (by decide) (by decide) (by decide) (by decide) (by decide) (by decide) (by decide) (by decide) (by decide) (by decide) (by decide)
  · exact Vlast_of m out c _ (by decide) (by decide) (by decide) (by decide) (by decide) (by decide) (by decide) (by decide) (by decide) (by decide) (by decide) (by decide) (by decide) (by decide) (by decide) (by decide) (by decide) (by decide) (by decide)
  · exact Vlast_of m out c _ (by decide) (by decide) (by decide) (by decide) (by decide) (by decide) (by decide) (by decide) (by decide) (by decide) (by decide) (by decide) (by decide) (by decide) (by decide) (by decide) (by decide) (by decide) (by decide)
  · exact Vlast_of m out c _ (by decide) (by decide) (by decide) (by decide) (by decide) (by decide) (by decide) (by decide) (by decide) (by decide) (by decide) (by decide) (by decide) (by decide) (by decide) (by decide) (by decide) (by decide) (by decide)

theorem Vlast_main_arg0 (c : Dev nD) : Vlast m out c main_arg0 = m ((c : Thread nD τ).loc main_arg0) :=
  Vlast_arg m out c main_arg0 (by decide)
theorem Vlast_main_arg1 (c : Dev nD) : Vlast m out c main_arg1 = m ((c : Thread nD τ).loc main_arg1) :=
  Vlast_arg m out c main_arg1 (by decide)
theorem Vlast_main_arg2 (c : Dev nD) : Vlast m out c main_arg2 = m ((c : Thread nD τ).loc main_arg2) :=
  Vlast_arg m out c main_arg2 (by decide)
theorem Vlast_main_arg3 (c : Dev nD) : Vlast m out c main_arg3 = m ((c : Thread nD τ).loc main_arg3) :=
  Vlast_arg m out c main_arg3 (by decide)
theorem Vlast_main_arg4 (c : Dev nD) : Vlast m out c main_arg4 = m ((c : Thread nD τ).loc main_arg4) :=
  Vlast_arg m out c main_arg4 (by decide)
theorem Vlast_main_arg5 (c : Dev nD) : Vlast m out c main_arg5 = m ((c : Thread nD τ).loc main_arg5) :=
  Vlast_arg m out c main_arg5 (by decide)
theorem Vlast_main_arg6 (c : Dev nD) : Vlast m out c main_arg6 = m ((c : Thread nD τ).loc main_arg6) :=
  Vlast_arg m out c main_arg6 (by decide)
theorem Vlast_main_arg7 (c : Dev nD) : Vlast m out c main_arg7 = m ((c : Thread nD τ).loc main_arg7) :=
  Vlast_arg m out c main_arg7 (by decide)
theorem Vlast_main_arg8 (c : Dev nD) : Vlast m out c main_arg8 = m ((c : Thread nD τ).loc main_arg8) :=
  Vlast_arg m out c main_arg8 (by decide)
theorem Vlast_main_arg9 (c : Dev nD) : Vlast m out c main_arg9 = m ((c : Thread nD τ).loc main_arg9) :=
  Vlast_arg m out c main_arg9 (by decide)
theorem Vlast_main_arg10 (c : Dev nD) : Vlast m out c main_arg10 = m ((c : Thread nD τ).loc main_arg10) :=
  Vlast_arg m out c main_arg10 (by decide)
theorem Vlast_main_arg11 (c : Dev nD) : Vlast m out c main_arg11 = m ((c : Thread nD τ).loc main_arg11) :=
  Vlast_arg m out c main_arg11 (by decide)

/-- The last valuation is the seventeen tail stretches, run as one line, from the valuation the region leaves. -/
theorem Vlast_eq (c : Dev nD) :
    Vlast m out c = StableHlo.after (hostOps1 ++ hostOps1_1 ++ hostOps1_2 ++ hostOps1_3 ++ hostOps1_4 ++ hostOps1_5 ++ hostOps1_6 ++ hostOps1_7 ++ hostOps1_8 ++ hostOps1_9 ++ hostOps1_10 ++ hostOps1_11 ++ hostOps1_12 ++ hostOps1_13 ++ hostOps1_14 ++ hostOps1_15 ++ hostOps1_16) (V2 m out c) := by
  rw [StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append]

/-! ## The items as segments -/

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 2 → Dev nD → sProp (MT nD τ sig Ix (Elt F) ℕ U Lvl))

/-- Item 0: the host stretch `hostOps0` over the unscoped buffers from `V0`, the rest `E 0` riding along. -/
def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)
/-- Item 2: the host stretch `hostOps1` over the unscoped buffers from `V2`, the rest `E 1` riding along. -/
def seg2 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m out) (E 1)
/-- Item 3: the host stretch `hostOps1_1` over the unscoped buffers from `V3`, the rest `E 1` riding along. -/
def seg3 : HostSeg (Ix := Ix) (Name := ℕ) (U := U) (Lvl := Lvl) (pcfgs (F := F)) defs₀ 𝒱₀ L lv :=
  HostSeg.ofOps _ _ _ _ _ (Pipeline.ucRefs τ sig) hostOps1_1
    (fun op h => Pipeline.sub_ucRefs op ((List.forall_iff_forall_mem.mp hostOps1_1_sub) op h))
    (fun op h => (List.forall_iff_forall_mem.mp hostOps1_1_fresh) op h) (V3 m out) (E 1)
/-- Item 4: the host stretch `hostOps1_2` over the unscoped buffers from `V4`, the rest `E 1` riding along. -/
def seg4 : HostSeg (Ix := Ix) (Name := ℕ) (U := U) (Lvl := Lvl) (pcfgs (F := F)) defs₀ 𝒱₀ L lv :=
  HostSeg.ofOps _ _ _ _ _ (Pipeline.ucRefs τ sig) hostOps1_2
    (fun op h => Pipeline.sub_ucRefs op ((List.forall_iff_forall_mem.mp hostOps1_2_sub) op h))
    (fun op h => (List.forall_iff_forall_mem.mp hostOps1_2_fresh) op h) (V4 m out) (E 1)
/-- Item 5: the host stretch `hostOps1_3` over the unscoped buffers from `V5`, the rest `E 1` riding along. -/
def seg5 : HostSeg (Ix := Ix) (Name := ℕ) (U := U) (Lvl := Lvl) (pcfgs (F := F)) defs₀ 𝒱₀ L lv :=
  HostSeg.ofOps _ _ _ _ _ (Pipeline.ucRefs τ sig) hostOps1_3
    (fun op h => Pipeline.sub_ucRefs op ((List.forall_iff_forall_mem.mp hostOps1_3_sub) op h))
    (fun op h => (List.forall_iff_forall_mem.mp hostOps1_3_fresh) op h) (V5 m out) (E 1)
/-- Item 6: the host stretch `hostOps1_4` over the unscoped buffers from `V6`, the rest `E 1` riding along. -/
def seg6 : HostSeg (Ix := Ix) (Name := ℕ) (U := U) (Lvl := Lvl) (pcfgs (F := F)) defs₀ 𝒱₀ L lv :=
  HostSeg.ofOps _ _ _ _ _ (Pipeline.ucRefs τ sig) hostOps1_4
    (fun op h => Pipeline.sub_ucRefs op ((List.forall_iff_forall_mem.mp hostOps1_4_sub) op h))
    (fun op h => (List.forall_iff_forall_mem.mp hostOps1_4_fresh) op h) (V6 m out) (E 1)
/-- Item 7: the host stretch `hostOps1_5` over the unscoped buffers from `V7`, the rest `E 1` riding along. -/
def seg7 : HostSeg (Ix := Ix) (Name := ℕ) (U := U) (Lvl := Lvl) (pcfgs (F := F)) defs₀ 𝒱₀ L lv :=
  HostSeg.ofOps _ _ _ _ _ (Pipeline.ucRefs τ sig) hostOps1_5
    (fun op h => Pipeline.sub_ucRefs op ((List.forall_iff_forall_mem.mp hostOps1_5_sub) op h))
    (fun op h => (List.forall_iff_forall_mem.mp hostOps1_5_fresh) op h) (V7 m out) (E 1)
/-- Item 8: the host stretch `hostOps1_6` over the unscoped buffers from `V8`, the rest `E 1` riding along. -/
def seg8 : HostSeg (Ix := Ix) (Name := ℕ) (U := U) (Lvl := Lvl) (pcfgs (F := F)) defs₀ 𝒱₀ L lv :=
  HostSeg.ofOps _ _ _ _ _ (Pipeline.ucRefs τ sig) hostOps1_6
    (fun op h => Pipeline.sub_ucRefs op ((List.forall_iff_forall_mem.mp hostOps1_6_sub) op h))
    (fun op h => (List.forall_iff_forall_mem.mp hostOps1_6_fresh) op h) (V8 m out) (E 1)
/-- Item 9: the host stretch `hostOps1_7` over the unscoped buffers from `V9`, the rest `E 1` riding along. -/
def seg9 : HostSeg (Ix := Ix) (Name := ℕ) (U := U) (Lvl := Lvl) (pcfgs (F := F)) defs₀ 𝒱₀ L lv :=
  HostSeg.ofOps _ _ _ _ _ (Pipeline.ucRefs τ sig) hostOps1_7
    (fun op h => Pipeline.sub_ucRefs op ((List.forall_iff_forall_mem.mp hostOps1_7_sub) op h))
    (fun op h => (List.forall_iff_forall_mem.mp hostOps1_7_fresh) op h) (V9 m out) (E 1)
/-- Item 10: the host stretch `hostOps1_8` over the unscoped buffers from `V10`, the rest `E 1` riding along. -/
def seg10 : HostSeg (Ix := Ix) (Name := ℕ) (U := U) (Lvl := Lvl) (pcfgs (F := F)) defs₀ 𝒱₀ L lv :=
  HostSeg.ofOps _ _ _ _ _ (Pipeline.ucRefs τ sig) hostOps1_8
    (fun op h => Pipeline.sub_ucRefs op ((List.forall_iff_forall_mem.mp hostOps1_8_sub) op h))
    (fun op h => (List.forall_iff_forall_mem.mp hostOps1_8_fresh) op h) (V10 m out) (E 1)
/-- Item 11: the host stretch `hostOps1_9` over the unscoped buffers from `V11`, the rest `E 1` riding along. -/
def seg11 : HostSeg (Ix := Ix) (Name := ℕ) (U := U) (Lvl := Lvl) (pcfgs (F := F)) defs₀ 𝒱₀ L lv :=
  HostSeg.ofOps _ _ _ _ _ (Pipeline.ucRefs τ sig) hostOps1_9
    (fun op h => Pipeline.sub_ucRefs op ((List.forall_iff_forall_mem.mp hostOps1_9_sub) op h))
    (fun op h => (List.forall_iff_forall_mem.mp hostOps1_9_fresh) op h) (V11 m out) (E 1)
/-- Item 12: the host stretch `hostOps1_10` over the unscoped buffers from `V12`, the rest `E 1` riding along. -/
def seg12 : HostSeg (Ix := Ix) (Name := ℕ) (U := U) (Lvl := Lvl) (pcfgs (F := F)) defs₀ 𝒱₀ L lv :=
  HostSeg.ofOps _ _ _ _ _ (Pipeline.ucRefs τ sig) hostOps1_10
    (fun op h => Pipeline.sub_ucRefs op ((List.forall_iff_forall_mem.mp hostOps1_10_sub) op h))
    (fun op h => (List.forall_iff_forall_mem.mp hostOps1_10_fresh) op h) (V12 m out) (E 1)
/-- Item 13: the host stretch `hostOps1_11` over the unscoped buffers from `V13`, the rest `E 1` riding along. -/
def seg13 : HostSeg (Ix := Ix) (Name := ℕ) (U := U) (Lvl := Lvl) (pcfgs (F := F)) defs₀ 𝒱₀ L lv :=
  HostSeg.ofOps _ _ _ _ _ (Pipeline.ucRefs τ sig) hostOps1_11
    (fun op h => Pipeline.sub_ucRefs op ((List.forall_iff_forall_mem.mp hostOps1_11_sub) op h))
    (fun op h => (List.forall_iff_forall_mem.mp hostOps1_11_fresh) op h) (V13 m out) (E 1)
/-- Item 14: the host stretch `hostOps1_12` over the unscoped buffers from `V14`, the rest `E 1` riding along. -/
def seg14 : HostSeg (Ix := Ix) (Name := ℕ) (U := U) (Lvl := Lvl) (pcfgs (F := F)) defs₀ 𝒱₀ L lv :=
  HostSeg.ofOps _ _ _ _ _ (Pipeline.ucRefs τ sig) hostOps1_12
    (fun op h => Pipeline.sub_ucRefs op ((List.forall_iff_forall_mem.mp hostOps1_12_sub) op h))
    (fun op h => (List.forall_iff_forall_mem.mp hostOps1_12_fresh) op h) (V14 m out) (E 1)
/-- Item 15: the host stretch `hostOps1_13` over the unscoped buffers from `V15`, the rest `E 1` riding along. -/
def seg15 : HostSeg (Ix := Ix) (Name := ℕ) (U := U) (Lvl := Lvl) (pcfgs (F := F)) defs₀ 𝒱₀ L lv :=
  HostSeg.ofOps _ _ _ _ _ (Pipeline.ucRefs τ sig) hostOps1_13
    (fun op h => Pipeline.sub_ucRefs op ((List.forall_iff_forall_mem.mp hostOps1_13_sub) op h))
    (fun op h => (List.forall_iff_forall_mem.mp hostOps1_13_fresh) op h) (V15 m out) (E 1)
/-- Item 16: the host stretch `hostOps1_14` over the unscoped buffers from `V16`, the rest `E 1` riding along. -/
def seg16 : HostSeg (Ix := Ix) (Name := ℕ) (U := U) (Lvl := Lvl) (pcfgs (F := F)) defs₀ 𝒱₀ L lv :=
  HostSeg.ofOps _ _ _ _ _ (Pipeline.ucRefs τ sig) hostOps1_14
    (fun op h => Pipeline.sub_ucRefs op ((List.forall_iff_forall_mem.mp hostOps1_14_sub) op h))
    (fun op h => (List.forall_iff_forall_mem.mp hostOps1_14_fresh) op h) (V16 m out) (E 1)
/-- Item 17: the host stretch `hostOps1_15` over the unscoped buffers from `V17`, the rest `E 1` riding along. -/
def seg17 : HostSeg (Ix := Ix) (Name := ℕ) (U := U) (Lvl := Lvl) (pcfgs (F := F)) defs₀ 𝒱₀ L lv :=
  HostSeg.ofOps _ _ _ _ _ (Pipeline.ucRefs τ sig) hostOps1_15
    (fun op h => Pipeline.sub_ucRefs op ((List.forall_iff_forall_mem.mp hostOps1_15_sub) op h))
    (fun op h => (List.forall_iff_forall_mem.mp hostOps1_15_fresh) op h) (V17 m out) (E 1)
/-- Item 18: the host stretch `hostOps1_16` over the unscoped buffers from `V18`, the rest `E 1` riding along. -/
def seg18 : HostSeg (Ix := Ix) (Name := ℕ) (U := U) (Lvl := Lvl) (pcfgs (F := F)) defs₀ 𝒱₀ L lv :=
  HostSeg.ofOps _ _ _ _ _ (Pipeline.ucRefs τ sig) hostOps1_16
    (fun op h => Pipeline.sub_ucRefs op ((List.forall_iff_forall_mem.mp hostOps1_16_sub) op h))
    (fun op h => (List.forall_iff_forall_mem.mp hostOps1_16_fresh) op h) (V18 m out) (E 1)

end Segs

section

variable {Ix : Type} [DecidableEq Ix] {U : Type} [URA U] {Lvl : Type} [Preorder Lvl]

/-- The prefetched tables' admissible contents: the pallas_call has no table. -/
abbrev adm : (p : Fin 1) → (pcfgs (F := F) p).Adm := fun p => (cfgs p).toPCfg_adm

/-- @main's items as segments on core `c` (the same list on every core: no stretch reads the device): the host
    stretches' `segJ`, the region's the given record. -/
abbrev segs (𝒱₀ : Variants) (L : GSem nD τ sig → Finset Ix) (lv : GSem nD τ sig → Ix → Lvl) (E : Fin 2 → Dev nD → sProp (MT nD τ sig Ix (Elt F) ℕ U Lvl)) (ι : Ix)
    (pdats : (p : Fin 1) → (c : Dev nD) → Dat τ (Elt F) Ix ℕ U Lvl (cfgs p) c) (R0 : RegionSeg (pcfgs (F := F)) adm pdats ι defs₀ 𝒱₀ L lv 0) (c : Dev nD) :
    List (Seg (pcfgs (F := F)) adm pdats ι defs₀ 𝒱₀ L lv) :=
  [.host (seg0 m 𝒱₀ L lv E),
   .region R0,
   .host (seg2 m out 𝒱₀ L lv E),
   .host (seg3 m out 𝒱₀ L lv E),
   .host (seg4 m out 𝒱₀ L lv E),
   .host (seg5 m out 𝒱₀ L lv E),
   .host (seg6 m out 𝒱₀ L lv E),
   .host (seg7 m out 𝒱₀ L lv E),
   .host (seg8 m out 𝒱₀ L lv E),
   .host (seg9 m out 𝒱₀ L lv E),
   .host (seg10 m out 𝒱₀ L lv E),
   .host (seg11 m out 𝒱₀ L lv E),
   .host (seg12 m out 𝒱₀ L lv E),
   .host (seg13 m out 𝒱₀ L lv E),
   .host (seg14 m out 𝒱₀ L lv E),
   .host (seg15 m out 𝒱₀ L lv E),
   .host (seg16 m out 𝒱₀ L lv E),
   .host (seg17 m out 𝒱₀ L lv E),
   .host (seg18 m out 𝒱₀ L lv E)]

end

/-! ## The run, given the region's record -/

-- the launch theorem's implicit arguments are found by unifying its conclusion with this one, which takes unfolding
-- plain definitions in a metavariable's type
set_option backward.isDefEq.respectTransparency.types false in
/-- THE CONDITIONAL RUN. For any user algebra, level assignment, launch dues and ghost resources, any rest states
    `E` the launch makes on every core at once (`hE0`) and that end owing nothing (`hE1`), any contents the region
    leaves in `main_v27` (`out`) and any proof data: GIVEN the region's segment record entered from the thread state
    before it and left at the one after it (`R0`, `hpre0`, `hpost0`), every weakly fair execution of @main from memory
    `m` with zero counters terminates, and in every final memory every unscoped TensorCore buffer of every core holds
    what the last valuation says. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (out : Out (F := F))
    (pdats : (p : Fin 1) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 2 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE1 : ∀ c : Dev nD, E 1 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m out c) ∗ E 1 c)) :
    θ_run defs (onTc (τ := τ) (main (F := F))) ⟨m, fun _ => 0, ρ⟩ (fun r => ∀ c : Dev nD, ∀ b ∈ Pipeline.ucRefs τ sig,
      r.2.mem ((c : Thread nD τ).1, b) = Vlast m out c b) := by
  refine Pipeline.θ_run_regions_kit_dev (pcfgs (F := F)) adm pdats ι cellOf_inj EP defs₀ 𝒱₀ L lv m ρ main
    (segs m out 𝒱₀ L lv E ι pdats R0)
    (fun c Q => by
      rewrite [main_chain c, Seg.run_eq_chain,
        show (segs m out 𝒱₀ L lv E ι pdats R0 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          StableHlo.seq hostOps1_13,
          StableHlo.seq hostOps1_14,
          StableHlo.seq hostOps1_15,
          StableHlo.seq hostOps1_16 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (Vlast m out c))
    (hch := fun c => ⟨.rfl, hpre0 c, hpost0 c, .rfl, .rfl, .rfl, .rfl, .rfl, .rfl, .rfl, .rfl, .rfl, .rfl, .rfl, .rfl, .rfl, .rfl, .rfl, .rfl, sep_mono .rfl (hE1 c)⟩)
    (hinit := ?_) (QY := fun c s => ∀ b ∈ Pipeline.ucRefs τ sig, s.mem ((c : Thread nD τ).1, b) = Vlast m out c b)
    (hfin := fun c s' => ?_) (hQ := fun _ h => h)
  · -- the launch: the unscoped buffers are held at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (Vlast m out c) s') $$ [Hh HSI]
    · isplitl [Hh] <;> iassumption
    icases Hr with ⟨%h, HSI⟩
    imodintro
    isplitr
    · ipureintro
      exact h
    · iexact HSI

end Cert.Kernel.HostSide

end
-- ==== Proof.AdjSegBits.lean ====
/-
  The kernel region as a segment of @main, and the run of the whole program: from any memory, every weakly fair
  execution ends with every unscoped buffer of every core at the last valuation — the launch contents, then the host
  lines that compute the edge weights, then the output's array at what the region's write-backs leave, then the host
  lines that compute the four results.
-/
import proofs.«112395_j72773925864042_1_alg».proof.Proof.AdjShareBits
import proofs.«112395_j72773925864042_1_alg».proof.Proof.HostSideBits
import Idealize.ShloMosaic.Lib.Pipeline.RegionsLoop

set_option maxRecDepth 16384

noncomputable section

namespace Cert.Kernel.Adj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The TensorCore's buffers when the region is entered, read at its references. -/
abbrev Vin : (c : Dev nD) → (b : Ref sig .tc) → Buf (Elt F) ((c : Thread nD τ).loc b) := fun c b => HostSide.V1 m c b

/-- What the region's write-backs leave in the output's array. -/
abbrev outOf : HostSide.Out (F := F) := fun c => (dat (Vin m) c).arrAt 3 cfg0.N

/-- The one pipeline's proof data, at the region's entry contents. -/
def pdats : (p : Fin 1) → (c : Dev nD) → Dat τ (Elt F) Unit ℕ (UR sig nD τ) ℕ (cfgs p) c
  | ⟨0, _⟩ => fun c => dat (Vin m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

theorem out_eq (c : Dev nD) : (dat (Vin m) c).arrAt 3 cfg0.N = HostSide.V2 m (outOf m) c main_v27 := by
  show _ = Function.update (HostSide.V1 m c) _ _ _
  rw [Function.update_self]

set_option backward.isDefEq.respectTransparency.types false in
/-- The region over the thread state: entered from every unscoped buffer at the contents the first host lines leave,
    left with the output's array replaced by what the write-backs leave. -/
def reg : Pipeline.RegionSeg (pcfgs (F := F)) HostSide.adm (pdats m) () defs₀ 𝒱₀ L lv 0 where
  win := winFacts₀0
  block_pos := block_pos0
  stage_whole := stage_whole0
  K := PEmpty
  osem k := k.elim
  ho := Pipeline.OwnSemFacts.none _
  hbody c := (body_obligation (Vin m) c).loose
  hwaits := Pipeline.hwaits_of_owed_zero _ _ _ _ L lv 0 fun _ _ => rfl
  pre c := iprop(StableHlo.held (c : Thread nD τ) (Pipeline.ucRefs τ sig) (HostSide.V1 m c) ∗ R c)
  post c := iprop(StableHlo.held (c : Thread nD τ) (Pipeline.ucRefs τ sig) (HostSide.V2 m (outOf m) c) ∗ R c)
  X c := iprop(∃ r, prngReg c r)
  Y c := iprop(∃ r, prngReg c r)
  Z c := Pipeline.unscopedRest (Ix := Unit) (Name := ℕ) (U := UR sig nD τ) (Lvl := ℕ) spec0 c (Vin m c)
  hentry c := by
    rw [Pipeline.ownSems0_none]
    have hsplit := entry_split (Vin m) c (Vin m c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout (Vin m) c).trans ?_
    unfold Pipeline.ΦA
    iintro ⟨Hr, Hp⟩
    isplitl [Hp]; · iexact Hp
    isplitr; · iempintro
    iexact Hr
  hexit c := by
    have hjoin : (iprop((pdats m 0 c).arrays ((pdats m 0 c).arrAt · cfg0.N) ∗ Pipeline.unscopedRest spec0 c (Vin m c)) : sProp 𝕄)
        ⊢ unscopedBufs c (fun b => HostSide.V2 m (outOf m) c b) :=
      exit_join (Vin m) c (Vin m c) (fun b => HostSide.V2 m (outOf m) c b) (fun _ => rfl) (out_eq m c)
        (fun b hb => HostSide.V2_of m (outOf m) c b (by simpa using hb))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE RUN of the kernel program. -/
theorem run : θ_run defs (onTc (τ := τ) (main (F := F))) ⟨m, fun _ => 0, ρ⟩ (fun r => ∀ c : Dev nD, ∀ b ∈ Pipeline.ucRefs τ sig,
      r.2.mem ((c : Thread nD τ).1, b) = HostSide.Vlast m (outOf m) c b) :=
  HostSide.run_cond m emb₁ () 𝒱₀ L lv (fun _ _ => rfl) ρ (outOf m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => R)
    (Pipeline.initEach L lv fun c => by
      iintro ⟨⟨-, HO, -, Hp, -⟩, -⟩
      imodintro
      isplitl [Hp]; · iexists _; iexact Hp
      iexists ∅; iexact HO)
    (fun c => by iintro ⟨-, H⟩; iexact H)
    (reg m) (fun c => .rfl) (fun c => .rfl)

end Cert.Kernel.Adj

end
-- ==== Proof.HostFrame.lean ====
/- What the host side's run gives the claims. The run ends with every unscoped TensorCore buffer of every core at the
   last valuation; the twelve arguments are written by no item, so each ends as launched; the four results are read
   off the last valuation as they stand; and the edge weights the region's third operand holds are, row 0 of a
   one-row matrix, the weights vector before its last reshape. -/
import proofs.«112395_j72773925864042_1_alg».proof.Defs
import proofs.«112395_j72773925864042_1_alg».proof.Proof.HostSide
import Idealize.ShloMosaic.Lib.Pipeline.Value
import Idealize.ShloMosaic.Lib.ValueIdx

-- deciding a fact about one of the program's 185 references recurses past the default depth
set_option maxRecDepth 1252

noncomputable section

namespace Cert.KernelIdeal.HostFrame

open Cert.KernelIdeal.Gen
open Idealize.ShloMosaic Idealize.ShloMosaic.TcCoe
open Idealize.SL.Sem

variable {F : FTy → Type} [FloatOps F]

/-- From the run that ends at the last valuation: every argument array ends unchanged. -/
theorem post_of_last (m : (ℓ : Loc nD τ sig) → Buf (Elt F) ℓ) (out : HostSide.Out (F := F)) (ρ : Dev nD → PrngReg)
    (h : θ_run defs (onTc (τ := τ) (main (F := F))) ⟨m, fun _ => 0, ρ⟩ (fun r => ∀ c : Dev nD, ∀ b ∈ Pipeline.ucRefs τ sig,
      r.2.mem ((c : Thread nD τ).1, b) = HostSide.Vlast m out c b)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r hr c =>
    ⟨(hr c (Proc.devRef .tc main_arg0) (Finset.mem_filter.mpr ⟨StableHlo.devRef_mem_tcRefs main_arg0, by decide⟩)).trans (HostSide.Vlast_main_arg0 m out c),
     (hr c (Proc.devRef .tc main_arg1) (Finset.mem_filter.mpr ⟨StableHlo.devRef_mem_tcRefs main_arg1, by decide⟩)).trans (HostSide.Vlast_main_arg1 m out c),
     (hr c (Proc.devRef .tc main_arg2) (Finset.mem_filter.mpr ⟨StableHlo.devRef_mem_tcRefs main_arg2, by decide⟩)).trans (HostSide.Vlast_main_arg2 m out c),
     (hr c (Proc.devRef .tc main_arg3) (Finset.mem_filter.mpr ⟨StableHlo.devRef_mem_tcRefs main_arg3, by decide⟩)).trans (HostSide.Vlast_main_arg3 m out c),
     (hr c (Proc.devRef .tc main_arg4) (Finset.mem_filter.mpr ⟨StableHlo.devRef_mem_tcRefs main_arg4, by decide⟩)).trans (HostSide.Vlast_main_arg4 m out c),
     (hr c (Proc.devRef .tc main_arg5) (Finset.mem_filter.mpr ⟨StableHlo.devRef_mem_tcRefs main_arg5, by decide⟩)).trans (HostSide.Vlast_main_arg5 m out c),
     (hr c (Proc.devRef .tc main_arg6) (Finset.mem_filter.mpr ⟨StableHlo.devRef_mem_tcRefs main_arg6, by decide⟩)).trans (HostSide.Vlast_main_arg6 m out c),
     (hr c (Proc.devRef .tc main_arg7) (Finset.mem_filter.mpr ⟨StableHlo.devRef_mem_tcRefs main_arg7, by decide⟩)).trans (HostSide.Vlast_main_arg7 m out c),
     (hr c (Proc.devRef .tc main_arg8) (Finset.mem_filter.mpr ⟨StableHlo.devRef_mem_tcRefs main_arg8, by decide⟩)).trans (HostSide.Vlast_main_arg8 m out c),
     (hr c (Proc.devRef .tc main_arg9) (Finset.mem_filter.mpr ⟨StableHlo.devRef_mem_tcRefs main_arg9, by decide⟩)).trans (HostSide.Vlast_main_arg9 m out c),
     (hr c (Proc.devRef .tc main_arg10) (Finset.mem_filter.mpr ⟨StableHlo.devRef_mem_tcRefs main_arg10, by decide⟩)).trans (HostSide.Vlast_main_arg10 m out c),
     (hr c (Proc.devRef .tc main_arg11) (Finset.mem_filter.mpr ⟨StableHlo.devRef_mem_tcRefs main_arg11, by decide⟩)).trans (HostSide.Vlast_main_arg11 m out c)⟩) h

/-- From the run that ends at the last valuation: the four results end at what the last valuation holds for them, and
    every argument array ends unchanged. -/
theorem results_of_last (m : (ℓ : Loc nD τ sig) → Buf (Elt F) ℓ) (out : HostSide.Out (F := F)) (ρ : Dev nD → PrngReg)
    (h : θ_run defs (onTc (τ := τ) (main (F := F))) ⟨m, fun _ => 0, ρ⟩ (fun r => ∀ c : Dev nD, ∀ b ∈ Pipeline.ucRefs τ sig,
      r.2.mem ((c : Thread nD τ).1, b) = HostSide.Vlast m out c b)) :
    θ_run defs (onTc (τ := τ) (main (F := F))) ⟨m, fun _ => 0, ρ⟩ (fun r => ∀ c : Dev nD,
      r.2.mem ((c.tc : Thread nD τ).loc main_v111) = HostSide.Vlast m out c main_v111
      ∧ r.2.mem ((c.tc : Thread nD τ).loc main_v114) = HostSide.Vlast m out c main_v114
      ∧ r.2.mem ((c.tc : Thread nD τ).loc main_v117) = HostSide.Vlast m out c main_v117
      ∧ r.2.mem ((c.tc : Thread nD τ).loc main_v121) = HostSide.Vlast m out c main_v121
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r hr c =>
    ⟨hr c (Proc.devRef .tc main_v111) (Finset.mem_filter.mpr ⟨StableHlo.devRef_mem_tcRefs main_v111, by decide⟩),
     hr c (Proc.devRef .tc main_v114) (Finset.mem_filter.mpr ⟨StableHlo.devRef_mem_tcRefs main_v114, by decide⟩),
     hr c (Proc.devRef .tc main_v117) (Finset.mem_filter.mpr ⟨StableHlo.devRef_mem_tcRefs main_v117, by decide⟩),
     hr c (Proc.devRef .tc main_v121) (Finset.mem_filter.mpr ⟨StableHlo.devRef_mem_tcRefs main_v121, by decide⟩),
     (hr c (Proc.devRef .tc main_arg0) (Finset.mem_filter.mpr ⟨StableHlo.devRef_mem_tcRefs main_arg0, by decide⟩)).trans (HostSide.Vlast_main_arg0 m out c),
     (hr c (Proc.devRef .tc main_arg1) (Finset.mem_filter.mpr ⟨StableHlo.devRef_mem_tcRefs main_arg1, by decide⟩)).trans (HostSide.Vlast_main_arg1 m out c),
     (hr c (Proc.devRef .tc main_arg2) (Finset.mem_filter.mpr ⟨StableHlo.devRef_mem_tcRefs main_arg2, by decide⟩)).trans (HostSide.Vlast_main_arg2 m out c),
     (hr c (Proc.devRef .tc main_arg3) (Finset.mem_filter.mpr ⟨StableHlo.devRef_mem_tcRefs main_arg3, by decide⟩)).trans (HostSide.Vlast_main_arg3 m out c),
     (hr c (Proc.devRef .tc main_arg4) (Finset.mem_filter.mpr ⟨StableHlo.devRef_mem_tcRefs main_arg4, by decide⟩)).trans (HostSide.Vlast_main_arg4 m out c),
     (hr c (Proc.devRef .tc main_arg5) (Finset.mem_filter.mpr ⟨StableHlo.devRef_mem_tcRefs main_arg5, by decide⟩)).trans (HostSide.Vlast_main_arg5 m out c),
     (hr c (Proc.devRef .tc main_arg6) (Finset.mem_filter.mpr ⟨StableHlo.devRef_mem_tcRefs main_arg6, by decide⟩)).trans (HostSide.Vlast_main_arg6 m out c),
     (hr c (Proc.devRef .tc main_arg7) (Finset.mem_filter.mpr ⟨StableHlo.devRef_mem_tcRefs main_arg7, by decide⟩)).trans (HostSide.Vlast_main_arg7 m out c),
     (hr c (Proc.devRef .tc main_arg8) (Finset.mem_filter.mpr ⟨StableHlo.devRef_mem_tcRefs main_arg8, by decide⟩)).trans (HostSide.Vlast_main_arg8 m out c),
     (hr c (Proc.devRef .tc main_arg9) (Finset.mem_filter.mpr ⟨StableHlo.devRef_mem_tcRefs main_arg9, by decide⟩)).trans (HostSide.Vlast_main_arg9 m out c),
     (hr c (Proc.devRef .tc main_arg10) (Finset.mem_filter.mpr ⟨StableHlo.devRef_mem_tcRefs main_arg10, by decide⟩)).trans (HostSide.Vlast_main_arg10 m out c),
     (hr c (Proc.devRef .tc main_arg11) (Finset.mem_filter.mpr ⟨StableHlo.devRef_mem_tcRefs main_arg11, by decide⟩)).trans (HostSide.Vlast_main_arg11 m out c)⟩) h

/-! ## The edge weights as the region's operand -/

/-- A line of operations followed by one more: the last operation's result of what the line leaves. -/
theorem after_snoc {τ : Topo} {sig : RefSig} {Val : EltTy → Type} (ops : List (HloOp τ sig Val)) (op : HloOp τ sig Val)
    (V : Valuation τ sig Val) : StableHlo.after (ops ++ [op]) V = op.result (StableHlo.after ops V) := by
  rw [StableHlo.after_append]; rfl

/-- The first stretch ends with the reshape of the weights vector `main_v25 : f32[4096]` to the one-row matrix
    `main_v26 : f32[1, 4096]`. -/
theorem hostOps0_split : (hostOps0 : List (HloOp τ sig (Elt F)))
    = (hostOps0 : List (HloOp τ sig (Elt F))).dropLast ++ [StableHlo.reshape main_v25 main_v26 rfl shapeCasts_S4096_S1x4096] := rfl

/-- Before the region `main_v26` holds `main_v25`'s elements, in row-major order, at the shape [1, 4096]. -/
theorem V1_main_v26 (m : (ℓ : Loc nD τ sig) → Buf (Elt F) ℓ) (c : Dev nD) :
    (HostSide.V1 m c main_v26 : S1x4096.Idx → Elt F .f32)
      = shapeCast S1x4096 (HostSide.V1 m c main_v25 : S4096.Idx → Elt F .f32) shapeCasts_S4096_S1x4096 := by
  show StableHlo.after hostOps0 (HostSide.V0 m c) (Proc.devRef .tc main_v26)
    = shapeCast S1x4096 (StableHlo.after hostOps0 (HostSide.V0 m c) (Proc.devRef .tc main_v25)) shapeCasts_S4096_S1x4096
  rw [hostOps0_split, after_snoc, StableHlo.reshape_result, StableHlo.reshape_result_ne _ _ _ _ _ _ _ (by decide)]
  rfl

/-- Element (0, k) of the one-row matrix is element k of the weights vector: both sit at row-major position k. -/
theorem weights_row (m : (ℓ : Loc nD τ sig) → Buf (Elt F) ℓ) (c : Dev nD) (k : Fin 4096) :
    (HostSide.V1 m c main_v26 : S1x4096.Idx → Elt F .f32) (ValueIdx.ix2 (0 : Fin 1) k)
      = (HostSide.V1 m c main_v25 : S4096.Idx → Elt F .f32) (ValueIdx.ix1 k) := by
  rw [V1_main_v26]
  refine shapeCast_apply _ _ _ _ ?_
  show (S4096.rowMajor (ValueIdx.ix1 k)).val = (S1x4096.rowMajor (ValueIdx.ix2 (0 : Fin 1) k)).val
  rw [Shape.rowMajor_val_one, Shape.rowMajor_val_two]
  show k.val = 0 * 4096 + k.val
  omega

end Cert.KernelIdeal.HostFrame

end
-- ==== Proof.HostFrameBits.lean ====
/- What the host side's run gives the claims. The run ends with every unscoped TensorCore buffer of every core at the
   last valuation; the twelve arguments are written by no item, so each ends as launched. -/
import proofs.«112395_j72773925864042_1_alg».proof.Defs
import proofs.«112395_j72773925864042_1_alg».proof.Proof.HostSideBits

-- deciding a fact about one of the program's 185 references recurses past the default depth
set_option maxRecDepth 1252

noncomputable section

namespace Cert.Kernel.HostFrame

open Cert.Kernel.Gen
open Idealize.ShloMosaic Idealize.ShloMosaic.TcCoe
open Idealize.SL.Sem

variable {F : FTy → Type} [FloatOps F]

/-- From the run that ends at the last valuation: every argument array ends unchanged. -/
theorem post_of_last (m : (ℓ : Loc nD τ sig) → Buf (Elt F) ℓ) (out : HostSide.Out (F := F)) (ρ : Dev nD → PrngReg)
    (h : θ_run defs (onTc (τ := τ) (main (F := F))) ⟨m, fun _ => 0, ρ⟩ (fun r => ∀ c : Dev nD, ∀ b ∈ Pipeline.ucRefs τ sig,
      r.2.mem ((c : Thread nD τ).1, b) = HostSide.Vlast m out c b)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r hr c =>
    ⟨(hr c (Proc.devRef .tc main_arg0) (Finset.mem_filter.mpr ⟨StableHlo.devRef_mem_tcRefs main_arg0, by decide⟩)).trans (HostSide.Vlast_main_arg0 m out c),
     (hr c (Proc.devRef .tc main_arg1) (Finset.mem_filter.mpr ⟨StableHlo.devRef_mem_tcRefs main_arg1, by decide⟩)).trans (HostSide.Vlast_main_arg1 m out c),
     (hr c (Proc.devRef .tc main_arg2) (Finset.mem_filter.mpr ⟨StableHlo.devRef_mem_tcRefs main_arg2, by decide⟩)).trans (HostSide.Vlast_main_arg2 m out c),
     (hr c (Proc.devRef .tc main_arg3) (Finset.mem_filter.mpr ⟨StableHlo.devRef_mem_tcRefs main_arg3, by decide⟩)).trans (HostSide.Vlast_main_arg3 m out c),
     (hr c (Proc.devRef .tc main_arg4) (Finset.mem_filter.mpr ⟨StableHlo.devRef_mem_tcRefs main_arg4, by decide⟩)).trans (HostSide.Vlast_main_arg4 m out c),
     (hr c (Proc.devRef .tc main_arg5) (Finset.mem_filter.mpr ⟨StableHlo.devRef_mem_tcRefs main_arg5, by decide⟩)).trans (HostSide.Vlast_main_arg5 m out c),
     (hr c (Proc.devRef .tc main_arg6) (Finset.mem_filter.mpr ⟨StableHlo.devRef_mem_tcRefs main_arg6, by decide⟩)).trans (HostSide.Vlast_main_arg6 m out c),
     (hr c (Proc.devRef .tc main_arg7) (Finset.mem_filter.mpr ⟨StableHlo.devRef_mem_tcRefs main_arg7, by decide⟩)).trans (HostSide.Vlast_main_arg7 m out c),
     (hr c (Proc.devRef .tc main_arg8) (Finset.mem_filter.mpr ⟨StableHlo.devRef_mem_tcRefs main_arg8, by decide⟩)).trans (HostSide.Vlast_main_arg8 m out c),
     (hr c (Proc.devRef .tc main_arg9) (Finset.mem_filter.mpr ⟨StableHlo.devRef_mem_tcRefs main_arg9, by decide⟩)).trans (HostSide.Vlast_main_arg9 m out c),
     (hr c (Proc.devRef .tc main_arg10) (Finset.mem_filter.mpr ⟨StableHlo.devRef_mem_tcRefs main_arg10, by decide⟩)).trans (HostSide.Vlast_main_arg10 m out c),
     (hr c (Proc.devRef .tc main_arg11) (Finset.mem_filter.mpr ⟨StableHlo.devRef_mem_tcRefs main_arg11, by decide⟩)).trans (HostSide.Vlast_main_arg11 m out c)⟩) h

end Cert.Kernel.HostFrame

end
-- ==== Proof.RefRun.lean ====
/- The reference program's run.

   The reference computes, on the host, the edge weights w = sigmoid(concat(v[us], e, v[vs]) · We + be),
   then E = A · diag(w) · Aᵀ as two matrix products against the diagonal matrix it builds from w
   (diag(w)[k, l] = w[k] where k = l and 0 elsewhere), then the four results from E. Its @main is a
   straight line of host operations with five module-local functions called from it; a call executes
   the callee's body on the operands, so the whole program is ONE list of operations: those of @main in
   order, each call replaced by the callee's operations over that call's own buffers. The list is cut in
   three: `opsW` ends at w, `opsE` at E, `opsT` is the tail.

   Proved here: @main is that list run in order (`main_eq`); hence every weakly fair execution of it
   terminates with every buffer at the fold of the operations' results over the launch contents
   (`run`); no operation writes an argument buffer — each writes only its own result, and the results
   are the 178 values of the program, none of them an argument — so the twelve arguments end as
   launched (`kept`), which at the extended reals is the reference's frame (`frame_ri`). -/
import proofs.«112395_j72773925864042_1_alg».proof.Defs
import proofs.«112395_j72773925864042_1_alg».proof.Proof.Gen.ReferenceIdeal
import proofs.«112395_j72773925864042_1_alg».proof.Proof.Gen.Pre_finite_inputs
import Idealize.ShloMosaic.Lib.StableHlo.Run
import Idealize.ShloMosaic.Lib.Pipeline.Regions

-- the literal lists below are long: the anonymous constructors over them recurse past the default depth
set_option maxRecDepth 4096

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-! ## The operations, in program order -/

/-- The edge weights: @main's operations up to w = main_v25 (f32[4096]). -/
abbrev opsW : List (HloOp τ sig (Elt F)) :=
  [ StableHlo.nullary main_c (constantI S_ 32 0#32),
    StableHlo.unary main_c main_v0 (broadcastInDim S4096 ![] bcast_S_S4096 : (⟨S_, .i32⟩ : BufTy).Contents (Elt F) → (⟨S4096, .i32⟩ : BufTy).Contents (Elt F)),
    StableHlo.binary main_arg10 main_v0 main_v1 (cmpi .slt : (⟨S4096, .i32⟩ : BufTy).Contents (Elt F) → (⟨S4096, .i32⟩ : BufTy).Contents (Elt F) → (⟨S4096, .i1⟩ : BufTy).Contents (Elt F)),
    StableHlo.nullary main_c_0 (constantI S_ 32 2048#32),
    StableHlo.unary main_c_0 main_v2 (broadcastInDim S4096 ![] bcast_S_S4096 : (⟨S_, .i32⟩ : BufTy).Contents (Elt F) → (⟨S4096, .i32⟩ : BufTy).Contents (Elt F)),
    StableHlo.binary main_arg10 main_v2 main_v3 (addi : (⟨S4096, .i32⟩ : BufTy).Contents (Elt F) → (⟨S4096, .i32⟩ : BufTy).Contents (Elt F) → (⟨S4096, .i32⟩ : BufTy).Contents (Elt F)),
    StableHlo.ternary main_v1 main_v3 main_arg10 main_v4 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v4 main_v5 (broadcastInDim S4096x1 ![0] bcast_S4096_S4096x1_0 : (⟨S4096, .i32⟩ : BufTy).Contents (Elt F) → (⟨S4096x1, .i32⟩ : BufTy).Contents (Elt F)),
    StableHlo.binary main_arg0 main_v5 main_v6 ((fun x i => Host.gather gather_S2048x32_S4096x1_S4096x32_1_0_n_n_0_1_132 x i) : (⟨S2048x32, .f32⟩ : BufTy).Contents (Elt F) → (⟨S4096x1, .i32⟩ : BufTy).Contents (Elt F) → (⟨S4096x32, .f32⟩ : BufTy).Contents (Elt F)),
    StableHlo.nullary main_c_1 (constantI S_ 32 0#32),
    StableHlo.unary main_c_1 main_v7 (broadcastInDim S4096 ![] bcast_S_S4096 : (⟨S_, .i32⟩ : BufTy).Contents (Elt F) → (⟨S4096, .i32⟩ : BufTy).Contents (Elt F)),
    StableHlo.binary main_arg11 main_v7 main_v8 (cmpi .slt : (⟨S4096, .i32⟩ : BufTy).Contents (Elt F) → (⟨S4096, .i32⟩ : BufTy).Contents (Elt F) → (⟨S4096, .i1⟩ : BufTy).Contents (Elt F)),
    StableHlo.nullary main_c_2 (constantI S_ 32 2048#32),
    StableHlo.unary main_c_2 main_v9 (broadcastInDim S4096 ![] bcast_S_S4096 : (⟨S_, .i32⟩ : BufTy).Contents (Elt F) → (⟨S4096, .i32⟩ : BufTy).Contents (Elt F)),
    StableHlo.binary main_arg11 main_v9 main_v10 (addi : (⟨S4096, .i32⟩ : BufTy).Contents (Elt F) → (⟨S4096, .i32⟩ : BufTy).Contents (Elt F) → (⟨S4096, .i32⟩ : BufTy).Contents (Elt F)),
    StableHlo.ternary main_v8 main_v10 main_arg11 main_v11 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v11 main_v12 (broadcastInDim S4096x1 ![0] bcast_S4096_S4096x1_0 : (⟨S4096, .i32⟩ : BufTy).Contents (Elt F) → (⟨S4096x1, .i32⟩ : BufTy).Contents (Elt F)),
    StableHlo.binary main_arg0 main_v12 main_v13 ((fun x i => Host.gather gather_S2048x32_S4096x1_S4096x32_1_0_n_n_0_1_132 x i) : (⟨S2048x32, .f32⟩ : BufTy).Contents (Elt F) → (⟨S4096x1, .i32⟩ : BufTy).Contents (Elt F) → (⟨S4096x32, .f32⟩ : BufTy).Contents (Elt F)),
    StableHlo.nary ![main_v6, main_arg1, main_v13] main_v14 (fun u => concatenate S4096x80 1 [⟨S4096x32, u 0⟩, ⟨S4096x16, u 1⟩, ⟨S4096x32, u 2⟩] concatenates_S4096x32_S4096x16_S4096x32_S4096x80_d1),
    StableHlo.binary main_v14 main_arg4 main_v15 ((fun l r => Host.dotGeneral dot_S4096x80_S80x1_S4096x1_1_0_0_1_n_n none l r) : (⟨S4096x80, .f32⟩ : BufTy).Contents (Elt F) → (⟨S80x1, .f32⟩ : BufTy).Contents (Elt F) → (⟨S4096x1, .f32⟩ : BufTy).Contents (Elt F)),
    StableHlo.unary main_arg5 main_v16 (broadcastInDim S1x1 ![1] bcast_S1_S1x1_1 : (⟨S1, .f32⟩ : BufTy).Contents (Elt F) → (⟨S1x1, .f32⟩ : BufTy).Contents (Elt F)),
    StableHlo.unary main_v16 main_v17 (broadcastInDim S4096x1 ![0, 1] bcast_S1x1_S4096x1_0_1 : (⟨S1x1, .f32⟩ : BufTy).Contents (Elt F) → (⟨S4096x1, .f32⟩ : BufTy).Contents (Elt F)),
    StableHlo.binary main_v15 main_v17 main_v18 (addf : (⟨S4096x1, .f32⟩ : BufTy).Contents (Elt F) → (⟨S4096x1, .f32⟩ : BufTy).Contents (Elt F) → (⟨S4096x1, .f32⟩ : BufTy).Contents (Elt F)),
    StableHlo.unary main_v18 main_v19 (Host.negf : (⟨S4096x1, .f32⟩ : BufTy).Contents (Elt F) → (⟨S4096x1, .f32⟩ : BufTy).Contents (Elt F)),
    StableHlo.unary main_v19 main_v20 (Host.exp : (⟨S4096x1, .f32⟩ : BufTy).Contents (Elt F) → (⟨S4096x1, .f32⟩ : BufTy).Contents (Elt F)),
    StableHlo.nullary main_cst (constant S_ .f32 0x3F800000#32),
    StableHlo.unary main_cst main_v21 (broadcastInDim S4096x1 ![] bcast_S_S4096x1 : (⟨S_, .f32⟩ : BufTy).Contents (Elt F) → (⟨S4096x1, .f32⟩ : BufTy).Contents (Elt F)),
    StableHlo.binary main_v21 main_v20 main_v22 (addf : (⟨S4096x1, .f32⟩ : BufTy).Contents (Elt F) → (⟨S4096x1, .f32⟩ : BufTy).Contents (Elt F) → (⟨S4096x1, .f32⟩ : BufTy).Contents (Elt F)),
    StableHlo.nullary main_cst_3 (constant S_ .f32 0x3F800000#32),
    StableHlo.unary main_cst_3 main_v23 (broadcastInDim S4096x1 ![] bcast_S_S4096x1 : (⟨S_, .f32⟩ : BufTy).Contents (Elt F) → (⟨S4096x1, .f32⟩ : BufTy).Contents (Elt F)),
    StableHlo.binary main_v23 main_v22 main_v24 (Host.divf : (⟨S4096x1, .f32⟩ : BufTy).Contents (Elt F) → (⟨S4096x1, .f32⟩ : BufTy).Contents (Elt F) → (⟨S4096x1, .f32⟩ : BufTy).Contents (Elt F)),
    StableHlo.reshape main_v24 main_v25 rfl shapeCasts_S4096x1_S4096 ]

/-- The edge matrix: the diagonal matrix of w (the two callees' operations over the call's buffers), the product A · diag(w), the transpose of A, and E = main_v29 = (A · diag(w)) · Aᵀ (f32[2048,2048]). -/
abbrev opsE : List (HloOp τ sig (Elt F)) :=
  [ StableHlo.TRef.nullary (.of main_call0_cst : StableHlo.TRef sig ⟨S_, .f32⟩) (constant S_ .f32 0x00000000#32),
    StableHlo.TRef.binary (.of main_v25 : StableHlo.TRef sig ⟨S4096, .f32⟩) (.of main_call0_cst : StableHlo.TRef sig ⟨S_, .f32⟩) (.of main_call0_v0 : StableHlo.TRef sig ⟨S4096, .f32⟩) (fun x v => pad S4096 ![0] ![0] ![0] x v pads_S4096_S4096_000 h_S_),
    StableHlo.TRef.nullary (.of main_call0_v1 : StableHlo.TRef sig ⟨S4096x4096, .i32⟩) (iotaInDim S4096x4096 32 0),
    StableHlo.TRef.nullary (.of main_call0_v2 : StableHlo.TRef sig ⟨S4096x4096, .i32⟩) (iotaInDim S4096x4096 32 1),
    StableHlo.TRef.nullary (.of main_call0_c : StableHlo.TRef sig ⟨S_, .i32⟩) (constantI S_ 32 0#32),
    StableHlo.TRef.unary (.of main_call0_c : StableHlo.TRef sig ⟨S_, .i32⟩) (.of main_call0_v3 : StableHlo.TRef sig ⟨S4096x4096, .i32⟩) (broadcastInDim S4096x4096 ![] bcast_S_S4096x4096),
    StableHlo.TRef.binary (.of main_call0_v1 : StableHlo.TRef sig ⟨S4096x4096, .i32⟩) (.of main_call0_v3 : StableHlo.TRef sig ⟨S4096x4096, .i32⟩) (.of main_call0_v4 : StableHlo.TRef sig ⟨S4096x4096, .i32⟩) addi,
    StableHlo.TRef.binary (.of main_call0_v4 : StableHlo.TRef sig ⟨S4096x4096, .i32⟩) (.of main_call0_v2 : StableHlo.TRef sig ⟨S4096x4096, .i32⟩) (.of main_call0_v5 : StableHlo.TRef sig ⟨S4096x4096, .i1⟩) (cmpi .eq),
    StableHlo.TRef.unary (.of main_call0_v0 : StableHlo.TRef sig ⟨S4096, .f32⟩) (.of main_call0_v6 : StableHlo.TRef sig ⟨S4096x1, .f32⟩) (broadcastInDim S4096x1 ![0] bcast_S4096_S4096x1_0),
    StableHlo.TRef.nullary (.of main_call0_cst_0 : StableHlo.TRef sig ⟨S_, .f32⟩) (constant S_ .f32 0x00000000#32),
    StableHlo.TRef.unary (.of main_call0_v6 : StableHlo.TRef sig ⟨S4096x1, .f32⟩) (.of main_call0_call0_v0 : StableHlo.TRef sig ⟨S4096x4096, .f32⟩) (broadcastInDim S4096x4096 ![0, 1] bcast_S4096x1_S4096x4096_0_1),
    StableHlo.TRef.unary (.of main_call0_cst_0 : StableHlo.TRef sig ⟨S_, .f32⟩) (.of main_call0_call0_v1 : StableHlo.TRef sig ⟨S4096x4096, .f32⟩) (broadcastInDim S4096x4096 ![] bcast_S_S4096x4096),
    StableHlo.TRef.ternary (.of main_call0_v5 : StableHlo.TRef sig ⟨S4096x4096, .i1⟩) (.of main_call0_call0_v0 : StableHlo.TRef sig ⟨S4096x4096, .f32⟩) (.of main_call0_call0_v1 : StableHlo.TRef sig ⟨S4096x4096, .f32⟩) (.of main_v26 : StableHlo.TRef sig ⟨S4096x4096, .f32⟩) select,
    StableHlo.binary main_arg3 main_v26 main_v27 ((fun l r => Host.dotGeneral dot_S2048x4096_S4096x4096_S2048x4096_1_0_0_1_n_n none l r) : (⟨S2048x4096, .f32⟩ : BufTy).Contents (Elt F) → (⟨S4096x4096, .f32⟩ : BufTy).Contents (Elt F) → (⟨S2048x4096, .f32⟩ : BufTy).Contents (Elt F)),
    StableHlo.unary main_arg3 main_v28 ((transpose S4096x2048 [1, 0] · transposes_S2048x4096_S4096x2048_1_0) : (⟨S2048x4096, .f32⟩ : BufTy).Contents (Elt F) → (⟨S4096x2048, .f32⟩ : BufTy).Contents (Elt F)),
    StableHlo.binary main_v27 main_v28 main_v29 ((fun l r => Host.dotGeneral dot_S2048x4096_S4096x2048_S2048x2048_1_0_0_1_n_n none l r) : (⟨S2048x4096, .f32⟩ : BufTy).Contents (Elt F) → (⟨S4096x2048, .f32⟩ : BufTy).Contents (Elt F) → (⟨S2048x2048, .f32⟩ : BufTy).Contents (Elt F)) ]

/-- The tail: everything after E, each norm's operations over its call's buffers. -/
abbrev opsT : List (HloOp τ sig (Elt F)) :=
  [ StableHlo.binary main_arg0 main_arg6 main_v30 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.unary main_v30 main_v31 (Host.tanh : (⟨S2048x32, .f32⟩ : BufTy).Contents (Elt F) → (⟨S2048x32, .f32⟩ : BufTy).Contents (Elt F)),
    StableHlo.binary main_arg0 main_arg7 main_v32 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.unary main_v32 main_v33 (Host.tanh : (⟨S2048x32, .f32⟩ : BufTy).Contents (Elt F) → (⟨S2048x32, .f32⟩ : BufTy).Contents (Elt F)),
    StableHlo.nullary main_cst_4 (constant S_ .f32 0x00000000#32),
    StableHlo.binary main_arg2 main_cst_4 main_v34 ((fun x v => Host.reduceAdd x v reducesTo_S128x2048_S128_d1 h_S_) : (⟨S128x2048, .f32⟩ : BufTy).Contents (Elt F) → (⟨S_, .f32⟩ : BufTy).Contents (Elt F) → (⟨S128, .f32⟩ : BufTy).Contents (Elt F)),
    StableHlo.unary main_v34 main_v35 (broadcastInDim S128x1 ![0] bcast_S128_S128x1_0 : (⟨S128, .f32⟩ : BufTy).Contents (Elt F) → (⟨S128x1, .f32⟩ : BufTy).Contents (Elt F)),
    StableHlo.unary main_arg2 main_v36 ((transpose S2048x128 [1, 0] · transposes_S128x2048_S2048x128_1_0) : (⟨S128x2048, .f32⟩ : BufTy).Contents (Elt F) → (⟨S2048x128, .f32⟩ : BufTy).Contents (Elt F)),
    StableHlo.binary main_arg2 main_v33 main_v37 ((fun l r => Host.dotGeneral dot_S128x2048_S2048x32_S128x32_1_0_0_1_n_n none l r) : (⟨S128x2048, .f32⟩ : BufTy).Contents (Elt F) → (⟨S2048x32, .f32⟩ : BufTy).Contents (Elt F) → (⟨S128x32, .f32⟩ : BufTy).Contents (Elt F)),
    StableHlo.unary main_v35 main_v38 (broadcastInDim S128x32 ![0, 1] bcast_S128x1_S128x32_0_1 : (⟨S128x1, .f32⟩ : BufTy).Contents (Elt F) → (⟨S128x32, .f32⟩ : BufTy).Contents (Elt F)),
    StableHlo.binary main_v37 main_v38 main_v39 (Host.divf : (⟨S128x32, .f32⟩ : BufTy).Contents (Elt F) → (⟨S128x32, .f32⟩ : BufTy).Contents (Elt F) → (⟨S128x32, .f32⟩ : BufTy).Contents (Elt F)),
    StableHlo.binary main_v36 main_v39 main_v40 ((fun l r => Host.dotGeneral dot_S2048x128_S128x32_S2048x32_1_0_0_1_n_n none l r) : (⟨S2048x128, .f32⟩ : BufTy).Contents (Elt F) → (⟨S128x32, .f32⟩ : BufTy).Contents (Elt F) → (⟨S2048x32, .f32⟩ : BufTy).Contents (Elt F)),
    StableHlo.binary main_v33 main_v40 main_v41 (subf : (⟨S2048x32, .f32⟩ : BufTy).Contents (Elt F) → (⟨S2048x32, .f32⟩ : BufTy).Contents (Elt F) → (⟨S2048x32, .f32⟩ : BufTy).Contents (Elt F)),
    StableHlo.nullary main_cst_5 (constant S_ .f32 0x00000000#32),
    StableHlo.binary main_v29 main_cst_5 main_v42 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v42 main_v43 (broadcastInDim S2048x1 ![0] bcast_S2048_S2048x1_0 : (⟨S2048, .f32⟩ : BufTy).Contents (Elt F) → (⟨S2048x1, .f32⟩ : BufTy).Contents (Elt F)),
    StableHlo.binary main_v31 main_arg8 main_v44 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.unary main_v43 main_v45 (broadcastInDim S2048x32 ![0, 1] bcast_S2048x1_S2048x32_0_1 : (⟨S2048x1, .f32⟩ : BufTy).Contents (Elt F) → (⟨S2048x32, .f32⟩ : BufTy).Contents (Elt F)),
    StableHlo.binary main_v45 main_v41 main_v46 (mulf : (⟨S2048x32, .f32⟩ : BufTy).Contents (Elt F) → (⟨S2048x32, .f32⟩ : BufTy).Contents (Elt F) → (⟨S2048x32, .f32⟩ : BufTy).Contents (Elt F)),
    StableHlo.binary main_v29 main_v41 main_v47 ((fun l r => Host.dotGeneral dot_S2048x2048_S2048x32_S2048x32_1_0_0_1_n_n none l r) : (⟨S2048x2048, .f32⟩ : BufTy).Contents (Elt F) → (⟨S2048x32, .f32⟩ : BufTy).Contents (Elt F) → (⟨S2048x32, .f32⟩ : BufTy).Contents (Elt F)),
    StableHlo.binary main_v46 main_v47 main_v48 (subf : (⟨S2048x32, .f32⟩ : BufTy).Contents (Elt F) → (⟨S2048x32, .f32⟩ : BufTy).Contents (Elt F) → (⟨S2048x32, .f32⟩ : BufTy).Contents (Elt F)),
    StableHlo.unary main_v48 main_v49 (Host.negf : (⟨S2048x32, .f32⟩ : BufTy).Contents (Elt F) → (⟨S2048x32, .f32⟩ : BufTy).Contents (Elt F)),
    StableHlo.binary main_v49 main_arg9 main_v50 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.nullary main_cst_6 (constant S_ .f32 0x3E800000#32),
    StableHlo.unary main_cst_6 main_v51 (broadcastInDim S2048x32 ![] bcast_S_S2048x32 : (⟨S_, .f32⟩ : BufTy).Contents (Elt F) → (⟨S2048x32, .f32⟩ : BufTy).Contents (Elt F)),
    StableHlo.binary main_v51 main_v50 main_v52 (mulf : (⟨S2048x32, .f32⟩ : BufTy).Contents (Elt F) → (⟨S2048x32, .f32⟩ : BufTy).Contents (Elt F) → (⟨S2048x32, .f32⟩ : BufTy).Contents (Elt F)),
    StableHlo.binary main_v31 main_v52 main_v53 (addf : (⟨S2048x32, .f32⟩ : BufTy).Contents (Elt F) → (⟨S2048x32, .f32⟩ : BufTy).Contents (Elt F) → (⟨S2048x32, .f32⟩ : BufTy).Contents (Elt F)),
    StableHlo.nullary main_cst_7 (constant S_ .f32 0x3E800000#32),
    StableHlo.unary main_cst_7 main_v54 (broadcastInDim S2048x32 ![] bcast_S_S2048x32 : (⟨S_, .f32⟩ : BufTy).Contents (Elt F) → (⟨S2048x32, .f32⟩ : BufTy).Contents (Elt F)),
    StableHlo.binary main_v54 main_v44 main_v55 (mulf : (⟨S2048x32, .f32⟩ : BufTy).Contents (Elt F) → (⟨S2048x32, .f32⟩ : BufTy).Contents (Elt F) → (⟨S2048x32, .f32⟩ : BufTy).Contents (Elt F)),
    StableHlo.binary main_v41 main_v55 main_v56 (addf : (⟨S2048x32, .f32⟩ : BufTy).Contents (Elt F) → (⟨S2048x32, .f32⟩ : BufTy).Contents (Elt F) → (⟨S2048x32, .f32⟩ : BufTy).Contents (Elt F)),
    StableHlo.binary main_v44 main_v31 main_v57 (subf : (⟨S2048x32, .f32⟩ : BufTy).Contents (Elt F) → (⟨S2048x32, .f32⟩ : BufTy).Contents (Elt F) → (⟨S2048x32, .f32⟩ : BufTy).Contents (Elt F)),
    StableHlo.TRef.binary (.of main_v57 : StableHlo.TRef sig ⟨S2048x32, .f32⟩) (.of main_v57 : StableHlo.TRef sig ⟨S2048x32, .f32⟩) (.of main_call1_v0 : StableHlo.TRef sig ⟨S2048x32, .f32⟩) mulf,
    StableHlo.TRef.nullary (.of main_call1_cst : StableHlo.TRef sig ⟨S_, .f32⟩) (constant S_ .f32 0x00000000#32),
    StableHlo.TRef.binary (.of main_call1_v0 : StableHlo.TRef sig ⟨S2048x32, .f32⟩) (.of main_call1_cst : StableHlo.TRef sig ⟨S_, .f32⟩) (.of main_call1_v1 : StableHlo.TRef sig ⟨S_, .f32⟩) (fun x v => Host.reduceAdd x v reducesTo_S2048x32_S_d0_1 h_S_),
    StableHlo.TRef.unary (.of main_call1_v1 : StableHlo.TRef sig ⟨S_, .f32⟩) (.of main_v58 : StableHlo.TRef sig ⟨S_, .f32⟩) Host.sqrt,
    StableHlo.nullary main_cst_8 (constant S_ .f32 0x00000000#32),
    StableHlo.binary main_cst_8 main_v58 main_v59 (addf : (⟨S_, .f32⟩ : BufTy).Contents (Elt F) → (⟨S_, .f32⟩ : BufTy).Contents (Elt F) → (⟨S_, .f32⟩ : BufTy).Contents (Elt F)),
    StableHlo.binary main_v53 main_v31 main_v60 (subf : (⟨S2048x32, .f32⟩ : BufTy).Contents (Elt F) → (⟨S2048x32, .f32⟩ : BufTy).Contents (Elt F) → (⟨S2048x32, .f32⟩ : BufTy).Contents (Elt F)),
    StableHlo.binary main_arg2 main_v60 main_v61 ((fun l r => Host.dotGeneral dot_S128x2048_S2048x32_S128x32_1_0_0_1_n_n none l r) : (⟨S128x2048, .f32⟩ : BufTy).Contents (Elt F) → (⟨S2048x32, .f32⟩ : BufTy).Contents (Elt F) → (⟨S128x32, .f32⟩ : BufTy).Contents (Elt F)),
    StableHlo.TRef.binary (.of main_v61 : StableHlo.TRef sig ⟨S128x32, .f32⟩) (.of main_v61 : StableHlo.TRef sig ⟨S128x32, .f32⟩) (.of main_call2_v0 : StableHlo.TRef sig ⟨S128x32, .f32⟩) mulf,
    StableHlo.TRef.nullary (.of main_call2_cst : StableHlo.TRef sig ⟨S_, .f32⟩) (constant S_ .f32 0x00000000#32),
    StableHlo.TRef.binary (.of main_call2_v0 : StableHlo.TRef sig ⟨S128x32, .f32⟩) (.of main_call2_cst : StableHlo.TRef sig ⟨S_, .f32⟩) (.of main_call2_v1 : StableHlo.TRef sig ⟨S_, .f32⟩) (fun x v => Host.reduceAdd x v reducesTo_S128x32_S_d0_1 h_S_),
    StableHlo.TRef.unary (.of main_call2_v1 : StableHlo.TRef sig ⟨S_, .f32⟩) (.of main_v62 : StableHlo.TRef sig ⟨S_, .f32⟩) Host.sqrt,
    StableHlo.nullary main_cst_9 (constant S_ .f32 0x00000000#32),
    StableHlo.binary main_cst_9 main_v62 main_v63 (addf : (⟨S_, .f32⟩ : BufTy).Contents (Elt F) → (⟨S_, .f32⟩ : BufTy).Contents (Elt F) → (⟨S_, .f32⟩ : BufTy).Contents (Elt F)),
    StableHlo.binary main_v53 main_arg8 main_v64 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.unary main_v43 main_v65 (broadcastInDim S2048x32 ![0, 1] bcast_S2048x1_S2048x32_0_1 : (⟨S2048x1, .f32⟩ : BufTy).Contents (Elt F) → (⟨S2048x32, .f32⟩ : BufTy).Contents (Elt F)),
    StableHlo.binary main_v65 main_v56 main_v66 (mulf : (⟨S2048x32, .f32⟩ : BufTy).Contents (Elt F) → (⟨S2048x32, .f32⟩ : BufTy).Contents (Elt F) → (⟨S2048x32, .f32⟩ : BufTy).Contents (Elt F)),
    StableHlo.binary main_v29 main_v56 main_v67 ((fun l r => Host.dotGeneral dot_S2048x2048_S2048x32_S2048x32_1_0_0_1_n_n none l r) : (⟨S2048x2048, .f32⟩ : BufTy).Contents (Elt F) → (⟨S2048x32, .f32⟩ : BufTy).Contents (Elt F) → (⟨S2048x32, .f32⟩ : BufTy).Contents (Elt F)),
    StableHlo.binary main_v66 main_v67 main_v68 (subf : (⟨S2048x32, .f32⟩ : BufTy).Contents (Elt F) → (⟨S2048x32, .f32⟩ : BufTy).Contents (Elt F) → (⟨S2048x32, .f32⟩ : BufTy).Contents (Elt F)),
    StableHlo.unary main_v68 main_v69 (Host.negf : (⟨S2048x32, .f32⟩ : BufTy).Contents (Elt F) → (⟨S2048x32, .f32⟩ : BufTy).Contents (Elt F)),
    StableHlo.binary main_v69 main_arg9 main_v70 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.nullary main_cst_10 (constant S_ .f32 0x3E800000#32),
    StableHlo.unary main_cst_10 main_v71 (broadcastInDim S2048x32 ![] bcast_S_S2048x32 : (⟨S_, .f32⟩ : BufTy).Contents (Elt F) → (⟨S2048x32, .f32⟩ : BufTy).Contents (Elt F)),
    StableHlo.binary main_v71 main_v70 main_v72 (mulf : (⟨S2048x32, .f32⟩ : BufTy).Contents (Elt F) → (⟨S2048x32, .f32⟩ : BufTy).Contents (Elt F) → (⟨S2048x32, .f32⟩ : BufTy).Contents (Elt F)),
    StableHlo.binary main_v53 main_v72 main_v73 (addf : (⟨S2048x32, .f32⟩ : BufTy).Contents (Elt F) → (⟨S2048x32, .f32⟩ : BufTy).Contents (Elt F) → (⟨S2048x32, .f32⟩ : BufTy).Contents (Elt F)),
    StableHlo.nullary main_cst_11 (constant S_ .f32 0x3E800000#32),
    StableHlo.unary main_cst_11 main_v74 (broadcastInDim S2048x32 ![] bcast_S_S2048x32 : (⟨S_, .f32⟩ : BufTy).Contents (Elt F) → (⟨S2048x32, .f32⟩ : BufTy).Contents (Elt F)),
    StableHlo.binary main_v74 main_v64 main_v75 (mulf : (⟨S2048x32, .f32⟩ : BufTy).Contents (Elt F) → (⟨S2048x32, .f32⟩ : BufTy).Contents (Elt F) → (⟨S2048x32, .f32⟩ : BufTy).Contents (Elt F)),
    StableHlo.binary main_v56 main_v75 main_v76 (addf : (⟨S2048x32, .f32⟩ : BufTy).Contents (Elt F) → (⟨S2048x32, .f32⟩ : BufTy).Contents (Elt F) → (⟨S2048x32, .f32⟩ : BufTy).Contents (Elt F)),
    StableHlo.binary main_v64 main_v53 main_v77 (subf : (⟨S2048x32, .f32⟩ : BufTy).Contents (Elt F) → (⟨S2048x32, .f32⟩ : BufTy).Contents (Elt F) → (⟨S2048x32, .f32⟩ : BufTy).Contents (Elt F)),
    StableHlo.TRef.binary (.of main_v77 : StableHlo.TRef sig ⟨S2048x32, .f32⟩) (.of main_v77 : StableHlo.TRef sig ⟨S2048x32, .f32⟩) (.of main_call3_v0 : StableHlo.TRef sig ⟨S2048x32, .f32⟩) mulf,
    StableHlo.TRef.nullary (.of main_call3_cst : StableHlo.TRef sig ⟨S_, .f32⟩) (constant S_ .f32 0x00000000#32),
    StableHlo.TRef.binary (.of main_call3_v0 : StableHlo.TRef sig ⟨S2048x32, .f32⟩) (.of main_call3_cst : StableHlo.TRef sig ⟨S_, .f32⟩) (.of main_call3_v1 : StableHlo.TRef sig ⟨S_, .f32⟩) (fun x v => Host.reduceAdd x v reducesTo_S2048x32_S_d0_1 h_S_),
    StableHlo.TRef.unary (.of main_call3_v1 : StableHlo.TRef sig ⟨S_, .f32⟩) (.of main_v78 : StableHlo.TRef sig ⟨S_, .f32⟩) Host.sqrt,
    StableHlo.binary main_v59 main_v78 main_v79 (addf : (⟨S_, .f32⟩ : BufTy).Contents (Elt F) → (⟨S_, .f32⟩ : BufTy).Contents (Elt F) → (⟨S_, .f32⟩ : BufTy).Contents (Elt F)),
    StableHlo.binary main_v73 main_v53 main_v80 (subf : (⟨S2048x32, .f32⟩ : BufTy).Contents (Elt F) → (⟨S2048x32, .f32⟩ : BufTy).Contents (Elt F) → (⟨S2048x32, .f32⟩ : BufTy).Contents (Elt F)),
    StableHlo.binary main_arg2 main_v80 main_v81 ((fun l r => Host.dotGeneral dot_S128x2048_S2048x32_S128x32_1_0_0_1_n_n none l r) : (⟨S128x2048, .f32⟩ : BufTy).Contents (Elt F) → (⟨S2048x32, .f32⟩ : BufTy).Contents (Elt F) → (⟨S128x32, .f32⟩ : BufTy).Contents (Elt F)),
    StableHlo.TRef.binary (.of main_v81 : StableHlo.TRef sig ⟨S128x32, .f32⟩) (.of main_v81 : StableHlo.TRef sig ⟨S128x32, .f32⟩) (.of main_call4_v0 : StableHlo.TRef sig ⟨S128x32, .f32⟩) mulf,
    StableHlo.TRef.nullary (.of main_call4_cst : StableHlo.TRef sig ⟨S_, .f32⟩) (constant S_ .f32 0x00000000#32),
    StableHlo.TRef.binary (.of main_call4_v0 : StableHlo.TRef sig ⟨S128x32, .f32⟩) (.of main_call4_cst : StableHlo.TRef sig ⟨S_, .f32⟩) (.of main_call4_v1 : StableHlo.TRef sig ⟨S_, .f32⟩) (fun x v => Host.reduceAdd x v reducesTo_S128x32_S_d0_1 h_S_),
    StableHlo.TRef.unary (.of main_call4_v1 : StableHlo.TRef sig ⟨S_, .f32⟩) (.of main_v82 : StableHlo.TRef sig ⟨S_, .f32⟩) Host.sqrt,
    StableHlo.binary main_v63 main_v82 main_v83 (addf : (⟨S_, .f32⟩ : BufTy).Contents (Elt F) → (⟨S_, .f32⟩ : BufTy).Contents (Elt F) → (⟨S_, .f32⟩ : BufTy).Contents (Elt F)),
    StableHlo.binary main_v73 main_arg8 main_v84 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.unary main_v43 main_v85 (broadcastInDim S2048x32 ![0, 1] bcast_S2048x1_S2048x32_0_1 : (⟨S2048x1, .f32⟩ : BufTy).Contents (Elt F) → (⟨S2048x32, .f32⟩ : BufTy).Contents (Elt F)),
    StableHlo.binary main_v85 main_v76 main_v86 (mulf : (⟨S2048x32, .f32⟩ : BufTy).Contents (Elt F) → (⟨S2048x32, .f32⟩ : BufTy).Contents (Elt F) → (⟨S2048x32, .f32⟩ : BufTy).Contents (Elt F)),
    StableHlo.binary main_v29 main_v76 main_v87 ((fun l r => Host.dotGeneral dot_S2048x2048_S2048x32_S2048x32_1_0_0_1_n_n none l r) : (⟨S2048x2048, .f32⟩ : BufTy).Contents (Elt F) → (⟨S2048x32, .f32⟩ : BufTy).Contents (Elt F) → (⟨S2048x32, .f32⟩ : BufTy).Contents (Elt F)),
    StableHlo.binary main_v86 main_v87 main_v88 (subf : (⟨S2048x32, .f32⟩ : BufTy).Contents (Elt F) → (⟨S2048x32, .f32⟩ : BufTy).Contents (Elt F) → (⟨S2048x32, .f32⟩ : BufTy).Contents (Elt F)),
    StableHlo.unary main_v88 main_v89 (Host.negf : (⟨S2048x32, .f32⟩ : BufTy).Contents (Elt F) → (⟨S2048x32, .f32⟩ : BufTy).Contents (Elt F)),
    StableHlo.binary main_v89 main_arg9 main_v90 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.nullary main_cst_12 (constant S_ .f32 0x3E800000#32),
    StableHlo.unary main_cst_12 main_v91 (broadcastInDim S2048x32 ![] bcast_S_S2048x32 : (⟨S_, .f32⟩ : BufTy).Contents (Elt F) → (⟨S2048x32, .f32⟩ : BufTy).Contents (Elt F)),
    StableHlo.binary main_v91 main_v90 main_v92 (mulf : (⟨S2048x32, .f32⟩ : BufTy).Contents (Elt F) → (⟨S2048x32, .f32⟩ : BufTy).Contents (Elt F) → (⟨S2048x32, .f32⟩ : BufTy).Contents (Elt F)),
    StableHlo.binary main_v73 main_v92 main_v93 (addf : (⟨S2048x32, .f32⟩ : BufTy).Contents (Elt F) → (⟨S2048x32, .f32⟩ : BufTy).Contents (Elt F) → (⟨S2048x32, .f32⟩ : BufTy).Contents (Elt F)),
    StableHlo.nullary main_cst_13 (constant S_ .f32 0x3E800000#32),
    StableHlo.unary main_cst_13 main_v94 (broadcastInDim S2048x32 ![] bcast_S_S2048x32 : (⟨S_, .f32⟩ : BufTy).Contents (Elt F) → (⟨S2048x32, .f32⟩ : BufTy).Contents (Elt F)),
    StableHlo.binary main_v94 main_v84 main_v95 (mulf : (⟨S2048x32, .f32⟩ : BufTy).Contents (Elt F) → (⟨S2048x32, .f32⟩ : BufTy).Contents (Elt F) → (⟨S2048x32, .f32⟩ : BufTy).Contents (Elt F)),
    StableHlo.binary main_v76 main_v95 main_v96 (addf : (⟨S2048x32, .f32⟩ : BufTy).Contents (Elt F) → (⟨S2048x32, .f32⟩ : BufTy).Contents (Elt F) → (⟨S2048x32, .f32⟩ : BufTy).Contents (Elt F)),
    StableHlo.binary main_v84 main_v73 main_v97 (subf : (⟨S2048x32, .f32⟩ : BufTy).Contents (Elt F) → (⟨S2048x32, .f32⟩ : BufTy).Contents (Elt F) → (⟨S2048x32, .f32⟩ : BufTy).Contents (Elt F)),
    StableHlo.TRef.binary (.of main_v97 : StableHlo.TRef sig ⟨S2048x32, .f32⟩) (.of main_v97 : StableHlo.TRef sig ⟨S2048x32, .f32⟩) (.of main_call5_v0 : StableHlo.TRef sig ⟨S2048x32, .f32⟩) mulf,
    StableHlo.TRef.nullary (.of main_call5_cst : StableHlo.TRef sig ⟨S_, .f32⟩) (constant S_ .f32 0x00000000#32),
    StableHlo.TRef.binary (.of main_call5_v0 : StableHlo.TRef sig ⟨S2048x32, .f32⟩) (.of main_call5_cst : StableHlo.TRef sig ⟨S_, .f32⟩) (.of main_call5_v1 : StableHlo.TRef sig ⟨S_, .f32⟩) (fun x v => Host.reduceAdd x v reducesTo_S2048x32_S_d0_1 h_S_),
    StableHlo.TRef.unary (.of main_call5_v1 : StableHlo.TRef sig ⟨S_, .f32⟩) (.of main_v98 : StableHlo.TRef sig ⟨S_, .f32⟩) Host.sqrt,
    StableHlo.binary main_v79 main_v98 main_v99 (addf : (⟨S_, .f32⟩ : BufTy).Contents (Elt F) → (⟨S_, .f32⟩ : BufTy).Contents (Elt F) → (⟨S_, .f32⟩ : BufTy).Contents (Elt F)),
    StableHlo.binary main_v93 main_v73 main_v100 (subf : (⟨S2048x32, .f32⟩ : BufTy).Contents (Elt F) → (⟨S2048x32, .f32⟩ : BufTy).Contents (Elt F) → (⟨S2048x32, .f32⟩ : BufTy).Contents (Elt F)),
    StableHlo.binary main_arg2 main_v100 main_v101 ((fun l r => Host.dotGeneral dot_S128x2048_S2048x32_S128x32_1_0_0_1_n_n none l r) : (⟨S128x2048, .f32⟩ : BufTy).Contents (Elt F) → (⟨S2048x32, .f32⟩ : BufTy).Contents (Elt F) → (⟨S128x32, .f32⟩ : BufTy).Contents (Elt F)),
    StableHlo.TRef.binary (.of main_v101 : StableHlo.TRef sig ⟨S128x32, .f32⟩) (.of main_v101 : StableHlo.TRef sig ⟨S128x32, .f32⟩) (.of main_call6_v0 : StableHlo.TRef sig ⟨S128x32, .f32⟩) mulf,
    StableHlo.TRef.nullary (.of main_call6_cst : StableHlo.TRef sig ⟨S_, .f32⟩) (constant S_ .f32 0x00000000#32),
    StableHlo.TRef.binary (.of main_call6_v0 : StableHlo.TRef sig ⟨S128x32, .f32⟩) (.of main_call6_cst : StableHlo.TRef sig ⟨S_, .f32⟩) (.of main_call6_v1 : StableHlo.TRef sig ⟨S_, .f32⟩) (fun x v => Host.reduceAdd x v reducesTo_S128x32_S_d0_1 h_S_),
    StableHlo.TRef.unary (.of main_call6_v1 : StableHlo.TRef sig ⟨S_, .f32⟩) (.of main_v102 : StableHlo.TRef sig ⟨S_, .f32⟩) Host.sqrt,
    StableHlo.binary main_v83 main_v102 main_v103 (addf : (⟨S_, .f32⟩ : BufTy).Contents (Elt F) → (⟨S_, .f32⟩ : BufTy).Contents (Elt F) → (⟨S_, .f32⟩ : BufTy).Contents (Elt F)),
    StableHlo.binary main_v93 main_arg8 main_v104 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.unary main_v43 main_v105 (broadcastInDim S2048x32 ![0, 1] bcast_S2048x1_S2048x32_0_1 : (⟨S2048x1, .f32⟩ : BufTy).Contents (Elt F) → (⟨S2048x32, .f32⟩ : BufTy).Contents (Elt F)),
    StableHlo.binary main_v105 main_v96 main_v106 (mulf : (⟨S2048x32, .f32⟩ : BufTy).Contents (Elt F) → (⟨S2048x32, .f32⟩ : BufTy).Contents (Elt F) → (⟨S2048x32, .f32⟩ : BufTy).Contents (Elt F)),
    StableHlo.binary main_v29 main_v96 main_v107 ((fun l r => Host.dotGeneral dot_S2048x2048_S2048x32_S2048x32_1_0_0_1_n_n none l r) : (⟨S2048x2048, .f32⟩ : BufTy).Contents (Elt F) → (⟨S2048x32, .f32⟩ : BufTy).Contents (Elt F) → (⟨S2048x32, .f32⟩ : BufTy).Contents (Elt F)),
    StableHlo.binary main_v106 main_v107 main_v108 (subf : (⟨S2048x32, .f32⟩ : BufTy).Contents (Elt F) → (⟨S2048x32, .f32⟩ : BufTy).Contents (Elt F) → (⟨S2048x32, .f32⟩ : BufTy).Contents (Elt F)),
    StableHlo.unary main_v108 main_v109 (Host.negf : (⟨S2048x32, .f32⟩ : BufTy).Contents (Elt F) → (⟨S2048x32, .f32⟩ : BufTy).Contents (Elt F)),
    StableHlo.binary main_v109 main_arg9 main_v110 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.nullary main_cst_14 (constant S_ .f32 0x3E800000#32),
    StableHlo.unary main_cst_14 main_v111 (broadcastInDim S2048x32 ![] bcast_S_S2048x32 : (⟨S_, .f32⟩ : BufTy).Contents (Elt F) → (⟨S2048x32, .f32⟩ : BufTy).Contents (Elt F)),
    StableHlo.binary main_v111 main_v110 main_v112 (mulf : (⟨S2048x32, .f32⟩ : BufTy).Contents (Elt F) → (⟨S2048x32, .f32⟩ : BufTy).Contents (Elt F) → (⟨S2048x32, .f32⟩ : BufTy).Contents (Elt F)),
    StableHlo.binary main_v93 main_v112 main_v113 (addf : (⟨S2048x32, .f32⟩ : BufTy).Contents (Elt F) → (⟨S2048x32, .f32⟩ : BufTy).Contents (Elt F) → (⟨S2048x32, .f32⟩ : BufTy).Contents (Elt F)),
    StableHlo.nullary main_cst_15 (constant S_ .f32 0x3E800000#32),
    StableHlo.unary main_cst_15 main_v114 (broadcastInDim S2048x32 ![] bcast_S_S2048x32 : (⟨S_, .f32⟩ : BufTy).Contents (Elt F) → (⟨S2048x32, .f32⟩ : BufTy).Contents (Elt F)),
    StableHlo.binary main_v114 main_v104 main_v115 (mulf : (⟨S2048x32, .f32⟩ : BufTy).Contents (Elt F) → (⟨S2048x32, .f32⟩ : BufTy).Contents (Elt F) → (⟨S2048x32, .f32⟩ : BufTy).Contents (Elt F)),
    StableHlo.binary main_v96 main_v115 main_v116 (addf : (⟨S2048x32, .f32⟩ : BufTy).Contents (Elt F) → (⟨S2048x32, .f32⟩ : BufTy).Contents (Elt F) → (⟨S2048x32, .f32⟩ : BufTy).Contents (Elt F)),
    StableHlo.binary main_v104 main_v93 main_v117 (subf : (⟨S2048x32, .f32⟩ : BufTy).Contents (Elt F) → (⟨S2048x32, .f32⟩ : BufTy).Contents (Elt F) → (⟨S2048x32, .f32⟩ : BufTy).Contents (Elt F)),
    StableHlo.TRef.binary (.of main_v117 : StableHlo.TRef sig ⟨S2048x32, .f32⟩) (.of main_v117 : StableHlo.TRef sig ⟨S2048x32, .f32⟩) (.of main_call7_v0 : StableHlo.TRef sig ⟨S2048x32, .f32⟩) mulf,
    StableHlo.TRef.nullary (.of main_call7_cst : StableHlo.TRef sig ⟨S_, .f32⟩) (constant S_ .f32 0x00000000#32),
    StableHlo.TRef.binary (.of main_call7_v0 : StableHlo.TRef sig ⟨S2048x32, .f32⟩) (.of main_call7_cst : StableHlo.TRef sig ⟨S_, .f32⟩) (.of main_call7_v1 : StableHlo.TRef sig ⟨S_, .f32⟩) (fun x v => Host.reduceAdd x v reducesTo_S2048x32_S_d0_1 h_S_),
    StableHlo.TRef.unary (.of main_call7_v1 : StableHlo.TRef sig ⟨S_, .f32⟩) (.of main_v118 : StableHlo.TRef sig ⟨S_, .f32⟩) Host.sqrt,
    StableHlo.binary main_v99 main_v118 main_v119 (addf : (⟨S_, .f32⟩ : BufTy).Contents (Elt F) → (⟨S_, .f32⟩ : BufTy).Contents (Elt F) → (⟨S_, .f32⟩ : BufTy).Contents (Elt F)),
    StableHlo.binary main_v113 main_v93 main_v120 (subf : (⟨S2048x32, .f32⟩ : BufTy).Contents (Elt F) → (⟨S2048x32, .f32⟩ : BufTy).Contents (Elt F) → (⟨S2048x32, .f32⟩ : BufTy).Contents (Elt F)),
    StableHlo.binary main_arg2 main_v120 main_v121 ((fun l r => Host.dotGeneral dot_S128x2048_S2048x32_S128x32_1_0_0_1_n_n none l r) : (⟨S128x2048, .f32⟩ : BufTy).Contents (Elt F) → (⟨S2048x32, .f32⟩ : BufTy).Contents (Elt F) → (⟨S128x32, .f32⟩ : BufTy).Contents (Elt F)),
    StableHlo.TRef.binary (.of main_v121 : StableHlo.TRef sig ⟨S128x32, .f32⟩) (.of main_v121 : StableHlo.TRef sig ⟨S128x32, .f32⟩) (.of main_call8_v0 : StableHlo.TRef sig ⟨S128x32, .f32⟩) mulf,
    StableHlo.TRef.nullary (.of main_call8_cst : StableHlo.TRef sig ⟨S_, .f32⟩) (constant S_ .f32 0x00000000#32),
    StableHlo.TRef.binary (.of main_call8_v0 : StableHlo.TRef sig ⟨S128x32, .f32⟩) (.of main_call8_cst : StableHlo.TRef sig ⟨S_, .f32⟩) (.of main_call8_v1 : StableHlo.TRef sig ⟨S_, .f32⟩) (fun x v => Host.reduceAdd x v reducesTo_S128x32_S_d0_1 h_S_),
    StableHlo.TRef.unary (.of main_call8_v1 : StableHlo.TRef sig ⟨S_, .f32⟩) (.of main_v122 : StableHlo.TRef sig ⟨S_, .f32⟩) Host.sqrt,
    StableHlo.binary main_v103 main_v122 main_v123 (addf : (⟨S_, .f32⟩ : BufTy).Contents (Elt F) → (⟨S_, .f32⟩ : BufTy).Contents (Elt F) → (⟨S_, .f32⟩ : BufTy).Contents (Elt F)) ]

/-! ## @main is the list

   @main is printed in three consecutive windows; `opsT` is cut where they are. -/

/-- The part of the tail in @main's first window. -/
abbrev opsT0 : List (HloOp τ sig (Elt F)) :=
  [ StableHlo.binary main_arg0 main_arg6 main_v30 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.unary main_v30 main_v31 (Host.tanh : (⟨S2048x32, .f32⟩ : BufTy).Contents (Elt F) → (⟨S2048x32, .f32⟩ : BufTy).Contents (Elt F)),
    StableHlo.binary main_arg0 main_arg7 main_v32 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.unary main_v32 main_v33 (Host.tanh : (⟨S2048x32, .f32⟩ : BufTy).Contents (Elt F) → (⟨S2048x32, .f32⟩ : BufTy).Contents (Elt F)),
    StableHlo.nullary main_cst_4 (constant S_ .f32 0x00000000#32),
    StableHlo.binary main_arg2 main_cst_4 main_v34 ((fun x v => Host.reduceAdd x v reducesTo_S128x2048_S128_d1 h_S_) : (⟨S128x2048, .f32⟩ : BufTy).Contents (Elt F) → (⟨S_, .f32⟩ : BufTy).Contents (Elt F) → (⟨S128, .f32⟩ : BufTy).Contents (Elt F)),
    StableHlo.unary main_v34 main_v35 (broadcastInDim S128x1 ![0] bcast_S128_S128x1_0 : (⟨S128, .f32⟩ : BufTy).Contents (Elt F) → (⟨S128x1, .f32⟩ : BufTy).Contents (Elt F)),
    StableHlo.unary main_arg2 main_v36 ((transpose S2048x128 [1, 0] · transposes_S128x2048_S2048x128_1_0) : (⟨S128x2048, .f32⟩ : BufTy).Contents (Elt F) → (⟨S2048x128, .f32⟩ : BufTy).Contents (Elt F)),
    StableHlo.binary main_arg2 main_v33 main_v37 ((fun l r => Host.dotGeneral dot_S128x2048_S2048x32_S128x32_1_0_0_1_n_n none l r) : (⟨S128x2048, .f32⟩ : BufTy).Contents (Elt F) → (⟨S2048x32, .f32⟩ : BufTy).Contents (Elt F) → (⟨S128x32, .f32⟩ : BufTy).Contents (Elt F)),
    StableHlo.unary main_v35 main_v38 (broadcastInDim S128x32 ![0, 1] bcast_S128x1_S128x32_0_1 : (⟨S128x1, .f32⟩ : BufTy).Contents (Elt F) → (⟨S128x32, .f32⟩ : BufTy).Contents (Elt F)),
    StableHlo.binary main_v37 main_v38 main_v39 (Host.divf : (⟨S128x32, .f32⟩ : BufTy).Contents (Elt F) → (⟨S128x32, .f32⟩ : BufTy).Contents (Elt F) → (⟨S128x32, .f32⟩ : BufTy).Contents (Elt F)),
    StableHlo.binary main_v36 main_v39 main_v40 ((fun l r => Host.dotGeneral dot_S2048x128_S128x32_S2048x32_1_0_0_1_n_n none l r) : (⟨S2048x128, .f32⟩ : BufTy).Contents (Elt F) → (⟨S128x32, .f32⟩ : BufTy).Contents (Elt F) → (⟨S2048x32, .f32⟩ : BufTy).Contents (Elt F)),
    StableHlo.binary main_v33 main_v40 main_v41 (subf : (⟨S2048x32, .f32⟩ : BufTy).Contents (Elt F) → (⟨S2048x32, .f32⟩ : BufTy).Contents (Elt F) → (⟨S2048x32, .f32⟩ : BufTy).Contents (Elt F)),
    StableHlo.nullary main_cst_5 (constant S_ .f32 0x00000000#32),
    StableHlo.binary main_v29 main_cst_5 main_v42 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v42 main_v43 (broadcastInDim S2048x1 ![0] bcast_S2048_S2048x1_0 : (⟨S2048, .f32⟩ : BufTy).Contents (Elt F) → (⟨S2048x1, .f32⟩ : BufTy).Contents (Elt F)),
    StableHlo.binary main_v31 main_arg8 main_v44 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.unary main_v43 main_v45 (broadcastInDim S2048x32 ![0, 1] bcast_S2048x1_S2048x32_0_1 : (⟨S2048x1, .f32⟩ : BufTy).Contents (Elt F) → (⟨S2048x32, .f32⟩ : BufTy).Contents (Elt F)),
    StableHlo.binary main_v45 main_v41 main_v46 (mulf : (⟨S2048x32, .f32⟩ : BufTy).Contents (Elt F) → (⟨S2048x32, .f32⟩ : BufTy).Contents (Elt F) → (⟨S2048x32, .f32⟩ : BufTy).Contents (Elt F)),
    StableHlo.binary main_v29 main_v41 main_v47 ((fun l r => Host.dotGeneral dot_S2048x2048_S2048x32_S2048x32_1_0_0_1_n_n none l r) : (⟨S2048x2048, .f32⟩ : BufTy).Contents (Elt F) → (⟨S2048x32, .f32⟩ : BufTy).Contents (Elt F) → (⟨S2048x32, .f32⟩ : BufTy).Contents (Elt F)),
    StableHlo.binary main_v46 main_v47 main_v48 (subf : (⟨S2048x32, .f32⟩ : BufTy).Contents (Elt F) → (⟨S2048x32, .f32⟩ : BufTy).Contents (Elt F) → (⟨S2048x32, .f32⟩ : BufTy).Contents (Elt F)),
    StableHlo.unary main_v48 main_v49 (Host.negf : (⟨S2048x32, .f32⟩ : BufTy).Contents (Elt F) → (⟨S2048x32, .f32⟩ : BufTy).Contents (Elt F)),
    StableHlo.binary main_v49 main_arg9 main_v50 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.nullary main_cst_6 (constant S_ .f32 0x3E800000#32) ]

/-- The part of the tail in @main's second window. -/
abbrev opsT1 : List (HloOp τ sig (Elt F)) :=
  [ StableHlo.unary main_cst_6 main_v51 (broadcastInDim S2048x32 ![] bcast_S_S2048x32 : (⟨S_, .f32⟩ : BufTy).Contents (Elt F) → (⟨S2048x32, .f32⟩ : BufTy).Contents (Elt F)),
    StableHlo.binary main_v51 main_v50 main_v52 (mulf : (⟨S2048x32, .f32⟩ : BufTy).Contents (Elt F) → (⟨S2048x32, .f32⟩ : BufTy).Contents (Elt F) → (⟨S2048x32, .f32⟩ : BufTy).Contents (Elt F)),
    StableHlo.binary main_v31 main_v52 main_v53 (addf : (⟨S2048x32, .f32⟩ : BufTy).Contents (Elt F) → (⟨S2048x32, .f32⟩ : BufTy).Contents (Elt F) → (⟨S2048x32, .f32⟩ : BufTy).Contents (Elt F)),
    StableHlo.nullary main_cst_7 (constant S_ .f32 0x3E800000#32),
    StableHlo.unary main_cst_7 main_v54 (broadcastInDim S2048x32 ![] bcast_S_S2048x32 : (⟨S_, .f32⟩ : BufTy).Contents (Elt F) → (⟨S2048x32, .f32⟩ : BufTy).Contents (Elt F)),
    StableHlo.binary main_v54 main_v44 main_v55 (mulf : (⟨S2048x32, .f32⟩ : BufTy).Contents (Elt F) → (⟨S2048x32, .f32⟩ : BufTy).Contents (Elt F) → (⟨S2048x32, .f32⟩ : BufTy).Contents (Elt F)),
    StableHlo.binary main_v41 main_v55 main_v56 (addf : (⟨S2048x32, .f32⟩ : BufTy).Contents (Elt F) → (⟨S2048x32, .f32⟩ : BufTy).Contents (Elt F) → (⟨S2048x32, .f32⟩ : BufTy).Contents (Elt F)),
    StableHlo.binary main_v44 main_v31 main_v57 (subf : (⟨S2048x32, .f32⟩ : BufTy).Contents (Elt F) → (⟨S2048x32, .f32⟩ : BufTy).Contents (Elt F) → (⟨S2048x32, .f32⟩ : BufTy).Contents (Elt F)),
    StableHlo.TRef.binary (.of main_v57 : StableHlo.TRef sig ⟨S2048x32, .f32⟩) (.of main_v57 : StableHlo.TRef sig ⟨S2048x32, .f32⟩) (.of main_call1_v0 : StableHlo.TRef sig ⟨S2048x32, .f32⟩) mulf,
    StableHlo.TRef.nullary (.of main_call1_cst : StableHlo.TRef sig ⟨S_, .f32⟩) (constant S_ .f32 0x00000000#32),
    StableHlo.TRef.binary (.of main_call1_v0 : StableHlo.TRef sig ⟨S2048x32, .f32⟩) (.of main_call1_cst : StableHlo.TRef sig ⟨S_, .f32⟩) (.of main_call1_v1 : StableHlo.TRef sig ⟨S_, .f32⟩) (fun x v => Host.reduceAdd x v reducesTo_S2048x32_S_d0_1 h_S_),
    StableHlo.TRef.unary (.of main_call1_v1 : StableHlo.TRef sig ⟨S_, .f32⟩) (.of main_v58 : StableHlo.TRef sig ⟨S_, .f32⟩) Host.sqrt,
    StableHlo.nullary main_cst_8 (constant S_ .f32 0x00000000#32),
    StableHlo.binary main_cst_8 main_v58 main_v59 (addf : (⟨S_, .f32⟩ : BufTy).Contents (Elt F) → (⟨S_, .f32⟩ : BufTy).Contents (Elt F) → (⟨S_, .f32⟩ : BufTy).Contents (Elt F)),
    StableHlo.binary main_v53 main_v31 main_v60 (subf : (⟨S2048x32, .f32⟩ : BufTy).Contents (Elt F) → (⟨S2048x32, .f32⟩ : BufTy).Contents (Elt F) → (⟨S2048x32, .f32⟩ : BufTy).Contents (Elt F)),
    StableHlo.binary main_arg2 main_v60 main_v61 ((fun l r => Host.dotGeneral dot_S128x2048_S2048x32_S128x32_1_0_0_1_n_n none l r) : (⟨S128x2048, .f32⟩ : BufTy).Contents (Elt F) → (⟨S2048x32, .f32⟩ : BufTy).Contents (Elt F) → (⟨S128x32, .f32⟩ : BufTy).Contents (Elt F)),
    StableHlo.TRef.binary (.of main_v61 : StableHlo.TRef sig ⟨S128x32, .f32⟩) (.of main_v61 : StableHlo.TRef sig ⟨S128x32, .f32⟩) (.of main_call2_v0 : StableHlo.TRef sig ⟨S128x32, .f32⟩) mulf,
    StableHlo.TRef.nullary (.of main_call2_cst : StableHlo.TRef sig ⟨S_, .f32⟩) (constant S_ .f32 0x00000000#32),
    StableHlo.TRef.binary (.of main_call2_v0 : StableHlo.TRef sig ⟨S128x32, .f32⟩) (.of main_call2_cst : StableHlo.TRef sig ⟨S_, .f32⟩) (.of main_call2_v1 : StableHlo.TRef sig ⟨S_, .f32⟩) (fun x v => Host.reduceAdd x v reducesTo_S128x32_S_d0_1 h_S_),
    StableHlo.TRef.unary (.of main_call2_v1 : StableHlo.TRef sig ⟨S_, .f32⟩) (.of main_v62 : StableHlo.TRef sig ⟨S_, .f32⟩) Host.sqrt,
    StableHlo.nullary main_cst_9 (constant S_ .f32 0x00000000#32),
    StableHlo.binary main_cst_9 main_v62 main_v63 (addf : (⟨S_, .f32⟩ : BufTy).Contents (Elt F) → (⟨S_, .f32⟩ : BufTy).Contents (Elt F) → (⟨S_, .f32⟩ : BufTy).Contents (Elt F)),
    StableHlo.binary main_v53 main_arg8 main_v64 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.unary main_v43 main_v65 (broadcastInDim S2048x32 ![0, 1] bcast_S2048x1_S2048x32_0_1 : (⟨S2048x1, .f32⟩ : BufTy).Contents (Elt F) → (⟨S2048x32, .f32⟩ : BufTy).Contents (Elt F)),
    StableHlo.binary main_v65 main_v56 main_v66 (mulf : (⟨S2048x32, .f32⟩ : BufTy).Contents (Elt F) → (⟨S2048x32, .f32⟩ : BufTy).Contents (Elt F) → (⟨S2048x32, .f32⟩ : BufTy).Contents (Elt F)),
    StableHlo.binary main_v29 main_v56 main_v67 ((fun l r => Host.dotGeneral dot_S2048x2048_S2048x32_S2048x32_1_0_0_1_n_n none l r) : (⟨S2048x2048, .f32⟩ : BufTy).Contents (Elt F) → (⟨S2048x32, .f32⟩ : BufTy).Contents (Elt F) → (⟨S2048x32, .f32⟩ : BufTy).Contents (Elt F)),
    StableHlo.binary main_v66 main_v67 main_v68 (subf : (⟨S2048x32, .f32⟩ : BufTy).Contents (Elt F) → (⟨S2048x32, .f32⟩ : BufTy).Contents (Elt F) → (⟨S2048x32, .f32⟩ : BufTy).Contents (Elt F)),
    StableHlo.unary main_v68 main_v69 (Host.negf : (⟨S2048x32, .f32⟩ : BufTy).Contents (Elt F) → (⟨S2048x32, .f32⟩ : BufTy).Contents (Elt F)),
    StableHlo.binary main_v69 main_arg9 main_v70 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.nullary main_cst_10 (constant S_ .f32 0x3E800000#32),
    StableHlo.unary main_cst_10 main_v71 (broadcastInDim S2048x32 ![] bcast_S_S2048x32 : (⟨S_, .f32⟩ : BufTy).Contents (Elt F) → (⟨S2048x32, .f32⟩ : BufTy).Contents (Elt F)),
    StableHlo.binary main_v71 main_v70 main_v72 (mulf : (⟨S2048x32, .f32⟩ : BufTy).Contents (Elt F) → (⟨S2048x32, .f32⟩ : BufTy).Contents (Elt F) → (⟨S2048x32, .f32⟩ : BufTy).Contents (Elt F)),
    StableHlo.binary main_v53 main_v72 main_v73 (addf : (⟨S2048x32, .f32⟩ : BufTy).Contents (Elt F) → (⟨S2048x32, .f32⟩ : BufTy).Contents (Elt F) → (⟨S2048x32, .f32⟩ : BufTy).Contents (Elt F)),
    StableHlo.nullary main_cst_11 (constant S_ .f32 0x3E800000#32),
    StableHlo.unary main_cst_11 main_v74 (broadcastInDim S2048x32 ![] bcast_S_S2048x32 : (⟨S_, .f32⟩ : BufTy).Contents (Elt F) → (⟨S2048x32, .f32⟩ : BufTy).Contents (Elt F)),
    StableHlo.binary main_v74 main_v64 main_v75 (mulf : (⟨S2048x32, .f32⟩ : BufTy).Contents (Elt F) → (⟨S2048x32, .f32⟩ : BufTy).Contents (Elt F) → (⟨S2048x32, .f32⟩ : BufTy).Contents (Elt F)),
    StableHlo.binary main_v56 main_v75 main_v76 (addf : (⟨S2048x32, .f32⟩ : BufTy).Contents (Elt F) → (⟨S2048x32, .f32⟩ : BufTy).Contents (Elt F) → (⟨S2048x32, .f32⟩ : BufTy).Contents (Elt F)),
    StableHlo.binary main_v64 main_v53 main_v77 (subf : (⟨S2048x32, .f32⟩ : BufTy).Contents (Elt F) → (⟨S2048x32, .f32⟩ : BufTy).Contents (Elt F) → (⟨S2048x32, .f32⟩ : BufTy).Contents (Elt F)),
    StableHlo.TRef.binary (.of main_v77 : StableHlo.TRef sig ⟨S2048x32, .f32⟩) (.of main_v77 : StableHlo.TRef sig ⟨S2048x32, .f32⟩) (.of main_call3_v0 : StableHlo.TRef sig ⟨S2048x32, .f32⟩) mulf,
    StableHlo.TRef.nullary (.of main_call3_cst : StableHlo.TRef sig ⟨S_, .f32⟩) (constant S_ .f32 0x00000000#32),
    StableHlo.TRef.binary (.of main_call3_v0 : StableHlo.TRef sig ⟨S2048x32, .f32⟩) (.of main_call3_cst : StableHlo.TRef sig ⟨S_, .f32⟩) (.of main_call3_v1 : StableHlo.TRef sig ⟨S_, .f32⟩) (fun x v => Host.reduceAdd x v reducesTo_S2048x32_S_d0_1 h_S_),
    StableHlo.TRef.unary (.of main_call3_v1 : StableHlo.TRef sig ⟨S_, .f32⟩) (.of main_v78 : StableHlo.TRef sig ⟨S_, .f32⟩) Host.sqrt,
    StableHlo.binary main_v59 main_v78 main_v79 (addf : (⟨S_, .f32⟩ : BufTy).Contents (Elt F) → (⟨S_, .f32⟩ : BufTy).Contents (Elt F) → (⟨S_, .f32⟩ : BufTy).Contents (Elt F)),
    StableHlo.binary main_v73 main_v53 main_v80 (subf : (⟨S2048x32, .f32⟩ : BufTy).Contents (Elt F) → (⟨S2048x32, .f32⟩ : BufTy).Contents (Elt F) → (⟨S2048x32, .f32⟩ : BufTy).Contents (Elt F)),
    StableHlo.binary main_arg2 main_v80 main_v81 ((fun l r => Host.dotGeneral dot_S128x2048_S2048x32_S128x32_1_0_0_1_n_n none l r) : (⟨S128x2048, .f32⟩ : BufTy).Contents (Elt F) → (⟨S2048x32, .f32⟩ : BufTy).Contents (Elt F) → (⟨S128x32, .f32⟩ : BufTy).Contents (Elt F)),
    StableHlo.TRef.binary (.of main_v81 : StableHlo.TRef sig ⟨S128x32, .f32⟩) (.of main_v81 : StableHlo.TRef sig ⟨S128x32, .f32⟩) (.of main_call4_v0 : StableHlo.TRef sig ⟨S128x32, .f32⟩) mulf,
    StableHlo.TRef.nullary (.of main_call4_cst : StableHlo.TRef sig ⟨S_, .f32⟩) (constant S_ .f32 0x00000000#32),
    StableHlo.TRef.binary (.of main_call4_v0 : StableHlo.TRef sig ⟨S128x32, .f32⟩) (.of main_call4_cst : StableHlo.TRef sig ⟨S_, .f32⟩) (.of main_call4_v1 : StableHlo.TRef sig ⟨S_, .f32⟩) (fun x v => Host.reduceAdd x v reducesTo_S128x32_S_d0_1 h_S_),
    StableHlo.TRef.unary (.of main_call4_v1 : StableHlo.TRef sig ⟨S_, .f32⟩) (.of main_v82 : StableHlo.TRef sig ⟨S_, .f32⟩) Host.sqrt,
    StableHlo.binary main_v63 main_v82 main_v83 (addf : (⟨S_, .f32⟩ : BufTy).Contents (Elt F) → (⟨S_, .f32⟩ : BufTy).Contents (Elt F) → (⟨S_, .f32⟩ : BufTy).Contents (Elt F)),
    StableHlo.binary main_v73 main_arg8 main_v84 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.unary main_v43 main_v85 (broadcastInDim S2048x32 ![0, 1] bcast_S2048x1_S2048x32_0_1 : (⟨S2048x1, .f32⟩ : BufTy).Contents (Elt F) → (⟨S2048x32, .f32⟩ : BufTy).Contents (Elt F)),
    StableHlo.binary main_v85 main_v76 main_v86 (mulf : (⟨S2048x32, .f32⟩ : BufTy).Contents (Elt F) → (⟨S2048x32, .f32⟩ : BufTy).Contents (Elt F) → (⟨S2048x32, .f32⟩ : BufTy).Contents (Elt F)),
    StableHlo.binary main_v29 main_v76 main_v87 ((fun l r => Host.dotGeneral dot_S2048x2048_S2048x32_S2048x32_1_0_0_1_n_n none l r) : (⟨S2048x2048, .f32⟩ : BufTy).Contents (Elt F) → (⟨S2048x32, .f32⟩ : BufTy).Contents (Elt F) → (⟨S2048x32, .f32⟩ : BufTy).Contents (Elt F)),
    StableHlo.binary main_v86 main_v87 main_v88 (subf : (⟨S2048x32, .f32⟩ : BufTy).Contents (Elt F) → (⟨S2048x32, .f32⟩ : BufTy).Contents (Elt F) → (⟨S2048x32, .f32⟩ : BufTy).Contents (Elt F)),
    StableHlo.unary main_v88 main_v89 (Host.negf : (⟨S2048x32, .f32⟩ : BufTy).Contents (Elt F) → (⟨S2048x32, .f32⟩ : BufTy).Contents (Elt F)),
    StableHlo.binary main_v89 main_arg9 main_v90 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.nullary main_cst_12 (constant S_ .f32 0x3E800000#32),
    StableHlo.unary main_cst_12 main_v91 (broadcastInDim S2048x32 ![] bcast_S_S2048x32 : (⟨S_, .f32⟩ : BufTy).Contents (Elt F) → (⟨S2048x32, .f32⟩ : BufTy).Contents (Elt F)),
    StableHlo.binary main_v91 main_v90 main_v92 (mulf : (⟨S2048x32, .f32⟩ : BufTy).Contents (Elt F) → (⟨S2048x32, .f32⟩ : BufTy).Contents (Elt F) → (⟨S2048x32, .f32⟩ : BufTy).Contents (Elt F)),
    StableHlo.binary main_v73 main_v92 main_v93 (addf : (⟨S2048x32, .f32⟩ : BufTy).Contents (Elt F) → (⟨S2048x32, .f32⟩ : BufTy).Contents (Elt F) → (⟨S2048x32, .f32⟩ : BufTy).Contents (Elt F)),
    StableHlo.nullary main_cst_13 (constant S_ .f32 0x3E800000#32),
    StableHlo.unary main_cst_13 main_v94 (broadcastInDim S2048x32 ![] bcast_S_S2048x32 : (⟨S_, .f32⟩ : BufTy).Contents (Elt F) → (⟨S2048x32, .f32⟩ : BufTy).Contents (Elt F)),
    StableHlo.binary main_v94 main_v84 main_v95 (mulf : (⟨S2048x32, .f32⟩ : BufTy).Contents (Elt F) → (⟨S2048x32, .f32⟩ : BufTy).Contents (Elt F) → (⟨S2048x32, .f32⟩ : BufTy).Contents (Elt F)),
    StableHlo.binary main_v76 main_v95 main_v96 (addf : (⟨S2048x32, .f32⟩ : BufTy).Contents (Elt F) → (⟨S2048x32, .f32⟩ : BufTy).Contents (Elt F) → (⟨S2048x32, .f32⟩ : BufTy).Contents (Elt F)),
    StableHlo.binary main_v84 main_v73 main_v97 (subf : (⟨S2048x32, .f32⟩ : BufTy).Contents (Elt F) → (⟨S2048x32, .f32⟩ : BufTy).Contents (Elt F) → (⟨S2048x32, .f32⟩ : BufTy).Contents (Elt F)),
    StableHlo.TRef.binary (.of main_v97 : StableHlo.TRef sig ⟨S2048x32, .f32⟩) (.of main_v97 : StableHlo.TRef sig ⟨S2048x32, .f32⟩) (.of main_call5_v0 : StableHlo.TRef sig ⟨S2048x32, .f32⟩) mulf,
    StableHlo.TRef.nullary (.of main_call5_cst : StableHlo.TRef sig ⟨S_, .f32⟩) (constant S_ .f32 0x00000000#32),
    StableHlo.TRef.binary (.of main_call5_v0 : StableHlo.TRef sig ⟨S2048x32, .f32⟩) (.of main_call5_cst : StableHlo.TRef sig ⟨S_, .f32⟩) (.of main_call5_v1 : StableHlo.TRef sig ⟨S_, .f32⟩) (fun x v => Host.reduceAdd x v reducesTo_S2048x32_S_d0_1 h_S_),
    StableHlo.TRef.unary (.of main_call5_v1 : StableHlo.TRef sig ⟨S_, .f32⟩) (.of main_v98 : StableHlo.TRef sig ⟨S_, .f32⟩) Host.sqrt,
    StableHlo.binary main_v79 main_v98 main_v99 (addf : (⟨S_, .f32⟩ : BufTy).Contents (Elt F) → (⟨S_, .f32⟩ : BufTy).Contents (Elt F) → (⟨S_, .f32⟩ : BufTy).Contents (Elt F)),
    StableHlo.binary main_v93 main_v73 main_v100 (subf : (⟨S2048x32, .f32⟩ : BufTy).Contents (Elt F) → (⟨S2048x32, .f32⟩ : BufTy).Contents (Elt F) → (⟨S2048x32, .f32⟩ : BufTy).Contents (Elt F)),
    StableHlo.binary main_arg2 main_v100 main_v101 ((fun l r => Host.dotGeneral dot_S128x2048_S2048x32_S128x32_1_0_0_1_n_n none l r) : (⟨S128x2048, .f32⟩ : BufTy).Contents (Elt F) → (⟨S2048x32, .f32⟩ : BufTy).Contents (Elt F) → (⟨S128x32, .f32⟩ : BufTy).Contents (Elt F)),
    StableHlo.TRef.binary (.of main_v101 : StableHlo.TRef sig ⟨S128x32, .f32⟩) (.of main_v101 : StableHlo.TRef sig ⟨S128x32, .f32⟩) (.of main_call6_v0 : StableHlo.TRef sig ⟨S128x32, .f32⟩) mulf,
    StableHlo.TRef.nullary (.of main_call6_cst : StableHlo.TRef sig ⟨S_, .f32⟩) (constant S_ .f32 0x00000000#32),
    StableHlo.TRef.binary (.of main_call6_v0 : StableHlo.TRef sig ⟨S128x32, .f32⟩) (.of main_call6_cst : StableHlo.TRef sig ⟨S_, .f32⟩) (.of main_call6_v1 : StableHlo.TRef sig ⟨S_, .f32⟩) (fun x v => Host.reduceAdd x v reducesTo_S128x32_S_d0_1 h_S_),
    StableHlo.TRef.unary (.of main_call6_v1 : StableHlo.TRef sig ⟨S_, .f32⟩) (.of main_v102 : StableHlo.TRef sig ⟨S_, .f32⟩) Host.sqrt,
    StableHlo.binary main_v83 main_v102 main_v103 (addf : (⟨S_, .f32⟩ : BufTy).Contents (Elt F) → (⟨S_, .f32⟩ : BufTy).Contents (Elt F) → (⟨S_, .f32⟩ : BufTy).Contents (Elt F)) ]

/-- The part of the tail in @main's third window. -/
abbrev opsT2 : List (HloOp τ sig (Elt F)) :=
  [ StableHlo.binary main_v93 main_arg8 main_v104 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.unary main_v43 main_v105 (broadcastInDim S2048x32 ![0, 1] bcast_S2048x1_S2048x32_0_1 : (⟨S2048x1, .f32⟩ : BufTy).Contents (Elt F) → (⟨S2048x32, .f32⟩ : BufTy).Contents (Elt F)),
    StableHlo.binary main_v105 main_v96 main_v106 (mulf : (⟨S2048x32, .f32⟩ : BufTy).Contents (Elt F) → (⟨S2048x32, .f32⟩ : BufTy).Contents (Elt F) → (⟨S2048x32, .f32⟩ : BufTy).Contents (Elt F)),
    StableHlo.binary main_v29 main_v96 main_v107 ((fun l r => Host.dotGeneral dot_S2048x2048_S2048x32_S2048x32_1_0_0_1_n_n none l r) : (⟨S2048x2048, .f32⟩ : BufTy).Contents (Elt F) → (⟨S2048x32, .f32⟩ : BufTy).Contents (Elt F) → (⟨S2048x32, .f32⟩ : BufTy).Contents (Elt F)),
    StableHlo.binary main_v106 main_v107 main_v108 (subf : (⟨S2048x32, .f32⟩ : BufTy).Contents (Elt F) → (⟨S2048x32, .f32⟩ : BufTy).Contents (Elt F) → (⟨S2048x32, .f32⟩ : BufTy).Contents (Elt F)),
    StableHlo.unary main_v108 main_v109 (Host.negf : (⟨S2048x32, .f32⟩ : BufTy).Contents (Elt F) → (⟨S2048x32, .f32⟩ : BufTy).Contents (Elt F)),
    StableHlo.binary main_v109 main_arg9 main_v110 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.nullary main_cst_14 (constant S_ .f32 0x3E800000#32),
    StableHlo.unary main_cst_14 main_v111 (broadcastInDim S2048x32 ![] bcast_S_S2048x32 : (⟨S_, .f32⟩ : BufTy).Contents (Elt F) → (⟨S2048x32, .f32⟩ : BufTy).Contents (Elt F)),
    StableHlo.binary main_v111 main_v110 main_v112 (mulf : (⟨S2048x32, .f32⟩ : BufTy).Contents (Elt F) → (⟨S2048x32, .f32⟩ : BufTy).Contents (Elt F) → (⟨S2048x32, .f32⟩ : BufTy).Contents (Elt F)),
    StableHlo.binary main_v93 main_v112 main_v113 (addf : (⟨S2048x32, .f32⟩ : BufTy).Contents (Elt F) → (⟨S2048x32, .f32⟩ : BufTy).Contents (Elt F) → (⟨S2048x32, .f32⟩ : BufTy).Contents (Elt F)),
    StableHlo.nullary main_cst_15 (constant S_ .f32 0x3E800000#32),
    StableHlo.unary main_cst_15 main_v114 (broadcastInDim S2048x32 ![] bcast_S_S2048x32 : (⟨S_, .f32⟩ : BufTy).Contents (Elt F) → (⟨S2048x32, .f32⟩ : BufTy).Contents (Elt F)),
    StableHlo.binary main_v114 main_v104 main_v115 (mulf : (⟨S2048x32, .f32⟩ : BufTy).Contents (Elt F) → (⟨S2048x32, .f32⟩ : BufTy).Contents (Elt F) → (⟨S2048x32, .f32⟩ : BufTy).Contents (Elt F)),
    StableHlo.binary main_v96 main_v115 main_v116 (addf : (⟨S2048x32, .f32⟩ : BufTy).Contents (Elt F) → (⟨S2048x32, .f32⟩ : BufTy).Contents (Elt F) → (⟨S2048x32, .f32⟩ : BufTy).Contents (Elt F)),
    StableHlo.binary main_v104 main_v93 main_v117 (subf : (⟨S2048x32, .f32⟩ : BufTy).Contents (Elt F) → (⟨S2048x32, .f32⟩ : BufTy).Contents (Elt F) → (⟨S2048x32, .f32⟩ : BufTy).Contents (Elt F)),
    StableHlo.TRef.binary (.of main_v117 : StableHlo.TRef sig ⟨S2048x32, .f32⟩) (.of main_v117 : StableHlo.TRef sig ⟨S2048x32, .f32⟩) (.of main_call7_v0 : StableHlo.TRef sig ⟨S2048x32, .f32⟩) mulf,
    StableHlo.TRef.nullary (.of main_call7_cst : StableHlo.TRef sig ⟨S_, .f32⟩) (constant S_ .f32 0x00000000#32),
    StableHlo.TRef.binary (.of main_call7_v0 : StableHlo.TRef sig ⟨S2048x32, .f32⟩) (.of main_call7_cst : StableHlo.TRef sig ⟨S_, .f32⟩) (.of main_call7_v1 : StableHlo.TRef sig ⟨S_, .f32⟩) (fun x v => Host.reduceAdd x v reducesTo_S2048x32_S_d0_1 h_S_),
    StableHlo.TRef.unary (.of main_call7_v1 : StableHlo.TRef sig ⟨S_, .f32⟩) (.of main_v118 : StableHlo.TRef sig ⟨S_, .f32⟩) Host.sqrt,
    StableHlo.binary main_v99 main_v118 main_v119 (addf : (⟨S_, .f32⟩ : BufTy).Contents (Elt F) → (⟨S_, .f32⟩ : BufTy).Contents (Elt F) → (⟨S_, .f32⟩ : BufTy).Contents (Elt F)),
    StableHlo.binary main_v113 main_v93 main_v120 (subf : (⟨S2048x32, .f32⟩ : BufTy).Contents (Elt F) → (⟨S2048x32, .f32⟩ : BufTy).Contents (Elt F) → (⟨S2048x32, .f32⟩ : BufTy).Contents (Elt F)),
    StableHlo.binary main_arg2 main_v120 main_v121 ((fun l r => Host.dotGeneral dot_S128x2048_S2048x32_S128x32_1_0_0_1_n_n none l r) : (⟨S128x2048, .f32⟩ : BufTy).Contents (Elt F) → (⟨S2048x32, .f32⟩ : BufTy).Contents (Elt F) → (⟨S128x32, .f32⟩ : BufTy).Contents (Elt F)),
    StableHlo.TRef.binary (.of main_v121 : StableHlo.TRef sig ⟨S128x32, .f32⟩) (.of main_v121 : StableHlo.TRef sig ⟨S128x32, .f32⟩) (.of main_call8_v0 : StableHlo.TRef sig ⟨S128x32, .f32⟩) mulf,
    StableHlo.TRef.nullary (.of main_call8_cst : StableHlo.TRef sig ⟨S_, .f32⟩) (constant S_ .f32 0x00000000#32),
    StableHlo.TRef.binary (.of main_call8_v0 : StableHlo.TRef sig ⟨S128x32, .f32⟩) (.of main_call8_cst : StableHlo.TRef sig ⟨S_, .f32⟩) (.of main_call8_v1 : StableHlo.TRef sig ⟨S_, .f32⟩) (fun x v => Host.reduceAdd x v reducesTo_S128x32_S_d0_1 h_S_),
    StableHlo.TRef.unary (.of main_call8_v1 : StableHlo.TRef sig ⟨S_, .f32⟩) (.of main_v122 : StableHlo.TRef sig ⟨S_, .f32⟩) Host.sqrt,
    StableHlo.binary main_v103 main_v122 main_v123 (addf : (⟨S_, .f32⟩ : BufTy).Contents (Elt F) → (⟨S_, .f32⟩ : BufTy).Contents (Elt F) → (⟨S_, .f32⟩ : BufTy).Contents (Elt F)) ]

theorem opsT_eq : (opsT : List (HloOp τ sig (Elt F))) = opsT0 ++ (opsT1 ++ opsT2) := rfl

/-- The first window: the weights, the edge matrix, the start of the tail. -/
theorem main_part0_eq (c : Dev nD) : main_part0 (F := F) c = (Pipeline.chainK
  [ StableHlo.seq opsW,
    StableHlo.seq opsE ]
  (StableHlo.seq opsT0) : Prog (TpuEff nD τ sig (Elt F) (Pipeline.Sig Λ₀ (Fin 0) fun p => (pcfgs (F := F) p).Adm) .tc) PUnit) := by
  chain_rfl

/-- The second window. -/
theorem main_part1_eq (c : Dev nD) : main_part1 (F := F) c = (StableHlo.seq opsT1 : Prog (TpuEff nD τ sig (Elt F) (Pipeline.Sig Λ₀ (Fin 0) fun p => (pcfgs (F := F) p).Adm) .tc) PUnit) := by
  chain_rfl

/-- The third window. -/
theorem main_part2_eq (c : Dev nD) : main_part2 (F := F) c = (StableHlo.seq opsT2 : Prog (TpuEff nD τ sig (Elt F) (Pipeline.Sig Λ₀ (Fin 0) fun p => (pcfgs (F := F) p).Adm) .tc) PUnit) := by
  chain_rfl

/-- @main is the whole list, run in order: the three windows one after the other, each the run of its
    part of the list, and two lists run one after the other are their concatenation run as one. -/
theorem main_eq (c : Dev nD) : main (F := F) c = StableHlo.seq (opsW ++ opsE ++ opsT) := by
  show (main_part0 (F := F) c >>= fun _ => main_part1 (F := F) c >>= fun _ => main_part2 (F := F) c) = _
  rw [main_part0_eq, main_part1_eq, main_part2_eq, opsT_eq]
  simp only [Pipeline.chainK, StableHlo.seq_append, bind_assoc]

/-! ## The run -/

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- The signature scopes no TensorCore buffer and no semaphore: the program is tensor values only. -/
theorem scopedRefs_eq : (Finset.univ.filter fun b : Ref sig .tc => b.isScoped) = ∅ := by decide
theorem scopedSems_eq : (Finset.univ.filter fun sm : SemLoc sig => sm.isScoped .tc) = ∅ := by decide

/-! Every operation touches TensorCore references only. -/
theorem opsW_sub : (opsW : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub ..,
   StableHlo.ternary_bufs_sub .., StableHlo.unary_bufs_sub .., StableHlo.binary_bufs_sub .., StableHlo.nullary_bufs_sub .., StableHlo.unary_bufs_sub .., StableHlo.binary_bufs_sub ..,
   StableHlo.nullary_bufs_sub .., StableHlo.unary_bufs_sub .., StableHlo.binary_bufs_sub .., StableHlo.ternary_bufs_sub .., StableHlo.unary_bufs_sub .., StableHlo.binary_bufs_sub ..,
   StableHlo.nary_bufs_sub .., StableHlo.binary_bufs_sub .., StableHlo.unary_bufs_sub .., StableHlo.unary_bufs_sub .., StableHlo.binary_bufs_sub .., StableHlo.unary_bufs_sub ..,
   StableHlo.unary_bufs_sub .., StableHlo.nullary_bufs_sub .., StableHlo.unary_bufs_sub .., StableHlo.binary_bufs_sub .., StableHlo.nullary_bufs_sub .., StableHlo.unary_bufs_sub ..,
   StableHlo.binary_bufs_sub .., StableHlo.reshape_bufs_sub ..⟩

theorem opsE_sub : (opsE : List (HloOp τ sig (Elt F))).Forall fun op => op.bufs ⊆ StableHlo.tcRefs τ sig :=
  ⟨StableHlo.nullary_bufs_sub .., StableHlo.binary_bufs_sub .., StableHlo.nullary_bufs_sub .., StableHlo.nullary_bufs_sub .., StableHlo.nullary_bufs_sub .., StableHlo.unary_bufs_sub ..,
   StableHlo.binary_bufs_sub .., StableHlo.binary_bufs_sub .., StableHlo.unary_bufs_sub .., StableHlo.nullary_bufs_sub .., StableHlo.unary_bufs_sub .., StableHlo.unary_bufs_sub ..,
   StableHlo.ternary_bufs_sub .., StableHlo.binary_bufs_sub .., StableHlo.unary_bufs_sub .., StableHlo.binary_bufs_sub ..⟩

theorem opsT_sub : (opsT : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.nullary_bufs_sub .., StableHlo.binary_bufs_sub ..,
   StableHlo.unary_bufs_sub .., StableHlo.unary_bufs_sub .., StableHlo.binary_bufs_sub .., StableHlo.unary_bufs_sub .., StableHlo.binary_bufs_sub .., StableHlo.binary_bufs_sub ..,
   StableHlo.binary_bufs_sub .., StableHlo.nullary_bufs_sub .., StableHlo.binary_bufs_sub .., StableHlo.unary_bufs_sub .., StableHlo.binary_bufs_sub .., StableHlo.unary_bufs_sub ..,
   StableHlo.binary_bufs_sub .., StableHlo.binary_bufs_sub .., StableHlo.binary_bufs_sub .., StableHlo.unary_bufs_sub .., StableHlo.binary_bufs_sub .., StableHlo.nullary_bufs_sub ..,
   StableHlo.unary_bufs_sub .., StableHlo.binary_bufs_sub .., StableHlo.binary_bufs_sub .., StableHlo.nullary_bufs_sub .., StableHlo.unary_bufs_sub .., StableHlo.binary_bufs_sub ..,
   StableHlo.binary_bufs_sub .., StableHlo.binary_bufs_sub .., StableHlo.binary_bufs_sub .., StableHlo.nullary_bufs_sub .., StableHlo.binary_bufs_sub .., StableHlo.unary_bufs_sub ..,
   StableHlo.nullary_bufs_sub .., StableHlo.binary_bufs_sub .., StableHlo.binary_bufs_sub .., StableHlo.binary_bufs_sub .., StableHlo.binary_bufs_sub .., StableHlo.nullary_bufs_sub ..,
   StableHlo.binary_bufs_sub .., StableHlo.unary_bufs_sub .., StableHlo.nullary_bufs_sub .., StableHlo.binary_bufs_sub .., StableHlo.binary_bufs_sub .., StableHlo.unary_bufs_sub ..,
   StableHlo.binary_bufs_sub .., StableHlo.binary_bufs_sub .., StableHlo.binary_bufs_sub .., StableHlo.unary_bufs_sub .., StableHlo.binary_bufs_sub .., StableHlo.nullary_bufs_sub ..,
   StableHlo.unary_bufs_sub .., StableHlo.binary_bufs_sub .., StableHlo.binary_bufs_sub .., StableHlo.nullary_bufs_sub .., StableHlo.unary_bufs_sub .., StableHlo.binary_bufs_sub ..,
   StableHlo.binary_bufs_sub .., StableHlo.binary_bufs_sub .., StableHlo.binary_bufs_sub .., StableHlo.nullary_bufs_sub .., StableHlo.binary_bufs_sub .., StableHlo.unary_bufs_sub ..,
   StableHlo.binary_bufs_sub .., StableHlo.binary_bufs_sub .., StableHlo.binary_bufs_sub .., StableHlo.binary_bufs_sub .., StableHlo.nullary_bufs_sub .., StableHlo.binary_bufs_sub ..,
   StableHlo.unary_bufs_sub .., StableHlo.binary_bufs_sub .., StableHlo.binary_bufs_sub .., StableHlo.unary_bufs_sub .., StableHlo.binary_bufs_sub .., StableHlo.binary_bufs_sub ..,
   StableHlo.binary_bufs_sub .., StableHlo.unary_bufs_sub .., StableHlo.binary_bufs_sub .., StableHlo.nullary_bufs_sub .., StableHlo.unary_bufs_sub .., StableHlo.binary_bufs_sub ..,
   StableHlo.binary_bufs_sub .., StableHlo.nullary_bufs_sub .., StableHlo.unary_bufs_sub .., StableHlo.binary_bufs_sub .., StableHlo.binary_bufs_sub .., StableHlo.binary_bufs_sub ..,
   StableHlo.binary_bufs_sub .., StableHlo.nullary_bufs_sub .., StableHlo.binary_bufs_sub .., StableHlo.unary_bufs_sub .., StableHlo.binary_bufs_sub .., StableHlo.binary_bufs_sub ..,
   StableHlo.binary_bufs_sub .., StableHlo.binary_bufs_sub .., StableHlo.nullary_bufs_sub .., StableHlo.binary_bufs_sub .., StableHlo.unary_bufs_sub .., StableHlo.binary_bufs_sub ..,
   StableHlo.binary_bufs_sub .., StableHlo.unary_bufs_sub .., StableHlo.binary_bufs_sub .., StableHlo.binary_bufs_sub .., StableHlo.binary_bufs_sub .., StableHlo.unary_bufs_sub ..,
   StableHlo.binary_bufs_sub .., StableHlo.nullary_bufs_sub .., StableHlo.unary_bufs_sub .., StableHlo.binary_bufs_sub .., StableHlo.binary_bufs_sub .., StableHlo.nullary_bufs_sub ..,
   StableHlo.unary_bufs_sub .., StableHlo.binary_bufs_sub .., StableHlo.binary_bufs_sub .., StableHlo.binary_bufs_sub .., StableHlo.binary_bufs_sub .., StableHlo.nullary_bufs_sub ..,
   StableHlo.binary_bufs_sub .., StableHlo.unary_bufs_sub .., StableHlo.binary_bufs_sub .., StableHlo.binary_bufs_sub .., StableHlo.binary_bufs_sub .., StableHlo.binary_bufs_sub ..,
   StableHlo.nullary_bufs_sub .., StableHlo.binary_bufs_sub .., StableHlo.unary_bufs_sub .., StableHlo.binary_bufs_sub ..⟩

theorem ops_sub : (opsW ++ opsE ++ opsT : List (HloOp τ sig (Elt F))).Forall fun op => op.bufs ⊆ StableHlo.tcRefs τ sig :=
  forall_append (forall_append opsW_sub opsE_sub) opsT_sub

/-! Every operation determines its results. -/
theorem opsW_fresh : (opsW : List (HloOp τ sig (Elt F))).Forall fun op => op.fresh = ∅ :=
  ⟨rfl, rfl, rfl, rfl, rfl, rfl,
   rfl, rfl, rfl, rfl, rfl, rfl,
   rfl, rfl, rfl, rfl, rfl, rfl,
   rfl, rfl, rfl, rfl, rfl, rfl,
   rfl, rfl, rfl, rfl, rfl, rfl,
   rfl, rfl⟩

theorem opsE_fresh : (opsE : List (HloOp τ sig (Elt F))).Forall fun op => op.fresh = ∅ :=
  ⟨rfl, rfl, rfl, rfl, rfl, rfl,
   rfl, rfl, rfl, rfl, rfl, rfl,
   rfl, rfl, rfl, rfl⟩

theorem opsT_fresh : (opsT : List (HloOp τ sig (Elt F))).Forall fun op => op.fresh = ∅ :=
  ⟨rfl, rfl, rfl, rfl, rfl, rfl,
   rfl, rfl, rfl, rfl, rfl, rfl,
   rfl, rfl, rfl, rfl, rfl, rfl,
   rfl, rfl, rfl, rfl, rfl, rfl,
   rfl, rfl, rfl, rfl, rfl, rfl,
   rfl, rfl, rfl, rfl, rfl, rfl,
   rfl, rfl, rfl, rfl, rfl, rfl,
   rfl, rfl, rfl, rfl, rfl, rfl,
   rfl, rfl, rfl, rfl, rfl, rfl,
   rfl, rfl, rfl, rfl, rfl, rfl,
   rfl, rfl, rfl, rfl, rfl, rfl,
   rfl, rfl, rfl, rfl, rfl, rfl,
   rfl, rfl, rfl, rfl, rfl, rfl,
   rfl, rfl, rfl, rfl, rfl, rfl,
   rfl, rfl, rfl, rfl, rfl, rfl,
   rfl, rfl, rfl, rfl, rfl, rfl,
   rfl, rfl, rfl, rfl, rfl, rfl,
   rfl, rfl, rfl, rfl, rfl, rfl,
   rfl, rfl, rfl, rfl, rfl, rfl,
   rfl, rfl, rfl, rfl, rfl, rfl,
   rfl, rfl, rfl, rfl, rfl, rfl,
   rfl, rfl, rfl, rfl⟩

theorem ops_fresh : (opsW ++ opsE ++ opsT : List (HloOp τ sig (Elt F))).Forall fun op => op.fresh = ∅ :=
  forall_append (forall_append opsW_fresh opsE_fresh) opsT_fresh

/-- On every device, for any float values, from any memory with zero counters: every weakly fair execution of
    @main terminates, and every buffer ends at the fold of the operations' results over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after (opsW ++ opsE ++ opsT) (StableHlo.launchContents m d) (Proc.devRef .tc b) :=
  StableHlo.run_seq scopedRefs_eq scopedSems_eq defs main (fun _ => opsW ++ opsE ++ opsT) main_eq (fun _ => ops_sub) m ρ
    (fun _ => List.forall_iff_forall_mem.mp ops_fresh)

/-- The fold over a concatenation is the fold over the second list from the fold over the first. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-- The whole list's fold, stage by stage: the weights, then the edge matrix, then the tail. -/
theorem after_all (V : Valuation τ sig (Elt F)) :
    StableHlo.after (opsW ++ opsE ++ opsT) V = StableHlo.after opsT (StableHlo.after opsE (StableHlo.after opsW V)) := by
  rw [after_append, after_append]

/-! ## The arguments end as launched

   Each operation writes one buffer, its result's; the results are the program's 178 values. An argument
   is none of them, so the fold leaves it at its launch contents. -/

/-- The buffers the operations write: one per value of the program, in program order. -/
abbrev written : List (Ref sig .tc) :=
  [ main_c, main_v0, main_v1, main_c_0, main_v2, main_v3, main_v4, main_v5,
    main_v6, main_c_1, main_v7, main_v8, main_c_2, main_v9, main_v10, main_v11,
    main_v12, main_v13, main_v14, main_v15, main_v16, main_v17, main_v18, main_v19,
    main_v20, main_cst, main_v21, main_v22, main_cst_3, main_v23, main_v24, main_v25,
    main_call0_cst, main_call0_v0, main_call0_v1, main_call0_v2, main_call0_c, main_call0_v3, main_call0_v4, main_call0_v5,
    main_call0_v6, main_call0_cst_0, main_call0_call0_v0, main_call0_call0_v1, main_v26, main_v27, main_v28, main_v29,
    main_v30, main_v31, main_v32, main_v33, main_cst_4, main_v34, main_v35, main_v36,
    main_v37, main_v38, main_v39, main_v40, main_v41, main_cst_5, main_v42, main_v43,
    main_v44, main_v45, main_v46, main_v47, main_v48, main_v49, main_v50, main_cst_6,
    main_v51, main_v52, main_v53, main_cst_7, main_v54, main_v55, main_v56, main_v57,
    main_call1_v0, main_call1_cst, main_call1_v1, main_v58, main_cst_8, main_v59, main_v60, main_v61,
    main_call2_v0, main_call2_cst, main_call2_v1, main_v62, main_cst_9, main_v63, main_v64, main_v65,
    main_v66, main_v67, main_v68, main_v69, main_v70, main_cst_10, main_v71, main_v72,
    main_v73, main_cst_11, main_v74, main_v75, main_v76, main_v77, main_call3_v0, main_call3_cst,
    main_call3_v1, main_v78, main_v79, main_v80, main_v81, main_call4_v0, main_call4_cst, main_call4_v1,
    main_v82, main_v83, main_v84, main_v85, main_v86, main_v87, main_v88, main_v89,
    main_v90, main_cst_12, main_v91, main_v92, main_v93, main_cst_13, main_v94, main_v95,
    main_v96, main_v97, main_call5_v0, main_call5_cst, main_call5_v1, main_v98, main_v99, main_v100,
    main_v101, main_call6_v0, main_call6_cst, main_call6_v1, main_v102, main_v103, main_v104, main_v105,
    main_v106, main_v107, main_v108, main_v109, main_v110, main_cst_14, main_v111, main_v112,
    main_v113, main_cst_15, main_v114, main_v115, main_v116, main_v117, main_call7_v0, main_call7_cst,
    main_call7_v1, main_v118, main_v119, main_v120, main_v121, main_call8_v0, main_call8_cst, main_call8_v1,
    main_v122, main_v123 ]

/-- The one buffer of a value among `written`, as a set of device buffers, lies inside `written`'s. -/
theorem wr (y : Ref sig .tc) (h : y ∈ written) :
    ({Proc.devRef (τ := τ) .tc y} : Finset (DevRef τ sig)) ⊆ (written.map (Proc.devRef (τ := τ) .tc)).toFinset :=
  Finset.singleton_subset_iff.mpr (List.mem_toFinset.mpr (List.mem_map_of_mem h))

theorem opsW_writes : (opsW : List (HloOp τ sig (Elt F))).Forall fun op => op.writes ⊆ (written.map (Proc.devRef (τ := τ) .tc)).toFinset :=
  ⟨wr main_c (by decide), wr main_v0 (by decide), wr main_v1 (by decide), wr main_c_0 (by decide), wr main_v2 (by decide), wr main_v3 (by decide),
   wr main_v4 (by decide), wr main_v5 (by decide), wr main_v6 (by decide), wr main_c_1 (by decide), wr main_v7 (by decide), wr main_v8 (by decide),
   wr main_c_2 (by decide), wr main_v9 (by decide), wr main_v10 (by decide), wr main_v11 (by decide), wr main_v12 (by decide), wr main_v13 (by decide),
   wr main_v14 (by decide), wr main_v15 (by decide), wr main_v16 (by decide), wr main_v17 (by decide), wr main_v18 (by decide), wr main_v19 (by decide),
   wr main_v20 (by decide), wr main_cst (by decide), wr main_v21 (by decide), wr main_v22 (by decide), wr main_cst_3 (by decide), wr main_v23 (by decide),
   wr main_v24 (by decide), wr main_v25 (by decide)⟩

theorem opsE_writes : (opsE : List (HloOp τ sig (Elt F))).Forall fun op => op.writes ⊆ (written.map (Proc.devRef (τ := τ) .tc)).toFinset :=
  ⟨wr main_call0_cst (by decide), wr main_call0_v0 (by decide), wr main_call0_v1 (by decide), wr main_call0_v2 (by decide), wr main_call0_c (by decide), wr main_call0_v3 (by decide),
   wr main_call0_v4 (by decide), wr main_call0_v5 (by decide), wr main_call0_v6 (by decide), wr main_call0_cst_0 (by decide), wr main_call0_call0_v0 (by decide), wr main_call0_call0_v1 (by decide),
   wr main_v26 (by decide), wr main_v27 (by decide), wr main_v28 (by decide), wr main_v29 (by decide)⟩

theorem opsT_writes : (opsT : List (HloOp τ sig (Elt F))).Forall fun op => op.writes ⊆ (written.map (Proc.devRef (τ := τ) .tc)).toFinset :=
  ⟨wr main_v30 (by decide), wr main_v31 (by decide), wr main_v32 (by decide), wr main_v33 (by decide), wr main_cst_4 (by decide), wr main_v34 (by decide),
   wr main_v35 (by decide), wr main_v36 (by decide), wr main_v37 (by decide), wr main_v38 (by decide), wr main_v39 (by decide), wr main_v40 (by decide),
   wr main_v41 (by decide), wr main_cst_5 (by decide), wr main_v42 (by decide), wr main_v43 (by decide), wr main_v44 (by decide), wr main_v45 (by decide),
   wr main_v46 (by decide), wr main_v47 (by decide), wr main_v48 (by decide), wr main_v49 (by decide), wr main_v50 (by decide), wr main_cst_6 (by decide),
   wr main_v51 (by decide), wr main_v52 (by decide), wr main_v53 (by decide), wr main_cst_7 (by decide), wr main_v54 (by decide), wr main_v55 (by decide),
   wr main_v56 (by decide), wr main_v57 (by decide), wr main_call1_v0 (by decide), wr main_call1_cst (by decide), wr main_call1_v1 (by decide), wr main_v58 (by decide),
   wr main_cst_8 (by decide), wr main_v59 (by decide), wr main_v60 (by decide), wr main_v61 (by decide), wr main_call2_v0 (by decide), wr main_call2_cst (by decide),
   wr main_call2_v1 (by decide), wr main_v62 (by decide), wr main_cst_9 (by decide), wr main_v63 (by decide), wr main_v64 (by decide), wr main_v65 (by decide),
   wr main_v66 (by decide), wr main_v67 (by decide), wr main_v68 (by decide), wr main_v69 (by decide), wr main_v70 (by decide), wr main_cst_10 (by decide),
   wr main_v71 (by decide), wr main_v72 (by decide), wr main_v73 (by decide), wr main_cst_11 (by decide), wr main_v74 (by decide), wr main_v75 (by decide),
   wr main_v76 (by decide), wr main_v77 (by decide), wr main_call3_v0 (by decide), wr main_call3_cst (by decide), wr main_call3_v1 (by decide), wr main_v78 (by decide),
   wr main_v79 (by decide), wr main_v80 (by decide), wr main_v81 (by decide), wr main_call4_v0 (by decide), wr main_call4_cst (by decide), wr main_call4_v1 (by decide),
   wr main_v82 (by decide), wr main_v83 (by decide), wr main_v84 (by decide), wr main_v85 (by decide), wr main_v86 (by decide), wr main_v87 (by decide),
   wr main_v88 (by decide), wr main_v89 (by decide), wr main_v90 (by decide), wr main_cst_12 (by decide), wr main_v91 (by decide), wr main_v92 (by decide),
   wr main_v93 (by decide), wr main_cst_13 (by decide), wr main_v94 (by decide), wr main_v95 (by decide), wr main_v96 (by decide), wr main_v97 (by decide),
   wr main_call5_v0 (by decide), wr main_call5_cst (by decide), wr main_call5_v1 (by decide), wr main_v98 (by decide), wr main_v99 (by decide), wr main_v100 (by decide),
   wr main_v101 (by decide), wr main_call6_v0 (by decide), wr main_call6_cst (by decide), wr main_call6_v1 (by decide), wr main_v102 (by decide), wr main_v103 (by decide),
   wr main_v104 (by decide), wr main_v105 (by decide), wr main_v106 (by decide), wr main_v107 (by decide), wr main_v108 (by decide), wr main_v109 (by decide),
   wr main_v110 (by decide), wr main_cst_14 (by decide), wr main_v111 (by decide), wr main_v112 (by decide), wr main_v113 (by decide), wr main_cst_15 (by decide),
   wr main_v114 (by decide), wr main_v115 (by decide), wr main_v116 (by decide), wr main_v117 (by decide), wr main_call7_v0 (by decide), wr main_call7_cst (by decide),
   wr main_call7_v1 (by decide), wr main_v118 (by decide), wr main_v119 (by decide), wr main_v120 (by decide), wr main_v121 (by decide), wr main_call8_v0 (by decide),
   wr main_call8_cst (by decide), wr main_call8_v1 (by decide), wr main_v122 (by decide), wr main_v123 (by decide)⟩

theorem ops_writes : (opsW ++ opsE ++ opsT : List (HloOp τ sig (Elt F))).Forall fun op => op.writes ⊆ (written.map (Proc.devRef (τ := τ) .tc)).toFinset :=
  forall_append (forall_append opsW_writes opsE_writes) opsT_writes

/-- A buffer that is no value of the program — an argument — is at its launch contents after the whole list. -/
theorem arg_kept (m : (ℓ : Loc nD τ sig) → Buf (Elt F) ℓ) (d : Dev nD) (r : Ref sig .tc) (h : r ∉ written) :
    StableHlo.after (opsW ++ opsE ++ opsT) (StableHlo.launchContents m d) (Proc.devRef .tc r) = m ((d.tc : Thread nD τ).loc r) :=
  (StableHlo.after_of_writes_sub (opsW ++ opsE ++ opsT) (StableHlo.launchContents m d) ops_writes h).trans rfl

/-- Every weakly fair execution of @main terminates with each of the twelve arguments at its launch contents. -/
theorem kept (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_arg0).trans (arg_kept m c main_arg0 (by decide)),
      (h c main_arg1).trans (arg_kept m c main_arg1 (by decide)),
      (h c main_arg2).trans (arg_kept m c main_arg2 (by decide)),
      (h c main_arg3).trans (arg_kept m c main_arg3 (by decide)),
      (h c main_arg4).trans (arg_kept m c main_arg4 (by decide)),
      (h c main_arg5).trans (arg_kept m c main_arg5 (by decide)),
      (h c main_arg6).trans (arg_kept m c main_arg6 (by decide)),
      (h c main_arg7).trans (arg_kept m c main_arg7 (by decide)),
      (h c main_arg8).trans (arg_kept m c main_arg8 (by decide)),
      (h c main_arg9).trans (arg_kept m c main_arg9 (by decide)),
      (h c main_arg10).trans (arg_kept m c main_arg10 (by decide)),
      (h c main_arg11).trans (arg_kept m c main_arg11 (by decide))⟩)
    (run m ρ)

/-- The reference's frame at the extended reals: it runs, and its argument arrays end unchanged. -/
theorem frame_ri : Cert.frame_ReferenceIdeal (hReferenceIdeal := Cert.ReferenceIdeal.Gen.facts)
    (hPre_finite_inputs := Cert.Pre_finite_inputs.Gen.facts) :=
  fun m g _ => kept (F := Ideal) m g

end Cert.ReferenceIdeal.RefRun

end
-- ==== Proof.RefE.lean ====
import proofs.«112395_j72773925864042_1_alg».proof.ReferenceIdeal
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

/-!
# The reference's matrix E, index by index, on the extended reals

The reference builds the diagonal matrix D = diag w (entry (l, k) is w l when l = k and 0 otherwise),
multiplies A · D, and multiplies the result by the transpose of A.  On the extended reals x * 0 = 0 for
every x, so (A · D)(i, k) = A(i, k) * w(k) with no finiteness assumption, and
E(i, j) = ∑ k, (A(i, k) * w(k)) * A(j, k).
-/

noncomputable section

open scoped BigOperators

namespace Cert.RefE

open Idealize.ShloMosaic Idealize.ShloMosaic.ValueIdx
open Cert.ReferenceIdeal

variable [Cert.ReferenceIdeal.Facts]
open Cert.ReferenceIdeal.Facts₀ Cert.ReferenceIdeal.Facts

/-- The diagonal matrix of a vector, as the composition of the operations that build it: the vector
    padded by nothing, a row-number and a column-number array, the row number plus zero compared for
    equality with the column number, and the choice, entry by entry, between the vector spread along the
    rows and zero. -/
def diagOf (w : (⟨S4096, .f32⟩ : BufTy).Contents (Elt Ideal)) : (⟨S4096x4096, .f32⟩ : BufTy).Contents (Elt Ideal) :=
  select
    (cmpi .eq
      (addi (iotaInDim S4096x4096 32 0) (broadcastInDim S4096x4096 ![] bcast_S_S4096x4096 (constantI S_ 32 0#32)))
      (iotaInDim S4096x4096 32 1))
    (broadcastInDim S4096x4096 ![0, 1] bcast_S4096x1_S4096x4096_0_1
      (broadcastInDim S4096x1 ![0] bcast_S4096_S4096x1_0
        (pad S4096 ![0] ![0] ![0] w (constant (F := Ideal) S_ .f32 0x00000000#32) pads_S4096_S4096_000 h_S_)))
    (broadcastInDim S4096x4096 ![] bcast_S_S4096x4096 (constant (F := Ideal) S_ .f32 0x00000000#32))

/-- The reference's E: (A · diag w) · Aᵀ, as the two matrix products and the transpose that compute it. -/
def eRef (A : (⟨S2048x4096, .f32⟩ : BufTy).Contents (Elt Ideal)) (w : (⟨S4096, .f32⟩ : BufTy).Contents (Elt Ideal)) :
    (⟨S2048x2048, .f32⟩ : BufTy).Contents (Elt Ideal) :=
  ((fun l r => Host.dotGeneral (F := Ideal) (φ₁ := .f32) (φ₂ := .f32) dot_S2048x4096_S4096x2048_S2048x2048_1_0_0_1_n_n none l r) :
      (⟨S2048x4096, .f32⟩ : BufTy).Contents (Elt Ideal) → (⟨S4096x2048, .f32⟩ : BufTy).Contents (Elt Ideal) →
        (⟨S2048x2048, .f32⟩ : BufTy).Contents (Elt Ideal))
    (((fun l r => Host.dotGeneral (F := Ideal) (φ₁ := .f32) (φ₂ := .f32) dot_S2048x4096_S4096x4096_S2048x4096_1_0_0_1_n_n none l r) :
        (⟨S2048x4096, .f32⟩ : BufTy).Contents (Elt Ideal) → (⟨S4096x4096, .f32⟩ : BufTy).Contents (Elt Ideal) →
          (⟨S2048x4096, .f32⟩ : BufTy).Contents (Elt Ideal)) A (diagOf w))
    (((transpose S4096x2048 [1, 0] · transposes_S2048x4096_S4096x2048_1_0) :
        (⟨S2048x4096, .f32⟩ : BufTy).Contents (Elt Ideal) → (⟨S4096x2048, .f32⟩ : BufTy).Contents (Elt Ideal)) A)

/-! ## The operations one at a time -/

/-- Padding by nothing (no low, high or interior padding) changes no entry. -/
theorem pad_none_apply (x : (⟨S4096, .f32⟩ : BufTy).Contents (Elt Ideal)) (v : (⟨S_, .f32⟩ : BufTy).Contents (Elt Ideal))
    (l : Fin 4096) : pad S4096 ![0] ![0] ![0] x v pads_S4096_S4096_000 h_S_ (ix1 l) = x (ix1 l) := by
  unfold pad
  have hin : ∀ a : Fin S4096.rank, (![0] : Fin 1 → ℕ) a ≤ ((ix1 l : S4096.Idx) (a.cast pads_S4096_S4096_000.1)).val ∧
      (((ix1 l : S4096.Idx) (a.cast pads_S4096_S4096_000.1)).val - (![0] : Fin 1 → ℕ) a) % ((![0] : Fin 1 → ℕ) a + 1) = 0 ∧
      (((ix1 l : S4096.Idx) (a.cast pads_S4096_S4096_000.1)).val - (![0] : Fin 1 → ℕ) a) / ((![0] : Fin 1 → ℕ) a + 1)
        < S4096.size a := by
    intro a
    match a with
    | ⟨0, _⟩ =>
      refine ⟨Nat.zero_le _, ?_, ?_⟩
      · show (l.val - 0) % (0 + 1) = 0
        omega
      · show (l.val - 0) / (0 + 1) < 4096
        have := l.isLt
        omega
  rw [dif_pos hin]
  refine congrArg x (funext fun a => Fin.ext ?_)
  match a with
  | ⟨0, _⟩ =>
    show (l.val - 0) / (0 + 1) = l.val
    omega

/-- The mask: the row number plus zero equals the column number exactly on the diagonal (both numbers are below
    4096, far below 2 ^ 32, so the 32-bit words are equal exactly when the numbers are). -/
theorem mask_apply (l k : Fin 4096) :
    cmpi .eq
      (addi (iotaInDim S4096x4096 32 0) (broadcastInDim S4096x4096 ![] bcast_S_S4096x4096 (constantI S_ 32 0#32)))
      (iotaInDim S4096x4096 32 1) (ix2 l k) = if l = k then 1#1 else 0#1 := by
  show IntOp.cmpi .eq (IntOp.addi (BitVec.ofNat 32 l.val) 0#32) (BitVec.ofNat 32 k.val) = _
  unfold IntOp.cmpi IntOp.addi
  rw [BitVec.add_zero]
  by_cases h : l = k
  · subst h
    simp
  · rw [if_neg h]
    have hne : BitVec.ofNat 32 l.val ≠ BitVec.ofNat 32 k.val := by
      intro e
      have e' := congrArg BitVec.toNat e
      rw [BitVec.toNat_ofNat, BitVec.toNat_ofNat] at e'
      have hl := l.isLt
      have hk := k.isLt
      exact h (Fin.ext (by omega))
    rw [beq_eq_false_iff_ne.mpr hne]
    rfl

/-- The diagonal matrix read at an entry: the vector's entry on the diagonal, zero off it. -/
theorem diagOf_apply (w : (⟨S4096, .f32⟩ : BufTy).Contents (Elt Ideal)) (l k : Fin 4096) :
    diagOf w (ix2 l k) = if l = k then w (ix1 l) else 0 := by
  unfold diagOf
  rw [select_apply, mask_apply]
  by_cases h : l = k
  · rw [if_pos h, if_pos h, select_one]
    rw [broadcastInDim_apply _ _ _ (ix2 l k) (ix2 l (0 : Fin 1)) (fun a => by
      match a with
      | ⟨0, _⟩ => rfl
      | ⟨1, _⟩ => rfl)]
    rw [broadcastInDim_apply _ _ _ (ix2 l (0 : Fin 1)) (ix1 l) (fun a => by
      match a with
      | ⟨0, _⟩ => rfl)]
    exact pad_none_apply w _ l
  · rw [if_neg h, if_neg h, select_zero]
    show Ideal.ofBits .f32 0x00000000#32 = 0
    exact Ideal.ofBits_zero_f32

/-- The transpose read at an entry. -/
theorem transposeA_apply (A : (⟨S2048x4096, .f32⟩ : BufTy).Contents (Elt Ideal)) (k : Fin 4096) (j : Fin 2048) :
    transpose S4096x2048 [1, 0] A transposes_S2048x4096_S4096x2048_1_0 (ix2 k j) = A (ix2 j k) :=
  transpose_apply [1, 0] A transposes_S2048x4096_S4096x2048_1_0 (ix2 k j) (ix2 j k) (fun b => by
    match b with
    | ⟨0, _⟩ => rfl
    | ⟨1, _⟩ => rfl)

/-! ## The two matrix products read at an entry

Each contracts one axis of length 4096; the contraction index is that one coordinate. The left operand is read
at (row of the result, contraction coordinate) and the right operand at (contraction coordinate, column of the
result). -/

/-- First product: the free axis of each operand reads the result's coordinate. -/
theorem lhs_AD_0 (j : S2048x4096.Idx) (q : dot_S2048x4096_S4096x4096_S2048x4096_1_0_0_1_n_n.contr.Idx) :
    (dot_S2048x4096_S4096x4096_S2048x4096_1_0_0_1_n_n.lhsIdx j q 0).val = (j 0).val := by
  unfold DotDims.lhsIdx
  rw [dif_neg (show ¬(0 : Fin S2048x4096.rank) ∈ dot_S2048x4096_S4096x4096_S2048x4096_1_0_0_1_n_n.lhsBatch from List.not_mem_nil),
    dif_pos (show (0 : Fin S2048x4096.rank) ∈ dot_S2048x4096_S4096x4096_S2048x4096_1_0_0_1_n_n.lhsNonContracting from List.mem_singleton.mpr rfl)]
  rfl
theorem rhs_AD_1 (j : S2048x4096.Idx) (q : dot_S2048x4096_S4096x4096_S2048x4096_1_0_0_1_n_n.contr.Idx) :
    (dot_S2048x4096_S4096x4096_S2048x4096_1_0_0_1_n_n.rhsIdx j q 1).val = (j 1).val := by
  unfold DotDims.rhsIdx
  rw [dif_neg (show ¬(1 : Fin S4096x4096.rank) ∈ dot_S2048x4096_S4096x4096_S2048x4096_1_0_0_1_n_n.rhsBatch from List.not_mem_nil),
    dif_pos (show (1 : Fin S4096x4096.rank) ∈ dot_S2048x4096_S4096x4096_S2048x4096_1_0_0_1_n_n.rhsNonContracting from List.mem_singleton.mpr rfl)]
  rfl

/-- The first product, A times a 4096 by 4096 matrix, at an entry: the sum over the shared axis. -/
theorem dotAD_apply (A : (⟨S2048x4096, .f32⟩ : BufTy).Contents (Elt Ideal))
    (D : (⟨S4096x4096, .f32⟩ : BufTy).Contents (Elt Ideal)) (i : Fin 2048) (k : Fin 4096) :
    Host.dotGeneral (F := Ideal) (φ₁ := .f32) (φ₂ := .f32) dot_S2048x4096_S4096x4096_S2048x4096_1_0_0_1_n_n none A D (ix2 i k)
      = ∑ l : Fin 4096, A (ix2 i l) * D (ix2 l k) := by
  simp only [Host.dotGeneral]
  rw [Ideal.dotGeneral_apply,
    ← Equiv.sum_comp (contrEquiv1 dot_S2048x4096_S4096x4096_S2048x4096_1_0_0_1_n_n 4096 rfl rfl).symm]
  refine Finset.sum_congr rfl fun l _ => ?_
  have hk := contrEquiv1_symm_val dot_S2048x4096_S4096x4096_S2048x4096_1_0_0_1_n_n 4096 rfl rfl l
  have el : dot_S2048x4096_S4096x4096_S2048x4096_1_0_0_1_n_n.lhsIdx (ix2 i k)
      ((contrEquiv1 dot_S2048x4096_S4096x4096_S2048x4096_1_0_0_1_n_n 4096 rfl rfl).symm l) = ix2 i l :=
    funext fun a => Fin.ext (by
      match a with
      | ⟨0, _⟩ => exact lhs_AD_0 _ _
      | ⟨1, _⟩ =>
        exact (dot_S2048x4096_S4096x4096_S2048x4096_1_0_0_1_n_n.lhsIdx_val_of_single rfl _ _).trans hk)
  have er : dot_S2048x4096_S4096x4096_S2048x4096_1_0_0_1_n_n.rhsIdx (ix2 i k)
      ((contrEquiv1 dot_S2048x4096_S4096x4096_S2048x4096_1_0_0_1_n_n 4096 rfl rfl).symm l) = ix2 l k :=
    funext fun a => Fin.ext (by
      match a with
      | ⟨0, _⟩ =>
        exact (dot_S2048x4096_S4096x4096_S2048x4096_1_0_0_1_n_n.rhsIdx_val_of_single rfl _ _).trans hk
      | ⟨1, _⟩ => exact rhs_AD_1 _ _)
  rw [el, er]

/-- Second product: the free axis of each operand reads the result's coordinate. -/
theorem lhs_MT_0 (j : S2048x2048.Idx) (q : dot_S2048x4096_S4096x2048_S2048x2048_1_0_0_1_n_n.contr.Idx) :
    (dot_S2048x4096_S4096x2048_S2048x2048_1_0_0_1_n_n.lhsIdx j q 0).val = (j 0).val := by
  unfold DotDims.lhsIdx
  rw [dif_neg (show ¬(0 : Fin S2048x4096.rank) ∈ dot_S2048x4096_S4096x2048_S2048x2048_1_0_0_1_n_n.lhsBatch from List.not_mem_nil),
    dif_pos (show (0 : Fin S2048x4096.rank) ∈ dot_S2048x4096_S4096x2048_S2048x2048_1_0_0_1_n_n.lhsNonContracting from List.mem_singleton.mpr rfl)]
  rfl
theorem rhs_MT_1 (j : S2048x2048.Idx) (q : dot_S2048x4096_S4096x2048_S2048x2048_1_0_0_1_n_n.contr.Idx) :
    (dot_S2048x4096_S4096x2048_S2048x2048_1_0_0_1_n_n.rhsIdx j q 1).val = (j 1).val := by
  unfold DotDims.rhsIdx
  rw [dif_neg (show ¬(1 : Fin S4096x2048.rank) ∈ dot_S2048x4096_S4096x2048_S2048x2048_1_0_0_1_n_n.rhsBatch from List.not_mem_nil),
    dif_pos (show (1 : Fin S4096x2048.rank) ∈ dot_S2048x4096_S4096x2048_S2048x2048_1_0_0_1_n_n.rhsNonContracting from List.mem_singleton.mpr rfl)]
  rfl

/-- The second product, a 2048 by 4096 matrix times a 4096 by 2048 one, at an entry. -/
theorem dotMT_apply (M : (⟨S2048x4096, .f32⟩ : BufTy).Contents (Elt Ideal))
    (T : (⟨S4096x2048, .f32⟩ : BufTy).Contents (Elt Ideal)) (i j : Fin 2048) :
    Host.dotGeneral (F := Ideal) (φ₁ := .f32) (φ₂ := .f32) dot_S2048x4096_S4096x2048_S2048x2048_1_0_0_1_n_n none M T (ix2 i j)
      = ∑ k : Fin 4096, M (ix2 i k) * T (ix2 k j) := by
  simp only [Host.dotGeneral]
  rw [Ideal.dotGeneral_apply,
    ← Equiv.sum_comp (contrEquiv1 dot_S2048x4096_S4096x2048_S2048x2048_1_0_0_1_n_n 4096 rfl rfl).symm]
  refine Finset.sum_congr rfl fun k _ => ?_
  have hk := contrEquiv1_symm_val dot_S2048x4096_S4096x2048_S2048x2048_1_0_0_1_n_n 4096 rfl rfl k
  have el : dot_S2048x4096_S4096x2048_S2048x2048_1_0_0_1_n_n.lhsIdx (ix2 i j)
      ((contrEquiv1 dot_S2048x4096_S4096x2048_S2048x2048_1_0_0_1_n_n 4096 rfl rfl).symm k) = ix2 i k :=
    funext fun a => Fin.ext (by
      match a with
      | ⟨0, _⟩ => exact lhs_MT_0 _ _
      | ⟨1, _⟩ =>
        exact (dot_S2048x4096_S4096x2048_S2048x2048_1_0_0_1_n_n.lhsIdx_val_of_single rfl _ _).trans hk)
  have er : dot_S2048x4096_S4096x2048_S2048x2048_1_0_0_1_n_n.rhsIdx (ix2 i j)
      ((contrEquiv1 dot_S2048x4096_S4096x2048_S2048x2048_1_0_0_1_n_n 4096 rfl rfl).symm k) = ix2 k j :=
    funext fun a => Fin.ext (by
      match a with
      | ⟨0, _⟩ =>
        exact (dot_S2048x4096_S4096x2048_S2048x2048_1_0_0_1_n_n.rhsIdx_val_of_single rfl _ _).trans hk
      | ⟨1, _⟩ => exact rhs_MT_1 _ _)
  rw [el, er]

/-! ## The reference's E at an entry -/

/-- The product A · diag w at an entry: of the sum over the shared axis only the diagonal term survives,
    because x * 0 = 0 for every extended real x, infinite ones included. -/
theorem dotADiag_apply (A : (⟨S2048x4096, .f32⟩ : BufTy).Contents (Elt Ideal))
    (w : (⟨S4096, .f32⟩ : BufTy).Contents (Elt Ideal)) (i : Fin 2048) (k : Fin 4096) :
    Host.dotGeneral (F := Ideal) (φ₁ := .f32) (φ₂ := .f32) dot_S2048x4096_S4096x4096_S2048x4096_1_0_0_1_n_n none A (diagOf w)
      (ix2 i k) = A (ix2 i k) * w (ix1 k) := by
  rw [dotAD_apply]
  have hterm : ∀ l : Fin 4096,
      A (ix2 i l) * diagOf w (ix2 l k) = if l = k then A (ix2 i l) * w (ix1 l) else 0 := fun l => by
    rw [diagOf_apply]
    by_cases h : l = k
    · rw [if_pos h, if_pos h]
    · rw [if_neg h, if_neg h]
      exact mul_zero _
  rw [Finset.sum_congr rfl fun l _ => hterm l, Finset.sum_ite_eq' Finset.univ k, if_pos (Finset.mem_univ k)]

/-- THE REFERENCE'S E AT AN ENTRY: E(i, j) = ∑ k, (A(i, k) * w(k)) * A(j, k). -/
theorem eRef_apply (A : (⟨S2048x4096, .f32⟩ : BufTy).Contents (Elt Ideal))
    (w : (⟨S4096, .f32⟩ : BufTy).Contents (Elt Ideal)) (i j : Fin 2048) :
    eRef A w (ix2 i j) = ∑ k : Fin 4096, (A (ix2 i k) * w (ix1 k)) * A (ix2 j k) := by
  unfold eRef
  show Host.dotGeneral (F := Ideal) (φ₁ := .f32) (φ₂ := .f32) dot_S2048x4096_S4096x2048_S2048x2048_1_0_0_1_n_n none
      (Host.dotGeneral (F := Ideal) (φ₁ := .f32) (φ₂ := .f32) dot_S2048x4096_S4096x4096_S2048x4096_1_0_0_1_n_n none A (diagOf w))
      (transpose S4096x2048 [1, 0] A transposes_S2048x4096_S4096x2048_1_0) (ix2 i j) = _
  rw [dotMT_apply]
  refine Finset.sum_congr rfl fun k _ => ?_
  rw [dotADiag_apply, transposeA_apply]

end Cert.RefE
-- ==== Proof.RefEdge.lean ====
/- The reference's edge matrix, read off its run.

   After the operations of the middle stage — the diagonal matrix of the weights w, the product A · diag(w),
   the transpose of A and the product with it — the buffer of E holds the composed value of those operations
   at the contents of A's buffer and of w's buffer: each operation's result is its function applied to its
   operands' contents, and an operation leaves every buffer but its own result's alone.

   The first two stages write only their own values' buffers, so they leave the arguments at their launch
   contents, and the first stage leaves A for the second to read. -/
import proofs.«112395_j72773925864042_1_alg».proof.Proof.RefRun
import proofs.«112395_j72773925864042_1_alg».proof.Proof.RefE

set_option maxRecDepth 4096

noncomputable section

namespace Cert.ReferenceIdeal.RefEdge

open Cert.ReferenceIdeal Cert.ReferenceIdeal.Gen Cert.ReferenceIdeal.RefRun
open Idealize.ShloMosaic Idealize.ShloMosaic.TcCoe Idealize.SL.Sem Idealize.ShloMosaic.StableHlo

variable {F : FTy → Type} [FloatOps F]

/-! ## The edge matrix after the middle stage -/

/-- After the middle stage, from any contents `VW`, E's buffer holds the reference's E of the contents of
    A's buffer and of w's buffer. -/
theorem edge_eq (VW : Valuation τ sig (Elt Ideal)) :
    StableHlo.after (opsE (F := Ideal)) VW (Proc.devRef .tc main_v29)
      = Cert.RefE.eRef (VW (Proc.devRef .tc main_arg3)) (VW (Proc.devRef .tc main_v25)) := by
  after_results
  unfold Cert.RefE.eRef Cert.RefE.diagOf
  rfl

/-! ## What the stages leave alone -/

/-- The first stage leaves every buffer that is no value of the program (an argument) alone. -/
theorem afterW_kept (V : Valuation τ sig (Elt F)) (r : Ref sig .tc) (h : r ∉ written) :
    StableHlo.after opsW V (Proc.devRef .tc r) = V (Proc.devRef .tc r) :=
  StableHlo.after_of_writes_sub opsW V opsW_writes h

/-- So does the middle stage. -/
theorem afterE_kept (V : Valuation τ sig (Elt F)) (r : Ref sig .tc) (h : r ∉ written) :
    StableHlo.after opsE V (Proc.devRef .tc r) = V (Proc.devRef .tc r) :=
  StableHlo.after_of_writes_sub opsE V opsE_writes h

/-- And the tail. -/
theorem afterT_kept (V : Valuation τ sig (Elt F)) (r : Ref sig .tc) (h : r ∉ written) :
    StableHlo.after opsT V (Proc.devRef .tc r) = V (Proc.devRef .tc r) :=
  StableHlo.after_of_writes_sub opsT V opsT_writes h

/-- After the first two stages an argument is at its launch contents. -/
theorem stage_arg (m : (ℓ : Loc nD τ sig) → Buf (Elt F) ℓ) (d : Dev nD) (r : Ref sig .tc) (h : r ∉ written) :
    StableHlo.after opsE (StableHlo.after opsW (StableHlo.launchContents m d)) (Proc.devRef .tc r)
      = m ((d.tc : Thread nD τ).loc r) :=
  (afterE_kept _ r h).trans ((afterW_kept _ r h).trans rfl)

/-- E after the first two stages: the reference's E of A as the stages found it and of the first stage's w. -/
theorem edge_inputs (V : Valuation τ sig (Elt Ideal)) :
    StableHlo.after (opsE (F := Ideal)) (StableHlo.after opsW V) (Proc.devRef .tc main_v29)
      = Cert.RefE.eRef (V (Proc.devRef .tc main_arg3)) (StableHlo.after opsW V (Proc.devRef .tc main_v25)) := by
  rw [edge_eq, afterW_kept V main_arg3 (by decide)]

/-! ## Stage by stage: which values each stage writes

   A stage writes only its own values' buffers, so a later stage reads an earlier stage's value as that stage
   left it, and the tail leaves E alone. -/

/-- The first stage's values. -/
abbrev writtenW : List (Ref sig .tc) :=
  [ main_c, main_v0, main_v1, main_c_0, main_v2, main_v3, main_v4, main_v5,
    main_v6, main_c_1, main_v7, main_v8, main_c_2, main_v9, main_v10, main_v11,
    main_v12, main_v13, main_v14, main_v15, main_v16, main_v17, main_v18, main_v19,
    main_v20, main_cst, main_v21, main_v22, main_cst_3, main_v23, main_v24, main_v25 ]

/-- The middle stage's values. -/
abbrev writtenE : List (Ref sig .tc) :=
  [ main_call0_cst, main_call0_v0, main_call0_v1, main_call0_v2, main_call0_c, main_call0_v3, main_call0_v4, main_call0_v5,
    main_call0_v6, main_call0_cst_0, main_call0_call0_v0, main_call0_call0_v1, main_v26, main_v27, main_v28, main_v29 ]

/-- The tail's values. -/
abbrev writtenT : List (Ref sig .tc) :=
  [ main_v30, main_v31, main_v32, main_v33, main_cst_4, main_v34, main_v35, main_v36,
    main_v37, main_v38, main_v39, main_v40, main_v41, main_cst_5, main_v42, main_v43,
    main_v44, main_v45, main_v46, main_v47, main_v48, main_v49, main_v50, main_cst_6,
    main_v51, main_v52, main_v53, main_cst_7, main_v54, main_v55, main_v56, main_v57,
    main_call1_v0, main_call1_cst, main_call1_v1, main_v58, main_cst_8, main_v59, main_v60, main_v61,
    main_call2_v0, main_call2_cst, main_call2_v1, main_v62, main_cst_9, main_v63, main_v64, main_v65,
    main_v66, main_v67, main_v68, main_v69, main_v70, main_cst_10, main_v71, main_v72,
    main_v73, main_cst_11, main_v74, main_v75, main_v76, main_v77, main_call3_v0, main_call3_cst,
    main_call3_v1, main_v78, main_v79, main_v80, main_v81, main_call4_v0, main_call4_cst, main_call4_v1,
    main_v82, main_v83, main_v84, main_v85, main_v86, main_v87, main_v88, main_v89,
    main_v90, main_cst_12, main_v91, main_v92, main_v93, main_cst_13, main_v94, main_v95,
    main_v96, main_v97, main_call5_v0, main_call5_cst, main_call5_v1, main_v98, main_v99, main_v100,
    main_v101, main_call6_v0, main_call6_cst, main_call6_v1, main_v102, main_v103, main_v104, main_v105,
    main_v106, main_v107, main_v108, main_v109, main_v110, main_cst_14, main_v111, main_v112,
    main_v113, main_cst_15, main_v114, main_v115, main_v116, main_v117, main_call7_v0, main_call7_cst,
    main_call7_v1, main_v118, main_v119, main_v120, main_v121, main_call8_v0, main_call8_cst, main_call8_v1,
    main_v122, main_v123 ]

/-- The one buffer of a value among a list, as a set of device buffers, lies inside the list's. -/
theorem wrIn (W : List (Ref sig .tc)) (y : Ref sig .tc) (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

theorem opsW_writesW : (opsW : List (HloOp τ sig (Elt F))).Forall fun op => op.writes ⊆ (writtenW.map (Proc.devRef (τ := τ) .tc)).toFinset :=
  ⟨wrIn writtenW main_c (by decide), wrIn writtenW main_v0 (by decide), wrIn writtenW main_v1 (by decide), wrIn writtenW main_c_0 (by decide), wrIn writtenW main_v2 (by decide), wrIn writtenW main_v3 (by decide),
   wrIn writtenW main_v4 (by decide), wrIn writtenW main_v5 (by decide), wrIn writtenW main_v6 (by decide), wrIn writtenW main_c_1 (by decide), wrIn writtenW main_v7 (by decide), wrIn writtenW main_v8 (by decide),
   wrIn writtenW main_c_2 (by decide), wrIn writtenW main_v9 (by decide), wrIn writtenW main_v10 (by decide), wrIn writtenW main_v11 (by decide), wrIn writtenW main_v12 (by decide), wrIn writtenW main_v13 (by decide),
   wrIn writtenW main_v14 (by decide), wrIn writtenW main_v15 (by decide), wrIn writtenW main_v16 (by decide), wrIn writtenW main_v17 (by decide), wrIn writtenW main_v18 (by decide), wrIn writtenW main_v19 (by decide),
   wrIn writtenW main_v20 (by decide), wrIn writtenW main_cst (by decide), wrIn writtenW main_v21 (by decide), wrIn writtenW main_v22 (by decide), wrIn writtenW main_cst_3 (by decide), wrIn writtenW main_v23 (by decide),
   wrIn writtenW main_v24 (by decide), wrIn writtenW main_v25 (by decide)⟩

theorem opsE_writesE : (opsE : List (HloOp τ sig (Elt F))).Forall fun op => op.writes ⊆ (writtenE.map (Proc.devRef (τ := τ) .tc)).toFinset :=
  ⟨wrIn writtenE main_call0_cst (by decide), wrIn writtenE main_call0_v0 (by decide), wrIn writtenE main_call0_v1 (by decide), wrIn writtenE main_call0_v2 (by decide), wrIn writtenE main_call0_c (by decide), wrIn writtenE main_call0_v3 (by decide),
   wrIn writtenE main_call0_v4 (by decide), wrIn writtenE main_call0_v5 (by decide), wrIn writtenE main_call0_v6 (by decide), wrIn writtenE main_call0_cst_0 (by decide), wrIn writtenE main_call0_call0_v0 (by decide), wrIn writtenE main_call0_call0_v1 (by decide),
   wrIn writtenE main_v26 (by decide), wrIn writtenE main_v27 (by decide), wrIn writtenE main_v28 (by decide), wrIn writtenE main_v29 (by decide)⟩

theorem opsT_writesT : (opsT : List (HloOp τ sig (Elt F))).Forall fun op => op.writes ⊆ (writtenT.map (Proc.devRef (τ := τ) .tc)).toFinset :=
  ⟨wrIn writtenT main_v30 (by decide), wrIn writtenT main_v31 (by decide), wrIn writtenT main_v32 (by decide), wrIn writtenT main_v33 (by decide), wrIn writtenT main_cst_4 (by decide), wrIn writtenT main_v34 (by decide),
   wrIn writtenT main_v35 (by decide), wrIn writtenT main_v36 (by decide), wrIn writtenT main_v37 (by decide), wrIn writtenT main_v38 (by decide), wrIn writtenT main_v39 (by decide), wrIn writtenT main_v40 (by decide),
   wrIn writtenT main_v41 (by decide), wrIn writtenT main_cst_5 (by decide), wrIn writtenT main_v42 (by decide), wrIn writtenT main_v43 (by decide), wrIn writtenT main_v44 (by decide), wrIn writtenT main_v45 (by decide),
   wrIn writtenT main_v46 (by decide), wrIn writtenT main_v47 (by decide), wrIn writtenT main_v48 (by decide), wrIn writtenT main_v49 (by decide), wrIn writtenT main_v50 (by decide), wrIn writtenT main_cst_6 (by decide),
   wrIn writtenT main_v51 (by decide), wrIn writtenT main_v52 (by decide), wrIn writtenT main_v53 (by decide), wrIn writtenT main_cst_7 (by decide), wrIn writtenT main_v54 (by decide), wrIn writtenT main_v55 (by decide),
   wrIn writtenT main_v56 (by decide), wrIn writtenT main_v57 (by decide), wrIn writtenT main_call1_v0 (by decide), wrIn writtenT main_call1_cst (by decide), wrIn writtenT main_call1_v1 (by decide), wrIn writtenT main_v58 (by decide),
   wrIn writtenT main_cst_8 (by decide), wrIn writtenT main_v59 (by decide), wrIn writtenT main_v60 (by decide), wrIn writtenT main_v61 (by decide), wrIn writtenT main_call2_v0 (by decide), wrIn writtenT main_call2_cst (by decide),
   wrIn writtenT main_call2_v1 (by decide), wrIn writtenT main_v62 (by decide), wrIn writtenT main_cst_9 (by decide), wrIn writtenT main_v63 (by decide), wrIn writtenT main_v64 (by decide), wrIn writtenT main_v65 (by decide),
   wrIn writtenT main_v66 (by decide), wrIn writtenT main_v67 (by decide), wrIn writtenT main_v68 (by decide), wrIn writtenT main_v69 (by decide), wrIn writtenT main_v70 (by decide), wrIn writtenT main_cst_10 (by decide),
   wrIn writtenT main_v71 (by decide), wrIn writtenT main_v72 (by decide), wrIn writtenT main_v73 (by decide), wrIn writtenT main_cst_11 (by decide), wrIn writtenT main_v74 (by decide), wrIn writtenT main_v75 (by decide),
   wrIn writtenT main_v76 (by decide), wrIn writtenT main_v77 (by decide), wrIn writtenT main_call3_v0 (by decide), wrIn writtenT main_call3_cst (by decide), wrIn writtenT main_call3_v1 (by decide), wrIn writtenT main_v78 (by decide),
   wrIn writtenT main_v79 (by decide), wrIn writtenT main_v80 (by decide), wrIn writtenT main_v81 (by decide), wrIn writtenT main_call4_v0 (by decide), wrIn writtenT main_call4_cst (by decide), wrIn writtenT main_call4_v1 (by decide),
   wrIn writtenT main_v82 (by decide), wrIn writtenT main_v83 (by decide), wrIn writtenT main_v84 (by decide), wrIn writtenT main_v85 (by decide), wrIn writtenT main_v86 (by decide), wrIn writtenT main_v87 (by decide),
   wrIn writtenT main_v88 (by decide), wrIn writtenT main_v89 (by decide), wrIn writtenT main_v90 (by decide), wrIn writtenT main_cst_12 (by decide), wrIn writtenT main_v91 (by decide), wrIn writtenT main_v92 (by decide),
   wrIn writtenT main_v93 (by decide), wrIn writtenT main_cst_13 (by decide), wrIn writtenT main_v94 (by decide), wrIn writtenT main_v95 (by decide), wrIn writtenT main_v96 (by decide), wrIn writtenT main_v97 (by decide),
   wrIn writtenT main_call5_v0 (by decide), wrIn writtenT main_call5_cst (by decide), wrIn writtenT main_call5_v1 (by decide), wrIn writtenT main_v98 (by decide), wrIn writtenT main_v99 (by decide), wrIn writtenT main_v100 (by decide),
   wrIn writtenT main_v101 (by decide), wrIn writtenT main_call6_v0 (by decide), wrIn writtenT main_call6_cst (by decide), wrIn writtenT main_call6_v1 (by decide), wrIn writtenT main_v102 (by decide), wrIn writtenT main_v103 (by decide),
   wrIn writtenT main_v104 (by decide), wrIn writtenT main_v105 (by decide), wrIn writtenT main_v106 (by decide), wrIn writtenT main_v107 (by decide), wrIn writtenT main_v108 (by decide), wrIn writtenT main_v109 (by decide),
   wrIn writtenT main_v110 (by decide), wrIn writtenT main_cst_14 (by decide), wrIn writtenT main_v111 (by decide), wrIn writtenT main_v112 (by decide), wrIn writtenT main_v113 (by decide), wrIn writtenT main_cst_15 (by decide),
   wrIn writtenT main_v114 (by decide), wrIn writtenT main_v115 (by decide), wrIn writtenT main_v116 (by decide), wrIn writtenT main_v117 (by decide), wrIn writtenT main_call7_v0 (by decide), wrIn writtenT main_call7_cst (by decide),
   wrIn writtenT main_call7_v1 (by decide), wrIn writtenT main_v118 (by decide), wrIn writtenT main_v119 (by decide), wrIn writtenT main_v120 (by decide), wrIn writtenT main_v121 (by decide), wrIn writtenT main_call8_v0 (by decide),
   wrIn writtenT main_call8_cst (by decide), wrIn writtenT main_call8_v1 (by decide), wrIn writtenT main_v122 (by decide), wrIn writtenT main_v123 (by decide)⟩

/-- The first stage leaves every buffer but its own values' alone. -/
theorem afterW_of (V : Valuation τ sig (Elt F)) (r : Ref sig .tc) (h : r ∉ writtenW) :
    StableHlo.after opsW V (Proc.devRef .tc r) = V (Proc.devRef .tc r) :=
  StableHlo.after_of_writes_sub opsW V opsW_writesW h

/-- The middle stage leaves every buffer but its own values' alone: w in particular. -/
theorem afterE_of (V : Valuation τ sig (Elt F)) (r : Ref sig .tc) (h : r ∉ writtenE) :
    StableHlo.after opsE V (Proc.devRef .tc r) = V (Proc.devRef .tc r) :=
  StableHlo.after_of_writes_sub opsE V opsE_writesE h

/-- The tail leaves every buffer but its own values' alone: E in particular. -/
theorem afterT_of (V : Valuation τ sig (Elt F)) (r : Ref sig .tc) (h : r ∉ writtenT) :
    StableHlo.after opsT V (Proc.devRef .tc r) = V (Proc.devRef .tc r) :=
  StableHlo.after_of_writes_sub opsT V opsT_writesT h

/-- E at the end of the whole list is E after the first two stages. -/
theorem edge_final (V : Valuation τ sig (Elt Ideal)) :
    StableHlo.after (opsW ++ opsE ++ opsT) V (Proc.devRef .tc main_v29)
      = Cert.RefE.eRef (V (Proc.devRef .tc main_arg3)) (StableHlo.after opsW V (Proc.devRef .tc main_v25)) := by
  rw [after_all, afterT_of _ main_v29 (by decide), edge_inputs]

end Cert.ReferenceIdeal.RefEdge

end
-- ==== Proof.PayIdx.lean ====
/-
  The accumulation body's two stored values read at one element, at the ideal values (a float is an extended real),
  and the law that four consecutive blocks of 1024 terms, added in order onto zero, are the whole sum of 4096 terms.

  * The first stored value is a broadcast of the zero word: every element is the extended real 0.
  * The second is the old accumulator plus a matrix product that contracts the LAST axis of both operands, the left
    operand being the first matrix scaled column by column by a one-row array: element (r, s) is
      acc (r, s) + Σ_k (a (r, k) · w (0, k)) · b (s, k).
  * On the extended reals addition is commutative and associative, so
      (((0 + Σ_{k<1024} f k) + Σ_{k<1024} f (1024 + k)) + Σ_{k<1024} f (2048 + k)) + Σ_{k<1024} f (3072 + k) = Σ_{k<4096} f k.
-/
import proofs.«112395_j72773925864042_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.PayIdx

open Idealize.ShloMosaic Idealize.ShloMosaic.ValueIdx
open Cert.KernelIdeal Cert.KernelIdeal.Gen

/-! ## Four blocks of 1024 terms are the sum of 4096 terms -/

/-- The blocked sum with the blocks named: if g kb k is the term of f at position kb · 1024 + k, the four block
    sums added in order onto zero are the sum of f. -/
theorem blocked_sum_of (f : Fin 4096 → EReal) (g : Fin 4 → Fin 1024 → EReal)
    (hg : ∀ (kb : Fin 4) (k : Fin 1024), g kb k = f ⟨kb.val * 1024 + k.val, by have := kb.isLt; have := k.isLt; omega⟩) :
    ((((0 + ∑ k : Fin 1024, g 0 k) + ∑ k : Fin 1024, g 1 k) + ∑ k : Fin 1024, g 2 k) + ∑ k : Fin 1024, g 3 k)
      = ∑ k : Fin 4096, f k := by
  have h1 := Fin.sum_univ_add (a := 3072) (b := 1024) f
  have h2 := Fin.sum_univ_add (a := 2048) (b := 1024) (fun i : Fin 3072 => f (Fin.castAdd 1024 i))
  have h3 := Fin.sum_univ_add (a := 1024) (b := 1024) (fun i : Fin 2048 => f (Fin.castAdd 1024 (Fin.castAdd 1024 i)))
  rw [h1, h2, h3, zero_add]
  refine congrArg₂ (· + ·) (congrArg₂ (· + ·) (congrArg₂ (· + ·) ?_ ?_) ?_) ?_
  · exact Finset.sum_congr rfl fun k _ => (hg 0 k).trans (congrArg f (Fin.ext (by simp <;> omega)))
  · exact Finset.sum_congr rfl fun k _ => (hg 1 k).trans (congrArg f (Fin.ext (by simp <;> omega)))
  · exact Finset.sum_congr rfl fun k _ => (hg 2 k).trans (congrArg f (Fin.ext (by simp <;> omega)))
  · exact Finset.sum_congr rfl fun k _ => (hg 3 k).trans (congrArg f (Fin.ext (by simp <;> omega)))

/-- The blocked sum: block kb holds the terms at positions kb · 1024 + k, k < 1024. -/
theorem blocked_sum (f : Fin 4096 → EReal) :
    ((((0 + ∑ k : Fin 1024, f ⟨0 * 1024 + k.val, by have := k.isLt; omega⟩)
        + ∑ k : Fin 1024, f ⟨1 * 1024 + k.val, by have := k.isLt; omega⟩)
        + ∑ k : Fin 1024, f ⟨2 * 1024 + k.val, by have := k.isLt; omega⟩)
        + ∑ k : Fin 1024, f ⟨3 * 1024 + k.val, by have := k.isLt; omega⟩)
      = ∑ k : Fin 4096, f k :=
  blocked_sum_of f (fun kb k => f ⟨kb.val * 1024 + k.val, by have := kb.isLt; have := k.isLt; omega⟩) (fun _ _ => rfl)

variable [Cert.KernelIdeal.Facts]

/-! ## The zeroing store: every element is 0 -/

/-- The value stored when the accumulator is cleared is the zero word broadcast: the extended real 0 at every element. -/
theorem pay1_apply (r s : Fin 1024) : Gen.k0_pay1 (F := Ideal) (ix2 r s) = 0 := by
  unfold Gen.k0_pay1
  show shapeCast S1024x1024 (broadcast S1024x1024 (Scalar.ofBits (F := Ideal) .f32 0x00000000#32)) _ (ix2 r s) = 0
  rw [shapeCast_self]
  exact Ideal.ofBits_zero_f32

/-! ## The accumulating store: the old element plus one block's contraction -/

/-- The matrix product's dimension numbers: both operands contracted on their last axis (a product with the second
    operand transposed). -/
abbrev dotLast : DotDims S1024x1024 S1024x1024 S1024x1024 := dot_S1024x1024_S1024x1024_S1024x1024_1_1_0_0_n_n

/-- The left operand's row is the output's row … -/
theorem lhs_row (i : S1024x1024.Idx) (q : dotLast.contr.Idx) : (dotLast.lhsIdx i q 0).val = (i 0).val := by
  unfold DotDims.lhsIdx
  rw [dif_neg (show ¬(0 : Fin S1024x1024.rank) ∈ dotLast.lhsBatch by decide),
    dif_pos (show (0 : Fin S1024x1024.rank) ∈ dotLast.lhsNonContracting by decide)]
  rfl
/-- … its column the contraction position … -/
theorem lhs_col (i : S1024x1024.Idx) (q : dotLast.contr.Idx) : (dotLast.lhsIdx i q 1).val = (q ⟨0, by decide⟩).val :=
  dotLast.lhsIdx_val_of_single rfl i q
/-- … the right operand's row is the output's column … -/
theorem rhs_row (i : S1024x1024.Idx) (q : dotLast.contr.Idx) : (dotLast.rhsIdx i q 0).val = (i 1).val := by
  unfold DotDims.rhsIdx
  rw [dif_neg (show ¬(0 : Fin S1024x1024.rank) ∈ dotLast.rhsBatch by decide),
    dif_pos (show (0 : Fin S1024x1024.rank) ∈ dotLast.rhsNonContracting by decide)]
  rfl
/-- … and its column the contraction position. -/
theorem rhs_col (i : S1024x1024.Idx) (q : dotLast.contr.Idx) : (dotLast.rhsIdx i q 1).val = (q ⟨0, by decide⟩).val :=
  dotLast.rhsIdx_val_of_single rfl i q

/-- The product into a zero accumulator, read at (r, s): the sum over the shared last axis. -/
theorem matmul_last_apply (x y : FVec Ideal S1024x1024 .f32) (r s : Fin 1024) :
    matmul dotLast none x y (constant (F := Ideal) S1024x1024 .f32 0x00000000#32) (ix2 r s)
      = ∑ k : Fin 1024, x (ix2 r k) * y (ix2 s k) := by
  refine (Ideal.matmul_constant_zero_apply dotLast none x y (ix2 r s)).trans ?_
  rw [← Equiv.sum_comp (contrEquiv1 dotLast 1024 rfl rfl).symm]
  refine Finset.sum_congr rfl fun k _ => ?_
  have hk := contrEquiv1_symm_val dotLast 1024 rfl rfl k
  have el : dotLast.lhsIdx (ix2 r s) ((contrEquiv1 dotLast 1024 rfl rfl).symm k) = ix2 r k := funext fun a => Fin.ext (by
    match a with
    | ⟨0, _⟩ => exact lhs_row _ _
    | ⟨1, _⟩ => exact (lhs_col _ _).trans hk)
  have er : dotLast.rhsIdx (ix2 r s) ((contrEquiv1 dotLast 1024 rfl rfl).symm k) = ix2 s k := funext fun a => Fin.ext (by
    match a with
    | ⟨0, _⟩ => exact rhs_row _ _
    | ⟨1, _⟩ => exact (rhs_col _ _).trans hk)
  rw [el, er]

/-- The value stored at every grid point, read at (r, s): the accumulator's old element plus the sum over the block's
    1024 columns of (first matrix · the one-row weights) · second matrix, the second matrix read at ROW s. -/
theorem pay2_apply (v3 : Vec Ideal S1024x1024 .f32) (v4 : Vec Ideal S1x1024 .f32) (v8 v9 : Vec Ideal S1024x1024 .f32)
    (r s : Fin 1024) :
    Gen.k0_pay2 v3 v4 v8 v9 (ix2 r s)
      = v8 (ix2 r s) + ∑ k : Fin 1024, (v3 (ix2 r k) * v4 (ix2 (0 : Fin 1) k)) * v9 (ix2 s k) := by
  unfold Gen.k0_pay2
  show shapeCast S1024x1024
      (addf v8 (matmul dotLast none
        (mulf v3 (broadcastTo S1024x1024 (shapeCast S1x1024 v4 shapeCasts_S1x1024_S1x1024) broadcasts_S1x1024_S1024x1024))
        v9 (constant (F := Ideal) S1024x1024 .f32 0x00000000#32)))
      shapeCasts_S1024x1024_S1024x1024 (ix2 r s) = _
  rw [shapeCast_self, shapeCast_self, addf_apply]
  refine congrArg (v8 (ix2 r s) + ·) ?_
  refine (matmul_last_apply _ v9 r s).trans ?_
  refine Finset.sum_congr rfl fun k _ => ?_
  rw [mulf_apply, broadcastTo_1b_ab_apply]

end Cert.KernelIdeal.PayIdx

end
-- ==== Proof.AdjValue.lean ====
/-
  The weighted-adjacency kernel's value.  What each case of the body leaves in the accumulator and in the output block is
  the accumulating payload of the blocks it read; unrolled over the four contraction blocks of a block pair, the output
  block at a last point is (((0 + S₀) + S₁) + S₂) + S₃ with S_k the k-th block's contraction sum; read off the arrays and
  re-associated on the extended reals, the output array at (i, j) is Σ_k (A (i, k) · w (0, k)) · A (j, k) over all 4096 k.
-/
import proofs.«112395_j72773925864042_1_alg».proof.Proof.AdjBody
import proofs.«112395_j72773925864042_1_alg».proof.Proof.PayIdx
import Idealize.ShloMosaic.Lib.Pipeline.Value
import Idealize.ShloMosaic.Lib.ValueIdx
import Idealize.ShloMosaic.Lib.Tactic

set_option maxRecDepth 16384

noncomputable section

open scoped BigOperators

namespace Cert.KernelIdeal.AdjValue

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen Cert.KernelIdeal.Adj

variable {F : FTy → Type} [FloatOps F]

theorem hz : (![0, 0] : Fin 2 → Nat) = fun _ => 0 := funext fun a => by fin_cases a <;> rfl

/-! ## What each case leaves is the accumulating payload of the blocks it read -/

theorem accFirst_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : isFirst i) (hc1 : ¬isLast i)
    (x0 : Vec F S1024x1024 .f32) (x1 : Vec F S1024x1024 .f32) (x2 : Vec F S1x1024 .f32) :
    accFirst c i arg3 harg3 arg4 harg4 arg5 harg5 arg6 harg6 arg7 harg7 hc0 hc1 x0 x1 x2 = Gen.k0_pay2 x0 x2 (Gen.k0_pay1 (F := F)) x1 := by
  unfold accFirst
  rw [View.read_writes_eq_canon _ _ _ (coverFirst c i arg3 harg3 arg4 harg4 arg5 harg5 arg6 harg6 arg7 harg7 hc0 hc1 x0 x1 x2)]
  unfold runFirst
  dsimp only
  sl_unfold_words
  rw [View.canon_cons_unit_zero (S := S1024x1024) hz, View.readCov_unit_zero (S := S1024x1024) _ hz]
  simp only [View.readAt_eq_ld, harg3.read_unread, harg4.read_unread, harg5.read_unread, harg7.read_unread, View.ld_unit_zero (S := S1024x1024) hz, View.ld_unit_zero (S := S1x1024) hz]

theorem accMid_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : ¬isLast i)
    (x0 : Vec F S1024x1024 .f32) (x1 : Vec F S1024x1024 .f32) (x2 : Vec F S1x1024 .f32) (xa : Vec F S1024x1024 .f32) :
    accMid c i arg3 harg3 arg4 harg4 arg5 harg5 arg6 harg6 arg7 harg7 hc0 hc1 x0 x1 x2 xa = Gen.k0_pay2 x0 x2 xa x1 := by
  unfold accMid
  rw [View.read_writes_eq_canon _ _ _ (coverMid c i arg3 harg3 arg4 harg4 arg5 harg5 arg6 harg6 arg7 harg7 hc0 hc1 x0 x1 x2 xa)]
  unfold runMid
  dsimp only
  rw [View.canon_unit_zero hz]
  simp only [View.readAt_eq_ld, harg3.read_unread, harg4.read_unread, harg5.read_unread, harg7.read_unread, View.ld_unit_zero (S := S1024x1024) hz, View.ld_unit_zero (S := S1x1024) hz]

theorem accLast_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : isLast i)
    (x0 : Vec F S1024x1024 .f32) (x1 : Vec F S1024x1024 .f32) (x2 : Vec F S1x1024 .f32) (xa : Vec F S1024x1024 .f32) :
    accLast c i arg3 harg3 arg4 harg4 arg5 harg5 arg6 harg6 arg7 harg7 hc0 hc1 x0 x1 x2 xa = Gen.k0_pay2 x0 x2 xa x1 := by
  unfold accLast
  rw [View.read_writes_eq_canon _ _ _ (coverLast c i arg3 harg3 arg4 harg4 arg5 harg5 arg6 harg6 arg7 harg7 hc0 hc1 x0 x1 x2 xa)]
  unfold runLast
  dsimp only
  sl_unfold_words
  rw [View.canon_unit_zero hz]
  simp only [View.readAt_eq_ld, harg3.read_unread, harg4.read_unread, harg5.read_unread, harg7.read_unread, View.ld_unit_zero (S := S1024x1024) hz, View.ld_unit_zero (S := S1x1024) hz]

theorem outLast_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirst i) (hc1 : isLast i)
    (x0 : Vec F S1024x1024 .f32) (x1 : Vec F S1024x1024 .f32) (x2 : Vec F S1x1024 .f32) (xa : Vec F S1024x1024 .f32) :
    outLast c i arg3 harg3 arg4 harg4 arg5 harg5 arg6 harg6 arg7 harg7 hc0 hc1 x0 x1 x2 xa = Gen.k0_pay2 x0 x2 xa x1 := by
  unfold outLast
  rw [View.read_writes_eq_canon _ _ _ (coverOut c i arg3 harg3 arg4 harg4 arg5 harg5 arg6 harg6 arg7 harg7 hc0 hc1 x0 x1 x2 xa)]
  unfold runLast
  dsimp only
  sl_unfold_words
  rw [View.canon_unit_zero hz, View.readCov_unit_zero (S := S1024x1024) _ hz]
  simp only [View.readAt_eq_ld, harg3.read_unread, harg4.read_unread, harg5.read_unread, harg7.read_unread, View.ld_unit_zero (S := S1024x1024) hz, View.ld_unit_zero (S := S1x1024) hz]

/-! ## The four points of a block pair, unrolled -/

section Unroll

variable (V : (c : Dev nD) → (b : Ref sig .tc) → Buf (Elt F) ((c : Thread nD τ).loc b))

/-- One point's update of the accumulator: the accumulating payload of the point's three blocks (row block, weights'
    block, column block) over what the accumulator held. -/
def step (c : Dev nD) (s : Fin cfg0.N) (acc : Vec F S1024x1024 .f32) : Vec F S1024x1024 .f32 :=
  Gen.k0_pay2 (blk V c 0 s) (blk V c 2 s) acc (blk V c 1 s)

/-- The accumulator's position may be respelt. -/
theorem accAt_congr (c : Dev nD) {n n' : ℕ} (h : n = n') (hn : n < cfg0.N) :
    accAt V c n hn = accAt V c n' (h ▸ hn) := by subst h; rfl

/-- After a first point (k = 0) the accumulator is one step over the zero block. -/
theorem accAt_step_first (c : Dev nD) (t : Fin cfg0.N) (h0 : t.val % 4 = 0) :
    accAt V c t.val t.isLt = step V c t (Gen.k0_pay1 (F := F)) :=
  (accAt_first V c t h0 (by omega)).trans
    (accFirst_eq c (grid0.coords t) (ms0 t) (hs0 t) (ms1 t) (hs1 t) (ms2 t) (hs2 t) (ms3 t) (hs3 t) accM (Memref.isWhole_whole _) ((isFirst_iff t).mpr h0) (fun h => (by omega : ¬t.val % 4 = 3) ((isLast_iff t).mp h)) (blk V c 0 t) (blk V c 1 t) (blk V c 2 t))

/-- After a middle point (k = 1, 2) it is one step over what the point before left. -/
theorem accAt_step_mid (c : Dev nD) (t : Fin cfg0.N) (h0 : ¬t.val % 4 = 0) (h1 : ¬t.val % 4 = 3) :
    accAt V c t.val t.isLt = step V c t (accAt V c (t.val - 1) (Nat.lt_of_le_of_lt (Nat.sub_le _ _) t.isLt)) :=
  (accAt_mid V c t h0 h1).trans
    (accMid_eq c (grid0.coords t) (ms0 t) (hs0 t) (ms1 t) (hs1 t) (ms2 t) (hs2 t) (ms3 t) (hs3 t) accM (Memref.isWhole_whole _) (fun h => h0 ((isFirst_iff t).mp h)) (fun h => h1 ((isLast_iff t).mp h)) (blk V c 0 t) (blk V c 1 t) (blk V c 2 t) (accAt V c (t.val - 1) (Nat.lt_of_le_of_lt (Nat.sub_le _ _) t.isLt)))

/-- At a last point (k = 3) the output block is one step over what the point before left. -/
theorem outAt_step (c : Dev nD) (t : Fin cfg0.N) (h1 : t.val % 4 = 3) :
    outAt V c t = step V c t (accAt V c (t.val - 1) (Nat.lt_of_le_of_lt (Nat.sub_le _ _) t.isLt)) :=
  (outAt_last V c t (by omega) h1).trans
    (outLast_eq c (grid0.coords t) (ms0 t) (hs0 t) (ms1 t) (hs1 t) (ms2 t) (hs2 t) (ms3 t) (hs3 t) accM (Memref.isWhole_whole _) (fun h => (by omega : ¬t.val % 4 = 0) ((isFirst_iff t).mp h)) ((isLast_iff t).mpr h1) (blk V c 0 t) (blk V c 1 t) (blk V c 2 t) (accAt V c (t.val - 1) (Nat.lt_of_le_of_lt (Nat.sub_le _ _) t.isLt)))

/-- THE OUTPUT BLOCK OF A BLOCK PAIR: at the pair's last point b + 3 (b a multiple of 4) it is four steps, over the
    points b, b + 1, b + 2, b + 3 in this order, from the zero block. -/
theorem outAt_unrolled (c : Dev nD) (b : ℕ) (hb : b + 3 < cfg0.N) (h0 : b % 4 = 0) :
    outAt V c ⟨b + 3, hb⟩
      = step V c ⟨b + 3, hb⟩ (step V c ⟨b + 2, by omega⟩ (step V c ⟨b + 1, by omega⟩ (step V c ⟨b, by omega⟩ (Gen.k0_pay1 (F := F))))) := by
  have e0 : accAt V c b (by omega) = step V c ⟨b, by omega⟩ (Gen.k0_pay1 (F := F)) :=
    accAt_step_first V c ⟨b, by omega⟩ h0
  have e1 : accAt V c (b + 1) (by omega) = step V c ⟨b + 1, by omega⟩ (accAt V c b (by omega)) :=
    accAt_step_mid V c ⟨b + 1, by omega⟩ (by show ¬(b + 1) % 4 = 0; omega) (by show ¬(b + 1) % 4 = 3; omega)
  have e2 : accAt V c (b + 2) (by omega) = step V c ⟨b + 2, by omega⟩ (accAt V c (b + 1) (by omega)) :=
    accAt_step_mid V c ⟨b + 2, by omega⟩ (by show ¬(b + 2) % 4 = 0; omega) (by show ¬(b + 2) % 4 = 3; omega)
  have e3 : outAt V c ⟨b + 3, hb⟩ = step V c ⟨b + 3, hb⟩ (accAt V c (b + 2) (by omega)) :=
    outAt_step V c ⟨b + 3, hb⟩ (by show (b + 3) % 4 = 3; omega)
  rw [e3, e2, e1, e0]

end Unroll

/-! ## The blocks read off the arrays

The grid is walked with the contraction axis innermost, then the column-block axis, then the row-block axis: the point t
has row block t / 8, column block (t / 4) mod 2 and contraction block t mod 4.  Each window's block index at a point is
decided once over the sixteen points. -/

theorem idx_facts : ∀ t : Fin cfg0.N,
    win0_0.index t (0 : Fin 2) = t.val / 8 ∧ win0_0.index t (1 : Fin 2) = t.val % 4
    ∧ win0_1.index t (0 : Fin 2) = t.val / 4 % 2 ∧ win0_1.index t (1 : Fin 2) = t.val % 4
    ∧ win0_2.index t (0 : Fin 2) = 0 ∧ win0_2.index t (1 : Fin 2) = t.val % 4
    ∧ win0_3.index t (0 : Fin 2) = t.val / 8 ∧ win0_3.index t (1 : Fin 2) = t.val / 4 % 2 :=
  (by decide +kernel : ∀ t : Fin grid0.N, _)

section Blocks

variable (V : (c : Dev nD) → (b : Ref sig .tc) → Buf (Elt F) ((c : Thread nD τ).loc b))

/-- The row window's block at point t, element (r, k): the matrix at row (t / 8) · 1024 + r, column (t mod 4) · 1024 + k. -/
theorem blk0_apply (c : Dev nD) (t : Fin cfg0.N) (r k : Fin 1024) :
    (blk V c 0 t : Vec F S1024x1024 .f32) (ix2 r k)
      = V c main_arg3 (ix2 (n0 := 2048) (n1 := 4096)
          ⟨t.val / 8 * 1024 + r.val, by have := t.isLt; have hN : cfg0.N = 16 := N_0; have := r.isLt; omega⟩
          ⟨t.val % 4 * 1024 + k.val, by have := k.isLt; omega⟩) := by
  obtain ⟨e0, e1, -⟩ := idx_facts t
  unfold blk
  rw [View.read_apply]
  show V c main_arg3 (((cfg0.win 0).blk t).view.emb (ix2 r k)) = V c main_arg3 _
  refine congrArg (V c main_arg3) (funext fun a => Fin.ext ?_)
  match a with
  | ⟨0, _⟩ => show win0_0.index t (0 : Fin 2) * 1024 + 1 * r.val = t.val / 8 * 1024 + r.val; rw [e0]; omega
  | ⟨1, _⟩ => show win0_0.index t (1 : Fin 2) * 1024 + 1 * k.val = t.val % 4 * 1024 + k.val; rw [e1]; omega

/-- The column window's block at point t, element (s, k): the SAME matrix at row ((t / 4) mod 2) · 1024 + s, column
    (t mod 4) · 1024 + k. -/
theorem blk1_apply (c : Dev nD) (t : Fin cfg0.N) (s k : Fin 1024) :
    (blk V c 1 t : Vec F S1024x1024 .f32) (ix2 s k)
      = V c main_arg3 (ix2 (n0 := 2048) (n1 := 4096)
          ⟨t.val / 4 % 2 * 1024 + s.val, by have := s.isLt; omega⟩
          ⟨t.val % 4 * 1024 + k.val, by have := k.isLt; omega⟩) := by
  obtain ⟨-, -, e0, e1, -⟩ := idx_facts t
  unfold blk
  rw [View.read_apply]
  show V c main_arg3 (((cfg0.win 1).blk t).view.emb (ix2 s k)) = V c main_arg3 _
  refine congrArg (V c main_arg3) (funext fun a => Fin.ext ?_)
  match a with
  | ⟨0, _⟩ => show win0_1.index t (0 : Fin 2) * 1024 + 1 * s.val = t.val / 4 % 2 * 1024 + s.val; rw [e0]; omega
  | ⟨1, _⟩ => show win0_1.index t (1 : Fin 2) * 1024 + 1 * k.val = t.val % 4 * 1024 + k.val; rw [e1]; omega

/-- The weights' block at point t, element (0, k): the one-row array at column (t mod 4) · 1024 + k. -/
theorem blk2_apply (c : Dev nD) (t : Fin cfg0.N) (k : Fin 1024) :
    (blk V c 2 t : Vec F S1x1024 .f32) (ix2 (0 : Fin 1) k)
      = V c main_v26 (ix2 (n0 := 1) (n1 := 4096) (0 : Fin 1)
          ⟨t.val % 4 * 1024 + k.val, by have := k.isLt; omega⟩) := by
  obtain ⟨-, -, -, -, e0, e1, -⟩ := idx_facts t
  unfold blk
  rw [View.read_apply]
  show V c main_v26 (((cfg0.win 2).blk t).view.emb (ix2 (0 : Fin 1) k)) = V c main_v26 _
  refine congrArg (V c main_v26) (funext fun a => Fin.ext ?_)
  match a with
  | ⟨0, _⟩ => show win0_2.index t (0 : Fin 2) * 1 + 1 * 0 = 0; rw [e0]
  | ⟨1, _⟩ => show win0_2.index t (1 : Fin 2) * 1024 + 1 * k.val = t.val % 4 * 1024 + k.val; rw [e1]; omega

end Blocks

/-! ## At the ideal values: the output block of a block pair at an element -/

/-- One term of the weighted adjacency sum: (A (i, k) · w (0, k)) · A (j, k). -/
def adjTerm (A : S2048x4096.Idx → EReal) (w : S1x4096.Idx → EReal) (i j : Fin 2048) (k : Fin 4096) : EReal :=
  (A (ix2 i k) * w (ix2 (0 : Fin 1) k)) * A (ix2 j k)

/-- A term depends on its three indices only through their values. -/
theorem adjTerm_congr (A : S2048x4096.Idx → EReal) (w : S1x4096.Idx → EReal) {i i' j j' : Fin 2048} {k k' : Fin 4096}
    (hi : i.val = i'.val) (hj : j.val = j'.val) (hk : k.val = k'.val) : adjTerm A w i j k = adjTerm A w i' j' k' := by
  obtain rfl := Fin.ext hi; obtain rfl := Fin.ext hj; obtain rfl := Fin.ext hk; rfl

/-- The weighted adjacency product: element (i, j) is the sum of the terms over all 4096 columns. -/
def adjG (A : S2048x4096.Idx → EReal) (w : S1x4096.Idx → EReal) : S2048x2048.Idx → EReal :=
  fun idx => ∑ k : Fin 4096, adjTerm A w (idx 0) (idx 1) k

theorem adjG_apply (A : S2048x4096.Idx → EReal) (w : S1x4096.Idx → EReal) (i j : Fin 2048) :
    adjG A w (ix2 i j) = ∑ k : Fin 4096, (A (ix2 i k) * w (ix2 (0 : Fin 1) k)) * A (ix2 j k) := rfl

/-- Four named blocks of 1024 terms, added in order onto zero, are the whole sum. -/
theorem blocked_sum4 (f : Fin 4096 → EReal) (g0 g1 g2 g3 : Fin 1024 → EReal)
    (h0 : ∀ k : Fin 1024, g0 k = f ⟨0 * 1024 + k.val, by have := k.isLt; omega⟩)
    (h1 : ∀ k : Fin 1024, g1 k = f ⟨1 * 1024 + k.val, by have := k.isLt; omega⟩)
    (h2 : ∀ k : Fin 1024, g2 k = f ⟨2 * 1024 + k.val, by have := k.isLt; omega⟩)
    (h3 : ∀ k : Fin 1024, g3 k = f ⟨3 * 1024 + k.val, by have := k.isLt; omega⟩) :
    ((((0 + ∑ k : Fin 1024, g0 k) + ∑ k : Fin 1024, g1 k) + ∑ k : Fin 1024, g2 k) + ∑ k : Fin 1024, g3 k)
      = ∑ k : Fin 4096, f k :=
  PayIdx.blocked_sum_of f (fun kb => match kb with | ⟨0, _⟩ => g0 | ⟨1, _⟩ => g1 | ⟨2, _⟩ => g2 | ⟨3, _⟩ => g3)
    (fun kb k => match kb with | ⟨0, _⟩ => h0 k | ⟨1, _⟩ => h1 k | ⟨2, _⟩ => h2 k | ⟨3, _⟩ => h3 k)

/-- The contraction sum of three blocks at (r, s): Σ_k (x0 (r, k) · x2 (0, k)) · x1 (s, k). -/
def blockSumOf (x0 : Vec Ideal S1024x1024 .f32) (x2 : Vec Ideal S1x1024 .f32) (x1 : Vec Ideal S1024x1024 .f32)
    (r s : Fin 1024) : EReal :=
  ∑ k : Fin 1024, (x0 (ix2 r k) * x2 (ix2 (0 : Fin 1) k)) * x1 (ix2 s k)

section AtIdeal

variable (V : (c : Dev nD) → (b : Ref sig .tc) → Buf (Elt Ideal) ((c : Thread nD τ).loc b))

/-- One point's contraction sum at (r, s): Σ_k (row block (r, k) · weights' block (0, k)) · column block (s, k). -/
def blockSum (c : Dev nD) (p : Fin cfg0.N) (r s : Fin 1024) : EReal :=
  blockSumOf (blk V c 0 p) (blk V c 2 p) (blk V c 1 p) r s

/-- One step at an element adds the point's contraction sum. -/
theorem step_apply (c : Dev nD) (p : Fin cfg0.N) (acc : Vec Ideal S1024x1024 .f32) (r s : Fin 1024) :
    step V c p acc (ix2 r s) = acc (ix2 r s) + blockSum V c p r s :=
  PayIdx.pay2_apply (blk V c 0 p) (blk V c 2 p) acc (blk V c 1 p) r s

/-- THE OUTPUT BLOCK AT AN ELEMENT: the four contraction sums of the pair's points, added in order onto zero. -/
theorem outAt_apply (c : Dev nD) (b : ℕ) (hb : b + 3 < cfg0.N) (h0 : b % 4 = 0) (r s : Fin 1024) :
    outAt V c ⟨b + 3, hb⟩ (ix2 r s)
      = (((0 + blockSum V c ⟨b, by omega⟩ r s) + blockSum V c ⟨b + 1, by omega⟩ r s) + blockSum V c ⟨b + 2, by omega⟩ r s)
          + blockSum V c ⟨b + 3, hb⟩ r s := by
  rw [outAt_unrolled V c b hb h0, step_apply, step_apply, step_apply, step_apply, PayIdx.pay1_apply]

/-- A point's contraction sum, read off the arrays: the terms of row (p / 8) · 1024 + r and row ((p / 4) mod 2) · 1024 + s
    over the columns (p mod 4) · 1024 + k. -/
theorem blockSum_eq (c : Dev nD) (p : Fin cfg0.N) (r s : Fin 1024) :
    blockSum V c p r s = ∑ k : Fin 1024, adjTerm (V c main_arg3) (V c main_v26)
      ⟨p.val / 8 * 1024 + r.val, by have := p.isLt; have hN : cfg0.N = 16 := N_0; have := r.isLt; omega⟩
      ⟨p.val / 4 % 2 * 1024 + s.val, by have := s.isLt; omega⟩
      ⟨p.val % 4 * 1024 + k.val, by have := k.isLt; omega⟩ := by
  unfold blockSum blockSumOf
  refine Finset.sum_congr rfl fun k _ => ?_
  rw [blk0_apply, blk1_apply, blk2_apply]
  rfl

end AtIdeal

/-! ## The output array

Only the last point of each block pair writes the output block back; the four pairs' blocks tile the 2048 × 2048 array. -/

/-- The output window's block at point t, element (r, s), lies in the array at row (t / 8) · 1024 + r and column
    ((t / 4) mod 2) · 1024 + s. -/
theorem emb3_apply (t : Fin cfg0.N) (r s : Fin 1024) :
    ((cfg0.win 3).blk t).view.emb (ix2 r s)
      = ix2 (n0 := 2048) (n1 := 2048)
          ⟨t.val / 8 * 1024 + r.val, by have := t.isLt; have hN : cfg0.N = 16 := N_0; have := r.isLt; omega⟩
          ⟨t.val / 4 % 2 * 1024 + s.val, by have := s.isLt; omega⟩ := by
  obtain ⟨-, -, -, -, -, -, e0, e1⟩ := idx_facts t
  refine funext fun a => Fin.ext ?_
  match a with
  | ⟨0, _⟩ => show win0_3.index t (0 : Fin 2) * 1024 + 1 * r.val = t.val / 8 * 1024 + r.val; rw [e0]; omega
  | ⟨1, _⟩ => show win0_3.index t (1 : Fin 2) * 1024 + 1 * s.val = t.val / 4 % 2 * 1024 + s.val; rw [e1]; omega

/-- An index of the output array is in point t's block iff each coordinate is in the block's range on its axis. -/
theorem mem_blk3 (t : Fin cfg0.N) (i : S2048x2048.Idx) :
    i ∈ ((cfg0.win 3).blk t).view.set
      ↔ ∀ a : Fin 2, win0_3.index t a * S1024x1024.size a ≤ (i a).val ∧ (i a).val < win0_3.index t a * S1024x1024.size a + S1024x1024.size a := by
  show i ∈ ((View.whole main_v27).slice (win0_3.rect t)).set ↔ _
  rw [View.set_slice_whole, Rect.mem_set_unit]
  exact Iff.rfl

/-- Every index of the output array is in the block of a point that writes back: the last point of its block pair. -/
theorem covered (i : S2048x2048.Idx) :
    ∃ t : Fin cfg0.N, (cfg0.win 3).flush t = true ∧ i ∈ ((cfg0.win 3).blk t).view.set := by
  have hN : cfg0.N = 16 := N_0
  have hi0 : (i 0).val < 2048 := (i 0).isLt
  have hi1 : (i 1).val < 2048 := (i 1).isLt
  have ht : (i 0).val / 1024 * 8 + (i 1).val / 1024 * 4 + 3 < cfg0.N := by omega
  obtain ⟨-, -, -, -, -, -, e0, e1⟩ := idx_facts ⟨(i 0).val / 1024 * 8 + (i 1).val / 1024 * 4 + 3, ht⟩
  refine ⟨⟨(i 0).val / 1024 * 8 + (i 1).val / 1024 * 4 + 3, ht⟩, (flush0_3 _).mpr (by dsimp only; omega), ?_⟩
  rw [mem_blk3]
  intro a
  match a with
  | ⟨0, _⟩ =>
    show win0_3.index ⟨(i 0).val / 1024 * 8 + (i 1).val / 1024 * 4 + 3, ht⟩ (0 : Fin 2) * 1024 ≤ (i 0).val
      ∧ (i 0).val < win0_3.index ⟨(i 0).val / 1024 * 8 + (i 1).val / 1024 * 4 + 3, ht⟩ (0 : Fin 2) * 1024 + 1024
    rw [e0]; dsimp only; omega
  | ⟨1, _⟩ =>
    show win0_3.index ⟨(i 0).val / 1024 * 8 + (i 1).val / 1024 * 4 + 3, ht⟩ (1 : Fin 2) * 1024 ≤ (i 1).val
      ∧ (i 1).val < win0_3.index ⟨(i 0).val / 1024 * 8 + (i 1).val / 1024 * 4 + 3, ht⟩ (1 : Fin 2) * 1024 + 1024
    rw [e1]; dsimp only; omega

section Final

variable (V : (c : Dev nD) → (b : Ref sig .tc) → Buf (Elt Ideal) ((c : Thread nD τ).loc b))

/-- WHAT A LAST POINT WRITES BACK is its block of the weighted adjacency product of the arrays as the region finds them. -/
theorem flushed_eq (c : Dev nD) (t : Fin cfg0.N) (hf : (cfg0.win 3).flush t = true) :
    (dat V c).flushed 3 t = ((cfg0.win 3).blk t).view.read (Elt Ideal) (adjG (V c main_arg3) (V c main_v26)) := by
  have hN : cfg0.N = 16 := N_0
  have h3 : t.val % 4 = 3 := (flush0_3 t).mp hf
  have hlt := t.isLt
  obtain ⟨b, hb, h0, rfl⟩ : ∃ (b : ℕ) (hb : b + 3 < cfg0.N), b % 4 = 0 ∧ t = ⟨b + 3, hb⟩ :=
    ⟨t.val - 3, by omega, by omega, Fin.ext (by show t.val = t.val - 3 + 3; omega)⟩
  show (cfg0.win 3).cut (grid0.coords ⟨b + 3, hb⟩) ((dat V c).after 3 ⟨b + 3, hb⟩) = _
  rw [after3]
  funext y
  obtain ⟨r, s, rfl⟩ : ∃ (r s : Fin 1024), y = ix2 r s := ⟨y 0, y 1, eq_ix2 y⟩
  rw [View.read_apply, emb3_apply]
  show outAt V c ⟨b + 3, hb⟩ (ix2 r s) = _
  rw [outAt_apply V c b hb h0 r s, blockSum_eq, blockSum_eq, blockSum_eq, blockSum_eq]
  have hI : (b + 3) / 8 * 1024 + r.val < 2048 := by have := r.isLt; omega
  have hJ : (b + 3) / 4 % 2 * 1024 + s.val < 2048 := by have := s.isLt; omega
  refine (blocked_sum4
    (fun k => adjTerm (V c main_arg3) (V c main_v26) ⟨(b + 3) / 8 * 1024 + r.val, hI⟩ ⟨(b + 3) / 4 % 2 * 1024 + s.val, hJ⟩ k)
    _ _ _ _ ?_ ?_ ?_ ?_).trans ?_
  · exact fun k => adjTerm_congr _ _ (by dsimp only <;> omega) (by dsimp only <;> omega) (by dsimp only <;> omega)
  · exact fun k => adjTerm_congr _ _ (by dsimp only <;> omega) (by dsimp only <;> omega) (by dsimp only <;> omega)
  · exact fun k => adjTerm_congr _ _ (by dsimp only <;> omega) (by dsimp only <;> omega) (by dsimp only <;> omega)
  · exact fun k => adjTerm_congr _ _ (by dsimp only <;> omega) (by dsimp only <;> omega) (by dsimp only <;> omega)
  · rfl

/-- THE OUTPUT ARRAY after the region is the weighted adjacency product of the arrays as the region finds them. -/
theorem arrAt_eq (c : Dev nD) : (dat V c).arrAt 3 cfg0.N = adjG (V c main_arg3) (V c main_v26) :=
  (dat V c).arrAt_eq_of_cover 3 (adjG (V c main_arg3) (V c main_v26)) (flushed_eq V c) covered

/-- At (i, j): the weighted adjacency product's element there — by adjG_apply, Σ_k (A (i, k) · w (0, k)) · A (j, k) over
    all 4096 columns k, A the 2048 × 4096 matrix both the row and the column windows read, w the one-row weights. -/
theorem arrAt_out (c : Dev nD) (i j : Fin 2048) :
    ((dat V c).arrAt 3 cfg0.N : S2048x2048.Idx → EReal) (ix2 i j) = adjG (V c main_arg3) (V c main_v26) (ix2 i j) :=
  congrFun (arrAt_eq V c) (ix2 i j)

end Final

end Cert.KernelIdeal.AdjValue

end
-- ==== Proof.EdgeAgree.lean ====
/-
  The two sides' weighted adjacency products agree.  The kernel's output array, after its region, is
  (i, j) ↦ Σ_k (A (i, k) · w' (0, k)) · A (j, k) of the arrays the region finds: A is the argument matrix, which no
  host operation before the region writes, and w' is the weights as a one-row array, whose entry (0, k) is the
  weights' vector at k.  The reference's product of the same matrix and weights is the same sum, term by term.
-/
import proofs.«112395_j72773925864042_1_alg».proof.Proof.AdjSeg
import proofs.«112395_j72773925864042_1_alg».proof.Proof.AdjValue
import proofs.«112395_j72773925864042_1_alg».proof.Proof.HostSide
import proofs.«112395_j72773925864042_1_alg».proof.Proof.HostFrame
import proofs.«112395_j72773925864042_1_alg».proof.Proof.RefE
import proofs.«112395_j72773925864042_1_alg».proof.Proof.Gen.KernelIdeal
import proofs.«112395_j72773925864042_1_alg».proof.Proof.Gen.ReferenceIdeal

set_option maxRecDepth 16384

noncomputable section

open scoped BigOperators

namespace Cert.Cross

open Idealize.ShloMosaic Idealize.ShloMosaic.TcCoe Idealize.ShloMosaic.ValueIdx

/-- The kernel's output array is the reference's product of the argument matrix and the weights' vector. -/
theorem edge_agree (m : (ℓ : Loc Cert.KernelIdeal.nD Cert.KernelIdeal.τ Cert.KernelIdeal.sig) → Buf (Elt Ideal) ℓ)
    (c : Dev Cert.KernelIdeal.nD) :
    (Cert.KernelIdeal.Adj.outOf m c : Cert.KernelIdeal.S2048x2048.Idx → EReal)
      = Cert.RefE.eRef (m ((c.tc : Thread _ _).loc Cert.KernelIdeal.main_arg3))
          (Cert.KernelIdeal.HostSide.V1 m c Cert.KernelIdeal.main_v25) := by
  have hout : (Cert.KernelIdeal.Adj.outOf m c : Cert.KernelIdeal.S2048x2048.Idx → EReal)
      = Cert.KernelIdeal.AdjValue.adjG (Cert.KernelIdeal.Adj.Vin m c Cert.KernelIdeal.main_arg3)
          (Cert.KernelIdeal.Adj.Vin m c Cert.KernelIdeal.main_v26) :=
    Cert.KernelIdeal.AdjValue.arrAt_eq (Cert.KernelIdeal.Adj.Vin m) c
  rw [hout]
  funext idx
  obtain ⟨i, j, rfl⟩ : ∃ (i j : Fin 2048), idx = ix2 i j := ⟨idx 0, idx 1, eq_ix2 idx⟩
  rw [Cert.KernelIdeal.AdjValue.adjG_apply, Cert.RefE.eRef_apply]
  refine Finset.sum_congr rfl fun k _ => ?_
  have hA : Cert.KernelIdeal.Adj.Vin m c Cert.KernelIdeal.main_arg3 = m ((c.tc : Thread _ _).loc Cert.KernelIdeal.main_arg3) :=
    Cert.KernelIdeal.HostSide.V1_of m c Cert.KernelIdeal.main_arg3 (by decide)
  have hw : Cert.KernelIdeal.Adj.Vin m c Cert.KernelIdeal.main_v26 (ix2 (0 : Fin 1) k)
      = Cert.KernelIdeal.HostSide.V1 m c Cert.KernelIdeal.main_v25 (ix1 k) :=
    Cert.KernelIdeal.HostFrame.weights_row m c k
  rw [hA, hw]

end Cert.Cross

end
-- ==== Proof.CrossWeights.lean ====
import proofs.«112395_j72773925864042_1_alg».proof.Proof.RefRun
import proofs.«112395_j72773925864042_1_alg».proof.Proof.HostSide
import Idealize.ShloMosaic.PureOps.Ideal

/-!
# The two programs compute the same edge weights

The kernel program's host operations before its region and the reference's first operations are the same
thirty-two operations, over the same six arguments: the gathers of the node features at the two endpoint index
vectors, the concatenation with the edge features, the product with the weight column, the bias, and the logistic
function. From memories that agree on those arguments the two weight vectors are therefore the same function.
-/

set_option maxRecDepth 4096

noncomputable section

namespace Cert.Cross

open Idealize.ShloMosaic Idealize.ShloMosaic.TcCoe

/-! ## A three-operand operation read at its result -/

section Nary3
open Idealize.ShloMosaic.StableHlo

/-- A family of three, entry by entry. -/
def pick3 {α : Fin 3 → Type} (p0 : α 0) (p1 : α 1) (p2 : α 2) : (k : Fin 3) → α k :=
  Fin.cons p0 (Fin.cons (α := fun i : Fin 2 => α i.succ) p1 (Fin.cons (α := fun i : Fin 1 => α i.succ.succ) p2 (fun i => i.elim0)))

variable {τ : Topo} {sig : RefSig} {Val : EltTy → Type} {x a b y : Ref sig .tc}

/-- A function of the family of three operands' contents, applied to the three contents one by one. -/
def apply3 (f : ((k : Fin 3) → ((![x, a, b] : Fin 3 → Ref sig .tc) k).ty.Contents Val) → y.ty.Contents Val)
    (A : (Proc.devRef (τ := τ) .tc x).ty.Contents Val) (B : (Proc.devRef (τ := τ) .tc a).ty.Contents Val)
    (C : (Proc.devRef (τ := τ) .tc b).ty.Contents Val) : y.ty.Contents Val :=
  f (pick3 (α := fun k => ((![x, a, b] : Fin 3 → Ref sig .tc) k).ty.Contents Val) A B C)

/-- An operation over a literal family of three operands leaves at its result its function applied to the three
    operands' contents, each read at its own reference. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = apply3 (τ := τ) f (F (Proc.devRef .tc x)) (F (Proc.devRef .tc a)) (F (Proc.devRef .tc b)) := by
  rw [nary_result]; unfold apply3; congr 1; funext k; fin_cases k <;> rfl

end Nary3

/-- The contents of one buffer after a line of operations, as the operations' functions composed over the contents
    the line starts from: one pass over the line. -/
macro "after_line" : tactic =>
  `(tactic| (simp (disch := decide) only [StableHlo.after_cons, StableHlo.after_nil,
      StableHlo.nullary_result', StableHlo.unary_result', StableHlo.binary_result', StableHlo.ternary_result',
      StableHlo.reshape_result', nary3_result',
      StableHlo.nullary_result_ne', StableHlo.unary_result_ne', StableHlo.binary_result_ne', StableHlo.ternary_result_ne',
      StableHlo.reshape_result_ne', StableHlo.nary_result_ne']))

/-! ## The weights -/

/-- From memories that agree on the six arguments the weights read, the kernel program's weight vector (its buffer
    after the host operations before the region) is the reference's (its buffer after its first thirty-two
    operations): the two lines are the same operations over the same arguments. -/
theorem weights_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.KernelIdeal.HostSide.V1 m c Cert.KernelIdeal.main_v25
      = StableHlo.after (Cert.ReferenceIdeal.RefRun.opsW (F := Ideal)) (StableHlo.launchContents m' c) (Proc.devRef .tc Cert.ReferenceIdeal.main_v25) := by
  show StableHlo.after Cert.KernelIdeal.Gen.hostOps0 (Cert.KernelIdeal.HostSide.V0 m c) (Proc.devRef .tc Cert.KernelIdeal.main_v25) = _
  after_line
  have e0 : StableHlo.launchContents m' c (Proc.devRef .tc Cert.ReferenceIdeal.main_arg0)
      = Cert.KernelIdeal.HostSide.V0 m c (Proc.devRef .tc Cert.KernelIdeal.main_arg0) := h0
  have e1 : StableHlo.launchContents m' c (Proc.devRef .tc Cert.ReferenceIdeal.main_arg1)
      = Cert.KernelIdeal.HostSide.V0 m c (Proc.devRef .tc Cert.KernelIdeal.main_arg1) := h1
  have e4 : StableHlo.launchContents m' c (Proc.devRef .tc Cert.ReferenceIdeal.main_arg4)
      = Cert.KernelIdeal.HostSide.V0 m c (Proc.devRef .tc Cert.KernelIdeal.main_arg4) := h4
  have e5 : StableHlo.launchContents m' c (Proc.devRef .tc Cert.ReferenceIdeal.main_arg5)
      = Cert.KernelIdeal.HostSide.V0 m c (Proc.devRef .tc Cert.KernelIdeal.main_arg5) := h5
  have e10 : StableHlo.launchContents m' c (Proc.devRef .tc Cert.ReferenceIdeal.main_arg10)
      = Cert.KernelIdeal.HostSide.V0 m c (Proc.devRef .tc Cert.KernelIdeal.main_arg10) := h10
  have e11 : StableHlo.launchContents m' c (Proc.devRef .tc Cert.ReferenceIdeal.main_arg11)
      = Cert.KernelIdeal.HostSide.V0 m c (Proc.devRef .tc Cert.KernelIdeal.main_arg11) := h11
  rw [e0, e1, e4, e5, e10, e11]
  rfl

end Cert.Cross
-- ==== Proof.CrossTail.lean ====
/- The two programs' tails agree. After the kernel region the kernel program runs 130 host operations (seventeen
   stretches) and the reference, after its matrix products, runs 130 host operations; the two lists are the same
   operations, one for one, over correspondingly named buffers. So from valuations that agree on the arguments the tails
   read and on the matrix E (the region's result in one, the host product in the other), the four results agree:
   each side's result is the same expression in those seven buffers. -/
import proofs.«112395_j72773925864042_1_alg».proof.Proof.HostSide
import proofs.«112395_j72773925864042_1_alg».proof.Proof.RefRun

-- deciding that two of a program's references differ recurses past the default depth
set_option maxRecDepth 4096

noncomputable section

namespace Cert.Cross

open Idealize.ShloMosaic Idealize.ShloMosaic.TcCoe Idealize.ShloMosaic.StableHlo

variable {F : FTy → Type} [FloatOps F]

/-- The kernel program's seventeen stretches after the region, as one line. -/
abbrev tailK : List (HloOp Cert.KernelIdeal.τ Cert.KernelIdeal.sig (Elt F)) :=
  Cert.KernelIdeal.Gen.hostOps1 ++ Cert.KernelIdeal.Gen.hostOps1_1 ++ Cert.KernelIdeal.Gen.hostOps1_2 ++ Cert.KernelIdeal.Gen.hostOps1_3 ++ Cert.KernelIdeal.Gen.hostOps1_4 ++ Cert.KernelIdeal.Gen.hostOps1_5 ++ Cert.KernelIdeal.Gen.hostOps1_6 ++ Cert.KernelIdeal.Gen.hostOps1_7 ++ Cert.KernelIdeal.Gen.hostOps1_8 ++ Cert.KernelIdeal.Gen.hostOps1_9 ++ Cert.KernelIdeal.Gen.hostOps1_10 ++ Cert.KernelIdeal.Gen.hostOps1_11 ++ Cert.KernelIdeal.Gen.hostOps1_12 ++ Cert.KernelIdeal.Gen.hostOps1_13 ++ Cert.KernelIdeal.Gen.hostOps1_14 ++ Cert.KernelIdeal.Gen.hostOps1_15 ++ Cert.KernelIdeal.Gen.hostOps1_16

-- each side's result is computed through 130 operations in one simplification pass
set_option maxHeartbeats 40000000 in
/-- From valuations agreeing on `main_arg0`, `main_arg2`, `main_arg6` … `main_arg9` and on E, the two tails leave equal
    results: the updated positions, the updated momenta and the two accumulated losses. -/
theorem tail_agree_gen (VK : Valuation Cert.KernelIdeal.τ Cert.KernelIdeal.sig (Elt F)) (VR : Valuation Cert.ReferenceIdeal.τ Cert.ReferenceIdeal.sig (Elt F))
    (h0 : VK (Proc.devRef .tc Cert.KernelIdeal.main_arg0) = VR (Proc.devRef .tc Cert.ReferenceIdeal.main_arg0))
    (h2 : VK (Proc.devRef .tc Cert.KernelIdeal.main_arg2) = VR (Proc.devRef .tc Cert.ReferenceIdeal.main_arg2))
    (h6 : VK (Proc.devRef .tc Cert.KernelIdeal.main_arg6) = VR (Proc.devRef .tc Cert.ReferenceIdeal.main_arg6))
    (h7 : VK (Proc.devRef .tc Cert.KernelIdeal.main_arg7) = VR (Proc.devRef .tc Cert.ReferenceIdeal.main_arg7))
    (h8 : VK (Proc.devRef .tc Cert.KernelIdeal.main_arg8) = VR (Proc.devRef .tc Cert.ReferenceIdeal.main_arg8))
    (h9 : VK (Proc.devRef .tc Cert.KernelIdeal.main_arg9) = VR (Proc.devRef .tc Cert.ReferenceIdeal.main_arg9))
    (hE : VK (Proc.devRef .tc Cert.KernelIdeal.main_v27) = VR (Proc.devRef .tc Cert.ReferenceIdeal.main_v29)) :
    StableHlo.after (tailK (F := F)) VK (Proc.devRef .tc Cert.KernelIdeal.main_v111) = StableHlo.after (Cert.ReferenceIdeal.RefRun.opsT (F := F)) VR (Proc.devRef .tc Cert.ReferenceIdeal.main_v113)
    ∧ StableHlo.after (tailK (F := F)) VK (Proc.devRef .tc Cert.KernelIdeal.main_v114) = StableHlo.after (Cert.ReferenceIdeal.RefRun.opsT (F := F)) VR (Proc.devRef .tc Cert.ReferenceIdeal.main_v116)
    ∧ StableHlo.after (tailK (F := F)) VK (Proc.devRef .tc Cert.KernelIdeal.main_v117) = StableHlo.after (Cert.ReferenceIdeal.RefRun.opsT (F := F)) VR (Proc.devRef .tc Cert.ReferenceIdeal.main_v119)
    ∧ StableHlo.after (tailK (F := F)) VK (Proc.devRef .tc Cert.KernelIdeal.main_v121) = StableHlo.after (Cert.ReferenceIdeal.RefRun.opsT (F := F)) VR (Proc.devRef .tc Cert.ReferenceIdeal.main_v123) := by
  rw [Idealize.ShloMosaic.StableHlo.after_append, Idealize.ShloMosaic.StableHlo.after_append, Idealize.ShloMosaic.StableHlo.after_append, Idealize.ShloMosaic.StableHlo.after_append, Idealize.ShloMosaic.StableHlo.after_append, Idealize.ShloMosaic.StableHlo.after_append, Idealize.ShloMosaic.StableHlo.after_append, Idealize.ShloMosaic.StableHlo.after_append, Idealize.ShloMosaic.StableHlo.after_append, Idealize.ShloMosaic.StableHlo.after_append, Idealize.ShloMosaic.StableHlo.after_append, Idealize.ShloMosaic.StableHlo.after_append, Idealize.ShloMosaic.StableHlo.after_append, Idealize.ShloMosaic.StableHlo.after_append, Idealize.ShloMosaic.StableHlo.after_append, Idealize.ShloMosaic.StableHlo.after_append]
  after_results_simp
  rw [h0, h2, h6, h7, h8, h9, hE]
  exact ⟨rfl, rfl, rfl, rfl⟩

/-- The same at the ideal instance, from valuations agreeing on all twelve arguments and on E. -/
theorem tail_agree (VK : Valuation Cert.KernelIdeal.τ Cert.KernelIdeal.sig (Elt Ideal)) (VR : Valuation Cert.ReferenceIdeal.τ Cert.ReferenceIdeal.sig (Elt Ideal))
    (h0 : VK (Proc.devRef .tc Cert.KernelIdeal.main_arg0) = VR (Proc.devRef .tc Cert.ReferenceIdeal.main_arg0)) (h1 : VK (Proc.devRef .tc Cert.KernelIdeal.main_arg1) = VR (Proc.devRef .tc Cert.ReferenceIdeal.main_arg1)) (h2 : VK (Proc.devRef .tc Cert.KernelIdeal.main_arg2) = VR (Proc.devRef .tc Cert.ReferenceIdeal.main_arg2)) (h3 : VK (Proc.devRef .tc Cert.KernelIdeal.main_arg3) = VR (Proc.devRef .tc Cert.ReferenceIdeal.main_arg3)) (h4 : VK (Proc.devRef .tc Cert.KernelIdeal.main_arg4) = VR (Proc.devRef .tc Cert.ReferenceIdeal.main_arg4)) (h5 : VK (Proc.devRef .tc Cert.KernelIdeal.main_arg5) = VR (Proc.devRef .tc Cert.ReferenceIdeal.main_arg5)) (h6 : VK (Proc.devRef .tc Cert.KernelIdeal.main_arg6) = VR (Proc.devRef .tc Cert.ReferenceIdeal.main_arg6)) (h7 : VK (Proc.devRef .tc Cert.KernelIdeal.main_arg7) = VR (Proc.devRef .tc Cert.ReferenceIdeal.main_arg7)) (h8 : VK (Proc.devRef .tc Cert.KernelIdeal.main_arg8) = VR (Proc.devRef .tc Cert.ReferenceIdeal.main_arg8)) (h9 : VK (Proc.devRef .tc Cert.KernelIdeal.main_arg9) = VR (Proc.devRef .tc Cert.ReferenceIdeal.main_arg9)) (h10 : VK (Proc.devRef .tc Cert.KernelIdeal.main_arg10) = VR (Proc.devRef .tc Cert.ReferenceIdeal.main_arg10)) (h11 : VK (Proc.devRef .tc Cert.KernelIdeal.main_arg11) = VR (Proc.devRef .tc Cert.ReferenceIdeal.main_arg11))
    (hE : VK (Proc.devRef .tc Cert.KernelIdeal.main_v27) = VR (Proc.devRef .tc Cert.ReferenceIdeal.main_v29)) :
    StableHlo.after (Cert.KernelIdeal.Gen.hostOps1 ++ Cert.KernelIdeal.Gen.hostOps1_1 ++ Cert.KernelIdeal.Gen.hostOps1_2 ++ Cert.KernelIdeal.Gen.hostOps1_3 ++ Cert.KernelIdeal.Gen.hostOps1_4 ++ Cert.KernelIdeal.Gen.hostOps1_5 ++ Cert.KernelIdeal.Gen.hostOps1_6 ++ Cert.KernelIdeal.Gen.hostOps1_7 ++ Cert.KernelIdeal.Gen.hostOps1_8 ++ Cert.KernelIdeal.Gen.hostOps1_9 ++ Cert.KernelIdeal.Gen.hostOps1_10 ++ Cert.KernelIdeal.Gen.hostOps1_11 ++ Cert.KernelIdeal.Gen.hostOps1_12 ++ Cert.KernelIdeal.Gen.hostOps1_13 ++ Cert.KernelIdeal.Gen.hostOps1_14 ++ Cert.KernelIdeal.Gen.hostOps1_15 ++ Cert.KernelIdeal.Gen.hostOps1_16 : List (HloOp Cert.KernelIdeal.τ Cert.KernelIdeal.sig (Elt Ideal))) VK (Proc.devRef .tc Cert.KernelIdeal.main_v111) = StableHlo.after (Cert.ReferenceIdeal.RefRun.opsT (F := Ideal)) VR (Proc.devRef .tc Cert.ReferenceIdeal.main_v113)
    ∧ StableHlo.after (Cert.KernelIdeal.Gen.hostOps1 ++ Cert.KernelIdeal.Gen.hostOps1_1 ++ Cert.KernelIdeal.Gen.hostOps1_2 ++ Cert.KernelIdeal.Gen.hostOps1_3 ++ Cert.KernelIdeal.Gen.hostOps1_4 ++ Cert.KernelIdeal.Gen.hostOps1_5 ++ Cert.KernelIdeal.Gen.hostOps1_6 ++ Cert.KernelIdeal.Gen.hostOps1_7 ++ Cert.KernelIdeal.Gen.hostOps1_8 ++ Cert.KernelIdeal.Gen.hostOps1_9 ++ Cert.KernelIdeal.Gen.hostOps1_10 ++ Cert.KernelIdeal.Gen.hostOps1_11 ++ Cert.KernelIdeal.Gen.hostOps1_12 ++ Cert.KernelIdeal.Gen.hostOps1_13 ++ Cert.KernelIdeal.Gen.hostOps1_14 ++ Cert.KernelIdeal.Gen.hostOps1_15 ++ Cert.KernelIdeal.Gen.hostOps1_16 : List (HloOp Cert.KernelIdeal.τ Cert.KernelIdeal.sig (Elt Ideal))) VK (Proc.devRef .tc Cert.KernelIdeal.main_v114) = StableHlo.after (Cert.ReferenceIdeal.RefRun.opsT (F := Ideal)) VR (Proc.devRef .tc Cert.ReferenceIdeal.main_v116)
    ∧ StableHlo.after (Cert.KernelIdeal.Gen.hostOps1 ++ Cert.KernelIdeal.Gen.hostOps1_1 ++ Cert.KernelIdeal.Gen.hostOps1_2 ++ Cert.KernelIdeal.Gen.hostOps1_3 ++ Cert.KernelIdeal.Gen.hostOps1_4 ++ Cert.KernelIdeal.Gen.hostOps1_5 ++ Cert.KernelIdeal.Gen.hostOps1_6 ++ Cert.KernelIdeal.Gen.hostOps1_7 ++ Cert.KernelIdeal.Gen.hostOps1_8 ++ Cert.KernelIdeal.Gen.hostOps1_9 ++ Cert.KernelIdeal.Gen.hostOps1_10 ++ Cert.KernelIdeal.Gen.hostOps1_11 ++ Cert.KernelIdeal.Gen.hostOps1_12 ++ Cert.KernelIdeal.Gen.hostOps1_13 ++ Cert.KernelIdeal.Gen.hostOps1_14 ++ Cert.KernelIdeal.Gen.hostOps1_15 ++ Cert.KernelIdeal.Gen.hostOps1_16 : List (HloOp Cert.KernelIdeal.τ Cert.KernelIdeal.sig (Elt Ideal))) VK (Proc.devRef .tc Cert.KernelIdeal.main_v117) = StableHlo.after (Cert.ReferenceIdeal.RefRun.opsT (F := Ideal)) VR (Proc.devRef .tc Cert.ReferenceIdeal.main_v119)
    ∧ StableHlo.after (Cert.KernelIdeal.Gen.hostOps1 ++ Cert.KernelIdeal.Gen.hostOps1_1 ++ Cert.KernelIdeal.Gen.hostOps1_2 ++ Cert.KernelIdeal.Gen.hostOps1_3 ++ Cert.KernelIdeal.Gen.hostOps1_4 ++ Cert.KernelIdeal.Gen.hostOps1_5 ++ Cert.KernelIdeal.Gen.hostOps1_6 ++ Cert.KernelIdeal.Gen.hostOps1_7 ++ Cert.KernelIdeal.Gen.hostOps1_8 ++ Cert.KernelIdeal.Gen.hostOps1_9 ++ Cert.KernelIdeal.Gen.hostOps1_10 ++ Cert.KernelIdeal.Gen.hostOps1_11 ++ Cert.KernelIdeal.Gen.hostOps1_12 ++ Cert.KernelIdeal.Gen.hostOps1_13 ++ Cert.KernelIdeal.Gen.hostOps1_14 ++ Cert.KernelIdeal.Gen.hostOps1_15 ++ Cert.KernelIdeal.Gen.hostOps1_16 : List (HloOp Cert.KernelIdeal.τ Cert.KernelIdeal.sig (Elt Ideal))) VK (Proc.devRef .tc Cert.KernelIdeal.main_v121) = StableHlo.after (Cert.ReferenceIdeal.RefRun.opsT (F := Ideal)) VR (Proc.devRef .tc Cert.ReferenceIdeal.main_v123) :=
  tail_agree_gen (F := Ideal) VK VR h0 h2 h6 h7 h8 h9 hE

end Cert.Cross

end
-- ==== Proof.lean ====
/-
  The claims of the certificate, assembled.

  The kernel program: host lines compute the edge weights w = sigmoid(concat(v[us], e, v[vs]) · We + be); one region
  accumulates E = (A ⊙ w) Aᵀ, A the node-edge matrix, over four contraction blocks per 1024 x 1024 output block; host
  lines integrate the dynamics from E.  The reference computes E = A · diag(w) · Aᵀ on the host and runs the same
  lines after it.  On the extended reals x · 0 = 0 for every x, so the diagonal matrix collapses, entry by entry, to the
  scaling of A's columns by w, and + is commutative and associative, so the four blocks' sums are the whole sum: both E
  are the function (i, j) ↦ Σ_k (A i k · w k) · A j k.  The weights are computed by the same operations of the same
  arguments, and the lines after E are the same function of E and the arguments: the four results agree.
  Each program's arguments are written by none of its operations.
-/
import proofs.«112395_j72773925864042_1_alg».proof.Defs
import proofs.«112395_j72773925864042_1_alg».proof.Proof.Gen.Kernel
import proofs.«112395_j72773925864042_1_alg».proof.Proof.Gen.KernelIdeal
import proofs.«112395_j72773925864042_1_alg».proof.Proof.Gen.ReferenceIdeal
import proofs.«112395_j72773925864042_1_alg».proof.Proof.Gen.Pre_finite_inputs
import proofs.«112395_j72773925864042_1_alg».proof.Proof.AdjSeg
import proofs.«112395_j72773925864042_1_alg».proof.Proof.AdjSegBits
import proofs.«112395_j72773925864042_1_alg».proof.Proof.HostFrame
import proofs.«112395_j72773925864042_1_alg».proof.Proof.HostFrameBits
import proofs.«112395_j72773925864042_1_alg».proof.Proof.RefEdge
import proofs.«112395_j72773925864042_1_alg».proof.Proof.EdgeAgree
import proofs.«112395_j72773925864042_1_alg».proof.Proof.CrossWeights
import proofs.«112395_j72773925864042_1_alg».proof.Proof.CrossTail

set_option maxRecDepth 16384

noncomputable section

namespace Cert.Proof

open Idealize.ShloMosaic Idealize.ShloMosaic.TcCoe Idealize.SL.Sem

open Cert.Cross

theorem frame_k : Cert.frame_Kernel (hKernel := Cert.Kernel.Gen.facts) (hPre_finite_inputs := Cert.Pre_finite_inputs.Gen.facts) := fun m ρ _ =>
  Cert.Kernel.HostFrame.post_of_last m _ ρ (Cert.Kernel.Adj.run m ρ)

theorem frame_ki : Cert.frame_KernelIdeal (hKernelIdeal := Cert.KernelIdeal.Gen.facts) (hPre_finite_inputs := Cert.Pre_finite_inputs.Gen.facts) := fun m ρ _ =>
  Cert.KernelIdeal.HostFrame.post_of_last m _ ρ (Cert.KernelIdeal.Adj.run m ρ)

/-- The valuation the kernel program's region leaves holds each argument as launched. -/
theorem vk_arg (m : (ℓ : Loc Cert.KernelIdeal.nD Cert.KernelIdeal.τ Cert.KernelIdeal.sig) → Buf (Elt Ideal) ℓ) (c : Dev Cert.KernelIdeal.nD) (r : Ref Cert.KernelIdeal.sig .tc)
    (h0 : r ∉ Cert.KernelIdeal.HostSide.hostOps0_W) (h1 : r ∉ ([Cert.KernelIdeal.main_v27] : List (Ref Cert.KernelIdeal.sig .tc))) :
    Cert.KernelIdeal.HostSide.V2 m (Cert.KernelIdeal.Adj.outOf m) c r = m ((c.tc : Thread Cert.KernelIdeal.nD Cert.KernelIdeal.τ).loc r) :=
  (Cert.KernelIdeal.HostSide.V2_of m _ c r h1).trans ((Cert.KernelIdeal.HostSide.V1_of m c r h0).trans rfl)

/-- The four results agree. -/
theorem results_agree (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (g0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (g1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (g2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (g3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (g4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (g5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (g6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (g7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (g8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (g9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (g10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (g11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    StableHlo.after (Cert.ReferenceIdeal.RefRun.opsW ++ Cert.ReferenceIdeal.RefRun.opsE ++ Cert.ReferenceIdeal.RefRun.opsT) (StableHlo.launchContents m' c) (Proc.devRef .tc Cert.ReferenceIdeal.main_v113) = Cert.KernelIdeal.HostSide.Vlast m (Cert.KernelIdeal.Adj.outOf m) c Cert.KernelIdeal.main_v111
    ∧ StableHlo.after (Cert.ReferenceIdeal.RefRun.opsW ++ Cert.ReferenceIdeal.RefRun.opsE ++ Cert.ReferenceIdeal.RefRun.opsT) (StableHlo.launchContents m' c) (Proc.devRef .tc Cert.ReferenceIdeal.main_v116) = Cert.KernelIdeal.HostSide.Vlast m (Cert.KernelIdeal.Adj.outOf m) c Cert.KernelIdeal.main_v114
    ∧ StableHlo.after (Cert.ReferenceIdeal.RefRun.opsW ++ Cert.ReferenceIdeal.RefRun.opsE ++ Cert.ReferenceIdeal.RefRun.opsT) (StableHlo.launchContents m' c) (Proc.devRef .tc Cert.ReferenceIdeal.main_v119) = Cert.KernelIdeal.HostSide.Vlast m (Cert.KernelIdeal.Adj.outOf m) c Cert.KernelIdeal.main_v117
    ∧ StableHlo.after (Cert.ReferenceIdeal.RefRun.opsW ++ Cert.ReferenceIdeal.RefRun.opsE ++ Cert.ReferenceIdeal.RefRun.opsT) (StableHlo.launchContents m' c) (Proc.devRef .tc Cert.ReferenceIdeal.main_v123) = Cert.KernelIdeal.HostSide.Vlast m (Cert.KernelIdeal.Adj.outOf m) c Cert.KernelIdeal.main_v121 := by
  have hw := weights_agree m m' c g0 g1 g4 g5 g10 g11
  have hE : Cert.KernelIdeal.HostSide.V2 m (Cert.KernelIdeal.Adj.outOf m) c Cert.KernelIdeal.main_v27
      = StableHlo.after (Cert.ReferenceIdeal.RefRun.opsE (F := Ideal)) (StableHlo.after Cert.ReferenceIdeal.RefRun.opsW (StableHlo.launchContents m' c)) (Proc.devRef .tc Cert.ReferenceIdeal.main_v29) := by
    rw [Cert.ReferenceIdeal.RefEdge.edge_inputs, ← hw, ← Cert.KernelIdeal.Adj.out_eq m c]
    refine (Cert.Cross.edge_agree m c).trans ?_
    rw [show StableHlo.launchContents m' c (Proc.devRef .tc Cert.ReferenceIdeal.main_arg3) = m' ((c.tc : Thread Cert.ReferenceIdeal.nD Cert.ReferenceIdeal.τ).loc Cert.ReferenceIdeal.main_arg3) from rfl, g3]
  have ht := tail_agree (Cert.KernelIdeal.HostSide.V2 m (Cert.KernelIdeal.Adj.outOf m) c) (StableHlo.after Cert.ReferenceIdeal.RefRun.opsE (StableHlo.after Cert.ReferenceIdeal.RefRun.opsW (StableHlo.launchContents m' c)))
    ((vk_arg m c Cert.KernelIdeal.main_arg0 (by decide) (by decide)).trans ((Cert.ReferenceIdeal.RefEdge.stage_arg m' c Cert.ReferenceIdeal.main_arg0 (by decide)).trans g0).symm)
    ((vk_arg m c Cert.KernelIdeal.main_arg1 (by decide) (by decide)).trans ((Cert.ReferenceIdeal.RefEdge.stage_arg m' c Cert.ReferenceIdeal.main_arg1 (by decide)).trans g1).symm)
    ((vk_arg m c Cert.KernelIdeal.main_arg2 (by decide) (by decide)).trans ((Cert.ReferenceIdeal.RefEdge.stage_arg m' c Cert.ReferenceIdeal.main_arg2 (by decide)).trans g2).symm)
    ((vk_arg m c Cert.KernelIdeal.main_arg3 (by decide) (by decide)).trans ((Cert.ReferenceIdeal.RefEdge.stage_arg m' c Cert.ReferenceIdeal.main_arg3 (by decide)).trans g3).symm)
    ((vk_arg m c Cert.KernelIdeal.main_arg4 (by decide) (by decide)).trans ((Cert.ReferenceIdeal.RefEdge.stage_arg m' c Cert.ReferenceIdeal.main_arg4 (by decide)).trans g4).symm)
    ((vk_arg m c Cert.KernelIdeal.main_arg5 (by decide) (by decide)).trans ((Cert.ReferenceIdeal.RefEdge.stage_arg m' c Cert.ReferenceIdeal.main_arg5 (by decide)).trans g5).symm)
    ((vk_arg m c Cert.KernelIdeal.main_arg6 (by decide) (by decide)).trans ((Cert.ReferenceIdeal.RefEdge.stage_arg m' c Cert.ReferenceIdeal.main_arg6 (by decide)).trans g6).symm)
    ((vk_arg m c Cert.KernelIdeal.main_arg7 (by decide) (by decide)).trans ((Cert.ReferenceIdeal.RefEdge.stage_arg m' c Cert.ReferenceIdeal.main_arg7 (by decide)).trans g7).symm)
    ((vk_arg m c Cert.KernelIdeal.main_arg8 (by decide) (by decide)).trans ((Cert.ReferenceIdeal.RefEdge.stage_arg m' c Cert.ReferenceIdeal.main_arg8 (by decide)).trans g8).symm)
    ((vk_arg m c Cert.KernelIdeal.main_arg9 (by decide) (by decide)).trans ((Cert.ReferenceIdeal.RefEdge.stage_arg m' c Cert.ReferenceIdeal.main_arg9 (by decide)).trans g9).symm)
    ((vk_arg m c Cert.KernelIdeal.main_arg10 (by decide) (by decide)).trans ((Cert.ReferenceIdeal.RefEdge.stage_arg m' c Cert.ReferenceIdeal.main_arg10 (by decide)).trans g10).symm)
    ((vk_arg m c Cert.KernelIdeal.main_arg11 (by decide) (by decide)).trans ((Cert.ReferenceIdeal.RefEdge.stage_arg m' c Cert.ReferenceIdeal.main_arg11 (by decide)).trans g11).symm)
    hE
  rw [Cert.ReferenceIdeal.RefRun.after_all, Cert.KernelIdeal.HostSide.Vlast_eq]
  exact ⟨ht.1.symm, ht.2.1.symm, ht.2.2.1.symm, ht.2.2.2.symm⟩

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.HostSide.Vlast m (Cert.KernelIdeal.Adj.outOf m) c Cert.KernelIdeal.main_v111, fun c => Cert.KernelIdeal.HostSide.Vlast m (Cert.KernelIdeal.Adj.outOf m) c Cert.KernelIdeal.main_v114,
    fun c => Cert.KernelIdeal.HostSide.Vlast m (Cert.KernelIdeal.Adj.outOf m) c Cert.KernelIdeal.main_v117, fun c => Cert.KernelIdeal.HostSide.Vlast m (Cert.KernelIdeal.Adj.outOf m) c Cert.KernelIdeal.main_v121,
    Cert.KernelIdeal.HostFrame.results_of_last m _ ρ (Cert.KernelIdeal.Adj.run m ρ), ?_⟩
  refine (θ_run Cert.ReferenceIdeal.defs _ _).mono (fun r h c => ?_) (Cert.ReferenceIdeal.RefRun.run (F := Ideal) m' ρ')
  obtain ⟨g0, g1, g2, g3, g4, g5, g6, g7, g8, g9, g10, g11⟩ := hagree c
  have hres := results_agree m m' c g0 g1 g2 g3 g4 g5 g6 g7 g8 g9 g10 g11
  exact ⟨(h c _).trans hres.1, (h c _).trans hres.2.1, (h c _).trans hres.2.2.1, (h c _).trans hres.2.2.2,
    (h c _).trans (Cert.ReferenceIdeal.RefRun.arg_kept m' c Cert.ReferenceIdeal.main_arg0 (by decide)),
    (h c _).trans (Cert.ReferenceIdeal.RefRun.arg_kept m' c Cert.ReferenceIdeal.main_arg1 (by decide)),
    (h c _).trans (Cert.ReferenceIdeal.RefRun.arg_kept m' c Cert.ReferenceIdeal.main_arg2 (by decide)),
    (h c _).trans (Cert.ReferenceIdeal.RefRun.arg_kept m' c Cert.ReferenceIdeal.main_arg3 (by decide)),
    (h c _).trans (Cert.ReferenceIdeal.RefRun.arg_kept m' c Cert.ReferenceIdeal.main_arg4 (by decide)),
    (h c _).trans (Cert.ReferenceIdeal.RefRun.arg_kept m' c Cert.ReferenceIdeal.main_arg5 (by decide)),
    (h c _).trans (Cert.ReferenceIdeal.RefRun.arg_kept m' c Cert.ReferenceIdeal.main_arg6 (by decide)),
    (h c _).trans (Cert.ReferenceIdeal.RefRun.arg_kept m' c Cert.ReferenceIdeal.main_arg7 (by decide)),
    (h c _).trans (Cert.ReferenceIdeal.RefRun.arg_kept m' c Cert.ReferenceIdeal.main_arg8 (by decide)),
    (h c _).trans (Cert.ReferenceIdeal.RefRun.arg_kept m' c Cert.ReferenceIdeal.main_arg9 (by decide)),
    (h c _).trans (Cert.ReferenceIdeal.RefRun.arg_kept m' c Cert.ReferenceIdeal.main_arg10 (by decide)),
    (h c _).trans (Cert.ReferenceIdeal.RefRun.arg_kept m' c Cert.ReferenceIdeal.main_arg11 (by decide))⟩

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefRun.frame_ri, trivial, algebraic⟩

end Cert.Proof

end
